-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v54)) (v2 : (c : Dev Cert.KernelIdeal.nD) → Buf (Elt Ideal) ((c.tc : Thread Cert.KernelIdeal.nD Cert.KernelIdeal.τ).loc Cert.KernelIdeal.main_v50)) (v3 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v54) = v1 c
          ∧ r.2.mem ((c.tc : Thread Cert.KernelIdeal.nD Cert.KernelIdeal.τ).loc Cert.KernelIdeal.main_v50) = v2 c
          ∧ r.2.mem ((c.tc : Thread Cert.KernelIdeal.nD Cert.KernelIdeal.τ).loc Cert.KernelIdeal.main_v53) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_v62) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x32 : Shape := ⟨2, ![8192, 32]⟩
abbrev S8192x8192 : Shape := ⟨2, ![8192, 8192]⟩
abbrev S32x32 : Shape := ⟨2, ![32, 32]⟩
abbrev S64x32 : Shape := ⟨2, ![64, 32]⟩
abbrev S32x1 : Shape := ⟨2, ![32, 1]⟩
abbrev S_ : Shape := ⟨0, ![]⟩

class Facts : Prop where
  bcast_S_S8192x32 : S_.BroadcastsInDim S8192x32 (![] : Fin 0 → Fin S8192x32.rank)
  reducesTo_S8192x32_S_d0_1 : S8192x32.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S32x32 : S_.BroadcastsInDim S32x32 (![] : Fin 0 → Fin S32x32.rank)
  reducesTo_S32x32_S_d0_1 : S32x32.ReducesTo [0, 1] S_
  bcast_S_S64x32 : S_.BroadcastsInDim S64x32 (![] : Fin 0 → Fin S64x32.rank)
  reducesTo_S64x32_S_d0_1 : S64x32.ReducesTo [0, 1] S_
  bcast_S_S32x1 : S_.BroadcastsInDim S32x1 (![] : Fin 0 → Fin S32x1.rank)
  reducesTo_S32x1_S_d0_1 : S32x1.ReducesTo [0, 1] S_

variable [Facts]

def fn_part3 {F : FTy → Type} [FloatOps F] (main_v48 : IVec S_ 1) (main_v49 : FVec F S32x1 .f32) (main_v50 : FVec F S32x1 .f32) : IVec S_ 1 :=
  let main_v51 : IVec S32x1 1 := cmpf .olt main_v49 main_v50
  let main_c_19 : IVec S_ 1 := constantI S_ 1 1#1
  let main_v52 : IVec S_ 1 := (fun x v => Host.reduce IntOp.andi x v reducesTo_S32x1_S_d0_1 h_S_) main_v51 main_c_19
  let main_v53 : IVec S_ 1 := andi main_v48 main_v52
  main_v53

def fn_part2 {F : FTy → Type} [FloatOps F] (main_arg7 : FVec F S32x32 .f32) (main_arg8 : FVec F S32x32 .f32) (main_arg9 : FVec F S64x32 .f32) (main_arg10 : FVec F S32x1 .f32) (main_v33 : IVec S_ 1) : IVec S_ 1 :=
  let main_v34 : FVec F S32x32 .f32 := Host.absf main_arg7
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32x32 .f32 := Host.absf main_arg8
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  let main_v44 : FVec F S64x32 .f32 := Host.absf main_arg9
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S32x1 .f32 := Host.absf main_arg10
  let main_cst_18 : FVec F S_ .f32 := constant S_ .f32 0x7F800000#32
  let main_v50 : FVec F S32x1 .f32 := broadcastInDim S32x1 ![] bcast_S_S32x1 main_cst_18
  fn_part3 (F := F) main_v48 main_v49 main_v50

def fn_part1 {F : FTy → Type} [FloatOps F] (main_arg4 : FVec F S8192x8192 .f32) (main_arg5 : FVec F S32x32 .f32) (main_arg6 : FVec F S32x32 .f32) (main_arg7 : FVec F S32x32 .f32) (main_arg8 : FVec F S32x32 .f32) (main_arg9 : FVec F S64x32 .f32) (main_arg10 : FVec F S32x1 .f32) (main_v13 : IVec S_ 1) (main_v16 : IVec S8192x8192 1) : IVec S_ 1 :=
  let main_c_5 : IVec S_ 1 := constantI S_ 1 1#1
  let main_v17 : IVec S_ 1 := (fun x v => Host.reduce IntOp.andi x v reducesTo_S8192x8192_S_d0_1 h_S_) main_v16 main_c_5
  let main_v18 : IVec S_ 1 := andi main_v13 main_v17
  let main_v19 : FVec F S8192x8192 .f32 := Host.absf main_arg4
  let main_cst_6 : FVec F S_ .f32 := constant S_ .f32 0x7F800000#32
  let main_v20 : FVec F S8192x8192 .f32 := broadcastInDim S8192x8192 ![] bcast_S_S8192x8192 main_cst_6
  let main_v21 : IVec S8192x8192 1 := cmpf .olt main_v19 main_v20
  let main_c_7 : IVec S_ 1 := constantI S_ 1 1#1
  let main_v22 : IVec S_ 1 := (fun x v => Host.reduce IntOp.andi x v reducesTo_S8192x8192_S_d0_1 h_S_) main_v21 main_c_7
  let main_v23 : IVec S_ 1 := andi main_v18 main_v22
  let main_v24 : FVec F S32x32 .f32 := Host.absf main_arg5
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32x32 .f32 := Host.absf main_arg6
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x32 .f32) (main_arg1 : FVec F S8192x32 .f32) (main_arg2 : FVec F S8192x8192 .f32) (main_arg3 : FVec F S8192x8192 .f32) (main_arg4 : FVec F S8192x8192 .f32) (main_arg5 : FVec F S32x32 .f32) (main_arg6 : FVec F S32x32 .f32) (main_arg7 : FVec F S32x32 .f32) (main_arg8 : FVec F S32x32 .f32) (main_arg9 : FVec F S64x32 .f32) (main_arg10 : FVec F S32x1 .f32) : IVec S_ 1 :=
  let main_v0 : FVec F S8192x32 .f32 := Host.absf main_arg0
  let main_cst : FVec F S_ .f32 := constant S_ .f32 0x7F800000#32
  let main_v1 : FVec F S8192x32 .f32 := broadcastInDim S8192x32 ![] bcast_S_S8192x32 main_cst
  let main_v2 : IVec S8192x32 1 := cmpf .olt main_v0 main_v1
  let main_c : IVec S_ 1 := constantI S_ 1 1#1
  let main_v3 : IVec S_ 1 := (fun x v => Host.reduce IntOp.andi x v reducesTo_S8192x32_S_d0_1 h_S_) main_v2 main_c
  let main_v4 : FVec F S8192x32 .f32 := Host.absf main_arg1
  let main_cst_0 : FVec F S_ .f32 := constant S_ .f32 0x7F800000#32
  let main_v5 : FVec F S8192x32 .f32 := broadcastInDim S8192x32 ![] bcast_S_S8192x32 main_cst_0
  let main_v6 : IVec S8192x32 1 := cmpf .olt main_v4 main_v5
  let main_c_1 : IVec S_ 1 := constantI S_ 1 1#1
  let main_v7 : IVec S_ 1 := (fun x v => Host.reduce IntOp.andi x v reducesTo_S8192x32_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S8192x8192 .f32 := Host.absf main_arg3
  let main_cst_4 : FVec F S_ .f32 := constant S_ .f32 0x7F800000#32
  let main_v15 : FVec F S8192x8192 .f32 := broadcastInDim S8192x8192 ![] bcast_S_S8192x8192 main_cst_4
  let main_v16 : IVec S8192x8192 1 := cmpf .olt main_v14 main_v15
  fn_part1 (F := F) main_arg4 main_arg5 main_arg6 main_arg7 main_arg8 main_arg9 main_arg10 main_v13 main_v16
-- ==== Kernel.lean ====
abbrev S8192x32 : Shape := ⟨2, ![8192, 32]⟩
abbrev S8192x8192 : Shape := ⟨2, ![8192, 8192]⟩
abbrev S32x32 : Shape := ⟨2, ![32, 32]⟩
abbrev S64x32 : Shape := ⟨2, ![64, 32]⟩
abbrev S32x1 : Shape := ⟨2, ![32, 1]⟩
abbrev S8192x1 : Shape := ⟨2, ![8192, 1]⟩
abbrev S1024x2048 : Shape := ⟨2, ![1024, 2048]⟩
abbrev S1024x1 : Shape := ⟨2, ![1024, 1]⟩
abbrev S1024 : Shape := ⟨1, ![1024]⟩
abbrev S_ : Shape := ⟨0, ![]⟩
abbrev S2048x32 : Shape := ⟨2, ![2048, 32]⟩
abbrev S1024x32 : Shape := ⟨2, ![1024, 32]⟩
abbrev S8x8x8192 : Shape := ⟨3, ![8, 8, 8192]⟩
abbrev S1x8x2048 : Shape := ⟨3, ![1, 8, 2048]⟩
abbrev S2048 : Shape := ⟨1, ![2048]⟩
abbrev S1x2048 : Shape := ⟨2, ![1, 2048]⟩
abbrev S8x2048 : Shape := ⟨2, ![8, 2048]⟩
abbrev S8x1x8192 : Shape := ⟨3, ![8, 1, 8192]⟩
abbrev S8x8192 : Shape := ⟨2, ![8, 8192]⟩
abbrev S8192 : Shape := ⟨1, ![8192]⟩
abbrev S8192x64 : Shape := ⟨2, ![8192, 64]⟩
abbrev S8192x2 : Shape := ⟨2, ![8192, 2]⟩

abbrev nBuf : Space → Nat
  | .hbm => 77
  | .vmem => 41
  | .smem => 0
  | _ => 0

abbrev bufTy : (tb : Table) → Fin (tcTables nBuf tb) → BufTy
  | .hbm, ⟨0, _⟩ => ⟨S8192x32, .f32⟩
  | .hbm, ⟨1, _⟩ => ⟨S8192x32, .f32⟩
  | .hbm, ⟨2, _⟩ => ⟨S8192x8192, .f32⟩
  | .hbm, ⟨3, _⟩ => ⟨S8192x8192, .f32⟩
  | .hbm, ⟨4, _⟩ => ⟨S8192x8192, .f32⟩
  | .hbm, ⟨5, _⟩ => ⟨S32x32, .f32⟩
  | .hbm, ⟨6, _⟩ => ⟨S32x32, .f32⟩
  | .hbm, ⟨7, _⟩ => ⟨S32x32, .f32⟩
  | .hbm, ⟨8, _⟩ => ⟨S32x32, .f32⟩
  | .hbm, ⟨9, _⟩ => ⟨S64x32, .f32⟩
  | .hbm, ⟨10, _⟩ => ⟨S32x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x32, .f32⟩
  | .hbm, ⟨17, _⟩ => ⟨S8192x32, .f32⟩
  | .hbm, ⟨18, _⟩ => ⟨S8192x32, .f32⟩
  | .hbm, ⟨19, _⟩ => ⟨S8192x32, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x32, .f32⟩
  | .hbm, ⟨26, _⟩ => ⟨S8192x32, .f32⟩
  | .hbm, ⟨27, _⟩ => ⟨S8192x32, .f32⟩
  | .hbm, ⟨28, _⟩ => ⟨S8192x32, .f32⟩
  | .hbm, ⟨29, _⟩ => ⟨S8192x1, .f32⟩
  | .hbm, ⟨30, _⟩ => ⟨S8x8x8192, .f32⟩
  | .hbm, ⟨31, _⟩ => ⟨S8x1x8192, .f32⟩
  | .hbm, ⟨32, _⟩ => ⟨S8x8192, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192, .f32⟩
  | .hbm, ⟨37, _⟩ => ⟨S8192x1, .f32⟩
  | .hbm, ⟨38, _⟩ => ⟨S8192x32, .f32⟩
  | .hbm, ⟨39, _⟩ => ⟨S8192x32, .f32⟩
  | .hbm, ⟨40, _⟩ => ⟨S8192x32, .f32⟩
  | .hbm, ⟨41, _⟩ => ⟨S8192x32, .f32⟩
  | .hbm, ⟨42, _⟩ => ⟨S8192x32, .f32⟩
  | .hbm, ⟨43, _⟩ => ⟨S8192x64, .f32⟩
  | .hbm, ⟨44, _⟩ => ⟨S8192x32, .f32⟩
  | .hbm, ⟨45, _⟩ => ⟨S_, .f32⟩
  | .hbm, ⟨46, _⟩ => ⟨S8192x32, .f32⟩
  | .hbm, ⟨47, _⟩ => ⟨S8192x32, .f32⟩
  | .hbm, ⟨48, _⟩ => ⟨S8192x1, .f32⟩
  | .hbm, ⟨49, _⟩ => ⟨S8192x64, .f32⟩
  | .hbm, ⟨50, _⟩ => ⟨S8192x32, .f32⟩
  | .hbm, ⟨51, _⟩ => ⟨S_, .f32⟩
  | .hbm, ⟨52, _⟩ => ⟨S8192x32, .f32⟩
  | .hbm, ⟨53, _⟩ => ⟨S8192x32, .f32⟩
  | .hbm, ⟨54, _⟩ => ⟨S8192x1, .f32⟩
  | .hbm, ⟨55, _⟩ => ⟨S8192x2, .f32⟩
  | .hbm, ⟨56, _⟩ => ⟨S_, .f32⟩
  | .hbm, ⟨57, _⟩ => ⟨S8192, .f32⟩
  | .hbm, ⟨58, _⟩ => ⟨S_, .f32⟩
  | .hbm, ⟨59, _⟩ => ⟨S8192, .f32⟩
  | .hbm, ⟨60, _⟩ => ⟨S8192, .f32⟩
  | .hbm, ⟨61, _⟩ => ⟨S8192x1, .f32⟩
  | .hbm, ⟨62, _⟩ => ⟨S8192x2, .f32⟩
  | .hbm, ⟨63, _⟩ => ⟨S8192x2, .f32⟩
  | .hbm, ⟨64, _⟩ => ⟨S8192x2, .f32⟩
  | .hbm, ⟨65, _⟩ => ⟨S_, .f32⟩
  | .hbm, ⟨66, _⟩ => ⟨S8192, .f32⟩
  | .hbm, ⟨67, _⟩ => ⟨S8192x1, .f32⟩
  | .hbm, ⟨68, _⟩ => ⟨S8192x2, .f32⟩
  | .hbm, ⟨69, _⟩ => ⟨S8192x2, .f32⟩
  | .hbm, ⟨70, _⟩ => ⟨S8192x1, .f32⟩
  | .hbm, ⟨71, _⟩ => ⟨S8192x32, .f32⟩
  | .hbm, ⟨72, _⟩ => ⟨S8192x32, .f32⟩
  | .hbm, ⟨73, _⟩ => ⟨S8192x1, .f32⟩
  | .hbm, ⟨74, _⟩ => ⟨S8192x32, .f32⟩
  | .hbm, ⟨75, _⟩ => ⟨S8192x32, .f32⟩
  | .hbm, ⟨76, _⟩ => ⟨S8192x32, .f32⟩
  | .local _ .vmem, ⟨0, _⟩ => ⟨S1024x2048, .f32⟩
  | .local _ .vmem, ⟨1, _⟩ => ⟨S1024x2048, .f32⟩
  | .local _ .vmem, ⟨2, _⟩ => ⟨S1024x1, .f32⟩
  | .local _ .vmem, ⟨3, _⟩ => ⟨S1024x1, .f32⟩
  | .local _ .vmem, ⟨4, _⟩ => ⟨S1024x2048, .f32⟩
  | .local _ .vmem, ⟨5, _⟩ => ⟨S1024x2048, .f32⟩
  | .local _ .vmem, ⟨6, _⟩ => ⟨S2048x32, .f32⟩
  | .local _ .vmem, ⟨7, _⟩ => ⟨S2048x32, .f32⟩
  | .local _ .vmem, ⟨8, _⟩ => ⟨S1024x1, .f32⟩
  | .local _ .vmem, ⟨9, _⟩ => ⟨S1024x1, .f32⟩
  | .local _ .vmem, ⟨10, _⟩ => ⟨S1024x32, .f32⟩
  | .local _ .vmem, ⟨11, _⟩ => ⟨S1024x32, .f32⟩
  | .local _ .vmem, ⟨12, _⟩ => ⟨S1024x32, .f32⟩
  | .local _ .vmem, ⟨13, _⟩ => ⟨S1024x2048, .f32⟩
  | .local _ .vmem, ⟨14, _⟩ => ⟨S1024x2048, .f32⟩
  | .local _ .vmem, ⟨15, _⟩ => ⟨S1024x1, .f32⟩
  | .local _ .vmem, ⟨16, _⟩ => ⟨S1024x1, .f32⟩
  | .local _ .vmem, ⟨17, _⟩ => ⟨S1024x2048, .f32⟩
  | .local _ .vmem, ⟨18, _⟩ => ⟨S1024x2048, .f32⟩
  | .local _ .vmem, ⟨19, _⟩ => ⟨S2048x32, .f32⟩
  | .local _ .vmem, ⟨20, _⟩ => ⟨S2048x32, .f32⟩
  | .local _ .vmem, ⟨21, _⟩ => ⟨S1024x1, .f32⟩
  | .local _ .vmem, ⟨22, _⟩ => ⟨S1024x1, .f32⟩
  | .local _ .vmem, ⟨23, _⟩ => ⟨S1024x32, .f32⟩
  | .local _ .vmem, ⟨24, _⟩ => ⟨S1024x32, .f32⟩
  | .local _ .vmem, ⟨25, _⟩ => ⟨S1024x32, .f32⟩
  | .local _ .vmem, ⟨26, _⟩ => ⟨S1024x2048, .f32⟩
  | .local _ .vmem, ⟨27, _⟩ => ⟨S1024x2048, .f32⟩
  | .local _ .vmem, ⟨28, _⟩ => ⟨S1024x1, .f32⟩
  | .local _ .vmem, ⟨29, _⟩ => ⟨S1024x1, .f32⟩
  | .local _ .vmem, ⟨30, _⟩ => ⟨S1x8x2048, .f32⟩
  | .local _ .vmem, ⟨31, _⟩ => ⟨S1x8x2048, .f32⟩
  | .local _ .vmem, ⟨32, _⟩ => ⟨S1024x2048, .f32⟩
  | .local _ .vmem, ⟨33, _⟩ => ⟨S1024x2048, .f32⟩
  | .local _ .vmem, ⟨34, _⟩ => ⟨S2048x32, .f32⟩
  | .local _ .vmem, ⟨35, _⟩ => ⟨S2048x32, .f32⟩
  | .local _ .vmem, ⟨36, _⟩ => ⟨S1024x1, .f32⟩
  | .local _ .vmem, ⟨37, _⟩ => ⟨S1024x1, .f32⟩
  | .local _ .vmem, ⟨38, _⟩ => ⟨S1024x32, .f32⟩
  | .local _ .vmem, ⟨39, _⟩ => ⟨S1024x32, .f32⟩
  | .local _ .vmem, ⟨40, _⟩ => ⟨S1024x32, .f32⟩
  | _, _ => ⟨S8192x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16_0 : Ref sig .tc := ⟨.hbm, 29, rfl⟩
abbrev main_v16_1 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_call0_cst : Ref sig .tc := ⟨.hbm, 45, rfl⟩
abbrev main_call0_v0 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_call1_cst : Ref sig .tc := ⟨.hbm, 51, rfl⟩
abbrev main_call1_v0 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_2 : Ref sig .tc := ⟨.hbm, 56, rfl⟩
abbrev main_v37 : Ref sig .tc := ⟨.hbm, 57, rfl⟩
abbrev main_cst_3 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_4 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc3_stg3_0 : Ref sig .tc := ⟨.vmem, 23, rfl⟩
abbrev cc3_stg3_1 : Ref sig .tc := ⟨.vmem, 24, rfl⟩
abbrev cc3_scratch0 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg1_1 : Ref sig .tc := ⟨.vmem, 35, rfl⟩
abbrev cc5_stg2_0 : Ref sig .tc := ⟨.vmem, 36, rfl⟩
abbrev cc5_stg2_1 : Ref sig .tc := ⟨.vmem, 37, rfl⟩
abbrev cc5_stg3_0 : Ref sig .tc := ⟨.vmem, 38, rfl⟩
abbrev cc5_stg3_1 : Ref sig .tc := ⟨.vmem, 39, rfl⟩
abbrev cc5_scratch0 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35
abbrev cc5_sem3_0 : DmaSem sig := 36
abbrev cc5_sem3_1 : DmaSem sig := 37

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![8, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev grid3 : Pipeline.Grid := ⟨2, ![8, 4], ![false, false]⟩

def k3_cond2 (i : grid3.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2048x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1024x32 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨2, ![8, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage4_0 : Fin 2 → Memref sig .tc .vmem S1024x2048 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1024x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1x8x2048 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![8, 4], ![false, false]⟩

def k5_cond2 (i : grid5.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S1024x2048 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S2048x32 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev stage5_3 : Fin 2 → Memref sig .tc .vmem S1024x32 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  reduces_S1024x2048_S1024 : S1024x2048.Reduces [1] S1024
  shapeCasts_S1024_S1024x1 : S1024.ShapeCasts S1024x1
  bcast_S_S8192x1 : S_.BroadcastsInDim S8192x1 (![] : Fin 0 → Fin S8192x1.rank)
  bcast_S8192x1_S8192x32_0_1 : S8192x1.BroadcastsInDim S8192x32 (![0, 1] : Fin 2 → Fin S8192x32.rank)
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  bitsLt_bf16_f32 : FTy.bits .bf16 < FTy.bits .f32
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  broadcasts_S1024x1_S1024x32 : S1024x1.Broadcasts S1024x32
  reduces_S1024x2048_S2048 : S1024x2048.Reduces [0] S2048
  shapeCasts_S2048_S1x2048 : S2048.ShapeCasts S1x2048
  shapeCasts_S1x2048_S1x2048 : S1x2048.ShapeCasts S1x2048
  broadcasts_S1x2048_S8x2048 : S1x2048.Broadcasts S8x2048
  inb_S1x8x2048_S1x8x2048_0_0_0 : ∀ a, (![0, 0, 0] : Fin 3 → Nat) a + S1x8x2048.size a ≤ S1x8x2048.size a
  h_S1x8x2048 : 0 < S1x8x2048.numel
  shapeCasts_S1x8x2048_S8x2048 : S1x8x2048.ShapeCasts S8x2048
  shapeCasts_S8x2048_S1x8x2048 : S8x2048.ShapeCasts S1x8x2048
  slices_S8x8x8192_S8x1x8192_0_0_0 : S8x8x8192.Slices ![0, 0, 0] S8x1x8192
  shapeCasts_S8x1x8192_S8x8192 : S8x1x8192.ShapeCasts S8x8192
  reducesTo_S8x8192_S8192_d0 : S8x8192.ReducesTo [0] S8192
  h_S_ : 0 < S_.numel
  shapeCasts_S8192_S8192x1 : S8192.ShapeCasts S8192x1
  concatenates_S8192x32_S8192x32_S8192x64_d1 : Shape.Concatenates [S8192x32, S8192x32] S8192x64 1
  bcast_S_S8192x32 : S_.BroadcastsInDim S8192x32 (![] : Fin 0 → Fin S8192x32.rank)
  concatenates_S8192x1_S8192x1_S8192x2_d1 : Shape.Concatenates [S8192x1, S8192x1] S8192x2 1
  reducesTo_S8192x2_S8192_d1 : S8192x2.ReducesTo [1] S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x2_0_1 : S8192x1.BroadcastsInDim S8192x2 (![0, 1] : Fin 2 → Fin S8192x2.rank)
  slices_S8192x2_S8192x1_0_0 : S8192x2.Slices ![0, 0] S8192x1
  slices_S8192x2_S8192x1_0_1 : S8192x2.Slices ![0, 1] S8192x1
  dot_S8192x32_S32x32_S8192x32_1_0_0_1_n_n_wf : DotDims.WF S8192x32 S32x32 S8192x32 [1] [0] [0] [1] [] []
  dot_S1024x2048_S2048x32_S1024x32_1_0_0_1_n_n_wf : DotDims.WF S1024x2048 S2048x32 S1024x32 [1] [0] [0] [1] [] []
  dot_S8192x64_S64x32_S8192x32_1_0_0_1_n_n_wf : DotDims.WF S8192x64 S64x32 S8192x32 [1] [0] [0] [1] [] []
  dot_S8192x32_S32x1_S8192x1_1_0_0_1_n_n_wf : DotDims.WF S8192x32 S32x1 S8192x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .f32 = 32 ∨ (Rect.block (s := S8192x8192) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S8192x1.size a
  hwx0_1 : ∀ i : grid0.Coords, EltTy.bits .f32 = 32 ∨ (Rect.block (s := S8192x1) S1024x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .f32 = 32 ∨ (Rect.block (s := S8192x8192) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x32.size a ≤ S8192x32.size a
  hwx1_1 : ∀ i : grid1.Coords, EltTy.bits .f32 = 32 ∨ (Rect.block (s := S8192x32) S2048x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x32.size a ≤ S8192x32.size a
  hwx1_3 : ∀ i : grid1.Coords, EltTy.bits .f32 = 32 ∨ (Rect.block (s := S8192x32) S1024x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S8192x8192.size a
  hwx2_0 : ∀ i : grid2.Coords, EltTy.bits .f32 = 32 ∨ (Rect.block (s := S8192x8192) S1024x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1.size a ≤ S8192x1.size a
  hwx2_1 : ∀ i : grid2.Coords, EltTy.bits .f32 = 32 ∨ (Rect.block (s := S8192x1) S1024x1.size (cc2_transform_1 i) (hinb2_1 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x2048.size a ≤ S8192x8192.size a
  hwx3_0 : ∀ i : grid3.Coords, EltTy.bits .f32 = 32 ∨ (Rect.block (s := S8192x8192) S1024x2048.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x32.size a ≤ S8192x32.size a
  hwx3_1 : ∀ i : grid3.Coords, EltTy.bits .f32 = 32 ∨ (Rect.block (s := S8192x32) S2048x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x1.size a ≤ S8192x1.size a
  hwx3_2 : ∀ i : grid3.Coords, EltTy.bits .f32 = 32 ∨ (Rect.block (s := S8192x1) S1024x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x32.size a ≤ S8192x32.size a
  hwx3_3 : ∀ i : grid3.Coords, EltTy.bits .f32 = 32 ∨ (Rect.block (s := S8192x32) S1024x32.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x2048.size a ≤ S8192x8192.size a
  hwx4_0 : ∀ i : grid4.Coords, EltTy.bits .f32 = 32 ∨ (Rect.block (s := S8192x8192) S1024x2048.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x1.size a ≤ S8192x1.size a
  hwx4_1 : ∀ i : grid4.Coords, EltTy.bits .f32 = 32 ∨ (Rect.block (s := S8192x1) S1024x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x8x2048.size a ≤ S8x8x8192.size a
  hwx4_2 : ∀ i : grid4.Coords, EltTy.bits .f32 = 32 ∨ (Rect.block (s := S8x8x8192) S1x8x2048.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x2048.size a ≤ S8192x8192.size a
  hwx5_0 : ∀ i : grid5.Coords, EltTy.bits .f32 = 32 ∨ (Rect.block (s := S8192x8192) S1024x2048.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x32.size a ≤ S8192x32.size a
  hwx5_1 : ∀ i : grid5.Coords, EltTy.bits .f32 = 32 ∨ (Rect.block (s := S8192x32) S2048x32.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1024x1.size a ≤ S8192x1.size a
  hwx5_2 : ∀ i : grid5.Coords, EltTy.bits .f32 = 32 ∨ (Rect.block (s := S8192x1) S1024x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1024x32.size a ≤ S8192x32.size a
  hwx5_3 : ∀ i : grid5.Coords, EltTy.bits .f32 = 32 ∨ (Rect.block (s := S8192x32) S1024x32.size (cc5_transform_3 i) (hinb5_3 i)).WholeWords (EltTy.packing .f32)

variable [Facts₀]

def dot_S8192x32_S32x32_S8192x32_1_0_0_1_n_n : DotDims S8192x32 S32x32 S8192x32 where
  lhsContracting := [1]
  rhsContracting := [0]
  lhsNonContracting := [0]
  rhsNonContracting := [1]
  lhsBatch := []
  rhsBatch := []
  wf := dot_S8192x32_S32x32_S8192x32_1_0_0_1_n_n_wf
def dot_S1024x2048_S2048x32_S1024x32_1_0_0_1_n_n : DotDims S1024x2048 S2048x32 S1024x32 where
  lhsContracting := [1]
  rhsContracting := [0]
  lhsNonContracting := [0]
  rhsNonContracting := [1]
  lhsBatch := []
  rhsBatch := []
  wf := dot_S1024x2048_S2048x32_S1024x32_1_0_0_1_n_n_wf
def dot_S8192x64_S64x32_S8192x32_1_0_0_1_n_n : DotDims S8192x64 S64x32 S8192x32 where
  lhsContracting := [1]
  rhsContracting := [0]
  lhsNonContracting := [0]
  rhsNonContracting := [1]
  lhsBatch := []
  rhsBatch := []
  wf := dot_S8192x64_S64x32_S8192x32_1_0_0_1_n_n_wf
def dot_S8192x32_S32x1_S8192x1_1_0_0_1_n_n : DotDims S8192x32 S32x1 S8192x1 where
  lhsContracting := [1]
  rhsContracting := [0]
  lhsNonContracting := [0]
  rhsNonContracting := [1]
  lhsBatch := []
  rhsBatch := []
  wf := dot_S8192x32_S32x1_S8192x1_1_0_0_1_n_n_wf

abbrev win0_0 : Pipeline.Window sig grid0 :=
  Pipeline.Window.ofSpec (Memref.whole main_arg2) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg2) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S2048x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1024x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_arg4) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S1024x1.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_arg4) S1024x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S2048x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S1024x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v15) S1024x32.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_arg3) S1024x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v16_0) S1024x1.size cc4_transform_1 reads4_1 true false 2 stage4_1 sem4_1
    hrank4 hreads4_1 hinb4_1 nbuf4_1 (Memref.isWhole_whole _) hwx4_1 hstage4_1

abbrev win4_2 : Pipeline.Window sig grid4 :=
  Pipeline.Window.ofSpec (Memref.whole main_v16_1) S1x8x2048.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_arg3) S1024x2048.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v26) S2048x32.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v20) S1024x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v27) S1024x32.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

class Facts : Prop extends Facts₀ where

variable [Facts]
-- ==== ReferenceIdeal.lean ====
abbrev S8192x32 : Shape := ⟨2, ![8192, 32]⟩
abbrev S8192x8192 : Shape := ⟨2, ![8192, 8192]⟩
abbrev S32x32 : Shape := ⟨2, ![32, 32]⟩
abbrev S64x32 : Shape := ⟨2, ![64, 32]⟩
abbrev S32x1 : Shape := ⟨2, ![32, 1]⟩
abbrev S_ : Shape := ⟨0, ![]⟩
abbrev S8192 : Shape := ⟨1, ![8192]⟩
abbrev S8192x1 : Shape := ⟨2, ![8192, 1]⟩
abbrev S8192x64 : Shape := ⟨2, ![8192, 64]⟩
abbrev S8192x2 : Shape := ⟨2, ![8192, 2]⟩

abbrev nBuf : Space → Nat
  | .hbm => 88
  | .vmem => 0
  | .smem => 0
  | _ => 0

abbrev bufTy : (tb : Table) → Fin (tcTables nBuf tb) → BufTy
  | .hbm, ⟨0, _⟩ => ⟨S8192x32, .f32⟩
  | .hbm, ⟨1, _⟩ => ⟨S8192x32, .f32⟩
  | .hbm, ⟨2, _⟩ => ⟨S8192x8192, .f32⟩
  | .hbm, ⟨3, _⟩ => ⟨S8192x8192, .f32⟩
  | .hbm, ⟨4, _⟩ => ⟨S8192x8192, .f32⟩
  | .hbm, ⟨5, _⟩ => ⟨S32x32, .f32⟩
  | .hbm, ⟨6, _⟩ => ⟨S32x32, .f32⟩
  | .hbm, ⟨7, _⟩ => ⟨S32x32, .f32⟩
  | .hbm, ⟨8, _⟩ => ⟨S32x32, .f32⟩
  | .hbm, ⟨9, _⟩ => ⟨S64x32, .f32⟩
  | .hbm, ⟨10, _⟩ => ⟨S32x1, .f32⟩
  | .hbm, ⟨11, _⟩ => ⟨S_, .f32⟩
  | .hbm, ⟨12, _⟩ => ⟨S8192, .f32⟩
  | .hbm, ⟨13, _⟩ => ⟨S_, .f32⟩
  | .hbm, ⟨14, _⟩ => ⟨S8192, .f32⟩
  | .hbm, ⟨15, _⟩ => ⟨S8192, .f32⟩
  | .hbm, ⟨16, _⟩ => ⟨S8192, .f32⟩
  | .hbm, ⟨17, _⟩ => ⟨S8192x32, .f32⟩
  | .hbm, ⟨18, _⟩ => ⟨S8192x1, .f32⟩
  | .hbm, ⟨19, _⟩ => ⟨S8192x1, .f32⟩
  | .hbm, ⟨20, _⟩ => ⟨S8192x32, .f32⟩
  | .hbm, ⟨21, _⟩ => ⟨S8192x32, .f32⟩
  | .hbm, ⟨22, _⟩ => ⟨S8192x32, .f32⟩
  | .hbm, ⟨23, _⟩ => ⟨S8192x32, .f32⟩
  | .hbm, ⟨24, _⟩ => ⟨S8192x32, .f32⟩
  | .hbm, ⟨25, _⟩ => ⟨S_, .f32⟩
  | .hbm, ⟨26, _⟩ => ⟨S8192, .f32⟩
  | .hbm, ⟨27, _⟩ => ⟨S_, .f32⟩
  | .hbm, ⟨28, _⟩ => ⟨S8192, .f32⟩
  | .hbm, ⟨29, _⟩ => ⟨S8192, .f32⟩
  | .hbm, ⟨30, _⟩ => ⟨S8192, .f32⟩
  | .hbm, ⟨31, _⟩ => ⟨S8192x32, .f32⟩
  | .hbm, ⟨32, _⟩ => ⟨S8192x1, .f32⟩
  | .hbm, ⟨33, _⟩ => ⟨S8192x1, .f32⟩
  | .hbm, ⟨34, _⟩ => ⟨S8192x32, .f32⟩
  | .hbm, ⟨35, _⟩ => ⟨S8192x32, .f32⟩
  | .hbm, ⟨36, _⟩ => ⟨S8192x32, .f32⟩
  | .hbm, ⟨37, _⟩ => ⟨S8192x32, .f32⟩
  | .hbm, ⟨38, _⟩ => ⟨S8192x32, .f32⟩
  | .hbm, ⟨39, _⟩ => ⟨S_, .f32⟩
  | .hbm, ⟨40, _⟩ => ⟨S8192, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S8192x32, .f32⟩
  | .hbm, ⟨46, _⟩ => ⟨S8192x32, .f32⟩
  | .hbm, ⟨47, _⟩ => ⟨S8192x1, .f32⟩
  | .hbm, ⟨48, _⟩ => ⟨S8192x1, .f32⟩
  | .hbm, ⟨49, _⟩ => ⟨S8192x32, .f32⟩
  | .hbm, ⟨50, _⟩ => ⟨S8192x32, .f32⟩
  | .hbm, ⟨51, _⟩ => ⟨S8192x32, .f32⟩
  | .hbm, ⟨52, _⟩ => ⟨S8192x32, .f32⟩
  | .hbm, ⟨53, _⟩ => ⟨S8192x32, .f32⟩
  | .hbm, ⟨54, _⟩ => ⟨S8192x64, .f32⟩
  | .hbm, ⟨55, _⟩ => ⟨S8192x32, .f32⟩
  | .hbm, ⟨56, _⟩ => ⟨S_, .f32⟩
  | .hbm, ⟨57, _⟩ => ⟨S8192x32, .f32⟩
  | .hbm, ⟨58, _⟩ => ⟨S8192x32, .f32⟩
  | .hbm, ⟨59, _⟩ => ⟨S8192x1, .f32⟩
  | .hbm, ⟨60, _⟩ => ⟨S8192x64, .f32⟩
  | .hbm, ⟨61, _⟩ => ⟨S8192x32, .f32⟩
  | .hbm, ⟨62, _⟩ => ⟨S_, .f32⟩
  | .hbm, ⟨63, _⟩ => ⟨S8192x32, .f32⟩
  | .hbm, ⟨64, _⟩ => ⟨S8192x32, .f32⟩
  | .hbm, ⟨65, _⟩ => ⟨S8192x1, .f32⟩
  | .hbm, ⟨66, _⟩ => ⟨S8192x2, .f32⟩
  | .hbm, ⟨67, _⟩ => ⟨S_, .f32⟩
  | .hbm, ⟨68, _⟩ => ⟨S8192, .f32⟩
  | .hbm, ⟨69, _⟩ => ⟨S_, .f32⟩
  | .hbm, ⟨70, _⟩ => ⟨S8192, .f32⟩
  | .hbm, ⟨71, _⟩ => ⟨S8192, .f32⟩
  | .hbm, ⟨72, _⟩ => ⟨S8192x1, .f32⟩
  | .hbm, ⟨73, _⟩ => ⟨S8192x2, .f32⟩
  | .hbm, ⟨74, _⟩ => ⟨S8192x2, .f32⟩
  | .hbm, ⟨75, _⟩ => ⟨S8192x2, .f32⟩
  | .hbm, ⟨76, _⟩ => ⟨S_, .f32⟩
  | .hbm, ⟨77, _⟩ => ⟨S8192, .f32⟩
  | .hbm, ⟨78, _⟩ => ⟨S8192x1, .f32⟩
  | .hbm, ⟨79, _⟩ => ⟨S8192x2, .f32⟩
  | .hbm, ⟨80, _⟩ => ⟨S8192x2, .f32⟩
  | .hbm, ⟨81, _⟩ => ⟨S8192x1, .f32⟩
  | .hbm, ⟨82, _⟩ => ⟨S8192x32, .f32⟩
  | .hbm, ⟨83, _⟩ => ⟨S8192x32, .f32⟩
  | .hbm, ⟨84, _⟩ => ⟨S8192x1, .f32⟩
  | .hbm, ⟨85, _⟩ => ⟨S8192x32, .f32⟩
  | .hbm, ⟨86, _⟩ => ⟨S8192x32, .f32⟩
  | .hbm, ⟨87, _⟩ => ⟨S8192x32, .f32⟩
  | _, _ => ⟨S8192x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_call0_cst : Ref sig .tc := ⟨.hbm, 56, rfl⟩
abbrev main_call0_v0 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_call1_cst : Ref sig .tc := ⟨.hbm, 62, rfl⟩
abbrev main_call1_v0 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_5 : Ref sig .tc := ⟨.hbm, 67, rfl⟩
abbrev main_v46 : Ref sig .tc := ⟨.hbm, 68, rfl⟩
abbrev main_cst_6 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_7 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x32_0_1 : S8192x1.BroadcastsInDim S8192x32 (![0, 1] : Fin 2 → Fin S8192x32.rank)
  reducesTo_S8192x8192_S8192_d0 : S8192x8192.ReducesTo [0] S8192
  concatenates_S8192x32_S8192x32_S8192x64_d1 : Shape.Concatenates [S8192x32, S8192x32] S8192x64 1
  bcast_S_S8192x32 : S_.BroadcastsInDim S8192x32 (![] : Fin 0 → Fin S8192x32.rank)
  concatenates_S8192x1_S8192x1_S8192x2_d1 : Shape.Concatenates [S8192x1, S8192x1] S8192x2 1
  reducesTo_S8192x2_S8192_d1 : S8192x2.ReducesTo [1] S8192
  bcast_S8192x1_S8192x2_0_1 : S8192x1.BroadcastsInDim S8192x2 (![0, 1] : Fin 2 → Fin S8192x2.rank)
  slices_S8192x2_S8192x1_0_0 : S8192x2.Slices ![0, 0] S8192x1
  slices_S8192x2_S8192x1_0_1 : S8192x2.Slices ![0, 1] S8192x1
  dot_S8192x32_S32x32_S8192x32_1_0_0_1_n_n_wf : DotDims.WF S8192x32 S32x32 S8192x32 [1] [0] [0] [1] [] []
  dot_S8192x8192_S8192x32_S8192x32_1_0_0_1_n_n_wf : DotDims.WF S8192x8192 S8192x32 S8192x32 [1] [0] [0] [1] [] []
  dot_S8192x64_S64x32_S8192x32_1_0_0_1_n_n_wf : DotDims.WF S8192x64 S64x32 S8192x32 [1] [0] [0] [1] [] []
  dot_S8192x32_S32x1_S8192x1_1_0_0_1_n_n_wf : DotDims.WF S8192x32 S32x1 S8192x1 [1] [0] [0] [1] [] []

variable [Facts₀]

def dot_S8192x32_S32x32_S8192x32_1_0_0_1_n_n : DotDims S8192x32 S32x32 S8192x32 where
  lhsContracting := [1]
  rhsContracting := [0]
  lhsNonContracting := [0]
  rhsNonContracting := [1]
  lhsBatch := []
  rhsBatch := []
  wf := dot_S8192x32_S32x32_S8192x32_1_0_0_1_n_n_wf
def dot_S8192x8192_S8192x32_S8192x32_1_0_0_1_n_n : DotDims S8192x8192 S8192x32 S8192x32 where
  lhsContracting := [1]
  rhsContracting := [0]
  lhsNonContracting := [0]
  rhsNonContracting := [1]
  lhsBatch := []
  rhsBatch := []
  wf := dot_S8192x8192_S8192x32_S8192x32_1_0_0_1_n_n_wf
def dot_S8192x64_S64x32_S8192x32_1_0_0_1_n_n : DotDims S8192x64 S64x32 S8192x32 where
  lhsContracting := [1]
  rhsContracting := [0]
  lhsNonContracting := [0]
  rhsNonContracting := [1]
  lhsBatch := []
  rhsBatch := []
  wf := dot_S8192x64_S64x32_S8192x32_1_0_0_1_n_n_wf
def dot_S8192x32_S32x1_S8192x1_1_0_0_1_n_n : DotDims S8192x32 S32x1 S8192x1 where
  lhsContracting := [1]
  rhsContracting := [0]
  lhsNonContracting := [0]
  rhsNonContracting := [1]
  lhsBatch := []
  rhsBatch := []
  wf := dot_S8192x32_S32x1_S8192x1_1_0_0_1_n_n_wf

class Facts : Prop extends Facts₀ where

variable [Facts]
-- ==== Proof.K.Row0Runs.lean ====
/- Region 0 (the row-sum kernel `cc0__rowsum_kernel`): what the two cases of its body share. Everything is stated at a
   parameter `V`, the buffer contents when the region is entered. The grid is 8 x 4; point `t` has coordinates
   `(t / 4, t % 4)`; window 0 stages the 1024 x 2048 block `(t / 4, t % 4)` of the input matrix, window 1 the
   1024 x 1 block `(t / 4, 0)` of the output column, which is accumulated over the second coordinate. -/
import proofs.«108817_j44229573214371_2_alg».proof.Proof.Gen.Kernel.Launch
import proofs.«108817_j44229573214371_2_alg».proof.Proof.Gen.Kernel.Skeleton
import proofs.«108817_j44229573214371_2_alg».proof.Proof.Gen.Kernel.Points
import Idealize.ShloMosaic.Lib.Pipeline.FrameBody
import Idealize.ShloMosaic.Lib.Ring
import Idealize.ShloMosaic.Lib.Tactic

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place: the window is fetched at every point, is never cut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's branch condition -/

/-- The condition of the body's one conditional: the second grid coordinate is 0 (the scalar chain of the
    kernel text substituted). -/
abbrev cond0_0 (i : grid0.Coords) : Prop := (Scalar.cmpi .ne (Scalar.extui (Scalar.cmpi .eq (BitVec.ofNat 32 (i 1).val) 0#32)) 0#32) = 1#1
/-- It holds exactly at the points whose position is a multiple of 4 — decided over the 32 points of the grid. -/
theorem hcond0_0 : ∀ t : Fin cfg0.N, cond0_0 (grid0.coords t) ↔ t.val % 4 = 0 :=
  (by decide +kernel : ∀ t : Fin grid0.N, cond0_0 (grid0.coords t) ↔ t.val % 4 = 0)

/-! ## The staging memrefs -/

/-- One staging buffer of the output window, through which its contents are stated (the choice does not matter:
    a covering list of pieces reads back the same over any buffer). -/
abbrev VO0_1 : View sig .tc .vmem S1024x1 .f32 := (Memref.whole cc0_stg1_0 : Memref sig .tc .vmem S1024x1 .f32).view
/-- Each window's current staging memref at point `t`, spelled as the pipeline passes it, and its wholeness. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .f32 := win0_1.stage (cfg0.slots t 1)
abbrev hs0_1 (t : Fin cfg0.N) : (ms0_1 t).IsWhole := hstage0_1 ((cfg0.slots t 1).cast nbuf0_1)

end Cert.Kernel.Hand

end
-- ==== Proof.K.Row0RunA.lean ====
/- Region 0 (`cc0__rowsum_kernel`): the whole body's run in CASE A — the second grid coordinate is 0: the output block is
   zeroed, then the lane sums of the input block are added to it. -/
import proofs.«108817_j44229573214371_2_alg».proof.Proof.K.Row0Runs

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref, as pieces (last first) IN CASE A, WITH the proof that
    on whole staging memrefs — the input's at its contents `x0`, the output's at anything — the body runs to the
    continuation holding the input's as it was and the output's buffer with its pieces written. The pieces are the
    witness the run finds. -/
noncomputable def kernelRun0_A (c : Dev nD) (i : grid0.Coords) (arg2 : Memref sig .tc .vmem S1024x2048 .f32) (harg2 : arg2.IsWhole) (arg3 : Memref sig .tc .vmem S1024x1 .f32) (harg3 : arg3.IsWhole) (hc0 : cond0_0 i)
    (x0 : Vec F S1024x2048 .f32) :
    { L1 : List (View.Piece (Elt F) S1024x1 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__rowsum_kernel i arg2 harg2 arg3 harg3) K } := by
  refine ⟨?_, fun E K => ?run⟩
  case run =>
    simp only [cc0__rowsum_kernel_eq_skeleton]; unfold cc0__rowsum_kernel_skel
    unfold owns
    iintro ⟨⟨%f0, %hf0, H0⟩, ⟨%d1, %f1, -, H1⟩, Hk⟩
    obtain rfl := harg2.eq_unread hf0
    sl_exec (disch := first | exact hc0)
    sl_step
    iapply Hk
    isplitl [H0]
    · iexists _; isplitr; · ipureintro; exact harg2.read_unread _
      iexact H0
    iexists _; iexact H1

end Cert.Kernel.Hand

end
-- ==== Proof.K.Row0RunB.lean ====
/- Region 0 (`cc0__rowsum_kernel`): the whole body's run in CASE B — the second grid coordinate is not 0: the lane sums of
   the input block are added to what the output block already holds. -/
import proofs.«108817_j44229573214371_2_alg».proof.Proof.K.Row0RunA

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref, as pieces (last first) IN CASE B, WITH the proof that
    on whole staging memrefs — the input's at its contents `x0`, the output's at its running contents `xo1` — the body
    runs to the continuation holding the input's as it was and the output's buffer with its pieces written. The pieces
    are the witness the run finds. -/
noncomputable def kernelRun0_B (c : Dev nD) (i : grid0.Coords) (arg2 : Memref sig .tc .vmem S1024x2048 .f32) (harg2 : arg2.IsWhole) (arg3 : Memref sig .tc .vmem S1024x1 .f32) (harg3 : arg3.IsWhole) (hc0 : ¬cond0_0 i)
    (x0 : Vec F S1024x2048 .f32) (xo1 : Vec F S1024x1 .f32) :
    { L1 : List (View.Piece (Elt F) S1024x1 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__rowsum_kernel i arg2 harg2 arg3 harg3) K } := by
  refine ⟨?_, fun E K => ?run⟩
  case run =>
    simp only [cc0__rowsum_kernel_eq_skeleton]; unfold cc0__rowsum_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    iexists _; iexact H1

end Cert.Kernel.Hand

end
-- ==== Proof.K.Row0.lean ====
/- Region 0 (`cc0__rowsum_kernel`): the frame half at the region-entry contents `V` — what the output's staging buffer holds
   after each point (by recursion on the point: at a point whose second coordinate is 0 the block is zeroed and the
   lane sums added; elsewhere the lane sums are added to what the point before left), the proof data and the body
   obligation. -/
import proofs.«108817_j44229573214371_2_alg».proof.Proof.K.Row0RunB

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A's pieces for the output tile its block, so they cover it. -/
theorem cover0_A_1 (c : Dev nD) (i : grid0.Coords) (arg2 : Memref sig .tc .vmem S1024x2048 .f32) (harg2 : arg2.IsWhole) (arg3 : Memref sig .tc .vmem S1024x1 .f32) (harg3 : arg3.IsWhole) (hc0 : cond0_0 i)
    (x0 : Vec F S1024x2048 .f32) (y : S1024x1.Idx) :
    ∃ pc ∈ (kernelRun0_A c i arg2 harg2 arg3 harg3 hc0 x0).1, y ∈ pc.1.set :=
  View.cover_of_tiledL (kernelRun0_A c i arg2 harg2 arg3 harg3 hc0 x0).1 S1024x1.size (by sl_kernel_rfl) y

/-- What case A leaves in the output's staging buffer: its pieces read back over junk. -/
def out0_A_1 (c : Dev nD) (i : grid0.Coords) (arg2 : Memref sig .tc .vmem S1024x2048 .f32) (harg2 : arg2.IsWhole) (arg3 : Memref sig .tc .vmem S1024x1 .f32) (harg3 : arg3.IsWhole) (hc0 : cond0_0 i)
    (x0 : Vec F S1024x2048 .f32) : Vec F S1024x1 .f32 :=
  VO0_1.read (Elt F) (VO0_1.writes (Elt F) VO0_1.junk (kernelRun0_A c i arg2 harg2 arg3 harg3 hc0 x0).1)

/-- Case B's pieces for the output tile its block, so they cover it. -/
theorem cover0_B_1 (c : Dev nD) (i : grid0.Coords) (arg2 : Memref sig .tc .vmem S1024x2048 .f32) (harg2 : arg2.IsWhole) (arg3 : Memref sig .tc .vmem S1024x1 .f32) (harg3 : arg3.IsWhole) (hc0 : ¬cond0_0 i)
    (x0 : Vec F S1024x2048 .f32) (xo1 : Vec F S1024x1 .f32) (y : S1024x1.Idx) :
    ∃ pc ∈ (kernelRun0_B c i arg2 harg2 arg3 harg3 hc0 x0 xo1).1, y ∈ pc.1.set :=
  View.cover_of_tiledL (kernelRun0_B c i arg2 harg2 arg3 harg3 hc0 x0 xo1).1 S1024x1.size (by sl_kernel_rfl) y

/-- What case B leaves in the output's staging buffer: its pieces read back over junk. -/
def out0_B_1 (c : Dev nD) (i : grid0.Coords) (arg2 : Memref sig .tc .vmem S1024x2048 .f32) (harg2 : arg2.IsWhole) (arg3 : Memref sig .tc .vmem S1024x1 .f32) (harg3 : arg3.IsWhole) (hc0 : ¬cond0_0 i)
    (x0 : Vec F S1024x2048 .f32) (xo1 : Vec F S1024x1 .f32) : Vec F S1024x1 .f32 :=
  VO0_1.read (Elt F) (VO0_1.writes (Elt F) VO0_1.junk (kernelRun0_B c i arg2 harg2 arg3 harg3 hc0 x0 xo1).1)

section Region0
variable (V : (c : Dev nD) → (b : Ref sig .tc) → Buf (Elt F) ((c : Thread nD τ).loc b))

/-! ## What the output holds after each point -/

/-- THE ACCUMULATION. What the output's staging buffer holds after the body at position `n`: the case the closed form
    selects at `n`, run at the point's memrefs and input block; in case B over what this leaves at `n - 1` (the buffer is
    not written back between). -/
def outsAt0 (c : Dev nD) : (n : ℕ) → n < cfg0.N → Vec F S1024x1 .f32
  | 0, hn => out0_A_1 c (grid0.coords ⟨0, hn⟩) (ms0_0 ⟨0, hn⟩) (hs0_0 ⟨0, hn⟩) (ms0_1 ⟨0, hn⟩) (hs0_1 ⟨0, hn⟩) ((hcond0_0 ⟨0, hn⟩).mpr (Nat.zero_mod _)) (iblk0 V c 0 ⟨0, hn⟩)
  | n + 1, hn =>
    if h0 : (n + 1) % 4 = 0 then
      out0_A_1 c (grid0.coords ⟨n + 1, hn⟩) (ms0_0 ⟨n + 1, hn⟩) (hs0_0 ⟨n + 1, hn⟩) (ms0_1 ⟨n + 1, hn⟩) (hs0_1 ⟨n + 1, hn⟩) ((hcond0_0 ⟨n + 1, hn⟩).mpr h0) (iblk0 V c 0 ⟨n + 1, hn⟩)
    else
      out0_B_1 c (grid0.coords ⟨n + 1, hn⟩) (ms0_0 ⟨n + 1, hn⟩) (hs0_0 ⟨n + 1, hn⟩) (ms0_1 ⟨n + 1, hn⟩) (hs0_1 ⟨n + 1, hn⟩) (fun h => h0 ((hcond0_0 ⟨n + 1, hn⟩).mp h)) (iblk0 V c 0 ⟨n + 1, hn⟩) (outsAt0 c n (Nat.lt_of_succ_lt hn))

/-- `outsAt0` at a point of case A: that case's contents. -/
theorem outsAt0_A (c : Dev nD) (t : Fin cfg0.N) (h0 : t.val % 4 = 0) :
    outsAt0 V c t.val t.isLt = out0_A_1 c (grid0.coords t) (ms0_0 t) (hs0_0 t) (ms0_1 t) (hs0_1 t) ((hcond0_0 t).mpr h0) (iblk0 V c 0 t) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 4 = 0) :
    outsAt0 V c t.val t.isLt = out0_B_1 c (grid0.coords t) (ms0_0 t) (hs0_0 t) (ms0_1 t) (hs0_1 t) (fun h => h0 ((hcond0_0 t).mp h)) (iblk0 V c 0 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 0 on core `c`: the arrays as the region finds them (`V`); after the body at point `t`
    the input's buffer at its block and the output's at `outsAt0`; the invariant the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt)
  Φ _ := Pipeline.ΦA spec0 c
  q _ := fullShare
  owed _ := 0

/-- The proof data's arrays are the region-entry contents (the definition projected, so that `V` is never unfolded). -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt) := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d
/-- At a point of case B the output's current staging buffer holds what the body left at the point before: the point is
    not the first, the buffer was not written back between (write-backs follow the points whose position is 3 mod 4),
    the window is live and uncut. -/
theorem before0_1_B (c : Dev nD) (t : Fin cfg0.N) (h0 : ¬t.val % 4 = 0) (d) :
    (dat0 V c).before 1 t d = (outsAt0 V c (t.val - 1) (Nat.lt_of_le_of_lt (Nat.sub_le _ _) t.isLt)) := by
  have hN : t.val < 32 := lt_of_lt_of_eq t.isLt (show cfg0.N = 32 from N_0)
  rw [Dat.before_out_kept _ 1 rfl t (by omega) (Bool.eq_false_iff.mpr fun h => by have := (flush0_1 _).mp h; dsimp only at this; omega)
    (fun _ => rfl) (fun _ _ => rfl)]
  dsimp only [dat0]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t))

set_option maxHeartbeats 800000 in
/-- The body at any point: the input's memref holds its block; the closed form says which case the point is in; in case
    B the output's memref holds what the point before left; so the case's run applies; the invariant passes through
    unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  have hN : t.val < 32 := lt_of_lt_of_eq t.isLt (show cfg0.N = 32 from N_0)
  by_cases h0 : t.val % 4 = 0
  · rw [outsAt0_A V c t h0]
    unfold out0_A_1
    iintro ⟨HΦ, Ho, ⟨%d0, H0⟩, ⟨%d1, H1⟩⟩
    iapply ((kernelRun0_A c (grid0.coords t) _ _ _ _ ((hcond0_0 t).mpr h0) (iblk0 V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_A_1 c _ _ _ _ _ _ _)
  · rw [outsAt0_B V c t h0]
    simp only [before0_1_B V c t h0]
    unfold out0_B_1
    iintro ⟨HΦ, Ho, ⟨%d0, H0⟩, ⟨%d1, H1⟩⟩
    iapply ((kernelRun0_B c (grid0.coords t) _ _ _ _ (fun h => h0 ((hcond0_0 t).mp h)) (iblk0 V c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_B_1 c _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.Row2Runs.lean ====
/- Region 2 (the row-sum kernel `cc2__rowsum_kernel`): what the two cases of its body share. Everything is stated at a
   parameter `V`, the buffer contents when the region is entered. The grid is 8 x 4; point `t` has coordinates
   `(t / 4, t % 4)`; window 0 stages the 1024 x 2048 block `(t / 4, t % 4)` of the input matrix, window 1 the
   1024 x 1 block `(t / 4, 0)` of the output column, which is accumulated over the second coordinate. -/
import proofs.«108817_j44229573214371_2_alg».proof.Proof.Gen.Kernel.Launch
import proofs.«108817_j44229573214371_2_alg».proof.Proof.Gen.Kernel.Skeleton
import proofs.«108817_j44229573214371_2_alg».proof.Proof.Gen.Kernel.Points
import Idealize.ShloMosaic.Lib.Pipeline.FrameBody
import Idealize.ShloMosaic.Lib.Ring
import Idealize.ShloMosaic.Lib.Tactic

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's current staging buffer holds its block at every point, for any proof data whose array is
    `V`'s and whose body leaves the block in place: the window is fetched at every point, is never cut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

end Region2

/-! ## The body's branch condition -/

/-- The condition of the body's one conditional: the second grid coordinate is 0 (the scalar chain of the
    kernel text substituted). -/
abbrev cond2_0 (i : grid2.Coords) : Prop := (Scalar.cmpi .ne (Scalar.extui (Scalar.cmpi .eq (BitVec.ofNat 32 (i 1).val) 0#32)) 0#32) = 1#1
/-- It holds exactly at the points whose position is a multiple of 4 — decided over the 32 points of the grid. -/
theorem hcond2_0 : ∀ t : Fin cfg2.N, cond2_0 (grid2.coords t) ↔ t.val % 4 = 0 :=
  (by decide +kernel : ∀ t : Fin grid2.N, cond2_0 (grid2.coords t) ↔ t.val % 4 = 0)

/-! ## The staging memrefs -/

/-- One staging buffer of the output window, through which its contents are stated (the choice does not matter:
    a covering list of pieces reads back the same over any buffer). -/
abbrev VO2_1 : View sig .tc .vmem S1024x1 .f32 := (Memref.whole cc2_stg1_0 : Memref sig .tc .vmem S1024x1 .f32).view
/-- Each window's current staging memref at point `t`, spelled as the pipeline passes it, and its wholeness. -/
abbrev ms2_0 (t : Fin cfg2.N) : Memref sig .tc .vmem S1024x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1 .f32 := win2_1.stage (cfg2.slots t 1)
abbrev hs2_1 (t : Fin cfg2.N) : (ms2_1 t).IsWhole := hstage2_1 ((cfg2.slots t 1).cast nbuf2_1)

end Cert.Kernel.Hand

end
-- ==== Proof.K.Row2RunA.lean ====
/- Region 2 (`cc2__rowsum_kernel`): the whole body's run in CASE A — the second grid coordinate is 0: the output block is
   zeroed, then the lane sums of the input block are added to it. -/
import proofs.«108817_j44229573214371_2_alg».proof.Proof.K.Row2Runs

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref, as pieces (last first) IN CASE A, WITH the proof that
    on whole staging memrefs — the input's at its contents `x0`, the output's at anything — the body runs to the
    continuation holding the input's as it was and the output's buffer with its pieces written. The pieces are the
    witness the run finds. -/
noncomputable def kernelRun2_A (c : Dev nD) (i : grid2.Coords) (arg2 : Memref sig .tc .vmem S1024x2048 .f32) (harg2 : arg2.IsWhole) (arg3 : Memref sig .tc .vmem S1024x1 .f32) (harg3 : arg3.IsWhole) (hc0 : cond2_0 i)
    (x0 : Vec F S1024x2048 .f32) :
    { L1 : List (View.Piece (Elt F) S1024x1 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc2__rowsum_kernel i arg2 harg2 arg3 harg3) K } := by
  refine ⟨?_, fun E K => ?run⟩
  case run =>
    simp only [cc2__rowsum_kernel_eq_skeleton]; unfold cc2__rowsum_kernel_skel
    unfold owns
    iintro ⟨⟨%f0, %hf0, H0⟩, ⟨%d1, %f1, -, H1⟩, Hk⟩
    obtain rfl := harg2.eq_unread hf0
    sl_exec (disch := first | exact hc0)
    sl_step
    iapply Hk
    isplitl [H0]
    · iexists _; isplitr; · ipureintro; exact harg2.read_unread _
      iexact H0
    iexists _; iexact H1

end Cert.Kernel.Hand

end
-- ==== Proof.K.Row2RunB.lean ====
/- Region 2 (`cc2__rowsum_kernel`): the whole body's run in CASE B — the second grid coordinate is not 0: the lane sums of
   the input block are added to what the output block already holds. -/
import proofs.«108817_j44229573214371_2_alg».proof.Proof.K.Row2RunA

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref, as pieces (last first) IN CASE B, WITH the proof that
    on whole staging memrefs — the input's at its contents `x0`, the output's at its running contents `xo1` — the body
    runs to the continuation holding the input's as it was and the output's buffer with its pieces written. The pieces
    are the witness the run finds. -/
noncomputable def kernelRun2_B (c : Dev nD) (i : grid2.Coords) (arg2 : Memref sig .tc .vmem S1024x2048 .f32) (harg2 : arg2.IsWhole) (arg3 : Memref sig .tc .vmem S1024x1 .f32) (harg3 : arg3.IsWhole) (hc0 : ¬cond2_0 i)
    (x0 : Vec F S1024x2048 .f32) (xo1 : Vec F S1024x1 .f32) :
    { L1 : List (View.Piece (Elt F) S1024x1 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc2__rowsum_kernel i arg2 harg2 arg3 harg3) K } := by
  refine ⟨?_, fun E K => ?run⟩
  case run =>
    simp only [cc2__rowsum_kernel_eq_skeleton]; unfold cc2__rowsum_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    iexists _; iexact H1

end Cert.Kernel.Hand

end
-- ==== Proof.K.Row2.lean ====
/- Region 2 (`cc2__rowsum_kernel`): the frame half at the region-entry contents `V` — what the output's staging buffer holds
   after each point (by recursion on the point: at a point whose second coordinate is 0 the block is zeroed and the
   lane sums added; elsewhere the lane sums are added to what the point before left), the proof data and the body
   obligation. -/
import proofs.«108817_j44229573214371_2_alg».proof.Proof.K.Row2RunB

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A's pieces for the output tile its block, so they cover it. -/
theorem cover2_A_1 (c : Dev nD) (i : grid2.Coords) (arg2 : Memref sig .tc .vmem S1024x2048 .f32) (harg2 : arg2.IsWhole) (arg3 : Memref sig .tc .vmem S1024x1 .f32) (harg3 : arg3.IsWhole) (hc0 : cond2_0 i)
    (x0 : Vec F S1024x2048 .f32) (y : S1024x1.Idx) :
    ∃ pc ∈ (kernelRun2_A c i arg2 harg2 arg3 harg3 hc0 x0).1, y ∈ pc.1.set :=
  View.cover_of_tiledL (kernelRun2_A c i arg2 harg2 arg3 harg3 hc0 x0).1 S1024x1.size (by sl_kernel_rfl) y

/-- What case A leaves in the output's staging buffer: its pieces read back over junk. -/
def out2_A_1 (c : Dev nD) (i : grid2.Coords) (arg2 : Memref sig .tc .vmem S1024x2048 .f32) (harg2 : arg2.IsWhole) (arg3 : Memref sig .tc .vmem S1024x1 .f32) (harg3 : arg3.IsWhole) (hc0 : cond2_0 i)
    (x0 : Vec F S1024x2048 .f32) : Vec F S1024x1 .f32 :=
  VO2_1.read (Elt F) (VO2_1.writes (Elt F) VO2_1.junk (kernelRun2_A c i arg2 harg2 arg3 harg3 hc0 x0).1)

/-- Case B's pieces for the output tile its block, so they cover it. -/
theorem cover2_B_1 (c : Dev nD) (i : grid2.Coords) (arg2 : Memref sig .tc .vmem S1024x2048 .f32) (harg2 : arg2.IsWhole) (arg3 : Memref sig .tc .vmem S1024x1 .f32) (harg3 : arg3.IsWhole) (hc0 : ¬cond2_0 i)
    (x0 : Vec F S1024x2048 .f32) (xo1 : Vec F S1024x1 .f32) (y : S1024x1.Idx) :
    ∃ pc ∈ (kernelRun2_B c i arg2 harg2 arg3 harg3 hc0 x0 xo1).1, y ∈ pc.1.set :=
  View.cover_of_tiledL (kernelRun2_B c i arg2 harg2 arg3 harg3 hc0 x0 xo1).1 S1024x1.size (by sl_kernel_rfl) y

/-- What case B leaves in the output's staging buffer: its pieces read back over junk. -/
def out2_B_1 (c : Dev nD) (i : grid2.Coords) (arg2 : Memref sig .tc .vmem S1024x2048 .f32) (harg2 : arg2.IsWhole) (arg3 : Memref sig .tc .vmem S1024x1 .f32) (harg3 : arg3.IsWhole) (hc0 : ¬cond2_0 i)
    (x0 : Vec F S1024x2048 .f32) (xo1 : Vec F S1024x1 .f32) : Vec F S1024x1 .f32 :=
  VO2_1.read (Elt F) (VO2_1.writes (Elt F) VO2_1.junk (kernelRun2_B c i arg2 harg2 arg3 harg3 hc0 x0 xo1).1)

section Region2
variable (V : (c : Dev nD) → (b : Ref sig .tc) → Buf (Elt F) ((c : Thread nD τ).loc b))

/-! ## What the output holds after each point -/

/-- THE ACCUMULATION. What the output's staging buffer holds after the body at position `n`: the case the closed form
    selects at `n`, run at the point's memrefs and input block; in case B over what this leaves at `n - 1` (the buffer is
    not written back between). -/
def outsAt2 (c : Dev nD) : (n : ℕ) → n < cfg2.N → Vec F S1024x1 .f32
  | 0, hn => out2_A_1 c (grid2.coords ⟨0, hn⟩) (ms2_0 ⟨0, hn⟩) (hs2_0 ⟨0, hn⟩) (ms2_1 ⟨0, hn⟩) (hs2_1 ⟨0, hn⟩) ((hcond2_0 ⟨0, hn⟩).mpr (Nat.zero_mod _)) (iblk2 V c 0 ⟨0, hn⟩)
  | n + 1, hn =>
    if h0 : (n + 1) % 4 = 0 then
      out2_A_1 c (grid2.coords ⟨n + 1, hn⟩) (ms2_0 ⟨n + 1, hn⟩) (hs2_0 ⟨n + 1, hn⟩) (ms2_1 ⟨n + 1, hn⟩) (hs2_1 ⟨n + 1, hn⟩) ((hcond2_0 ⟨n + 1, hn⟩).mpr h0) (iblk2 V c 0 ⟨n + 1, hn⟩)
    else
      out2_B_1 c (grid2.coords ⟨n + 1, hn⟩) (ms2_0 ⟨n + 1, hn⟩) (hs2_0 ⟨n + 1, hn⟩) (ms2_1 ⟨n + 1, hn⟩) (hs2_1 ⟨n + 1, hn⟩) (fun h => h0 ((hcond2_0 ⟨n + 1, hn⟩).mp h)) (iblk2 V c 0 ⟨n + 1, hn⟩) (outsAt2 c n (Nat.lt_of_succ_lt hn))

/-- `outsAt2` at a point of case A: that case's contents. -/
theorem outsAt2_A (c : Dev nD) (t : Fin cfg2.N) (h0 : t.val % 4 = 0) :
    outsAt2 V c t.val t.isLt = out2_A_1 c (grid2.coords t) (ms2_0 t) (hs2_0 t) (ms2_1 t) (hs2_1 t) ((hcond2_0 t).mpr h0) (iblk2 V c 0 t) := by
  obtain ⟨n, hn⟩ := t
  cases n with
  | zero => exact rfl
  | succ n => exact (dif_pos h0).trans rfl

/-- `outsAt2` at a point of case B: that case's contents, over what the point before left. -/
theorem outsAt2_B (c : Dev nD) (t : Fin cfg2.N) (h0 : ¬t.val % 4 = 0) :
    outsAt2 V c t.val t.isLt = out2_B_1 c (grid2.coords t) (ms2_0 t) (hs2_0 t) (ms2_1 t) (hs2_1 t) (fun h => h0 ((hcond2_0 t).mp h)) (iblk2 V c 0 t) (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 2 on core `c`: the arrays as the region finds them (`V`); after the body at point `t`
    the input's buffer at its block and the output's at `outsAt2`; the invariant the scoped rest and the generator
    register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => (outsAt2 V c t.val t.isLt)
  Φ _ := Pipeline.ΦA spec2 c
  q _ := fullShare
  owed _ := 0

/-- The proof data's arrays are the region-entry contents (the definition projected, so that `V` is never unfolded). -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = (outsAt2 V c t.val t.isLt) := by dsimp only [dat2]

/-- The input's current staging buffer holds its block at every point. -/
theorem before2_0 (c : Dev nD) (t : Fin cfg2.N) (d) : (dat2 V c).before 0 t d = iblk2 V c 0 t :=
  before2_0_of V (dat2 V c) (A_eq2 V c 0) (after2_0 V c) t d
/-- At a point of case B the output's current staging buffer holds what the body left at the point before: the point is
    not the first, the buffer was not written back between (write-backs follow the points whose position is 3 mod 4),
    the window is live and uncut. -/
theorem before2_1_B (c : Dev nD) (t : Fin cfg2.N) (h0 : ¬t.val % 4 = 0) (d) :
    (dat2 V c).before 1 t d = (outsAt2 V c (t.val - 1) (Nat.lt_of_le_of_lt (Nat.sub_le _ _) t.isLt)) := by
  have hN : t.val < 32 := lt_of_lt_of_eq t.isLt (show cfg2.N = 32 from N_2)
  rw [Dat.before_out_kept _ 1 rfl t (by omega) (Bool.eq_false_iff.mpr fun h => by have := (flush2_1 _).mp h; dsimp only at this; omega)
    (fun _ => rfl) (fun _ _ => rfl)]
  dsimp only [dat2]

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t))

set_option maxHeartbeats 800000 in
/-- The body at any point: the input's memref holds its block; the closed form says which case the point is in; in case
    B the output's memref holds what the point before left; so the case's run applies; the invariant passes through
    unread; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1]
  have hN : t.val < 32 := lt_of_lt_of_eq t.isLt (show cfg2.N = 32 from N_2)
  by_cases h0 : t.val % 4 = 0
  · rw [outsAt2_A V c t h0]
    unfold out2_A_1
    iintro ⟨HΦ, Ho, ⟨%d0, H0⟩, ⟨%d1, H1⟩⟩
    iapply ((kernelRun2_A c (grid2.coords t) _ _ _ _ ((hcond2_0 t).mpr h0) (iblk2 V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover2_A_1 c _ _ _ _ _ _ _)
  · rw [outsAt2_B V c t h0]
    simp only [before2_1_B V c t h0]
    unfold out2_B_1
    iintro ⟨HΦ, Ho, ⟨%d0, H0⟩, ⟨%d1, H1⟩⟩
    iapply ((kernelRun2_B c (grid2.coords t) _ _ _ _ (fun h => h0 ((hcond2_0 t).mp h)) (iblk2 V c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover2_B_1 c _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Hand

end
-- ==== Proof.K.Uc4RunA.lean ====
/- Region 4 (the row-and-column-sums kernel): what the two cases' runs share — the block of a window at a
   point read off the region-entry contents, the branch condition decided over the grid, the staging memrefs —
   and the whole-body run of the case in which the row-sum block is reset (the second grid coordinate is 0). -/
import proofs.«108817_j44229573214371_2_alg».proof.Proof.Gen.Kernel.Launch
import proofs.«108817_j44229573214371_2_alg».proof.Proof.Gen.Kernel.Skeleton
import proofs.«108817_j44229573214371_2_alg».proof.Proof.Gen.Kernel.Points
import Idealize.ShloMosaic.Lib.Pipeline.FrameBody
import Idealize.ShloMosaic.Lib.Ring
import Idealize.ShloMosaic.Lib.Tactic

-- membership in a rectangle of production extents: the elaborator's structural look
-- recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Shared
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s and whose body leaves the block in place: the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

end Shared

/-! ## The body's branch condition -/

/-- The condition of the body's one conditional, from the grid coordinates: the second coordinate is 0. -/
abbrev cond4_0 (i : grid4.Coords) : Prop := (Scalar.cmpi .ne (Scalar.extui (Scalar.cmpi .eq (BitVec.ofNat 32 (i 1).val) 0#32)) 0#32) = 1#1
/-- It holds at the points whose position is a multiple of 4 — decided over the grid. -/
theorem hcond4_0 : ∀ t : Fin cfg4.N, cond4_0 (grid4.coords t) ↔ t.val % 4 = 0 :=
  (by decide +kernel : ∀ t : Fin grid4.N, cond4_0 (grid4.coords t) ↔ t.val % 4 = 0)

/-! ## The staging memrefs -/

/-- One staging buffer of each output window, through which its contents are stated (the choice does not matter). -/
abbrev VO4_1 : View sig .tc .vmem S1024x1 .f32 := (Memref.whole cc4_stg1_0 : Memref sig .tc .vmem S1024x1 .f32).view
abbrev VO4_2 : View sig .tc .vmem S1x8x2048 .f32 := (Memref.whole cc4_stg2_0 : Memref sig .tc .vmem S1x8x2048 .f32).view
/-- Each window's current staging memref at point `t`, spelled as the pipeline passes it, and its wholeness. -/
abbrev ms4_0 (t : Fin cfg4.N) : Memref sig .tc .vmem S1024x2048 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x1 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x8x2048 .f32 := win4_2.stage (cfg4.slots t 2)
abbrev hs4_2 (t : Fin cfg4.N) : (ms4_2 t).IsWhole := hstage4_2 ((cfg4.slots t 2).cast nbuf4_2)

/-! ## The body in the resetting case -/

-- (the run's proof term is large)
set_option maxHeartbeats 1000000 in
/-- What the body's stores leave in each output's staging memref, as pieces (last first), where the second grid
    coordinate is 0, with the proof that on whole staging memrefs — the input's at its contents, the outputs' at
    anything — the body runs to the continuation holding the input's as it was and each output's buffer with its
    pieces written. -/
noncomputable def kernelRun4_A (c : Dev nD) (i : grid4.Coords) (arg2 : Memref sig .tc .vmem S1024x2048 .f32) (harg2 : arg2.IsWhole) (arg3 : Memref sig .tc .vmem S1024x1 .f32) (harg3 : arg3.IsWhole) (arg4 : Memref sig .tc .vmem S1x8x2048 .f32) (harg4 : arg4.IsWhole) (hc0 : cond4_0 i)
    (x0 : Vec F S1024x2048 .f32) :
    Σ' (L1 : List (View.Piece (Elt F) S1024x1 .f32)), { L2 : List (View.Piece (Elt F) S1x8x2048 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d)
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2)) -∗ K ⟨⟩))
          ⊢ wp frame (wpE (defs₀ (F := F)) Variants.none c none) E (cc4__uc_sums_kernel i arg2 harg2 arg3 harg3 arg4 harg4) K } := by
  refine ⟨?_, ?_, fun E K => ?run⟩
  case run =>
    simp only [cc4__uc_sums_kernel_eq_skeleton]; unfold cc4__uc_sums_kernel_skel
    unfold owns
    iintro ⟨⟨%f0, %hf0, H0⟩, ⟨%d1, %f1, -, H1⟩, ⟨%d2, %f2, -, H2⟩, Hk⟩
    obtain rfl := harg2.eq_unread hf0
    sl_exec (disch := first | exact hc0)
    sl_step
    iapply Hk
    isplitl [H0]
    · iexists _; isplitr; · ipureintro; exact harg2.read_unread _
      iexact H0
    isplitl [H1]
    · iexists _; iexact H1
    iexists _; iexact H2

end Cert.Kernel.Hand

end
-- ==== Proof.K.Uc4RunB.lean ====
/- Region 4 (the row-and-column-sums kernel): the whole-body run of the case in which the row-sum block
   accumulates over what the point before left (the second grid coordinate is not 0). -/
import proofs.«108817_j44229573214371_2_alg».proof.Proof.K.Uc4RunA

-- membership in a rectangle of production extents: the elaborator's structural look
-- recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body in the accumulating case -/

-- (the run's proof term is large)
set_option maxHeartbeats 1000000 in
/-- What the body's stores leave in each output's staging memref, as pieces (last first), where the second grid
    coordinate is not 0, with the proof that on whole staging memrefs — the input's at its contents, the row-sum
    output's at its running contents `xo1`, the column-sum output's at anything — the body runs to the continuation
    holding the input's as it was and each output's buffer with its pieces written. -/
noncomputable def kernelRun4_B (c : Dev nD) (i : grid4.Coords) (arg2 : Memref sig .tc .vmem S1024x2048 .f32) (harg2 : arg2.IsWhole) (arg3 : Memref sig .tc .vmem S1024x1 .f32) (harg3 : arg3.IsWhole) (arg4 : Memref sig .tc .vmem S1x8x2048 .f32) (harg4 : arg4.IsWhole) (hc0 : ¬cond4_0 i)
    (x0 : Vec F S1024x2048 .f32) (xo1 : Vec F S1024x1 .f32) :
    Σ' (L1 : List (View.Piece (Elt F) S1024x1 .f32)), { L2 : List (View.Piece (Elt F) S1x8x2048 .f32) //
      ∀ (E : Set ℕ) (K : PUnit → sProp 𝕄),
        iprop(owns (c : Thread nD τ) arg2 fullShare x0 ∗ owns (c : Thread nD τ) arg3 fullShare xo1 ∗ (∃ d, owns (c : Thread nD τ) arg4 fullShare d)
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2)) -∗ K ⟨⟩))
          ⊢ wp frame (wpE (defs₀ (F := F)) Variants.none c none) E (cc4__uc_sums_kernel i arg2 harg2 arg3 harg3 arg4 harg4) K } := by
  refine ⟨?_, ?_, fun E K => ?run⟩
  case run =>
    simp only [cc4__uc_sums_kernel_eq_skeleton]; unfold cc4__uc_sums_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; iexact H1
    iexists _; iexact H2

end Cert.Kernel.Hand

end
-- ==== Proof.K.Uc4.lean ====
/- Region 4 (the row-and-column-sums kernel), at the region-entry contents `V`: what the two outputs' staging
   buffers hold per case (the pieces the runs found cover their blocks) and point by point (by recursion on the
   point: the row-sum block accumulates over the second grid coordinate and is reset where it is 0; the
   column-sum block is stored whole at every point), the proof data, and the body obligation. -/
import proofs.«108817_j44229573214371_2_alg».proof.Proof.K.Uc4RunB

-- membership in a rectangle of production extents: the elaborator's structural look
-- recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the outputs' staging buffers -/

/-- The resetting case's pieces for the row-sum output tile its block, so they cover it. -/
theorem cover4_A_1 (c : Dev nD) (i : grid4.Coords) (arg2 : Memref sig .tc .vmem S1024x2048 .f32) (harg2 : arg2.IsWhole) (arg3 : Memref sig .tc .vmem S1024x1 .f32) (harg3 : arg3.IsWhole) (arg4 : Memref sig .tc .vmem S1x8x2048 .f32) (harg4 : arg4.IsWhole) (hc0 : cond4_0 i)
    (x0 : Vec F S1024x2048 .f32) (y : S1024x1.Idx) :
    ∃ pc ∈ (kernelRun4_A c i arg2 harg2 arg3 harg3 arg4 harg4 hc0 x0).1, y ∈ pc.1.set :=
  View.cover_of_tiledL (kernelRun4_A c i arg2 harg2 arg3 harg3 arg4 harg4 hc0 x0).1 S1024x1.size (by sl_kernel_rfl) y

/-- What the resetting case leaves in the row-sum output's staging buffer: its pieces read back over junk. -/
def out4_A_1 (c : Dev nD) (i : grid4.Coords) (arg2 : Memref sig .tc .vmem S1024x2048 .f32) (harg2 : arg2.IsWhole) (arg3 : Memref sig .tc .vmem S1024x1 .f32) (harg3 : arg3.IsWhole) (arg4 : Memref sig .tc .vmem S1x8x2048 .f32) (harg4 : arg4.IsWhole) (hc0 : cond4_0 i)
    (x0 : Vec F S1024x2048 .f32) : Vec F S1024x1 .f32 :=
  VO4_1.read (Elt F) (VO4_1.writes (Elt F) VO4_1.junk (kernelRun4_A c i arg2 harg2 arg3 harg3 arg4 harg4 hc0 x0).1)

/-- The resetting case's pieces for the column-sum output tile its block, so they cover it. -/
theorem cover4_A_2 (c : Dev nD) (i : grid4.Coords) (arg2 : Memref sig .tc .vmem S1024x2048 .f32) (harg2 : arg2.IsWhole) (arg3 : Memref sig .tc .vmem S1024x1 .f32) (harg3 : arg3.IsWhole) (arg4 : Memref sig .tc .vmem S1x8x2048 .f32) (harg4 : arg4.IsWhole) (hc0 : cond4_0 i)
    (x0 : Vec F S1024x2048 .f32) (y : S1x8x2048.Idx) :
    ∃ pc ∈ (kernelRun4_A c i arg2 harg2 arg3 harg3 arg4 harg4 hc0 x0).2.1, y ∈ pc.1.set :=
  View.cover_of_tiledL (kernelRun4_A c i arg2 harg2 arg3 harg3 arg4 harg4 hc0 x0).2.1 S1x8x2048.size (by sl_kernel_rfl) y

/-- What the resetting case leaves in the column-sum output's staging buffer: its pieces read back over junk. -/
def out4_A_2 (c : Dev nD) (i : grid4.Coords) (arg2 : Memref sig .tc .vmem S1024x2048 .f32) (harg2 : arg2.IsWhole) (arg3 : Memref sig .tc .vmem S1024x1 .f32) (harg3 : arg3.IsWhole) (arg4 : Memref sig .tc .vmem S1x8x2048 .f32) (harg4 : arg4.IsWhole) (hc0 : cond4_0 i)
    (x0 : Vec F S1024x2048 .f32) : Vec F S1x8x2048 .f32 :=
  VO4_2.read (Elt F) (VO4_2.writes (Elt F) VO4_2.junk (kernelRun4_A c i arg2 harg2 arg3 harg3 arg4 harg4 hc0 x0).2.1)

/-- The accumulating case's pieces for the row-sum output tile its block, so they cover it. -/
theorem cover4_B_1 (c : Dev nD) (i : grid4.Coords) (arg2 : Memref sig .tc .vmem S1024x2048 .f32) (harg2 : arg2.IsWhole) (arg3 : Memref sig .tc .vmem S1024x1 .f32) (harg3 : arg3.IsWhole) (arg4 : Memref sig .tc .vmem S1x8x2048 .f32) (harg4 : arg4.IsWhole) (hc0 : ¬cond4_0 i)
    (x0 : Vec F S1024x2048 .f32) (xo1 : Vec F S1024x1 .f32) (y : S1024x1.Idx) :
    ∃ pc ∈ (kernelRun4_B c i arg2 harg2 arg3 harg3 arg4 harg4 hc0 x0 xo1).1, y ∈ pc.1.set :=
  View.cover_of_tiledL (kernelRun4_B c i arg2 harg2 arg3 harg3 arg4 harg4 hc0 x0 xo1).1 S1024x1.size (by sl_kernel_rfl) y

/-- What the accumulating case leaves in the row-sum output's staging buffer: its pieces read back over junk. -/
def out4_B_1 (c : Dev nD) (i : grid4.Coords) (arg2 : Memref sig .tc .vmem S1024x2048 .f32) (harg2 : arg2.IsWhole) (arg3 : Memref sig .tc .vmem S1024x1 .f32) (harg3 : arg3.IsWhole) (arg4 : Memref sig .tc .vmem S1x8x2048 .f32) (harg4 : arg4.IsWhole) (hc0 : ¬cond4_0 i)
    (x0 : Vec F S1024x2048 .f32) (xo1 : Vec F S1024x1 .f32) : Vec F S1024x1 .f32 :=
  VO4_1.read (Elt F) (VO4_1.writes (Elt F) VO4_1.junk (kernelRun4_B c i arg2 harg2 arg3 harg3 arg4 harg4 hc0 x0 xo1).1)

/-- The accumulating case's pieces for the column-sum output tile its block, so they cover it. -/
theorem cover4_B_2 (c : Dev nD) (i : grid4.Coords) (arg2 : Memref sig .tc .vmem S1024x2048 .f32) (harg2 : arg2.IsWhole) (arg3 : Memref sig .tc .vmem S1024x1 .f32) (harg3 : arg3.IsWhole) (arg4 : Memref sig .tc .vmem S1x8x2048 .f32) (harg4 : arg4.IsWhole) (hc0 : ¬cond4_0 i)
    (x0 : Vec F S1024x2048 .f32) (xo1 : Vec F S1024x1 .f32) (y : S1x8x2048.Idx) :
    ∃ pc ∈ (kernelRun4_B c i arg2 harg2 arg3 harg3 arg4 harg4 hc0 x0 xo1).2.1, y ∈ pc.1.set :=
  View.cover_of_tiledL (kernelRun4_B c i arg2 harg2 arg3 harg3 arg4 harg4 hc0 x0 xo1).2.1 S1x8x2048.size (by sl_kernel_rfl) y

/-- What the accumulating case leaves in the column-sum output's staging buffer: its pieces read back over junk. -/
def out4_B_2 (c : Dev nD) (i : grid4.Coords) (arg2 : Memref sig .tc .vmem S1024x2048 .f32) (harg2 : arg2.IsWhole) (arg3 : Memref sig .tc .vmem S1024x1 .f32) (harg3 : arg3.IsWhole) (arg4 : Memref sig .tc .vmem S1x8x2048 .f32) (harg4 : arg4.IsWhole) (hc0 : ¬cond4_0 i)
    (x0 : Vec F S1024x2048 .f32) (xo1 : Vec F S1024x1 .f32) : Vec F S1x8x2048 .f32 :=
  VO4_2.read (Elt F) (VO4_2.writes (Elt F) VO4_2.junk (kernelRun4_B c i arg2 harg2 arg3 harg3 arg4 harg4 hc0 x0 xo1).2.1)

section Region
-- the TensorCore's buffer contents when the region is entered
variable (V : (c : Dev nD) → (b : Ref sig .tc) → Buf (Elt F) ((c : Thread nD τ).loc b))

/-! ## What the outputs hold after each point -/

/-- What the two outputs' staging buffers hold after the body at position `n` (a pair: the row-sum block, the
    column-sum block): the case the position selects, run at the point's memrefs and input block, the row-sum
    block read before it is covered at what this leaves at `n - 1` (its buffer is not written back between). -/
def outsAt4 (c : Dev nD) : (n : ℕ) → n < cfg4.N → Vec F S1024x1 .f32 × Vec F S1x8x2048 .f32
  | 0, hn => (out4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) ((hcond4_0 ⟨0, hn⟩).mpr (Nat.zero_mod _)) (iblk4 V c 0 ⟨0, hn⟩), out4_A_2 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) ((hcond4_0 ⟨0, hn⟩).mpr (Nat.zero_mod _)) (iblk4 V c 0 ⟨0, hn⟩))
  | n + 1, hn =>
    if h0 : (n + 1) % 4 = 0 then
      (out4_A_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) ((hcond4_0 ⟨n + 1, hn⟩).mpr h0) (iblk4 V c 0 ⟨n + 1, hn⟩), out4_A_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) ((hcond4_0 ⟨n + 1, hn⟩).mpr h0) (iblk4 V c 0 ⟨n + 1, hn⟩))
    else
      (out4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (fun h => h0 ((hcond4_0 ⟨n + 1, hn⟩).mp h)) (iblk4 V c 0 ⟨n + 1, hn⟩) (outsAt4 c n (Nat.lt_of_succ_lt hn)).1, out4_B_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (fun h => h0 ((hcond4_0 ⟨n + 1, hn⟩).mp h)) (iblk4 V c 0 ⟨n + 1, hn⟩) (outsAt4 c n (Nat.lt_of_succ_lt hn)).1)

/-- `outsAt4` at a point of the resetting case: that case's contents. -/
theorem outsAt4_A (c : Dev nD) (t : Fin cfg4.N) (h0 : t.val % 4 = 0) :
    outsAt4 V c t.val t.isLt = (out4_A_1 c (grid4.coords t) (ms4_0 t) (hs4_0 t) (ms4_1 t) (hs4_1 t) (ms4_2 t) (hs4_2 t) ((hcond4_0 t).mpr h0) (iblk4 V c 0 t), out4_A_2 c (grid4.coords t) (ms4_0 t) (hs4_0 t) (ms4_1 t) (hs4_1 t) (ms4_2 t) (hs4_2 t) ((hcond4_0 t).mpr h0) (iblk4 V c 0 t)) := by
  obtain ⟨n, hn⟩ := t
  cases n with
  | zero => exact rfl
  | succ n => exact (dif_pos h0).trans rfl

/-- `outsAt4` at a point of the accumulating case: that case's contents, over what the point before left. -/
theorem outsAt4_B (c : Dev nD) (t : Fin cfg4.N) (h0 : ¬t.val % 4 = 0) :
    outsAt4 V c t.val t.isLt = (out4_B_1 c (grid4.coords t) (ms4_0 t) (hs4_0 t) (ms4_1 t) (hs4_1 t) (ms4_2 t) (hs4_2 t) (fun h => h0 ((hcond4_0 t).mp h)) (iblk4 V c 0 t) (outsAt4 V c (t.val - 1) (Nat.lt_of_le_of_lt (Nat.sub_le _ _) t.isLt)).1, out4_B_2 c (grid4.coords t) (ms4_0 t) (hs4_0 t) (ms4_1 t) (hs4_1 t) (ms4_2 t) (hs4_2 t) (fun h => h0 ((hcond4_0 t).mp h)) (iblk4 V c 0 t) (outsAt4 V c (t.val - 1) (Nat.lt_of_le_of_lt (Nat.sub_le _ _) t.isLt)).1) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 4 on core `c`: the arrays as the region finds them (`V`); after the body at
    point `t` the input's buffer at its block and the outputs' at `outsAt4`; the invariant the scoped rest and
    the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => (outsAt4 V c t.val t.isLt).1
    | ⟨2, _⟩ => (outsAt4 V c t.val t.isLt).2
  Φ _ := Pipeline.ΦA spec4 c
  q _ := fullShare
  owed _ := 0

/-- The proof data's arrays are the region-entry contents (the proof data's definition projected). -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = (outsAt4 V c t.val t.isLt).1 := by dsimp only [dat4]
theorem after4_2 (c : Dev nD) (t : Fin cfg4.N) : (dat4 V c).after 2 t = (outsAt4 V c t.val t.isLt).2 := by dsimp only [dat4]

/-- The input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
/-- At a point of the accumulating case the row-sum output's current staging buffer holds what the body left at the
    point before: the point is not the first, the buffer was not written back between, the window is live and uncut. -/
theorem before4_1_B (c : Dev nD) (t : Fin cfg4.N) (h0 : ¬t.val % 4 = 0) (d) :
    (dat4 V c).before 1 t d = (outsAt4 V c (t.val - 1) (Nat.lt_of_le_of_lt (Nat.sub_le _ _) t.isLt)).1 := by
  have hN : t.val < 32 := lt_of_lt_of_eq t.isLt (show cfg4.N = 32 from N_4)
  rw [Dat.before_out_kept _ 1 rfl t (by omega) (Bool.eq_false_iff.mpr fun h => by have := (flush4_1 _).mp h; dsimp only at this; omega)
    (fun _ => rfl) (fun _ _ => rfl)]
  dsimp only [dat4]

/-! ## The body obligation, at a generic point -/

/-- What the body is called with at point `t` (the windows one by one), -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t))

set_option maxHeartbeats 1600000 in
/-- The body at any point: the input's memref holds its block; the position says which case the point is in; in the
    accumulating case the row-sum output holds what the point before left; so the run applies; the invariant passes
    through unread; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).Φ t.succ = (dat4 V c).Φ t.castSucc from rfl,
    show (dat4 V c).owesAt () t.succ = (dat4 V c).owesAt () t.castSucc from rfl,
    after4_0, after4_1, after4_2]
  have hN : t.val < 32 := lt_of_lt_of_eq t.isLt (show cfg4.N = 32 from N_4)
  by_cases h0 : t.val % 4 = 0
  · rw [outsAt4_A V c t h0]
    unfold out4_A_1 out4_A_2; (try dsimp only)
    iintro ⟨HΦ, Ho, ⟨%d0, H0⟩, ⟨%d1, H1⟩, ⟨%d2, H2⟩⟩
    iapply ((kernelRun4_A c (grid4.coords t) _ _ _ _ _ _ ((hcond4_0 t).mpr h0) (iblk4 V c 0 t)).2.2 Set.univ _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover4_A_1 c _ _ _ _ _ _ _ _ _)
    unfold owns; iexists _; isplitr
    swap; · iexact H2
    ipureintro; exact View.read_writes_of_cover _ _ _ _ _ (cover4_A_2 c _ _ _ _ _ _ _ _ _)
  · rw [outsAt4_B V c t h0]
    simp only [before4_1_B V c t h0]
    unfold out4_B_1 out4_B_2; (try dsimp only)
    iintro ⟨HΦ, Ho, ⟨%d0, H0⟩, ⟨%d1, H1⟩, ⟨%d2, H2⟩⟩
    iapply ((kernelRun4_B c (grid4.coords t) _ _ _ _ _ _ (fun h => h0 ((hcond4_0 t).mp h)) (iblk4 V c 0 t) _).2.2 Set.univ _)
    isplitl [H0]; · iexact H0
    isplitl [H1]; · iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover4_B_1 c _ _ _ _ _ _ _ _ _ _)
    unfold owns; iexists _; isplitr
    swap; · iexact H2
    ipureintro; exact View.read_writes_of_cover _ _ _ _ _ (cover4_B_2 c _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

end Region

end Cert.Kernel.Hand

end
-- ==== Proof.K.Wmm1Runs.lean ====
import proofs.«108817_j44229573214371_2_alg».proof.Proof.Gen.Kernel.Launch
import proofs.«108817_j44229573214371_2_alg».proof.Proof.Gen.Kernel.Skeleton
import proofs.«108817_j44229573214371_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when region 1 is entered: the parameter this region's half is stated at
variable (V : (c : Dev nD) → (b : Ref sig .tc) → Buf (Elt F) ((c : Thread nD τ).loc b))

/-! # Region 1: the weighted matrix product with a carried accumulator, at the entry contents `V`

Grid (8,4), point `t` at coordinates `(i, k) = (t / 4, t % 4)`. The accumulator (a scoped scratch buffer) is
zeroed where `k = 0`, added to at every point and read back, scaled row by row, into the output where `k = 3`. -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for input window 2 (fetched only where `k = 0`: at the other points its block index is the one before). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first conditional (`k = 0`), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 4) — decided over the grid. -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the body's second conditional (`k = 3`), from the grid coordinates. -/
abbrev cond1_1 (i : grid1.Coords) : Prop := k1_cond2 i = 1#1
/-- It holds at the points ≡ 3 (mod 4) — decided over the grid. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- Windows 0, 1, 2 are never idle (inputs). -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where `k = 0` output 3 is idle: nothing is stored into it, -/
theorem idleAt1_3_A : ∀ t : Fin cfg1.N, cond1_0 (grid1.coords t) → ¬cond1_1 (grid1.coords t) → cfg1.idle 3 (grid1.coords t) = true := by decide +kernel
/-- and its block is not written back. -/
theorem noFlush1_3_A : ∀ t : Fin cfg1.N, cond1_0 (grid1.coords t) → ¬cond1_1 (grid1.coords t) → (cfg1.win 3).flush t = false := by decide +kernel
/-- Where `k = 1, 2` output 3 is idle, -/
theorem idleAt1_3_B : ∀ t : Fin cfg1.N, ¬cond1_0 (grid1.coords t) → ¬cond1_1 (grid1.coords t) → cfg1.idle 3 (grid1.coords t) = true := by decide +kernel
/-- and its block is not written back. -/
theorem noFlush1_3_B : ∀ t : Fin cfg1.N, ¬cond1_0 (grid1.coords t) → ¬cond1_1 (grid1.coords t) → (cfg1.win 3).flush t = false := by decide +kernel
/-- Where `k = 3` output 3 is live: the body stores into it. -/
theorem liveAt1_3_C : ∀ t : Fin cfg1.N, ¬cond1_0 (grid1.coords t) → cond1_1 (grid1.coords t) → cfg1.idle 3 (grid1.coords t) = false := by decide +kernel

/-! ## The staging and scratch memrefs -/

/-- One staging buffer of output window 3, through which its contents are stated (the choice does not matter). -/
abbrev VO1_3 : View sig .tc .vmem S1024x32 .f32 := (Memref.whole cc1_stg3_0 : Memref sig .tc .vmem S1024x32 .f32).view
/-- Each window's current staging memref at point `t`, spelled as the pipeline passes it, and its wholeness. -/
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x32 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x32 .f32 := win1_3.stage (cfg1.slots t 3)
abbrev hs1_3 (t : Fin cfg1.N) : (ms1_3 t).IsWhole := hstage1_3 ((cfg1.slots t 3).cast nbuf1_3)
/-- The scratch operand: a whole scoped buffer of the kernel's own, passed beside the windows. -/
abbrev scM1_0 : Memref sig .tc .vmem S1024x32 .f32 := Memref.whole cc1_scratch0
/-- The accumulator the kernel carries between points, as a view: what it holds is stated through it. -/
abbrev VS1_0 : View sig .tc .vmem S1024x32 .f32 := scM1_0.view

/-- The class invariant with the scratch operand as a memref owned at some contents, the rest of the scoped
    buffers unopened: what the body obligation hands the run and takes back. -/
theorem PhiA1_eq (c : Dev nD) :
    (Pipeline.ΦA spec1 c : sProp 𝕄)
      = iprop(iprop(iprop((∃ d, owns (c : Thread nD τ) scM1_0 fullShare d))
            ∗ Pipeline.scopedRestBut (Ix := Unit) (Name := ℕ) (U := UR sig nD τ) (Lvl := ℕ) (Val := Elt F) spec1 c [cc1_scratch0])
          ∗ (∃ r, prngReg c r)) := by
  unfold Pipeline.ΦA; rw [scopedRest1_split]; simp only [scM1_0, owns_whole]; try rfl

end Cert.Kernel.Hand

end
-- ==== Proof.K.Wmm1RunA.lean ====
import proofs.«108817_j44229573214371_2_alg».proof.Proof.K.Wmm1Runs

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref and in the accumulator, as pieces (last first), where
    `k = 0` (first conditional taken, second not), with the proof that on whole memrefs — the inputs' at their
    contents, the output's (idle here) at contents handed back untouched, the accumulator at anything — the body runs
    to the continuation holding the inputs' and the output's as they were and the accumulator with its pieces written. -/
noncomputable def kernelRun1_A (c : Dev nD) (i : grid1.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : cond1_0 i) (hc1 : ¬cond1_1 i)
    (x0 : Vec F S1024x2048 .f32) (x1 : Vec F S2048x32 .f32) (x2 : Vec F S1024x1 .f32) :
    Σ' (L3 : List (View.Piece (Elt F) S1024x32 .f32)), { LS0 : List (View.Piece (Elt F) S1024x32 .f32) //
      ∀ (xi3 : Vec F S1024x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__wmm_kernel i arg2 harg2 arg3 harg3 arg4 harg4 arg5 harg5 arg6 harg6) K } := by
  refine ⟨[], ?_, fun xi3 E K => ?run⟩
  case run =>
    simp only [cc1__wmm_kernel_eq_skeleton]; unfold cc1__wmm_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.Wmm1RunB.lean ====
import proofs.«108817_j44229573214371_2_alg».proof.Proof.K.Wmm1RunA

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- The same where `k = 1, 2` (neither conditional taken): the accumulator at the contents `xs0` the point before
    left; the output idle, handed back untouched. -/
noncomputable def kernelRun1_B (c : Dev nD) (i : grid1.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : ¬cond1_0 i) (hc1 : ¬cond1_1 i)
    (x0 : Vec F S1024x2048 .f32) (x1 : Vec F S2048x32 .f32) (x2 : Vec F S1024x1 .f32) (xs0 : Vec F S1024x32 .f32) :
    Σ' (L3 : List (View.Piece (Elt F) S1024x32 .f32)), { LS0 : List (View.Piece (Elt F) S1024x32 .f32) //
      ∀ (xi3 : Vec F S1024x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__wmm_kernel i arg2 harg2 arg3 harg3 arg4 harg4 arg5 harg5 arg6 harg6) K } := by
  refine ⟨[], ?_, fun xi3 E K => ?run⟩
  case run =>
    simp only [cc1__wmm_kernel_eq_skeleton]; unfold cc1__wmm_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.Wmm1RunC.lean ====
import proofs.«108817_j44229573214371_2_alg».proof.Proof.K.Wmm1RunB

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- The same where `k = 3` (first conditional not taken, second taken): the accumulator at the contents `xs0` the
    point before left; the output's buffer at anything, left with its pieces written. -/
noncomputable def kernelRun1_C (c : Dev nD) (i : grid1.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : ¬cond1_0 i) (hc1 : cond1_1 i)
    (x0 : Vec F S1024x2048 .f32) (x1 : Vec F S2048x32 .f32) (x2 : Vec F S1024x1 .f32) (xs0 : Vec F S1024x32 .f32) :
    Σ' (L3 : List (View.Piece (Elt F) S1024x32 .f32)), { LS0 : List (View.Piece (Elt F) S1024x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__wmm_kernel i arg2 harg2 arg3 harg3 arg4 harg4 arg5 harg5 arg6 harg6) K } := by
  refine ⟨?_, ?_, fun E K => ?run⟩
  case run =>
    simp only [cc1__wmm_kernel_eq_skeleton]; unfold cc1__wmm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.K.Wmm1.lean ====
import proofs.«108817_j44229573214371_2_alg».proof.Proof.K.Wmm1RunC

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when region 1 is entered: the parameter this region's half is stated at
variable (V : (c : Dev nD) → (b : Ref sig .tc) → Buf (Elt F) ((c : Thread nD τ).loc b))

/-! # Region 1: what each case leaves in the output's buffer and in the accumulator -/

/-- Where `k = 0` nothing is stored into output 3 (idle there, not written back): no pieces — a placeholder that
    nothing consults. -/
def out1_A_3 (c : Dev nD) (i : grid1.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : cond1_0 i) (hc1 : ¬cond1_1 i)
    (x0 : Vec F S1024x2048 .f32) (x1 : Vec F S2048x32 .f32) (x2 : Vec F S1024x1 .f32) : Vec F S1024x32 .f32 :=
  VO1_3.read (Elt F) (VO1_3.writes (Elt F) VO1_3.junk (kernelRun1_A c i arg2 harg2 arg3 harg3 arg4 harg4 arg5 harg5 arg6 harg6 hc0 hc1 x0 x1 x2).1)

/-- Where `k = 0` the accumulator's pieces (the zero store, then the sum's) tile it, so they cover it. -/
theorem scover1_A_0 (c : Dev nD) (i : grid1.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : cond1_0 i) (hc1 : ¬cond1_1 i)
    (x0 : Vec F S1024x2048 .f32) (x1 : Vec F S2048x32 .f32) (x2 : Vec F S1024x1 .f32) (y : S1024x32.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1024x32.size (by sl_kernel_rfl) y

/-- What the case `k = 0` leaves in the accumulator: its pieces read back. -/
def sout1_A_0 (c : Dev nD) (i : grid1.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : cond1_0 i) (hc1 : ¬cond1_1 i)
    (x0 : Vec F S1024x2048 .f32) (x1 : Vec F S2048x32 .f32) (x2 : Vec F S1024x1 .f32) : Vec F S1024x32 .f32 :=
  VS1_0.read (Elt F) (VS1_0.writes (Elt F) VS1_0.junk (kernelRun1_A c i arg2 harg2 arg3 harg3 arg4 harg4 arg5 harg5 arg6 harg6 hc0 hc1 x0 x1 x2).2.1)

/-- Where `k = 1, 2` nothing is stored into output 3: a placeholder that nothing consults. -/
def out1_B_3 (c : Dev nD) (i : grid1.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : ¬cond1_0 i) (hc1 : ¬cond1_1 i)
    (x0 : Vec F S1024x2048 .f32) (x1 : Vec F S2048x32 .f32) (x2 : Vec F S1024x1 .f32) (xs0 : Vec F S1024x32 .f32) : Vec F S1024x32 .f32 :=
  VO1_3.read (Elt F) (VO1_3.writes (Elt F) VO1_3.junk (kernelRun1_B c i arg2 harg2 arg3 harg3 arg4 harg4 arg5 harg5 arg6 harg6 hc0 hc1 x0 x1 x2 xs0).1)

/-- Where `k = 1, 2` the accumulator's one piece tiles it. -/
theorem scover1_B_0 (c : Dev nD) (i : grid1.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : ¬cond1_0 i) (hc1 : ¬cond1_1 i)
    (x0 : Vec F S1024x2048 .f32) (x1 : Vec F S2048x32 .f32) (x2 : Vec F S1024x1 .f32) (xs0 : Vec F S1024x32 .f32) (y : S1024x32.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1024x32.size (by sl_kernel_rfl) y

/-- What the case `k = 1, 2` leaves in the accumulator. -/
def sout1_B_0 (c : Dev nD) (i : grid1.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : ¬cond1_0 i) (hc1 : ¬cond1_1 i)
    (x0 : Vec F S1024x2048 .f32) (x1 : Vec F S2048x32 .f32) (x2 : Vec F S1024x1 .f32) (xs0 : Vec F S1024x32 .f32) : Vec F S1024x32 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- Where `k = 3` output 3's one store tiles its block, so it covers it. -/
theorem cover1_C_3 (c : Dev nD) (i : grid1.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : ¬cond1_0 i) (hc1 : cond1_1 i)
    (x0 : Vec F S1024x2048 .f32) (x1 : Vec F S2048x32 .f32) (x2 : Vec F S1024x1 .f32) (xs0 : Vec F S1024x32 .f32) (y : S1024x32.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1024x32.size (by sl_kernel_rfl) y

/-- What the case `k = 3` leaves in output 3's staging buffer: its pieces read back. -/
def out1_C_3 (c : Dev nD) (i : grid1.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : ¬cond1_0 i) (hc1 : cond1_1 i)
    (x0 : Vec F S1024x2048 .f32) (x1 : Vec F S2048x32 .f32) (x2 : Vec F S1024x1 .f32) (xs0 : Vec F S1024x32 .f32) : Vec F S1024x32 .f32 :=
  VO1_3.read (Elt F) (VO1_3.writes (Elt F) VO1_3.junk (kernelRun1_C c i arg2 harg2 arg3 harg3 arg4 harg4 arg5 harg5 arg6 harg6 hc0 hc1 x0 x1 x2 xs0).1)

/-- Where `k = 3` the accumulator's one piece tiles it. -/
theorem scover1_C_0 (c : Dev nD) (i : grid1.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : ¬cond1_0 i) (hc1 : cond1_1 i)
    (x0 : Vec F S1024x2048 .f32) (x1 : Vec F S2048x32 .f32) (x2 : Vec F S1024x1 .f32) (xs0 : Vec F S1024x32 .f32) (y : S1024x32.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1024x32.size (by sl_kernel_rfl) y

/-- What the case `k = 3` leaves in the accumulator. -/
def sout1_C_0 (c : Dev nD) (i : grid1.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : ¬cond1_0 i) (hc1 : cond1_1 i)
    (x0 : Vec F S1024x2048 .f32) (x1 : Vec F S2048x32 .f32) (x2 : Vec F S1024x1 .f32) (xs0 : Vec F S1024x32 .f32) : Vec F S1024x32 .f32 :=
  VS1_0.read (Elt F) (VS1_0.writes (Elt F) VS1_0.junk (kernelRun1_C c i arg2 harg2 arg3 harg3 arg4 harg4 arg5 harg5 arg6 harg6 hc0 hc1 x0 x1 x2 xs0).2.1)

/-! ## What the output's buffer and the accumulator hold after each point -/

/-- THE ACCUMULATION. What output 3's staging buffer (first component) and the accumulator (second) hold after the
    body at position `n`: the case the closed forms select at `n`, run at the point's memrefs and input blocks, the
    accumulator it reads at what this leaves at `n - 1`. An assignment of the conditions no point meets is no case. -/
def outsAt1 (c : Dev nD) : (n : ℕ) → n < cfg1.N → Vec F S1024x32 .f32 × Vec F S1024x32 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a point with `k = 0`: that case's contents. -/
theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a point with `k = 1, 2`: that case's contents, over what the point before left. -/
theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point with `k = 3`: that case's contents, over what the point before left. -/
theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scratch at anything);
    afterwards the accumulator at what the point before left in it, the other scoped buffers unopened, and the
    generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2)) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop(iprop(owns (c : Thread nD τ) scM1_0 fullShare ((outsAt1 V c n hn).2)) ∗ Pipeline.scopedRestBut (Ix := Unit) (Name := ℕ) (U := UR sig nD τ) (Lvl := ℕ) (Val := Elt F) spec1 c [cc1_scratch0]) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2)) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

/-- The proof data of pipeline 1 on core `c`: the arrays as the region finds them (`V`); after the body at point
    `t` each input's buffer at its block and the output's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

/-- The inputs' posts: never idle, so the buffer at its block. -/
theorem leaves1_0 (c : Dev nD) (t : Fin cfg1.N) :
    (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (ms1_2 t) fullShare (iblk1 V c 2 t) := by
  unfold Dat.leavesExact; rw [liveAt1_2 t, after1_2]

set_option maxHeartbeats 4800000 in
/-- The body at any point: the inputs' memrefs hold their blocks; the closed forms say which case the point is in; the
    invariant hands the body the accumulator at what the point before left (at anything at the first point), and takes
    it back at this point's contents; the other scoped buffers, the generator register and what the core owes pass
    through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2]
  have hN : t.val < 32 := lt_of_lt_of_eq t.isLt (show cfg1.N = 32 from N_1)
  by_cases h0 : t.val % 4 = 0
  · by_cases h1 : t.val % 4 = 3
    · exfalso; omega
    · rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, HR⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 4 = 3
    · rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      by_cases hz : t.val = 0
      · exfalso; omega
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_C_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_B_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's contents are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

/-- The same after the last point. -/
theorem hout1 (c : Dev nD) : (dat1 V c).Φ (Fin.last cfg1.N) ⊢ (Pipeline.ΦA spec1 c : sProp 𝕄) :=
  Phi_out1 V c _ (by rw [Fin.val_last]; have : cfg1.N = 32 := N_1; omega)

end Cert.Kernel.Hand

end
-- ==== Proof.K.Wmm3Runs.lean ====
import proofs.«108817_j44229573214371_2_alg».proof.Proof.Gen.Kernel.Launch
import proofs.«108817_j44229573214371_2_alg».proof.Proof.Gen.Kernel.Skeleton
import proofs.«108817_j44229573214371_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when region 3 is entered: the parameter this region's half is stated at
variable (V : (c : Dev nD) → (b : Ref sig .tc) → Buf (Elt F) ((c : Thread nD τ).loc b))

/-! # Region 3: the weighted matrix product with a carried accumulator, at the entry contents `V`

Grid (8,4), point `t` at coordinates `(i, k) = (t / 4, t % 4)`. The accumulator (a scoped scratch buffer) is
zeroed where `k = 0`, added to at every point and read back, scaled row by row, into the output where `k = 3`. -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s and whose body leaves the block in place: unfetched, the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The same for input window 1. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The same for input window 2 (fetched only where `k = 0`: at the other points its block index is the one before). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch conditions -/

/-- The condition of the body's first conditional (`k = 0`), from the grid coordinates. -/
abbrev cond3_0 (i : grid3.Coords) : Prop := (Scalar.cmpi .ne (Scalar.extui (Scalar.cmpi .eq (BitVec.ofNat 32 (i 1).val) 0#32)) 0#32) = 1#1
/-- It holds at the points ≡ 0 (mod 4) — decided over the grid. -/
theorem hcond3_0 : ∀ t : Fin cfg3.N, cond3_0 (grid3.coords t) ↔ t.val % 4 = 0 :=
  (by decide +kernel : ∀ t : Fin grid3.N, cond3_0 (grid3.coords t) ↔ t.val % 4 = 0)

/-- The condition of the body's second conditional (`k = 3`), from the grid coordinates. -/
abbrev cond3_1 (i : grid3.Coords) : Prop := k3_cond2 i = 1#1
/-- It holds at the points ≡ 3 (mod 4) — decided over the grid. -/
theorem hcond3_1 : ∀ t : Fin cfg3.N, cond3_1 (grid3.coords t) ↔ t.val % 4 = 3 :=
  (by decide +kernel : ∀ t : Fin grid3.N, cond3_1 (grid3.coords t) ↔ t.val % 4 = 3)

/-! ## Where the windows are idle -/

/-- Windows 0, 1, 2 are never idle (inputs). -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- Where `k = 0` output 3 is idle: nothing is stored into it, -/
theorem idleAt3_3_A : ∀ t : Fin cfg3.N, cond3_0 (grid3.coords t) → ¬cond3_1 (grid3.coords t) → cfg3.idle 3 (grid3.coords t) = true := by decide +kernel
/-- and its block is not written back. -/
theorem noFlush3_3_A : ∀ t : Fin cfg3.N, cond3_0 (grid3.coords t) → ¬cond3_1 (grid3.coords t) → (cfg3.win 3).flush t = false := by decide +kernel
/-- Where `k = 1, 2` output 3 is idle, -/
theorem idleAt3_3_B : ∀ t : Fin cfg3.N, ¬cond3_0 (grid3.coords t) → ¬cond3_1 (grid3.coords t) → cfg3.idle 3 (grid3.coords t) = true := by decide +kernel
/-- and its block is not written back. -/
theorem noFlush3_3_B : ∀ t : Fin cfg3.N, ¬cond3_0 (grid3.coords t) → ¬cond3_1 (grid3.coords t) → (cfg3.win 3).flush t = false := by decide +kernel
/-- Where `k = 3` output 3 is live: the body stores into it. -/
theorem liveAt3_3_C : ∀ t : Fin cfg3.N, ¬cond3_0 (grid3.coords t) → cond3_1 (grid3.coords t) → cfg3.idle 3 (grid3.coords t) = false := by decide +kernel

/-! ## The staging and scratch memrefs -/

/-- One staging buffer of output window 3, through which its contents are stated (the choice does not matter). -/
abbrev VO3_3 : View sig .tc .vmem S1024x32 .f32 := (Memref.whole cc3_stg3_0 : Memref sig .tc .vmem S1024x32 .f32).view
/-- Each window's current staging memref at point `t`, spelled as the pipeline passes it, and its wholeness. -/
abbrev ms3_0 (t : Fin cfg3.N) : Memref sig .tc .vmem S1024x2048 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x32 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x1 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x32 .f32 := win3_3.stage (cfg3.slots t 3)
abbrev hs3_3 (t : Fin cfg3.N) : (ms3_3 t).IsWhole := hstage3_3 ((cfg3.slots t 3).cast nbuf3_3)
/-- The scratch operand: a whole scoped buffer of the kernel's own, passed beside the windows. -/
abbrev scM3_0 : Memref sig .tc .vmem S1024x32 .f32 := Memref.whole cc3_scratch0
/-- The accumulator the kernel carries between points, as a view: what it holds is stated through it. -/
abbrev VS3_0 : View sig .tc .vmem S1024x32 .f32 := scM3_0.view

/-- The class invariant with the scratch operand as a memref owned at some contents, the rest of the scoped
    buffers unopened: what the body obligation hands the run and takes back. -/
theorem PhiA3_eq (c : Dev nD) :
    (Pipeline.ΦA spec3 c : sProp 𝕄)
      = iprop(iprop(iprop((∃ d, owns (c : Thread nD τ) scM3_0 fullShare d))
            ∗ Pipeline.scopedRestBut (Ix := Unit) (Name := ℕ) (U := UR sig nD τ) (Lvl := ℕ) (Val := Elt F) spec3 c [cc3_scratch0])
          ∗ (∃ r, prngReg c r)) := by
  unfold Pipeline.ΦA; rw [scopedRest3_split]; simp only [scM3_0, owns_whole]; try rfl

end Cert.Kernel.Hand

end
-- ==== Proof.K.Wmm3RunA.lean ====
import proofs.«108817_j44229573214371_2_alg».proof.Proof.K.Wmm3Runs

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref and in the accumulator, as pieces (last first), where
    `k = 0` (first conditional taken, second not), with the proof that on whole memrefs — the inputs' at their
    contents, the output's (idle here) at contents handed back untouched, the accumulator at anything — the body runs
    to the continuation holding the inputs' and the output's as they were and the accumulator with its pieces written. -/
noncomputable def kernelRun3_A (c : Dev nD) (i : grid3.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : cond3_0 i) (hc1 : ¬cond3_1 i)
    (x0 : Vec F S1024x2048 .f32) (x1 : Vec F S2048x32 .f32) (x2 : Vec F S1024x1 .f32) :
    Σ' (L3 : List (View.Piece (Elt F) S1024x32 .f32)), { LS0 : List (View.Piece (Elt F) S1024x32 .f32) //
      ∀ (xi3 : Vec F S1024x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__wmm_kernel i arg2 harg2 arg3 harg3 arg4 harg4 arg5 harg5 arg6 harg6) K } := by
  refine ⟨[], ?_, fun xi3 E K => ?run⟩
  case run =>
    simp only [cc3__wmm_kernel_eq_skeleton]; unfold cc3__wmm_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.Wmm3RunB.lean ====
import proofs.«108817_j44229573214371_2_alg».proof.Proof.K.Wmm3RunA

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- The same where `k = 1, 2` (neither conditional taken): the accumulator at the contents `xs0` the point before
    left; the output idle, handed back untouched. -/
noncomputable def kernelRun3_B (c : Dev nD) (i : grid3.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : ¬cond3_0 i) (hc1 : ¬cond3_1 i)
    (x0 : Vec F S1024x2048 .f32) (x1 : Vec F S2048x32 .f32) (x2 : Vec F S1024x1 .f32) (xs0 : Vec F S1024x32 .f32) :
    Σ' (L3 : List (View.Piece (Elt F) S1024x32 .f32)), { LS0 : List (View.Piece (Elt F) S1024x32 .f32) //
      ∀ (xi3 : Vec F S1024x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__wmm_kernel i arg2 harg2 arg3 harg3 arg4 harg4 arg5 harg5 arg6 harg6) K } := by
  refine ⟨[], ?_, fun xi3 E K => ?run⟩
  case run =>
    simp only [cc3__wmm_kernel_eq_skeleton]; unfold cc3__wmm_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.Wmm3RunC.lean ====
import proofs.«108817_j44229573214371_2_alg».proof.Proof.K.Wmm3RunB

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- The same where `k = 3` (first conditional not taken, second taken): the accumulator at the contents `xs0` the
    point before left; the output's buffer at anything, left with its pieces written. -/
noncomputable def kernelRun3_C (c : Dev nD) (i : grid3.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : ¬cond3_0 i) (hc1 : cond3_1 i)
    (x0 : Vec F S1024x2048 .f32) (x1 : Vec F S2048x32 .f32) (x2 : Vec F S1024x1 .f32) (xs0 : Vec F S1024x32 .f32) :
    Σ' (L3 : List (View.Piece (Elt F) S1024x32 .f32)), { LS0 : List (View.Piece (Elt F) S1024x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc3__wmm_kernel i arg2 harg2 arg3 harg3 arg4 harg4 arg5 harg5 arg6 harg6) K } := by
  refine ⟨?_, ?_, fun E K => ?run⟩
  case run =>
    simp only [cc3__wmm_kernel_eq_skeleton]; unfold cc3__wmm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.K.Wmm3.lean ====
import proofs.«108817_j44229573214371_2_alg».proof.Proof.K.Wmm3RunC

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when region 3 is entered: the parameter this region's half is stated at
variable (V : (c : Dev nD) → (b : Ref sig .tc) → Buf (Elt F) ((c : Thread nD τ).loc b))

/-! # Region 3: what each case leaves in the output's buffer and in the accumulator -/

/-- Where `k = 0` nothing is stored into output 3 (idle there, not written back): no pieces — a placeholder that
    nothing consults. -/
def out3_A_3 (c : Dev nD) (i : grid3.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : cond3_0 i) (hc1 : ¬cond3_1 i)
    (x0 : Vec F S1024x2048 .f32) (x1 : Vec F S2048x32 .f32) (x2 : Vec F S1024x1 .f32) : Vec F S1024x32 .f32 :=
  VO3_3.read (Elt F) (VO3_3.writes (Elt F) VO3_3.junk (kernelRun3_A c i arg2 harg2 arg3 harg3 arg4 harg4 arg5 harg5 arg6 harg6 hc0 hc1 x0 x1 x2).1)

/-- Where `k = 0` the accumulator's pieces (the zero store, then the sum's) tile it, so they cover it. -/
theorem scover3_A_0 (c : Dev nD) (i : grid3.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : cond3_0 i) (hc1 : ¬cond3_1 i)
    (x0 : Vec F S1024x2048 .f32) (x1 : Vec F S2048x32 .f32) (x2 : Vec F S1024x1 .f32) (y : S1024x32.Idx) :
    ∃ pc ∈ (kernelRun3_A c i arg2 harg2 arg3 harg3 arg4 harg4 arg5 harg5 arg6 harg6 hc0 hc1 x0 x1 x2).2.1, y ∈ pc.1.set :=
  View.cover_of_tiledL (kernelRun3_A c i arg2 harg2 arg3 harg3 arg4 harg4 arg5 harg5 arg6 harg6 hc0 hc1 x0 x1 x2).2.1 S1024x32.size (by sl_kernel_rfl) y

/-- What the case `k = 0` leaves in the accumulator: its pieces read back. -/
def sout3_A_0 (c : Dev nD) (i : grid3.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : cond3_0 i) (hc1 : ¬cond3_1 i)
    (x0 : Vec F S1024x2048 .f32) (x1 : Vec F S2048x32 .f32) (x2 : Vec F S1024x1 .f32) : Vec F S1024x32 .f32 :=
  VS3_0.read (Elt F) (VS3_0.writes (Elt F) VS3_0.junk (kernelRun3_A c i arg2 harg2 arg3 harg3 arg4 harg4 arg5 harg5 arg6 harg6 hc0 hc1 x0 x1 x2).2.1)

/-- Where `k = 1, 2` nothing is stored into output 3: a placeholder that nothing consults. -/
def out3_B_3 (c : Dev nD) (i : grid3.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : ¬cond3_0 i) (hc1 : ¬cond3_1 i)
    (x0 : Vec F S1024x2048 .f32) (x1 : Vec F S2048x32 .f32) (x2 : Vec F S1024x1 .f32) (xs0 : Vec F S1024x32 .f32) : Vec F S1024x32 .f32 :=
  VO3_3.read (Elt F) (VO3_3.writes (Elt F) VO3_3.junk (kernelRun3_B c i arg2 harg2 arg3 harg3 arg4 harg4 arg5 harg5 arg6 harg6 hc0 hc1 x0 x1 x2 xs0).1)

/-- Where `k = 1, 2` the accumulator's one piece tiles it. -/
theorem scover3_B_0 (c : Dev nD) (i : grid3.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : ¬cond3_0 i) (hc1 : ¬cond3_1 i)
    (x0 : Vec F S1024x2048 .f32) (x1 : Vec F S2048x32 .f32) (x2 : Vec F S1024x1 .f32) (xs0 : Vec F S1024x32 .f32) (y : S1024x32.Idx) :
    ∃ pc ∈ (kernelRun3_B c i arg2 harg2 arg3 harg3 arg4 harg4 arg5 harg5 arg6 harg6 hc0 hc1 x0 x1 x2 xs0).2.1, y ∈ pc.1.set :=
  View.cover_of_tiledL (kernelRun3_B c i arg2 harg2 arg3 harg3 arg4 harg4 arg5 harg5 arg6 harg6 hc0 hc1 x0 x1 x2 xs0).2.1 S1024x32.size (by sl_kernel_rfl) y

/-- What the case `k = 1, 2` leaves in the accumulator. -/
def sout3_B_0 (c : Dev nD) (i : grid3.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : ¬cond3_0 i) (hc1 : ¬cond3_1 i)
    (x0 : Vec F S1024x2048 .f32) (x1 : Vec F S2048x32 .f32) (x2 : Vec F S1024x1 .f32) (xs0 : Vec F S1024x32 .f32) : Vec F S1024x32 .f32 :=
  VS3_0.read (Elt F) (VS3_0.writes (Elt F) VS3_0.junk (kernelRun3_B c i arg2 harg2 arg3 harg3 arg4 harg4 arg5 harg5 arg6 harg6 hc0 hc1 x0 x1 x2 xs0).2.1)

/-- Where `k = 3` output 3's one store tiles its block, so it covers it. -/
theorem cover3_C_3 (c : Dev nD) (i : grid3.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : ¬cond3_0 i) (hc1 : cond3_1 i)
    (x0 : Vec F S1024x2048 .f32) (x1 : Vec F S2048x32 .f32) (x2 : Vec F S1024x1 .f32) (xs0 : Vec F S1024x32 .f32) (y : S1024x32.Idx) :
    ∃ pc ∈ (kernelRun3_C c i arg2 harg2 arg3 harg3 arg4 harg4 arg5 harg5 arg6 harg6 hc0 hc1 x0 x1 x2 xs0).1, y ∈ pc.1.set :=
  View.cover_of_tiledL (kernelRun3_C c i arg2 harg2 arg3 harg3 arg4 harg4 arg5 harg5 arg6 harg6 hc0 hc1 x0 x1 x2 xs0).1 S1024x32.size (by sl_kernel_rfl) y

/-- What the case `k = 3` leaves in output 3's staging buffer: its pieces read back. -/
def out3_C_3 (c : Dev nD) (i : grid3.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : ¬cond3_0 i) (hc1 : cond3_1 i)
    (x0 : Vec F S1024x2048 .f32) (x1 : Vec F S2048x32 .f32) (x2 : Vec F S1024x1 .f32) (xs0 : Vec F S1024x32 .f32) : Vec F S1024x32 .f32 :=
  VO3_3.read (Elt F) (VO3_3.writes (Elt F) VO3_3.junk (kernelRun3_C c i arg2 harg2 arg3 harg3 arg4 harg4 arg5 harg5 arg6 harg6 hc0 hc1 x0 x1 x2 xs0).1)

/-- Where `k = 3` the accumulator's one piece tiles it. -/
theorem scover3_C_0 (c : Dev nD) (i : grid3.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : ¬cond3_0 i) (hc1 : cond3_1 i)
    (x0 : Vec F S1024x2048 .f32) (x1 : Vec F S2048x32 .f32) (x2 : Vec F S1024x1 .f32) (xs0 : Vec F S1024x32 .f32) (y : S1024x32.Idx) :
    ∃ pc ∈ (kernelRun3_C c i arg2 harg2 arg3 harg3 arg4 harg4 arg5 harg5 arg6 harg6 hc0 hc1 x0 x1 x2 xs0).2.1, y ∈ pc.1.set :=
  View.cover_of_tiledL (kernelRun3_C c i arg2 harg2 arg3 harg3 arg4 harg4 arg5 harg5 arg6 harg6 hc0 hc1 x0 x1 x2 xs0).2.1 S1024x32.size (by sl_kernel_rfl) y

/-- What the case `k = 3` leaves in the accumulator. -/
def sout3_C_0 (c : Dev nD) (i : grid3.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : ¬cond3_0 i) (hc1 : cond3_1 i)
    (x0 : Vec F S1024x2048 .f32) (x1 : Vec F S2048x32 .f32) (x2 : Vec F S1024x1 .f32) (xs0 : Vec F S1024x32 .f32) : Vec F S1024x32 .f32 :=
  VS3_0.read (Elt F) (VS3_0.writes (Elt F) VS3_0.junk (kernelRun3_C c i arg2 harg2 arg3 harg3 arg4 harg4 arg5 harg5 arg6 harg6 hc0 hc1 x0 x1 x2 xs0).2.1)

/-! ## What the output's buffer and the accumulator hold after each point -/

/-- THE ACCUMULATION. What output 3's staging buffer (first component) and the accumulator (second) hold after the
    body at position `n`: the case the closed forms select at `n`, run at the point's memrefs and input blocks, the
    accumulator it reads at what this leaves at `n - 1`. An assignment of the conditions no point meets is no case. -/
def outsAt3 (c : Dev nD) : (n : ℕ) → n < cfg3.N → Vec F S1024x32 .f32 × Vec F S1024x32 .f32
  | 0, hn => (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩))
  | n + 1, hn =>
    if h0 : (n + 1) % 4 = 0 then
      if h1 : (n + 1) % 4 = 3 then
        False.elim (by omega)
      else
        (out3_A_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩))
    else
      if h1 : (n + 1) % 4 = 3 then
        (out3_C_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2)
      else
        (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2)

/-- `outsAt3` at a point with `k = 0`: that case's contents. -/
theorem outsAt3_A (c : Dev nD) (t : Fin cfg3.N) (h0 : t.val % 4 = 0) (h1 : ¬t.val % 4 = 3) :
    outsAt3 V c t.val t.isLt = (out3_A_3 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t), sout3_A_0 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t)) := by
  obtain ⟨n, hn⟩ := t
  cases n with
  | zero => exact rfl
  | succ n => exact (dif_pos h0).trans ((dif_neg h1).trans rfl)

/-- `outsAt3` at a point with `k = 1, 2`: that case's contents, over what the point before left. -/
theorem outsAt3_B (c : Dev nD) (t : Fin cfg3.N) (h0 : ¬t.val % 4 = 0) (h1 : ¬t.val % 4 = 3) :
    outsAt3 V c t.val t.isLt = (out3_B_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt3` at a point with `k = 3`: that case's contents, over what the point before left. -/
theorem outsAt3_C (c : Dev nD) (t : Fin cfg3.N) (h0 : ¬t.val % 4 = 0) (h1 : t.val % 4 = 3) :
    outsAt3 V c t.val t.isLt = (out3_C_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scratch at anything);
    afterwards the accumulator at what the point before left in it, the other scoped buffers unopened, and the
    generator register at some state. -/
def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2)) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

/-- After point `n` (before point `n + 1`): the accumulator at that point's contents. -/
theorem PhiS3_succ (c : Dev nD) (n : ℕ) (hn : n < cfg3.N) :
    PhiS3 V c (n + 1) hn = iprop(iprop(iprop(owns (c : Thread nD τ) scM3_0 fullShare ((outsAt3 V c n hn).2)) ∗ Pipeline.scopedRestBut (Ix := Unit) (Name := ℕ) (U := UR sig nD τ) (Lvl := ℕ) (Val := Elt F) spec3 c [cc3_scratch0]) ∗ (∃ r, prngReg c r)) := rfl

/-- Before a point that is not the first: the accumulator at what the point before left. -/
theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2)) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The pipeline's proof data -/

/-- The proof data of pipeline 3 on core `c`: the arrays as the region finds them (`V`); after the body at point
    `t` each input's buffer at its block and the output's at `outsAt3`'s first component; the invariant `PhiS3`;
    nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

/-- The proof data's arrays are the region-entry contents. -/
theorem A_eq3 (c : Dev nD) (w : Fin cfg3.W) : (dat3 V c).A w = V c (Pipeline.arrRef spec3 w) := by
  dsimp only [dat3]

/-- The invariant at a point's start, restated at `t.val`. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t` (the windows one by one), -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

/-- The inputs' posts: never idle, so the buffer at its block. -/
theorem leaves3_0 (c : Dev nD) (t : Fin cfg3.N) :
    (dat3 V c).leavesExact 0 t = owns (c : Thread nD τ) (ms3_0 t) fullShare (iblk3 V c 0 t) := by
  unfold Dat.leavesExact; rw [liveAt3_0 t, after3_0]
theorem leaves3_1 (c : Dev nD) (t : Fin cfg3.N) :
    (dat3 V c).leavesExact 1 t = owns (c : Thread nD τ) (ms3_1 t) fullShare (iblk3 V c 1 t) := by
  unfold Dat.leavesExact; rw [liveAt3_1 t, after3_1]
theorem leaves3_2 (c : Dev nD) (t : Fin cfg3.N) :
    (dat3 V c).leavesExact 2 t = owns (c : Thread nD τ) (ms3_2 t) fullShare (iblk3 V c 2 t) := by
  unfold Dat.leavesExact; rw [liveAt3_2 t, after3_2]

set_option maxHeartbeats 4800000 in
/-- The body at any point: the inputs' memrefs hold their blocks; the closed forms say which case the point is in; the
    invariant hands the body the accumulator at what the point before left (at anything at the first point), and takes
    it back at this point's contents; the other scoped buffers, the generator register and what the core owes pass
    through untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [leaves3_0, leaves3_1, leaves3_2]
  have hN : t.val < 32 := lt_of_lt_of_eq t.isLt (show cfg3.N = 32 from N_3)
  by_cases h0 : t.val % 4 = 0
  · by_cases h1 : t.val % 4 = 3
    · exfalso; omega
    · rw [Dat.leavesExact_idle (dat3 V c) 3 t (idleAt3_3_A t ((hcond3_0 t).mpr h0) (fun h => h1 ((hcond3_1 t).mp h))) (noFlush3_3_A t ((hcond3_0 t).mpr h0) (fun h => h1 ((hcond3_1 t).mp h)))]
      rw [outsAt3_A V c t h0 h1]
      unfold sout3_A_0; (try dsimp only)
      by_cases hz : t.val = 0
      · rw [PhiS3_castSucc V c t, PhiS3_zero V c _ _ hz, PhiA3_eq]
        iintro ⟨⟨⟨HS0, HR⟩, Hg⟩, Ho, ⟨%d0, H0⟩, ⟨%d1, H1⟩, ⟨%d2, H2⟩, ⟨%d3, H3⟩⟩
        iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS3_castSucc V c t, PhiS3_pos V c _ _ hz]
        iintro ⟨⟨⟨HS0, HR⟩, Hg⟩, Ho, ⟨%d0, H0⟩, ⟨%d1, H1⟩, ⟨%d2, H2⟩, ⟨%d3, H3⟩⟩
        iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 4 = 3
    · rw [show (dat3 V c).leavesExact 3 t = owns (c : Thread nD τ) (ms3_3 t) fullShare ((dat3 V c).after 3 t) from by
        unfold Dat.leavesExact; rw [liveAt3_3_C t (fun h => h0 ((hcond3_0 t).mp h)) ((hcond3_1 t).mpr h1)], after3_3]
      rw [outsAt3_C V c t h0 h1]
      unfold out3_C_3 sout3_C_0; (try dsimp only)
      by_cases hz : t.val = 0
      · exfalso; omega
      · rw [PhiS3_castSucc V c t, PhiS3_pos V c _ _ hz]
        iintro ⟨⟨⟨HS0, HR⟩, Hg⟩, Ho, ⟨%d0, H0⟩, ⟨%d1, H1⟩, ⟨%d2, H2⟩, ⟨%d3, H3⟩⟩
        iapply ((kernelRun3_C c (grid3.coords t) _ _ _ _ _ _ _ _ _ _ (fun h => h0 ((hcond3_0 t).mp h)) ((hcond3_1 t).mpr h1) (iblk3 V c 0 t) (iblk3 V c 1 t) (iblk3 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_C_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover3_C_3 c _ _ _ _ _ _ _ _ _ _ _ _ _ _ _ _ _)
    · rw [Dat.leavesExact_idle (dat3 V c) 3 t (idleAt3_3_B t (fun h => h0 ((hcond3_0 t).mp h)) (fun h => h1 ((hcond3_1 t).mp h))) (noFlush3_3_B t (fun h => h0 ((hcond3_0 t).mp h)) (fun h => h1 ((hcond3_1 t).mp h)))]
      rw [outsAt3_B V c t h0 h1]
      unfold sout3_B_0; (try dsimp only)
      by_cases hz : t.val = 0
      · exfalso; omega
      · rw [PhiS3_castSucc V c t, PhiS3_pos V c _ _ hz]
        iintro ⟨⟨⟨HS0, HR⟩, Hg⟩, Ho, ⟨%d0, H0⟩, ⟨%d1, H1⟩, ⟨%d2, H2⟩, ⟨%d3, H3⟩⟩
        iapply ((kernelRun3_B c (grid3.coords t) _ _ _ _ _ _ _ _ _ _ (fun h => h0 ((hcond3_0 t).mp h)) (fun h => h1 ((hcond3_1 t).mp h)) (iblk3 V c 0 t) (iblk3 V c 1 t) (iblk3 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_B_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : (Pipeline.ΦA spec3 c : sProp 𝕄) ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the class's back: the accumulator's contents are forgotten. -/
theorem Phi_out3 (c : Dev nD) (t : Fin (cfg3.N + 1)) (ht : t.val ≠ 0) : (dat3 V c).Φ t ⊢ (Pipeline.ΦA spec3 c : sProp 𝕄) := by
  rw [show (dat3 V c).Φ t = PhiS3 V c t.val (Nat.le_of_lt_succ t.isLt) from rfl, PhiS3_pos V c _ _ ht, PhiA3_eq]
  iintro ⟨⟨HS0, HR⟩, Hg⟩
  isplitl [HS0 HR]
  · isplitl [HS0]
    · iexists _; iexact HS0
    iexact HR
  iexact Hg

/-- The same after the last point. -/
theorem hout3 (c : Dev nD) : (dat3 V c).Φ (Fin.last cfg3.N) ⊢ (Pipeline.ΦA spec3 c : sProp 𝕄) :=
  Phi_out3 V c _ (by rw [Fin.val_last]; have : cfg3.N = 32 := N_3; omega)

end Cert.Kernel.Hand

end
-- ==== Proof.K.Wmm5Runs.lean ====
import proofs.«108817_j44229573214371_2_alg».proof.Proof.Gen.Kernel.Launch
import proofs.«108817_j44229573214371_2_alg».proof.Proof.Gen.Kernel.Skeleton
import proofs.«108817_j44229573214371_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when region 5 is entered: the parameter this region's half is stated at
variable (V : (c : Dev nD) → (b : Ref sig .tc) → Buf (Elt F) ((c : Thread nD τ).loc b))

/-! # Region 5: the weighted matrix product with a carried accumulator, at the entry contents `V`

Grid (8,4), point `t` at coordinates `(i, k) = (t / 4, t % 4)`. The accumulator (a scoped scratch buffer) is
zeroed where `k = 0`, added to at every point and read back, scaled row by row, into the output where `k = 3`. -/

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s and whose body leaves the block in place: unfetched, the block index has not moved. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The same for input window 1. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The same for input window 2 (fetched only where `k = 0`: at the other points its block index is the one before). -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's branch conditions -/

/-- The condition of the body's first conditional (`k = 0`), from the grid coordinates. -/
abbrev cond5_0 (i : grid5.Coords) : Prop := (Scalar.cmpi .ne (Scalar.extui (Scalar.cmpi .eq (BitVec.ofNat 32 (i 1).val) 0#32)) 0#32) = 1#1
/-- It holds at the points ≡ 0 (mod 4) — decided over the grid. -/
theorem hcond5_0 : ∀ t : Fin cfg5.N, cond5_0 (grid5.coords t) ↔ t.val % 4 = 0 :=
  (by decide +kernel : ∀ t : Fin grid5.N, cond5_0 (grid5.coords t) ↔ t.val % 4 = 0)

/-- The condition of the body's second conditional (`k = 3`), from the grid coordinates. -/
abbrev cond5_1 (i : grid5.Coords) : Prop := k5_cond2 i = 1#1
/-- It holds at the points ≡ 3 (mod 4) — decided over the grid. -/
theorem hcond5_1 : ∀ t : Fin cfg5.N, cond5_1 (grid5.coords t) ↔ t.val % 4 = 3 :=
  (by decide +kernel : ∀ t : Fin grid5.N, cond5_1 (grid5.coords t) ↔ t.val % 4 = 3)

/-! ## Where the windows are idle -/

/-- Windows 0, 1, 2 are never idle (inputs). -/
theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
/-- Where `k = 0` output 3 is idle: nothing is stored into it, -/
theorem idleAt5_3_A : ∀ t : Fin cfg5.N, cond5_0 (grid5.coords t) → ¬cond5_1 (grid5.coords t) → cfg5.idle 3 (grid5.coords t) = true := by decide +kernel
/-- and its block is not written back. -/
theorem noFlush5_3_A : ∀ t : Fin cfg5.N, cond5_0 (grid5.coords t) → ¬cond5_1 (grid5.coords t) → (cfg5.win 3).flush t = false := by decide +kernel
/-- Where `k = 1, 2` output 3 is idle, -/
theorem idleAt5_3_B : ∀ t : Fin cfg5.N, ¬cond5_0 (grid5.coords t) → ¬cond5_1 (grid5.coords t) → cfg5.idle 3 (grid5.coords t) = true := by decide +kernel
/-- and its block is not written back. -/
theorem noFlush5_3_B : ∀ t : Fin cfg5.N, ¬cond5_0 (grid5.coords t) → ¬cond5_1 (grid5.coords t) → (cfg5.win 3).flush t = false := by decide +kernel
/-- Where `k = 3` output 3 is live: the body stores into it. -/
theorem liveAt5_3_C : ∀ t : Fin cfg5.N, ¬cond5_0 (grid5.coords t) → cond5_1 (grid5.coords t) → cfg5.idle 3 (grid5.coords t) = false := by decide +kernel

/-! ## The staging and scratch memrefs -/

/-- One staging buffer of output window 3, through which its contents are stated (the choice does not matter). -/
abbrev VO5_3 : View sig .tc .vmem S1024x32 .f32 := (Memref.whole cc5_stg3_0 : Memref sig .tc .vmem S1024x32 .f32).view
/-- Each window's current staging memref at point `t`, spelled as the pipeline passes it, and its wholeness. -/
abbrev ms5_0 (t : Fin cfg5.N) : Memref sig .tc .vmem S1024x2048 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S2048x32 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1024x1 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1024x32 .f32 := win5_3.stage (cfg5.slots t 3)
abbrev hs5_3 (t : Fin cfg5.N) : (ms5_3 t).IsWhole := hstage5_3 ((cfg5.slots t 3).cast nbuf5_3)
/-- The scratch operand: a whole scoped buffer of the kernel's own, passed beside the windows. -/
abbrev scM5_0 : Memref sig .tc .vmem S1024x32 .f32 := Memref.whole cc5_scratch0
/-- The accumulator the kernel carries between points, as a view: what it holds is stated through it. -/
abbrev VS5_0 : View sig .tc .vmem S1024x32 .f32 := scM5_0.view

/-- The class invariant with the scratch operand as a memref owned at some contents, the rest of the scoped
    buffers unopened: what the body obligation hands the run and takes back. -/
theorem PhiA5_eq (c : Dev nD) :
    (Pipeline.ΦA spec5 c : sProp 𝕄)
      = iprop(iprop(iprop((∃ d, owns (c : Thread nD τ) scM5_0 fullShare d))
            ∗ Pipeline.scopedRestBut (Ix := Unit) (Name := ℕ) (U := UR sig nD τ) (Lvl := ℕ) (Val := Elt F) spec5 c [cc5_scratch0])
          ∗ (∃ r, prngReg c r)) := by
  unfold Pipeline.ΦA; rw [scopedRest5_split]; simp only [scM5_0, owns_whole]; try rfl

end Cert.Kernel.Hand

end
-- ==== Proof.K.Wmm5RunA.lean ====
import proofs.«108817_j44229573214371_2_alg».proof.Proof.K.Wmm5Runs

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref and in the accumulator, as pieces (last first), where
    `k = 0` (first conditional taken, second not), with the proof that on whole memrefs — the inputs' at their
    contents, the output's (idle here) at contents handed back untouched, the accumulator at anything — the body runs
    to the continuation holding the inputs' and the output's as they were and the accumulator with its pieces written. -/
noncomputable def kernelRun5_A (c : Dev nD) (i : grid5.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : cond5_0 i) (hc1 : ¬cond5_1 i)
    (x0 : Vec F S1024x2048 .f32) (x1 : Vec F S2048x32 .f32) (x2 : Vec F S1024x1 .f32) :
    Σ' (L3 : List (View.Piece (Elt F) S1024x32 .f32)), { LS0 : List (View.Piece (Elt F) S1024x32 .f32) //
      ∀ (xi3 : Vec F S1024x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc5__wmm_kernel i arg2 harg2 arg3 harg3 arg4 harg4 arg5 harg5 arg6 harg6) K } := by
  refine ⟨[], ?_, fun xi3 E K => ?run⟩
  case run =>
    simp only [cc5__wmm_kernel_eq_skeleton]; unfold cc5__wmm_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.Wmm5RunB.lean ====
import proofs.«108817_j44229573214371_2_alg».proof.Proof.K.Wmm5RunA

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- The same where `k = 1, 2` (neither conditional taken): the accumulator at the contents `xs0` the point before
    left; the output idle, handed back untouched. -/
noncomputable def kernelRun5_B (c : Dev nD) (i : grid5.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : ¬cond5_0 i) (hc1 : ¬cond5_1 i)
    (x0 : Vec F S1024x2048 .f32) (x1 : Vec F S2048x32 .f32) (x2 : Vec F S1024x1 .f32) (xs0 : Vec F S1024x32 .f32) :
    Σ' (L3 : List (View.Piece (Elt F) S1024x32 .f32)), { LS0 : List (View.Piece (Elt F) S1024x32 .f32) //
      ∀ (xi3 : Vec F S1024x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc5__wmm_kernel i arg2 harg2 arg3 harg3 arg4 harg4 arg5 harg5 arg6 harg6) K } := by
  refine ⟨[], ?_, fun xi3 E K => ?run⟩
  case run =>
    simp only [cc5__wmm_kernel_eq_skeleton]; unfold cc5__wmm_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.Wmm5RunC.lean ====
import proofs.«108817_j44229573214371_2_alg».proof.Proof.K.Wmm5RunB

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- The same where `k = 3` (first conditional not taken, second taken): the accumulator at the contents `xs0` the
    point before left; the output's buffer at anything, left with its pieces written. -/
noncomputable def kernelRun5_C (c : Dev nD) (i : grid5.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : ¬cond5_0 i) (hc1 : cond5_1 i)
    (x0 : Vec F S1024x2048 .f32) (x1 : Vec F S2048x32 .f32) (x2 : Vec F S1024x1 .f32) (xs0 : Vec F S1024x32 .f32) :
    Σ' (L3 : List (View.Piece (Elt F) S1024x32 .f32)), { LS0 : List (View.Piece (Elt F) S1024x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc5__wmm_kernel i arg2 harg2 arg3 harg3 arg4 harg4 arg5 harg5 arg6 harg6) K } := by
  refine ⟨?_, ?_, fun E K => ?run⟩
  case run =>
    simp only [cc5__wmm_kernel_eq_skeleton]; unfold cc5__wmm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.K.Wmm5.lean ====
import proofs.«108817_j44229573214371_2_alg».proof.Proof.K.Wmm5RunC

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when region 5 is entered: the parameter this region's half is stated at
variable (V : (c : Dev nD) → (b : Ref sig .tc) → Buf (Elt F) ((c : Thread nD τ).loc b))

/-! # Region 5: what each case leaves in the output's buffer and in the accumulator -/

/-- Where `k = 0` nothing is stored into output 3 (idle there, not written back): no pieces — a placeholder that
    nothing consults. -/
def out5_A_3 (c : Dev nD) (i : grid5.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : cond5_0 i) (hc1 : ¬cond5_1 i)
    (x0 : Vec F S1024x2048 .f32) (x1 : Vec F S2048x32 .f32) (x2 : Vec F S1024x1 .f32) : Vec F S1024x32 .f32 :=
  VO5_3.read (Elt F) (VO5_3.writes (Elt F) VO5_3.junk (kernelRun5_A c i arg2 harg2 arg3 harg3 arg4 harg4 arg5 harg5 arg6 harg6 hc0 hc1 x0 x1 x2).1)

/-- Where `k = 0` the accumulator's pieces (the zero store, then the sum's) tile it, so they cover it. -/
theorem scover5_A_0 (c : Dev nD) (i : grid5.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : cond5_0 i) (hc1 : ¬cond5_1 i)
    (x0 : Vec F S1024x2048 .f32) (x1 : Vec F S2048x32 .f32) (x2 : Vec F S1024x1 .f32) (y : S1024x32.Idx) :
    ∃ pc ∈ (kernelRun5_A c i arg2 harg2 arg3 harg3 arg4 harg4 arg5 harg5 arg6 harg6 hc0 hc1 x0 x1 x2).2.1, y ∈ pc.1.set :=
  View.cover_of_tiledL (kernelRun5_A c i arg2 harg2 arg3 harg3 arg4 harg4 arg5 harg5 arg6 harg6 hc0 hc1 x0 x1 x2).2.1 S1024x32.size (by sl_kernel_rfl) y

/-- What the case `k = 0` leaves in the accumulator: its pieces read back. -/
def sout5_A_0 (c : Dev nD) (i : grid5.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : cond5_0 i) (hc1 : ¬cond5_1 i)
    (x0 : Vec F S1024x2048 .f32) (x1 : Vec F S2048x32 .f32) (x2 : Vec F S1024x1 .f32) : Vec F S1024x32 .f32 :=
  VS5_0.read (Elt F) (VS5_0.writes (Elt F) VS5_0.junk (kernelRun5_A c i arg2 harg2 arg3 harg3 arg4 harg4 arg5 harg5 arg6 harg6 hc0 hc1 x0 x1 x2).2.1)

/-- Where `k = 1, 2` nothing is stored into output 3: a placeholder that nothing consults. -/
def out5_B_3 (c : Dev nD) (i : grid5.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : ¬cond5_0 i) (hc1 : ¬cond5_1 i)
    (x0 : Vec F S1024x2048 .f32) (x1 : Vec F S2048x32 .f32) (x2 : Vec F S1024x1 .f32) (xs0 : Vec F S1024x32 .f32) : Vec F S1024x32 .f32 :=
  VO5_3.read (Elt F) (VO5_3.writes (Elt F) VO5_3.junk (kernelRun5_B c i arg2 harg2 arg3 harg3 arg4 harg4 arg5 harg5 arg6 harg6 hc0 hc1 x0 x1 x2 xs0).1)

/-- Where `k = 1, 2` the accumulator's one piece tiles it. -/
theorem scover5_B_0 (c : Dev nD) (i : grid5.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : ¬cond5_0 i) (hc1 : ¬cond5_1 i)
    (x0 : Vec F S1024x2048 .f32) (x1 : Vec F S2048x32 .f32) (x2 : Vec F S1024x1 .f32) (xs0 : Vec F S1024x32 .f32) (y : S1024x32.Idx) :
    ∃ pc ∈ (kernelRun5_B c i arg2 harg2 arg3 harg3 arg4 harg4 arg5 harg5 arg6 harg6 hc0 hc1 x0 x1 x2 xs0).2.1, y ∈ pc.1.set :=
  View.cover_of_tiledL (kernelRun5_B c i arg2 harg2 arg3 harg3 arg4 harg4 arg5 harg5 arg6 harg6 hc0 hc1 x0 x1 x2 xs0).2.1 S1024x32.size (by sl_kernel_rfl) y

/-- What the case `k = 1, 2` leaves in the accumulator. -/
def sout5_B_0 (c : Dev nD) (i : grid5.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : ¬cond5_0 i) (hc1 : ¬cond5_1 i)
    (x0 : Vec F S1024x2048 .f32) (x1 : Vec F S2048x32 .f32) (x2 : Vec F S1024x1 .f32) (xs0 : Vec F S1024x32 .f32) : Vec F S1024x32 .f32 :=
  VS5_0.read (Elt F) (VS5_0.writes (Elt F) VS5_0.junk (kernelRun5_B c i arg2 harg2 arg3 harg3 arg4 harg4 arg5 harg5 arg6 harg6 hc0 hc1 x0 x1 x2 xs0).2.1)

/-- Where `k = 3` output 3's one store tiles its block, so it covers it. -/
theorem cover5_C_3 (c : Dev nD) (i : grid5.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : ¬cond5_0 i) (hc1 : cond5_1 i)
    (x0 : Vec F S1024x2048 .f32) (x1 : Vec F S2048x32 .f32) (x2 : Vec F S1024x1 .f32) (xs0 : Vec F S1024x32 .f32) (y : S1024x32.Idx) :
    ∃ pc ∈ (kernelRun5_C c i arg2 harg2 arg3 harg3 arg4 harg4 arg5 harg5 arg6 harg6 hc0 hc1 x0 x1 x2 xs0).1, y ∈ pc.1.set :=
  View.cover_of_tiledL (kernelRun5_C c i arg2 harg2 arg3 harg3 arg4 harg4 arg5 harg5 arg6 harg6 hc0 hc1 x0 x1 x2 xs0).1 S1024x32.size (by sl_kernel_rfl) y

/-- What the case `k = 3` leaves in output 3's staging buffer: its pieces read back. -/
def out5_C_3 (c : Dev nD) (i : grid5.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : ¬cond5_0 i) (hc1 : cond5_1 i)
    (x0 : Vec F S1024x2048 .f32) (x1 : Vec F S2048x32 .f32) (x2 : Vec F S1024x1 .f32) (xs0 : Vec F S1024x32 .f32) : Vec F S1024x32 .f32 :=
  VO5_3.read (Elt F) (VO5_3.writes (Elt F) VO5_3.junk (kernelRun5_C c i arg2 harg2 arg3 harg3 arg4 harg4 arg5 harg5 arg6 harg6 hc0 hc1 x0 x1 x2 xs0).1)

/-- Where `k = 3` the accumulator's one piece tiles it. -/
theorem scover5_C_0 (c : Dev nD) (i : grid5.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : ¬cond5_0 i) (hc1 : cond5_1 i)
    (x0 : Vec F S1024x2048 .f32) (x1 : Vec F S2048x32 .f32) (x2 : Vec F S1024x1 .f32) (xs0 : Vec F S1024x32 .f32) (y : S1024x32.Idx) :
    ∃ pc ∈ (kernelRun5_C c i arg2 harg2 arg3 harg3 arg4 harg4 arg5 harg5 arg6 harg6 hc0 hc1 x0 x1 x2 xs0).2.1, y ∈ pc.1.set :=
  View.cover_of_tiledL (kernelRun5_C c i arg2 harg2 arg3 harg3 arg4 harg4 arg5 harg5 arg6 harg6 hc0 hc1 x0 x1 x2 xs0).2.1 S1024x32.size (by sl_kernel_rfl) y

/-- What the case `k = 3` leaves in the accumulator. -/
def sout5_C_0 (c : Dev nD) (i : grid5.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : ¬cond5_0 i) (hc1 : cond5_1 i)
    (x0 : Vec F S1024x2048 .f32) (x1 : Vec F S2048x32 .f32) (x2 : Vec F S1024x1 .f32) (xs0 : Vec F S1024x32 .f32) : Vec F S1024x32 .f32 :=
  VS5_0.read (Elt F) (VS5_0.writes (Elt F) VS5_0.junk (kernelRun5_C c i arg2 harg2 arg3 harg3 arg4 harg4 arg5 harg5 arg6 harg6 hc0 hc1 x0 x1 x2 xs0).2.1)

/-! ## What the output's buffer and the accumulator hold after each point -/

/-- THE ACCUMULATION. What output 3's staging buffer (first component) and the accumulator (second) hold after the
    body at position `n`: the case the closed forms select at `n`, run at the point's memrefs and input blocks, the
    accumulator it reads at what this leaves at `n - 1`. An assignment of the conditions no point meets is no case. -/
def outsAt5 (c : Dev nD) : (n : ℕ) → n < cfg5.N → Vec F S1024x32 .f32 × Vec F S1024x32 .f32
  | 0, hn => (out5_A_3 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩), sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩))
  | n + 1, hn =>
    if h0 : (n + 1) % 4 = 0 then
      if h1 : (n + 1) % 4 = 3 then
        False.elim (by omega)
      else
        (out5_A_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩), sout5_A_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩))
    else
      if h1 : (n + 1) % 4 = 3 then
        (out5_C_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (outsAt5 c n (Nat.lt_of_succ_lt hn)).2, sout5_C_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (outsAt5 c n (Nat.lt_of_succ_lt hn)).2)
      else
        (out5_B_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (outsAt5 c n (Nat.lt_of_succ_lt hn)).2, sout5_B_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (outsAt5 c n (Nat.lt_of_succ_lt hn)).2)

/-- `outsAt5` at a point with `k = 0`: that case's contents. -/
theorem outsAt5_A (c : Dev nD) (t : Fin cfg5.N) (h0 : t.val % 4 = 0) (h1 : ¬t.val % 4 = 3) :
    outsAt5 V c t.val t.isLt = (out5_A_3 c (grid5.coords t) (ms5_0 t) (hs5_0 t) (ms5_1 t) (hs5_1 t) (ms5_2 t) (hs5_2 t) (ms5_3 t) (hs5_3 t) scM5_0 (Memref.isWhole_whole _) ((hcond5_0 t).mpr h0) (fun h => h1 ((hcond5_1 t).mp h)) (iblk5 V c 0 t) (iblk5 V c 1 t) (iblk5 V c 2 t), sout5_A_0 c (grid5.coords t) (ms5_0 t) (hs5_0 t) (ms5_1 t) (hs5_1 t) (ms5_2 t) (hs5_2 t) (ms5_3 t) (hs5_3 t) scM5_0 (Memref.isWhole_whole _) ((hcond5_0 t).mpr h0) (fun h => h1 ((hcond5_1 t).mp h)) (iblk5 V c 0 t) (iblk5 V c 1 t) (iblk5 V c 2 t)) := by
  obtain ⟨n, hn⟩ := t
  cases n with
  | zero => exact rfl
  | succ n => exact (dif_pos h0).trans ((dif_neg h1).trans rfl)

/-- `outsAt5` at a point with `k = 1, 2`: that case's contents, over what the point before left. -/
theorem outsAt5_B (c : Dev nD) (t : Fin cfg5.N) (h0 : ¬t.val % 4 = 0) (h1 : ¬t.val % 4 = 3) :
    outsAt5 V c t.val t.isLt = (out5_B_3 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) (fun h => h1 ((hcond5_1 t).mp h)) (iblk5 V c 0 t) (iblk5 V c 1 t) (iblk5 V c 2 t) (outsAt5 V c (t.val - 1) (Nat.lt_of_le_of_lt (Nat.sub_le _ _) t.isLt)).2, sout5_B_0 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) (fun h => h1 ((hcond5_1 t).mp h)) (iblk5 V c 0 t) (iblk5 V c 1 t) (iblk5 V c 2 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt5` at a point with `k = 3`: that case's contents, over what the point before left. -/
theorem outsAt5_C (c : Dev nD) (t : Fin cfg5.N) (h0 : ¬t.val % 4 = 0) (h1 : t.val % 4 = 3) :
    outsAt5 V c t.val t.isLt = (out5_C_3 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (iblk5 V c 2 t) (outsAt5 V c (t.val - 1) (Nat.lt_of_le_of_lt (Nat.sub_le _ _) t.isLt)).2, sout5_C_0 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (iblk5 V c 2 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scratch at anything);
    afterwards the accumulator at what the point before left in it, the other scoped buffers unopened, and the
    generator register at some state. -/
def PhiS5 (c : Dev nD) : (n : ℕ) → n ≤ cfg5.N → sProp 𝕄
  | 0, _ => Pipeline.ΦA spec5 c
  | n + 1, hn => iprop(iprop(iprop(owns (c : Thread nD τ) scM5_0 fullShare ((outsAt5 V c n hn).2)) ∗ Pipeline.scopedRestBut (Ix := Unit) (Name := ℕ) (U := UR sig nD τ) (Lvl := ℕ) (Val := Elt F) spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl

/-- After point `n` (before point `n + 1`): the accumulator at that point's contents. -/
theorem PhiS5_succ (c : Dev nD) (n : ℕ) (hn : n < cfg5.N) :
    PhiS5 V c (n + 1) hn = iprop(iprop(iprop(owns (c : Thread nD τ) scM5_0 fullShare ((outsAt5 V c n hn).2)) ∗ Pipeline.scopedRestBut (Ix := Unit) (Name := ℕ) (U := UR sig nD τ) (Lvl := ℕ) (Val := Elt F) spec5 c [cc5_scratch0]) ∗ (∃ r, prngReg c r)) := rfl

/-- Before a point that is not the first: the accumulator at what the point before left. -/
theorem PhiS5_pos (c : Dev nD) (n : ℕ) (h : n ≤ cfg5.N) (hz : n ≠ 0) :
    PhiS5 V c n h = iprop(iprop(iprop(owns (c : Thread nD τ) scM5_0 fullShare ((outsAt5 V c (n - 1) (by omega)).2)) ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

/-! ## The pipeline's proof data -/

/-- The proof data of pipeline 5 on core `c`: the arrays as the region finds them (`V`); after the body at point
    `t` each input's buffer at its block and the output's at `outsAt5`'s first component; the invariant `PhiS5`;
    nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt).1
  Φ t := PhiS5 V c t.val (Nat.le_of_lt_succ t.isLt)
  q _ := fullShare
  owed _ := 0

/-- The proof data's arrays are the region-entry contents. -/
theorem A_eq5 (c : Dev nD) (w : Fin cfg5.W) : (dat5 V c).A w = V c (Pipeline.arrRef spec5 w) := by
  dsimp only [dat5]

/-- The invariant at a point's start, restated at `t.val`. -/
theorem PhiS5_castSucc (c : Dev nD) (t : Fin cfg5.N) :
    (dat5 V c).Φ t.castSucc = PhiS5 V c t.val (Nat.le_of_lt t.isLt) := by
  dsimp only [dat5]; simp only [Fin.coe_castSucc]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = (outsAt5 V c t.val t.isLt).1 := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t` (the windows one by one), -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

/-- The inputs' posts: never idle, so the buffer at its block. -/
theorem leaves5_0 (c : Dev nD) (t : Fin cfg5.N) :
    (dat5 V c).leavesExact 0 t = owns (c : Thread nD τ) (ms5_0 t) fullShare (iblk5 V c 0 t) := by
  unfold Dat.leavesExact; rw [liveAt5_0 t, after5_0]
theorem leaves5_1 (c : Dev nD) (t : Fin cfg5.N) :
    (dat5 V c).leavesExact 1 t = owns (c : Thread nD τ) (ms5_1 t) fullShare (iblk5 V c 1 t) := by
  unfold Dat.leavesExact; rw [liveAt5_1 t, after5_1]
theorem leaves5_2 (c : Dev nD) (t : Fin cfg5.N) :
    (dat5 V c).leavesExact 2 t = owns (c : Thread nD τ) (ms5_2 t) fullShare (iblk5 V c 2 t) := by
  unfold Dat.leavesExact; rw [liveAt5_2 t, after5_2]

set_option maxHeartbeats 4800000 in
/-- The body at any point: the inputs' memrefs hold their blocks; the closed forms say which case the point is in; the
    invariant hands the body the accumulator at what the point before left (at anything at the first point), and takes
    it back at this point's contents; the other scoped buffers, the generator register and what the core owes pass
    through untouched. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [show (dat5 V c).Φ t.succ = PhiS5 V c (t.val + 1) t.isLt from rfl, PhiS5_succ]
  rw [leaves5_0, leaves5_1, leaves5_2]
  have hN : t.val < 32 := lt_of_lt_of_eq t.isLt (show cfg5.N = 32 from N_5)
  by_cases h0 : t.val % 4 = 0
  · by_cases h1 : t.val % 4 = 3
    · exfalso; omega
    · rw [Dat.leavesExact_idle (dat5 V c) 3 t (idleAt5_3_A t ((hcond5_0 t).mpr h0) (fun h => h1 ((hcond5_1 t).mp h))) (noFlush5_3_A t ((hcond5_0 t).mpr h0) (fun h => h1 ((hcond5_1 t).mp h)))]
      rw [outsAt5_A V c t h0 h1]
      unfold sout5_A_0; (try dsimp only)
      by_cases hz : t.val = 0
      · rw [PhiS5_castSucc V c t, PhiS5_zero V c _ _ hz, PhiA5_eq]
        iintro ⟨⟨⟨HS0, HR⟩, Hg⟩, Ho, ⟨%d0, H0⟩, ⟨%d1, H1⟩, ⟨%d2, H2⟩, ⟨%d3, H3⟩⟩
        iapply ((kernelRun5_A c (grid5.coords t) _ _ _ _ _ _ _ _ _ _ ((hcond5_0 t).mpr h0) (fun h => h1 ((hcond5_1 t).mp h)) (iblk5 V c 0 t) (iblk5 V c 1 t) (iblk5 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover5_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS5_castSucc V c t, PhiS5_pos V c _ _ hz]
        iintro ⟨⟨⟨HS0, HR⟩, Hg⟩, Ho, ⟨%d0, H0⟩, ⟨%d1, H1⟩, ⟨%d2, H2⟩, ⟨%d3, H3⟩⟩
        iapply ((kernelRun5_A c (grid5.coords t) _ _ _ _ _ _ _ _ _ _ ((hcond5_0 t).mpr h0) (fun h => h1 ((hcond5_1 t).mp h)) (iblk5 V c 0 t) (iblk5 V c 1 t) (iblk5 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover5_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 4 = 3
    · rw [show (dat5 V c).leavesExact 3 t = owns (c : Thread nD τ) (ms5_3 t) fullShare ((dat5 V c).after 3 t) from by
        unfold Dat.leavesExact; rw [liveAt5_3_C t (fun h => h0 ((hcond5_0 t).mp h)) ((hcond5_1 t).mpr h1)], after5_3]
      rw [outsAt5_C V c t h0 h1]
      unfold out5_C_3 sout5_C_0; (try dsimp only)
      by_cases hz : t.val = 0
      · exfalso; omega
      · rw [PhiS5_castSucc V c t, PhiS5_pos V c _ _ hz]
        iintro ⟨⟨⟨HS0, HR⟩, Hg⟩, Ho, ⟨%d0, H0⟩, ⟨%d1, H1⟩, ⟨%d2, H2⟩, ⟨%d3, H3⟩⟩
        iapply ((kernelRun5_C c (grid5.coords t) _ _ _ _ _ _ _ _ _ _ (fun h => h0 ((hcond5_0 t).mp h)) ((hcond5_1 t).mpr h1) (iblk5 V c 0 t) (iblk5 V c 1 t) (iblk5 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover5_C_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover5_C_3 c _ _ _ _ _ _ _ _ _ _ _ _ _ _ _ _ _)
    · rw [Dat.leavesExact_idle (dat5 V c) 3 t (idleAt5_3_B t (fun h => h0 ((hcond5_0 t).mp h)) (fun h => h1 ((hcond5_1 t).mp h))) (noFlush5_3_B t (fun h => h0 ((hcond5_0 t).mp h)) (fun h => h1 ((hcond5_1 t).mp h)))]
      rw [outsAt5_B V c t h0 h1]
      unfold sout5_B_0; (try dsimp only)
      by_cases hz : t.val = 0
      · exfalso; omega
      · rw [PhiS5_castSucc V c t, PhiS5_pos V c _ _ hz]
        iintro ⟨⟨⟨HS0, HR⟩, Hg⟩, Ho, ⟨%d0, H0⟩, ⟨%d1, H1⟩, ⟨%d2, H2⟩, ⟨%d3, H3⟩⟩
        iapply ((kernelRun5_B c (grid5.coords t) _ _ _ _ _ _ _ _ _ _ (fun h => h0 ((hcond5_0 t).mp h)) (fun h => h1 ((hcond5_1 t).mp h)) (iblk5 V c 0 t) (iblk5 V c 1 t) (iblk5 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover5_B_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point. -/
theorem hin5 (c : Dev nD) : (Pipeline.ΦA spec5 c : sProp 𝕄) ⊢ (dat5 V c).Φ 0 := by
  rw [show (dat5 V c).Φ 0 = PhiS5 V c 0 (Nat.zero_le _) from rfl, PhiS5_zero V c 0 _ rfl]
  try exact Idealize.SL.BI.Entails.refl _

/-- After any point but the first the invariant gives the class's back: the accumulator's contents are forgotten. -/
theorem Phi_out5 (c : Dev nD) (t : Fin (cfg5.N + 1)) (ht : t.val ≠ 0) : (dat5 V c).Φ t ⊢ (Pipeline.ΦA spec5 c : sProp 𝕄) := by
  rw [show (dat5 V c).Φ t = PhiS5 V c t.val (Nat.le_of_lt_succ t.isLt) from rfl, PhiS5_pos V c _ _ ht, PhiA5_eq]
  iintro ⟨⟨HS0, HR⟩, Hg⟩
  isplitl [HS0 HR]
  · isplitl [HS0]
    · iexists _; iexact HS0
    iexact HR
  iexact Hg

/-- The same after the last point. -/
theorem hout5 (c : Dev nD) : (dat5 V c).Φ (Fin.last cfg5.N) ⊢ (Pipeline.ΦA spec5 c : sProp 𝕄) :=
  Phi_out5 V c _ (by rw [Fin.val_last]; have : cfg5.N = 32 := N_5; omega)

end Cert.Kernel.Hand

end
-- ==== Proof.K.Segs.lean ====
/-
  The six kernel regions as segments of @main, and the run: between two items every unscoped buffer of the
  core is held at a named valuation — the launch contents, then after each region its output arrays at what
  the region's write-backs leave, after each host stretch the stretch's fold — beside the generator register
  and the core owing nothing.
-/
import proofs.«108817_j44229573214371_2_alg».proof.Proof.K.RunCond
import proofs.«108817_j44229573214371_2_alg».proof.Proof.K.Row0
import proofs.«108817_j44229573214371_2_alg».proof.Proof.K.Row2
import proofs.«108817_j44229573214371_2_alg».proof.Proof.K.Uc4
import proofs.«108817_j44229573214371_2_alg».proof.Proof.K.Wmm1
import proofs.«108817_j44229573214371_2_alg».proof.Proof.K.Wmm3
import proofs.«108817_j44229573214371_2_alg».proof.Proof.K.Wmm5
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- A valuation read at the TensorCore's references: what a region's proof data take as its entry contents. -/
abbrev rd (W : Dev nD → Valuation τ sig (Elt F)) : (c : Dev nD) → (b : Ref sig .tc) → Buf (Elt F) ((c : Thread nD τ).loc b) :=
  fun c b => W c b

/-! ## The buffer contents at each boundary -/

/-- At launch. -/
abbrev U0 (c : Dev nD) : Valuation τ sig (Elt F) := fun b => m (c, b)
/-- After region 0: the row sums of `main_arg2` in `main_v0`. -/
abbrev U1 (c : Dev nD) : Valuation τ sig (Elt F) :=
  Function.update (U0 m c) main_v0 ((dat0 (rd (U0 m)) c).arrAt 1 cfg0.N)
/-- After the host stretch that scales the first projection. -/
abbrev U2 (c : Dev nD) : Valuation τ sig (Elt F) := StableHlo.after hostOps1 (U1 m c)
/-- After region 1: the first graph convolution in `main_v7`. -/
abbrev U3 (c : Dev nD) : Valuation τ sig (Elt F) :=
  Function.update (U2 m c) main_v7 ((dat1 (rd (U2 m)) c).arrAt 3 cfg1.N)
/-- After region 2: the row sums of `main_arg4` in `main_v8`. -/
abbrev U4 (c : Dev nD) : Valuation τ sig (Elt F) :=
  Function.update (U3 m c) main_v8 ((dat2 (rd (U3 m)) c).arrAt 1 cfg2.N)
/-- After the host stretch that scales the second projection. -/
abbrev U5 (c : Dev nD) : Valuation τ sig (Elt F) := StableHlo.after hostOps3 (U4 m c)
/-- After region 3: the second graph convolution in `main_v15`. -/
abbrev U6 (c : Dev nD) : Valuation τ sig (Elt F) :=
  Function.update (U5 m c) main_v15 ((dat3 (rd (U5 m)) c).arrAt 3 cfg3.N)
/-- After region 4: the row sums of `main_arg3` in `main_v16_0`, its band column sums in `main_v16_1`. -/
abbrev U7 (c : Dev nD) : Valuation τ sig (Elt F) :=
  Function.update (Function.update (U6 m c) main_v16_0 ((dat4 (rd (U6 m)) c).arrAt 1 cfg4.N)) main_v16_1 ((dat4 (rd (U6 m)) c).arrAt 2 cfg4.N)
/-- After the host stretch that scales the third projection. -/
abbrev U8 (c : Dev nD) : Valuation τ sig (Elt F) := StableHlo.after hostOps5 (U7 m c)
/-- After region 5: the third graph convolution in `main_v27`. -/
abbrev U9 (c : Dev nD) : Valuation τ sig (Elt F) :=
  Function.update (U8 m c) main_v27 ((dat5 (rd (U8 m)) c).arrAt 3 cfg5.N)

/-- What the regions leave, as the unknowns the conditional run is stated over: at each region's exit, its output
    arrays' contents. -/
def outs : Outs (F := F) := fun J r c =>
  match J with
  | 1 => U1 m c r
  | 3 => U3 m c r
  | 4 => U4 m c r
  | 6 => U6 m c r
  | 7 => U7 m c r
  | 9 => U9 m c r
  | _ => U0 m c r

/-! ## The proof data family, and what rides beside the buffers -/

/-- Every pipeline's proof data, each at its region's entry contents. -/
def pdats : (p : Fin 6) → (c : Dev nD) → Dat τ (Elt F) Unit ℕ (UR sig nD τ) ℕ (cfgs p) c
  | ⟨0, _⟩ => fun c => dat0 (rd (U0 m)) c
  | ⟨1, _⟩ => fun c => dat1 (rd (U2 m)) c
  | ⟨2, _⟩ => fun c => dat2 (rd (U3 m)) c
  | ⟨3, _⟩ => fun c => dat3 (rd (U5 m)) c
  | ⟨4, _⟩ => fun c => dat4 (rd (U6 m)) c
  | ⟨5, _⟩ => fun c => dat5 (rd (U8 m)) c

/-- No core owes another anything: no level is assigned. -/
abbrev L : GSem nD τ sig → Finset Unit := fun _ => ∅
abbrev lv : GSem nD τ sig → Unit → ℕ := fun _ _ => 0
/-- Beside the buffers: the core's generator register at some state, and the core owing nothing. -/
abbrev R (c : Dev nD) : sProp 𝕄 := iprop((∃ r, prngReg c r) ∗ ∃ W, owes (c : Thread nD τ) (0 : CellTallies nD τ sig Unit) W)

/-- An update of a valuation read off the updated reference, and read at that reference. -/
theorem upd_ne (W : Valuation τ sig (Elt F)) (a b : Ref sig .tc) (v : _) (h : b ≠ a) :
    Function.update W (Proc.devRef .tc a) v (Proc.devRef .tc b) = W (Proc.devRef .tc b) :=
  Function.update_of_ne (StableHlo.devRef_ne_of_ne h) _ _
theorem upd_self (W : Valuation τ sig (Elt F)) (a : Ref sig .tc) (v : _) :
    Function.update W (Proc.devRef .tc a) v (Proc.devRef .tc a) = v :=
  Function.update_self _ _ _

/-! ## Each region's exit contents: its arrays at what the write-backs leave, every other buffer as entered -/

theorem hF0 (c : Dev nD) (w : Fin cfg0.W) : (dat0 (rd (U0 m)) c).arrAt w cfg0.N = rd (U1 m) c (Pipeline.arrRef spec0 w) := by
  match w with
  | ⟨0, _⟩ =>
    refine (((dat0 (rd (U0 m)) c).arrAt_in 0 rfl _).trans (A_eq0 (rd (U0 m)) c 0)).trans ?_
    exact (upd_ne _ main_v0 main_arg2 _ (by decide)).symm
  | ⟨1, _⟩ => exact (upd_self _ main_v0 _).symm

theorem hrest0 (c : Dev nD) : ∀ b, b ∉ Finset.univ.image (Pipeline.arrRef spec0) → rd (U1 m) c b = rd (U0 m) c b := by
  intro b hb
  have h0 : b ≠ main_v0 := fun e => hb (Finset.mem_image.mpr ⟨1, Finset.mem_univ _, show Pipeline.arrRef spec0 1 = b from e.symm⟩)
  exact upd_ne _ main_v0 b _ h0

theorem hF1 (c : Dev nD) (w : Fin cfg1.W) : (dat1 (rd (U2 m)) c).arrAt w cfg1.N = rd (U3 m) c (Pipeline.arrRef spec1 w) := by
  match w with
  | ⟨0, _⟩ =>
    refine (((dat1 (rd (U2 m)) c).arrAt_in 0 rfl _).trans (A_eq1 (rd (U2 m)) c 0)).trans ?_
    exact (upd_ne _ main_v7 main_arg2 _ (by decide)).symm
  | ⟨1, _⟩ =>
    refine (((dat1 (rd (U2 m)) c).arrAt_in 1 rfl _).trans (A_eq1 (rd (U2 m)) c 1)).trans ?_
    exact (upd_ne _ main_v7 main_v6 _ (by decide)).symm
  | ⟨2, _⟩ =>
    refine (((dat1 (rd (U2 m)) c).arrAt_in 2 rfl _).trans (A_eq1 (rd (U2 m)) c 2)).trans ?_
    exact (upd_ne _ main_v7 main_v3 _ (by decide)).symm
  | ⟨3, _⟩ => exact (upd_self _ main_v7 _).symm

theorem hrest1 (c : Dev nD) : ∀ b, b ∉ Finset.univ.image (Pipeline.arrRef spec1) → rd (U3 m) c b = rd (U2 m) c b := by
  intro b hb
  have h0 : b ≠ main_v7 := fun e => hb (Finset.mem_image.mpr ⟨3, Finset.mem_univ _, show Pipeline.arrRef spec1 3 = b from e.symm⟩)
  exact upd_ne _ main_v7 b _ h0

theorem hF2 (c : Dev nD) (w : Fin cfg2.W) : (dat2 (rd (U3 m)) c).arrAt w cfg2.N = rd (U4 m) c (Pipeline.arrRef spec2 w) := by
  match w with
  | ⟨0, _⟩ =>
    refine (((dat2 (rd (U3 m)) c).arrAt_in 0 rfl _).trans (A_eq2 (rd (U3 m)) c 0)).trans ?_
    exact (upd_ne _ main_v8 main_arg4 _ (by decide)).symm
  | ⟨1, _⟩ => exact (upd_self _ main_v8 _).symm

theorem hrest2 (c : Dev nD) : ∀ b, b ∉ Finset.univ.image (Pipeline.arrRef spec2) → rd (U4 m) c b = rd (U3 m) c b := by
  intro b hb
  have h0 : b ≠ main_v8 := fun e => hb (Finset.mem_image.mpr ⟨1, Finset.mem_univ _, show Pipeline.arrRef spec2 1 = b from e.symm⟩)
  exact upd_ne _ main_v8 b _ h0

theorem hF3 (c : Dev nD) (w : Fin cfg3.W) : (dat3 (rd (U5 m)) c).arrAt w cfg3.N = rd (U6 m) c (Pipeline.arrRef spec3 w) := by
  match w with
  | ⟨0, _⟩ =>
    refine (((dat3 (rd (U5 m)) c).arrAt_in 0 rfl _).trans (A_eq3 (rd (U5 m)) c 0)).trans ?_
    exact (upd_ne _ main_v15 main_arg4 _ (by decide)).symm
  | ⟨1, _⟩ =>
    refine (((dat3 (rd (U5 m)) c).arrAt_in 1 rfl _).trans (A_eq3 (rd (U5 m)) c 1)).trans ?_
    exact (upd_ne _ main_v15 main_v14 _ (by decide)).symm
  | ⟨2, _⟩ =>
    refine (((dat3 (rd (U5 m)) c).arrAt_in 2 rfl _).trans (A_eq3 (rd (U5 m)) c 2)).trans ?_
    exact (upd_ne _ main_v15 main_v11 _ (by decide)).symm
  | ⟨3, _⟩ => exact (upd_self _ main_v15 _).symm

theorem hrest3 (c : Dev nD) : ∀ b, b ∉ Finset.univ.image (Pipeline.arrRef spec3) → rd (U6 m) c b = rd (U5 m) c b := by
  intro b hb
  have h0 : b ≠ main_v15 := fun e => hb (Finset.mem_image.mpr ⟨3, Finset.mem_univ _, show Pipeline.arrRef spec3 3 = b from e.symm⟩)
  exact upd_ne _ main_v15 b _ h0

theorem hF4 (c : Dev nD) (w : Fin cfg4.W) : (dat4 (rd (U6 m)) c).arrAt w cfg4.N = rd (U7 m) c (Pipeline.arrRef spec4 w) := by
  match w with
  | ⟨0, _⟩ =>
    refine (((dat4 (rd (U6 m)) c).arrAt_in 0 rfl _).trans (A_eq4 (rd (U6 m)) c 0)).trans ?_
    exact ((upd_ne _ main_v16_1 main_arg3 _ (by decide)).trans (upd_ne _ main_v16_0 main_arg3 _ (by decide))).symm
  | ⟨1, _⟩ => exact ((upd_ne _ main_v16_1 main_v16_0 _ (by decide)).trans (upd_self _ main_v16_0 _)).symm
  | ⟨2, _⟩ => exact (upd_self _ main_v16_1 _).symm

theorem hrest4 (c : Dev nD) : ∀ b, b ∉ Finset.univ.image (Pipeline.arrRef spec4) → rd (U7 m) c b = rd (U6 m) c b := by
  intro b hb
  have h0 : b ≠ main_v16_0 := fun e => hb (Finset.mem_image.mpr ⟨1, Finset.mem_univ _, show Pipeline.arrRef spec4 1 = b from e.symm⟩)
  have h1 : b ≠ main_v16_1 := fun e => hb (Finset.mem_image.mpr ⟨2, Finset.mem_univ _, show Pipeline.arrRef spec4 2 = b from e.symm⟩)
  exact (upd_ne _ main_v16_1 b _ h1).trans (upd_ne _ main_v16_0 b _ h0)

theorem hF5 (c : Dev nD) (w : Fin cfg5.W) : (dat5 (rd (U8 m)) c).arrAt w cfg5.N = rd (U9 m) c (Pipeline.arrRef spec5 w) := by
  match w with
  | ⟨0, _⟩ =>
    refine (((dat5 (rd (U8 m)) c).arrAt_in 0 rfl _).trans (A_eq5 (rd (U8 m)) c 0)).trans ?_
    exact (upd_ne _ main_v27 main_arg3 _ (by decide)).symm
  | ⟨1, _⟩ =>
    refine (((dat5 (rd (U8 m)) c).arrAt_in 1 rfl _).trans (A_eq5 (rd (U8 m)) c 1)).trans ?_
    exact (upd_ne _ main_v27 main_v26 _ (by decide)).symm
  | ⟨2, _⟩ =>
    refine (((dat5 (rd (U8 m)) c).arrAt_in 2 rfl _).trans (A_eq5 (rd (U8 m)) c 2)).trans ?_
    exact (upd_ne _ main_v27 main_v20 _ (by decide)).symm
  | ⟨3, _⟩ => exact (upd_self _ main_v27 _).symm

theorem hrest5 (c : Dev nD) : ∀ b, b ∉ Finset.univ.image (Pipeline.arrRef spec5) → rd (U9 m) c b = rd (U8 m) c b := by
  intro b hb
  have h0 : b ≠ main_v27 := fun e => hb (Finset.mem_image.mpr ⟨3, Finset.mem_univ _, show Pipeline.arrRef spec5 3 = b from e.symm⟩)
  exact upd_ne _ main_v27 b _ h0

/-! ## The regions as segments -/

set_option backward.isDefEq.respectTransparency.types false in
/-- Region 0: entered with every unscoped buffer at `U0`, left with them at `U1`. Its arrays are split out of the
    unscoped buffers and put back at the exit contents; the generator register goes into the invariant and comes back;
    nothing is owed; the kernel has no semaphore of its own. -/
def reg0 : RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (rd (U0 m)) c).loose
  hwaits := Pipeline.hwaits_of_owed_zero _ _ _ _ L lv 0 fun _ _ => rfl
  pre c := iprop(StableHlo.held (c : Thread nD τ) (Pipeline.ucRefs τ sig) (U0 m c) ∗ R c)
  post c := iprop(StableHlo.held (c : Thread nD τ) (Pipeline.ucRefs τ sig) (U1 m c) ∗ R c)
  X c := iprop(∃ r, prngReg c r)
  Y c := iprop(∃ r, prngReg c r)
  Z c := Pipeline.unscopedRest (Ix := Unit) (Name := ℕ) (U := UR sig nD τ) (Lvl := ℕ) spec0 c (rd (U0 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (rd (U0 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (rd (U0 m) c) (rd (U1 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered with every unscoped buffer at `U2`, left with them at `U3`. Its arrays are split out of the
    unscoped buffers and put back at the exit contents; the generator register goes into the invariant and comes back;
    nothing is owed; the kernel has no semaphore of its own. -/
def reg1 : RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (rd (U2 m)) c).loose
  hwaits := Pipeline.hwaits_of_owed_zero _ _ _ _ L lv 1 fun _ _ => rfl
  pre c := iprop(StableHlo.held (c : Thread nD τ) (Pipeline.ucRefs τ sig) (U2 m c) ∗ R c)
  post c := iprop(StableHlo.held (c : Thread nD τ) (Pipeline.ucRefs τ sig) (U3 m c) ∗ R c)
  X c := iprop(∃ r, prngReg c r)
  Y c := iprop(∃ r, prngReg c r)
  Z c := Pipeline.unscopedRest (Ix := Unit) (Name := ℕ) (U := UR sig nD τ) (Lvl := ℕ) spec1 c (rd (U2 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (rd (U2 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (rd (U2 m)) c); unfold Pipeline.ΦA
    iintro ⟨Hp, -, Hr⟩
    isplitl [Hr]; · iexact Hr
    iexact Hp
  hout c := by
    rw [Pipeline.ownSems0_none]
    refine BIBase.Entails.trans (hout1 (rd (U2 m)) c) ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (rd (U2 m) c) (rd (U3 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered with every unscoped buffer at `U3`, left with them at `U4`. Its arrays are split out of the
    unscoped buffers and put back at the exit contents; the generator register goes into the invariant and comes back;
    nothing is owed; the kernel has no semaphore of its own. -/
def reg2 : RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (rd (U3 m)) c).loose
  hwaits := Pipeline.hwaits_of_owed_zero _ _ _ _ L lv 2 fun _ _ => rfl
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec2 c (rd (U3 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (rd (U3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    rw [show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (rd (U3 m) c) (rd (U4 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered with every unscoped buffer at `U5`, left with them at `U6`. Its arrays are split out of the
    unscoped buffers and put back at the exit contents; the generator register goes into the invariant and comes back;
    nothing is owed; the kernel has no semaphore of its own. -/
def reg3 : RegionSeg (pcfgs (F := F)) adm (pdats m) () defs₀ Variants.none L lv 3 where
  win := launch3.win.to₀
  block_pos := launch3.block_pos
  stage_whole := launch3.stage_whole
  K := PEmpty
  osem k := k.elim
  ho := Pipeline.OwnSemFacts.none _
  hbody c := (body_obligation3 (rd (U5 m)) c).loose
  hwaits := Pipeline.hwaits_of_owed_zero _ _ _ _ L lv 3 fun _ _ => rfl
  pre c := iprop(StableHlo.held (c : Thread nD τ) (Pipeline.ucRefs τ sig) (U5 m c) ∗ R c)
  post c := iprop(StableHlo.held (c : Thread nD τ) (Pipeline.ucRefs τ sig) (U6 m c) ∗ R c)
  X c := iprop(∃ r, prngReg c r)
  Y c := iprop(∃ r, prngReg c r)
  Z c := Pipeline.unscopedRest (Ix := Unit) (Name := ℕ) (U := UR sig nD τ) (Lvl := ℕ) spec3 c (rd (U5 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (rd (U5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (rd (U5 m)) c); unfold Pipeline.ΦA
    iintro ⟨Hp, -, Hr⟩
    isplitl [Hr]; · iexact Hr
    iexact Hp
  hout c := by
    rw [Pipeline.ownSems0_none]
    refine BIBase.Entails.trans (hout3 (rd (U5 m)) c) ?_; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (rd (U5 m) c) (rd (U6 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered with every unscoped buffer at `U6`, left with them at `U7`. Its arrays are split out of the
    unscoped buffers and put back at the exit contents; the generator register goes into the invariant and comes back;
    nothing is owed; the kernel has no semaphore of its own. -/
def reg4 : RegionSeg (pcfgs (F := F)) adm (pdats m) () defs₀ Variants.none L lv 4 where
  win := launch4.win.to₀
  block_pos := launch4.block_pos
  stage_whole := launch4.stage_whole
  K := PEmpty
  osem k := k.elim
  ho := Pipeline.OwnSemFacts.none _
  hbody c := (body_obligation4 (rd (U6 m)) c).loose
  hwaits := Pipeline.hwaits_of_owed_zero _ _ _ _ L lv 4 fun _ _ => rfl
  pre c := iprop(StableHlo.held (c : Thread nD τ) (Pipeline.ucRefs τ sig) (U6 m c) ∗ R c)
  post c := iprop(StableHlo.held (c : Thread nD τ) (Pipeline.ucRefs τ sig) (U7 m c) ∗ R c)
  X c := iprop(∃ r, prngReg c r)
  Y c := iprop(∃ r, prngReg c r)
  Z c := Pipeline.unscopedRest (Ix := Unit) (Name := ℕ) (U := UR sig nD τ) (Lvl := ℕ) spec4 c (rd (U6 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (rd (U6 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none]
    rw [show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (rd (U6 m) c) (rd (U7 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered with every unscoped buffer at `U8`, left with them at `U9`. Its arrays are split out of the
    unscoped buffers and put back at the exit contents; the generator register goes into the invariant and comes back;
    nothing is owed; the kernel has no semaphore of its own. -/
def reg5 : RegionSeg (pcfgs (F := F)) adm (pdats m) () defs₀ Variants.none L lv 5 where
  win := launch5.win.to₀
  block_pos := launch5.block_pos
  stage_whole := launch5.stage_whole
  K := PEmpty
  osem k := k.elim
  ho := Pipeline.OwnSemFacts.none _
  hbody c := (body_obligation5 (rd (U8 m)) c).loose
  hwaits := Pipeline.hwaits_of_owed_zero _ _ _ _ L lv 5 fun _ _ => rfl
  pre c := iprop(StableHlo.held (c : Thread nD τ) (Pipeline.ucRefs τ sig) (U8 m c) ∗ R c)
  post c := iprop(StableHlo.held (c : Thread nD τ) (Pipeline.ucRefs τ sig) (U9 m c) ∗ R c)
  X c := iprop(∃ r, prngReg c r)
  Y c := iprop(∃ r, prngReg c r)
  Z c := Pipeline.unscopedRest (Ix := Unit) (Name := ℕ) (U := UR sig nD τ) (Lvl := ℕ) spec5 c (rd (U8 m) c)
  hentry c := by
    rw [Pipeline.ownSems0_none]
    have hsplit := Pipeline.arrays_of_unscopedBufs (p := 5) (pcfgs (F := F)) adm (pdats m) launch5.win launch5.arr_whole c
      ((pdats m 5 c).share_full fun _ => rfl) (rd (U8 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin5 (rd (U8 m)) c); unfold Pipeline.ΦA
    iintro ⟨Hp, -, Hr⟩
    isplitl [Hr]; · iexact Hr
    iexact Hp
  hout c := by
    rw [Pipeline.ownSems0_none]
    refine BIBase.Entails.trans (hout5 (rd (U8 m)) c) ?_; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (rd (U8 m) c) (rd (U9 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The boundaries' contents are the conditional run's valuations at these unknowns -/

theorem V1_eq (c : Dev nD) : Gen.V1 m (outs m) c = U1 m c :=
  congrArg (Function.update (U0 m c) (main_v0 : DevRef τ sig)) (upd_self _ _ _)
theorem V2_eq (c : Dev nD) : Gen.V2 m (outs m) c = U2 m c := congrArg (StableHlo.after hostOps1) (V1_eq m c)
theorem V3_eq (c : Dev nD) : Gen.V3 m (outs m) c = U3 m c := by
  show Function.update (Gen.V2 m (outs m) c) (main_v7 : DevRef τ sig) (U3 m c main_v7) = _
  rw [V2_eq]; exact congrArg (Function.update (U2 m c) (main_v7 : DevRef τ sig)) (upd_self _ _ _)
theorem V4_eq (c : Dev nD) : Gen.V4 m (outs m) c = U4 m c := by
  show Function.update (Gen.V3 m (outs m) c) (main_v8 : DevRef τ sig) (U4 m c main_v8) = _
  rw [V3_eq]; exact congrArg (Function.update (U3 m c) (main_v8 : DevRef τ sig)) (upd_self _ _ _)
theorem V5_eq (c : Dev nD) : Gen.V5 m (outs m) c = U5 m c := congrArg (StableHlo.after hostOps3) (V4_eq m c)
theorem V6_eq (c : Dev nD) : Gen.V6 m (outs m) c = U6 m c := by
  show Function.update (Gen.V5 m (outs m) c) (main_v15 : DevRef τ sig) (U6 m c main_v15) = _
  rw [V5_eq]; exact congrArg (Function.update (U5 m c) (main_v15 : DevRef τ sig)) (upd_self _ _ _)
theorem V7_eq (c : Dev nD) : Gen.V7 m (outs m) c = U7 m c := by
  show Function.update (Function.update (Gen.V6 m (outs m) c) (main_v16_0 : DevRef τ sig) (U7 m c main_v16_0)) (main_v16_1 : DevRef τ sig) (U7 m c main_v16_1) = _
  rw [V6_eq]
  have e0 : U7 m c main_v16_0 = (dat4 (rd (U6 m)) c).arrAt 1 cfg4.N :=
    (upd_ne _ main_v16_1 main_v16_0 _ (by decide)).trans (upd_self _ main_v16_0 _)
  have e1 : U7 m c main_v16_1 = (dat4 (rd (U6 m)) c).arrAt 2 cfg4.N := upd_self _ main_v16_1 _
  rw [e0, e1]
theorem V8_eq (c : Dev nD) : Gen.V8 m (outs m) c = U8 m c := congrArg (StableHlo.after hostOps5) (V7_eq m c)
theorem V9_eq (c : Dev nD) : Gen.V9 m (outs m) c = U9 m c := by
  show Function.update (Gen.V8 m (outs m) c) (main_v27 : DevRef τ sig) (U9 m c main_v27) = _
  rw [V8_eq]; exact congrArg (Function.update (U8 m c) (main_v27 : DevRef τ sig)) (upd_self _ _ _)

/-! ## The run -/

set_option backward.isDefEq.respectTransparency.types false in
/-- From any memory with zero counters every weakly fair execution of @main terminates, nothing faulting, and every
    final memory holds each unscoped buffer at the contents the last valuation names. -/
theorem run_main (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = Gen.V14 m (outs m) c b) :=
  GenP.run_cond m emb₁ () Variants.none L lv (fun _ _ => rfl) ρ (outs m) (pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := Pipeline.initEach L lv fun c => by
      iintro ⟨⟨-, HO, -, Hp, -⟩, -⟩
      imodintro
      isplitl [Hp]; · iexists _; iexact Hp
      iexists ∅; iexact HO)
    (hE6 := fun c => by iintro ⟨-, HO⟩; iexact HO)
    (R0 := reg0 m) (hpre0 := fun c => .rfl) (hpost0 := fun c => by rw [V1_eq]; exact .rfl)
    (R1 := reg1 m) (hpre1 := fun c => by rw [V2_eq]; exact .rfl) (hpost1 := fun c => by rw [V3_eq]; exact .rfl)
    (R2 := reg2 m) (hpre2 := fun c => by rw [V3_eq]; exact .rfl) (hpost2 := fun c => by rw [V4_eq]; exact .rfl)
    (R3 := reg3 m) (hpre3 := fun c => by rw [V5_eq]; exact .rfl) (hpost3 := fun c => by rw [V6_eq]; exact .rfl)
    (R4 := reg4 m) (hpre4 := fun c => by rw [V6_eq]; exact .rfl) (hpost4 := fun c => by rw [V7_eq]; exact .rfl)
    (R5 := reg5 m) (hpre5 := fun c => by rw [V8_eq]; exact .rfl) (hpost5 := fun c => by rw [V9_eq]; exact .rfl)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: every weakly fair execution terminates, nothing faulting, and every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨(h c _ (mem_uc main_arg0 (by decide))).trans (Gen.V14_main_arg0 m (outs m) c),
     (h c _ (mem_uc main_arg1 (by decide))).trans (Gen.V14_main_arg1 m (outs m) c),
     (h c _ (mem_uc main_arg2 (by decide))).trans (Gen.V14_main_arg2 m (outs m) c),
     (h c _ (mem_uc main_arg3 (by decide))).trans (Gen.V14_main_arg3 m (outs m) c),
     (h c _ (mem_uc main_arg4 (by decide))).trans (Gen.V14_main_arg4 m (outs m) c),
     (h c _ (mem_uc main_arg5 (by decide))).trans (Gen.V14_main_arg5 m (outs m) c),
     (h c _ (mem_uc main_arg6 (by decide))).trans (Gen.V14_main_arg6 m (outs m) c),
     (h c _ (mem_uc main_arg7 (by decide))).trans (Gen.V14_main_arg7 m (outs m) c),
     (h c _ (mem_uc main_arg8 (by decide))).trans (Gen.V14_main_arg8 m (outs m) c),
     (h c _ (mem_uc main_arg9 (by decide))).trans (Gen.V14_main_arg9 m (outs m) c),
     (h c _ (mem_uc main_arg10 (by decide))).trans (Gen.V14_main_arg10 m (outs m) c)⟩) (run_main m ρ)

end Cert.Kernel.Hand

end
-- ==== Proof.KI.Row0Runs.lean ====
/- Region 0 (the row-sum kernel `cc0__rowsum_kernel`): what the two cases of its body share. Everything is stated at a
   parameter `V`, the buffer contents when the region is entered. The grid is 8 x 4; point `t` has coordinates
   `(t / 4, t % 4)`; window 0 stages the 1024 x 2048 block `(t / 4, t % 4)` of the input matrix, window 1 the
   1024 x 1 block `(t / 4, 0)` of the output column, which is accumulated over the second coordinate. -/
import proofs.«108817_j44229573214371_2_alg».proof.Proof.Gen.KernelIdeal.Launch
import proofs.«108817_j44229573214371_2_alg».proof.Proof.Gen.KernelIdeal.Skeleton
import proofs.«108817_j44229573214371_2_alg».proof.Proof.Gen.KernelIdeal.Points
import Idealize.ShloMosaic.Lib.Pipeline.FrameBody
import Idealize.ShloMosaic.Lib.Ring
import Idealize.ShloMosaic.Lib.Tactic

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place: the window is fetched at every point, is never cut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's branch condition -/

/-- The condition of the body's one conditional: the second grid coordinate is 0 (the scalar chain of the
    kernel text substituted). -/
abbrev cond0_0 (i : grid0.Coords) : Prop := (Scalar.cmpi .ne (Scalar.extui (Scalar.cmpi .eq (BitVec.ofNat 32 (i 1).val) 0#32)) 0#32) = 1#1
/-- It holds exactly at the points whose position is a multiple of 4 — decided over the 32 points of the grid. -/
theorem hcond0_0 : ∀ t : Fin cfg0.N, cond0_0 (grid0.coords t) ↔ t.val % 4 = 0 :=
  (by decide +kernel : ∀ t : Fin grid0.N, cond0_0 (grid0.coords t) ↔ t.val % 4 = 0)

/-! ## The staging memrefs -/

/-- One staging buffer of the output window, through which its contents are stated (the choice does not matter:
    a covering list of pieces reads back the same over any buffer). -/
abbrev VO0_1 : View sig .tc .vmem S1024x1 .f32 := (Memref.whole cc0_stg1_0 : Memref sig .tc .vmem S1024x1 .f32).view
/-- Each window's current staging memref at point `t`, spelled as the pipeline passes it, and its wholeness. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .f32 := win0_1.stage (cfg0.slots t 1)
abbrev hs0_1 (t : Fin cfg0.N) : (ms0_1 t).IsWhole := hstage0_1 ((cfg0.slots t 1).cast nbuf0_1)

end Cert.KernelIdeal.Hand

end
-- ==== Proof.KI.Row0RunA.lean ====
/- Region 0 (`cc0__rowsum_kernel`): the whole body's run in CASE A — the second grid coordinate is 0: the output block is
   zeroed, then the lane sums of the input block are added to it. -/
import proofs.«108817_j44229573214371_2_alg».proof.Proof.KI.Row0Runs

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref, as pieces (last first) IN CASE A, WITH the proof that
    on whole staging memrefs — the input's at its contents `x0`, the output's at anything — the body runs to the
    continuation holding the input's as it was and the output's buffer with its pieces written. The pieces are the
    witness the run finds. -/
noncomputable def kernelRun0_A (c : Dev nD) (i : grid0.Coords) (arg2 : Memref sig .tc .vmem S1024x2048 .f32) (harg2 : arg2.IsWhole) (arg3 : Memref sig .tc .vmem S1024x1 .f32) (harg3 : arg3.IsWhole) (hc0 : cond0_0 i)
    (x0 : Vec F S1024x2048 .f32) :
    { L1 : List (View.Piece (Elt F) S1024x1 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__rowsum_kernel i arg2 harg2 arg3 harg3) K } := by
  refine ⟨?_, fun E K => ?run⟩
  case run =>
    simp only [cc0__rowsum_kernel_eq_skeleton]; unfold cc0__rowsum_kernel_skel
    unfold owns
    iintro ⟨⟨%f0, %hf0, H0⟩, ⟨%d1, %f1, -, H1⟩, Hk⟩
    obtain rfl := harg2.eq_unread hf0
    sl_exec (disch := first | exact hc0)
    sl_step
    iapply Hk
    isplitl [H0]
    · iexists _; isplitr; · ipureintro; exact harg2.read_unread _
      iexact H0
    iexists _; iexact H1

end Cert.KernelIdeal.Hand

end
-- ==== Proof.KI.Row0RunB.lean ====
/- Region 0 (`cc0__rowsum_kernel`): the whole body's run in CASE B — the second grid coordinate is not 0: the lane sums of
   the input block are added to what the output block already holds. -/
import proofs.«108817_j44229573214371_2_alg».proof.Proof.KI.Row0RunA

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref, as pieces (last first) IN CASE B, WITH the proof that
    on whole staging memrefs — the input's at its contents `x0`, the output's at its running contents `xo1` — the body
    runs to the continuation holding the input's as it was and the output's buffer with its pieces written. The pieces
    are the witness the run finds. -/
noncomputable def kernelRun0_B (c : Dev nD) (i : grid0.Coords) (arg2 : Memref sig .tc .vmem S1024x2048 .f32) (harg2 : arg2.IsWhole) (arg3 : Memref sig .tc .vmem S1024x1 .f32) (harg3 : arg3.IsWhole) (hc0 : ¬cond0_0 i)
    (x0 : Vec F S1024x2048 .f32) (xo1 : Vec F S1024x1 .f32) :
    { L1 : List (View.Piece (Elt F) S1024x1 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__rowsum_kernel i arg2 harg2 arg3 harg3) K } := by
  refine ⟨?_, fun E K => ?run⟩
  case run =>
    simp only [cc0__rowsum_kernel_eq_skeleton]; unfold cc0__rowsum_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    iexists _; iexact H1

end Cert.KernelIdeal.Hand

end
-- ==== Proof.KI.Row0.lean ====
/- Region 0 (`cc0__rowsum_kernel`): the frame half at the region-entry contents `V` — what the output's staging buffer holds
   after each point (by recursion on the point: at a point whose second coordinate is 0 the block is zeroed and the
   lane sums added; elsewhere the lane sums are added to what the point before left), the proof data and the body
   obligation. -/
import proofs.«108817_j44229573214371_2_alg».proof.Proof.KI.Row0RunB

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A's pieces for the output tile its block, so they cover it. -/
theorem cover0_A_1 (c : Dev nD) (i : grid0.Coords) (arg2 : Memref sig .tc .vmem S1024x2048 .f32) (harg2 : arg2.IsWhole) (arg3 : Memref sig .tc .vmem S1024x1 .f32) (harg3 : arg3.IsWhole) (hc0 : cond0_0 i)
    (x0 : Vec F S1024x2048 .f32) (y : S1024x1.Idx) :
    ∃ pc ∈ (kernelRun0_A c i arg2 harg2 arg3 harg3 hc0 x0).1, y ∈ pc.1.set :=
  View.cover_of_tiledL (kernelRun0_A c i arg2 harg2 arg3 harg3 hc0 x0).1 S1024x1.size (by sl_kernel_rfl) y

/-- What case A leaves in the output's staging buffer: its pieces read back over junk. -/
def out0_A_1 (c : Dev nD) (i : grid0.Coords) (arg2 : Memref sig .tc .vmem S1024x2048 .f32) (harg2 : arg2.IsWhole) (arg3 : Memref sig .tc .vmem S1024x1 .f32) (harg3 : arg3.IsWhole) (hc0 : cond0_0 i)
    (x0 : Vec F S1024x2048 .f32) : Vec F S1024x1 .f32 :=
  VO0_1.read (Elt F) (VO0_1.writes (Elt F) VO0_1.junk (kernelRun0_A c i arg2 harg2 arg3 harg3 hc0 x0).1)

/-- Case B's pieces for the output tile its block, so they cover it. -/
theorem cover0_B_1 (c : Dev nD) (i : grid0.Coords) (arg2 : Memref sig .tc .vmem S1024x2048 .f32) (harg2 : arg2.IsWhole) (arg3 : Memref sig .tc .vmem S1024x1 .f32) (harg3 : arg3.IsWhole) (hc0 : ¬cond0_0 i)
    (x0 : Vec F S1024x2048 .f32) (xo1 : Vec F S1024x1 .f32) (y : S1024x1.Idx) :
    ∃ pc ∈ (kernelRun0_B c i arg2 harg2 arg3 harg3 hc0 x0 xo1).1, y ∈ pc.1.set :=
  View.cover_of_tiledL (kernelRun0_B c i arg2 harg2 arg3 harg3 hc0 x0 xo1).1 S1024x1.size (by sl_kernel_rfl) y

/-- What case B leaves in the output's staging buffer: its pieces read back over junk. -/
def out0_B_1 (c : Dev nD) (i : grid0.Coords) (arg2 : Memref sig .tc .vmem S1024x2048 .f32) (harg2 : arg2.IsWhole) (arg3 : Memref sig .tc .vmem S1024x1 .f32) (harg3 : arg3.IsWhole) (hc0 : ¬cond0_0 i)
    (x0 : Vec F S1024x2048 .f32) (xo1 : Vec F S1024x1 .f32) : Vec F S1024x1 .f32 :=
  VO0_1.read (Elt F) (VO0_1.writes (Elt F) VO0_1.junk (kernelRun0_B c i arg2 harg2 arg3 harg3 hc0 x0 xo1).1)

section Region0
variable (V : (c : Dev nD) → (b : Ref sig .tc) → Buf (Elt F) ((c : Thread nD τ).loc b))

/-! ## What the output holds after each point -/

/-- THE ACCUMULATION. What the output's staging buffer holds after the body at position `n`: the case the closed form
    selects at `n`, run at the point's memrefs and input block; in case B over what this leaves at `n - 1` (the buffer is
    not written back between). -/
def outsAt0 (c : Dev nD) : (n : ℕ) → n < cfg0.N → Vec F S1024x1 .f32
  | 0, hn => out0_A_1 c (grid0.coords ⟨0, hn⟩) (ms0_0 ⟨0, hn⟩) (hs0_0 ⟨0, hn⟩) (ms0_1 ⟨0, hn⟩) (hs0_1 ⟨0, hn⟩) ((hcond0_0 ⟨0, hn⟩).mpr (Nat.zero_mod _)) (iblk0 V c 0 ⟨0, hn⟩)
  | n + 1, hn =>
    if h0 : (n + 1) % 4 = 0 then
      out0_A_1 c (grid0.coords ⟨n + 1, hn⟩) (ms0_0 ⟨n + 1, hn⟩) (hs0_0 ⟨n + 1, hn⟩) (ms0_1 ⟨n + 1, hn⟩) (hs0_1 ⟨n + 1, hn⟩) ((hcond0_0 ⟨n + 1, hn⟩).mpr h0) (iblk0 V c 0 ⟨n + 1, hn⟩)
    else
      out0_B_1 c (grid0.coords ⟨n + 1, hn⟩) (ms0_0 ⟨n + 1, hn⟩) (hs0_0 ⟨n + 1, hn⟩) (ms0_1 ⟨n + 1, hn⟩) (hs0_1 ⟨n + 1, hn⟩) (fun h => h0 ((hcond0_0 ⟨n + 1, hn⟩).mp h)) (iblk0 V c 0 ⟨n + 1, hn⟩) (outsAt0 c n (Nat.lt_of_succ_lt hn))

/-- `outsAt0` at a point of case A: that case's contents. -/
theorem outsAt0_A (c : Dev nD) (t : Fin cfg0.N) (h0 : t.val % 4 = 0) :
    outsAt0 V c t.val t.isLt = out0_A_1 c (grid0.coords t) (ms0_0 t) (hs0_0 t) (ms0_1 t) (hs0_1 t) ((hcond0_0 t).mpr h0) (iblk0 V c 0 t) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 4 = 0) :
    outsAt0 V c t.val t.isLt = out0_B_1 c (grid0.coords t) (ms0_0 t) (hs0_0 t) (ms0_1 t) (hs0_1 t) (fun h => h0 ((hcond0_0 t).mp h)) (iblk0 V c 0 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 0 on core `c`: the arrays as the region finds them (`V`); after the body at point `t`
    the input's buffer at its block and the output's at `outsAt0`; the invariant the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt)
  Φ _ := Pipeline.ΦA spec0 c
  q _ := fullShare
  owed _ := 0

/-- The proof data's arrays are the region-entry contents (the definition projected, so that `V` is never unfolded). -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt) := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d
/-- At a point of case B the output's current staging buffer holds what the body left at the point before: the point is
    not the first, the buffer was not written back between (write-backs follow the points whose position is 3 mod 4),
    the window is live and uncut. -/
theorem before0_1_B (c : Dev nD) (t : Fin cfg0.N) (h0 : ¬t.val % 4 = 0) (d) :
    (dat0 V c).before 1 t d = (outsAt0 V c (t.val - 1) (Nat.lt_of_le_of_lt (Nat.sub_le _ _) t.isLt)) := by
  have hN : t.val < 32 := lt_of_lt_of_eq t.isLt (show cfg0.N = 32 from N_0)
  rw [Dat.before_out_kept _ 1 rfl t (by omega) (Bool.eq_false_iff.mpr fun h => by have := (flush0_1 _).mp h; dsimp only at this; omega)
    (fun _ => rfl) (fun _ _ => rfl)]
  dsimp only [dat0]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t))

set_option maxHeartbeats 800000 in
/-- The body at any point: the input's memref holds its block; the closed form says which case the point is in; in case
    B the output's memref holds what the point before left; so the case's run applies; the invariant passes through
    unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  have hN : t.val < 32 := lt_of_lt_of_eq t.isLt (show cfg0.N = 32 from N_0)
  by_cases h0 : t.val % 4 = 0
  · rw [outsAt0_A V c t h0]
    unfold out0_A_1
    iintro ⟨HΦ, Ho, ⟨%d0, H0⟩, ⟨%d1, H1⟩⟩
    iapply ((kernelRun0_A c (grid0.coords t) _ _ _ _ ((hcond0_0 t).mpr h0) (iblk0 V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_A_1 c _ _ _ _ _ _ _)
  · rw [outsAt0_B V c t h0]
    simp only [before0_1_B V c t h0]
    unfold out0_B_1
    iintro ⟨HΦ, Ho, ⟨%d0, H0⟩, ⟨%d1, H1⟩⟩
    iapply ((kernelRun0_B c (grid0.coords t) _ _ _ _ (fun h => h0 ((hcond0_0 t).mp h)) (iblk0 V c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_B_1 c _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Row2Runs.lean ====
/- Region 2 (the row-sum kernel `cc2__rowsum_kernel`): what the two cases of its body share. Everything is stated at a
   parameter `V`, the buffer contents when the region is entered. The grid is 8 x 4; point `t` has coordinates
   `(t / 4, t % 4)`; window 0 stages the 1024 x 2048 block `(t / 4, t % 4)` of the input matrix, window 1 the
   1024 x 1 block `(t / 4, 0)` of the output column, which is accumulated over the second coordinate. -/
import proofs.«108817_j44229573214371_2_alg».proof.Proof.Gen.KernelIdeal.Launch
import proofs.«108817_j44229573214371_2_alg».proof.Proof.Gen.KernelIdeal.Skeleton
import proofs.«108817_j44229573214371_2_alg».proof.Proof.Gen.KernelIdeal.Points
import Idealize.ShloMosaic.Lib.Pipeline.FrameBody
import Idealize.ShloMosaic.Lib.Ring
import Idealize.ShloMosaic.Lib.Tactic

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's current staging buffer holds its block at every point, for any proof data whose array is
    `V`'s and whose body leaves the block in place: the window is fetched at every point, is never cut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

end Region2

/-! ## The body's branch condition -/

/-- The condition of the body's one conditional: the second grid coordinate is 0 (the scalar chain of the
    kernel text substituted). -/
abbrev cond2_0 (i : grid2.Coords) : Prop := (Scalar.cmpi .ne (Scalar.extui (Scalar.cmpi .eq (BitVec.ofNat 32 (i 1).val) 0#32)) 0#32) = 1#1
/-- It holds exactly at the points whose position is a multiple of 4 — decided over the 32 points of the grid. -/
theorem hcond2_0 : ∀ t : Fin cfg2.N, cond2_0 (grid2.coords t) ↔ t.val % 4 = 0 :=
  (by decide +kernel : ∀ t : Fin grid2.N, cond2_0 (grid2.coords t) ↔ t.val % 4 = 0)

/-! ## The staging memrefs -/

/-- One staging buffer of the output window, through which its contents are stated (the choice does not matter:
    a covering list of pieces reads back the same over any buffer). -/
abbrev VO2_1 : View sig .tc .vmem S1024x1 .f32 := (Memref.whole cc2_stg1_0 : Memref sig .tc .vmem S1024x1 .f32).view
/-- Each window's current staging memref at point `t`, spelled as the pipeline passes it, and its wholeness. -/
abbrev ms2_0 (t : Fin cfg2.N) : Memref sig .tc .vmem S1024x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1 .f32 := win2_1.stage (cfg2.slots t 1)
abbrev hs2_1 (t : Fin cfg2.N) : (ms2_1 t).IsWhole := hstage2_1 ((cfg2.slots t 1).cast nbuf2_1)

end Cert.KernelIdeal.Hand

end
-- ==== Proof.KI.Row2RunA.lean ====
/- Region 2 (`cc2__rowsum_kernel`): the whole body's run in CASE A — the second grid coordinate is 0: the output block is
   zeroed, then the lane sums of the input block are added to it. -/
import proofs.«108817_j44229573214371_2_alg».proof.Proof.KI.Row2Runs

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref, as pieces (last first) IN CASE A, WITH the proof that
    on whole staging memrefs — the input's at its contents `x0`, the output's at anything — the body runs to the
    continuation holding the input's as it was and the output's buffer with its pieces written. The pieces are the
    witness the run finds. -/
noncomputable def kernelRun2_A (c : Dev nD) (i : grid2.Coords) (arg2 : Memref sig .tc .vmem S1024x2048 .f32) (harg2 : arg2.IsWhole) (arg3 : Memref sig .tc .vmem S1024x1 .f32) (harg3 : arg3.IsWhole) (hc0 : cond2_0 i)
    (x0 : Vec F S1024x2048 .f32) :
    { L1 : List (View.Piece (Elt F) S1024x1 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc2__rowsum_kernel i arg2 harg2 arg3 harg3) K } := by
  refine ⟨?_, fun E K => ?run⟩
  case run =>
    simp only [cc2__rowsum_kernel_eq_skeleton]; unfold cc2__rowsum_kernel_skel
    unfold owns
    iintro ⟨⟨%f0, %hf0, H0⟩, ⟨%d1, %f1, -, H1⟩, Hk⟩
    obtain rfl := harg2.eq_unread hf0
    sl_exec (disch := first | exact hc0)
    sl_step
    iapply Hk
    isplitl [H0]
    · iexists _; isplitr; · ipureintro; exact harg2.read_unread _
      iexact H0
    iexists _; iexact H1

end Cert.KernelIdeal.Hand

end
-- ==== Proof.KI.Row2RunB.lean ====
/- Region 2 (`cc2__rowsum_kernel`): the whole body's run in CASE B — the second grid coordinate is not 0: the lane sums of
   the input block are added to what the output block already holds. -/
import proofs.«108817_j44229573214371_2_alg».proof.Proof.KI.Row2RunA

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref, as pieces (last first) IN CASE B, WITH the proof that
    on whole staging memrefs — the input's at its contents `x0`, the output's at its running contents `xo1` — the body
    runs to the continuation holding the input's as it was and the output's buffer with its pieces written. The pieces
    are the witness the run finds. -/
noncomputable def kernelRun2_B (c : Dev nD) (i : grid2.Coords) (arg2 : Memref sig .tc .vmem S1024x2048 .f32) (harg2 : arg2.IsWhole) (arg3 : Memref sig .tc .vmem S1024x1 .f32) (harg3 : arg3.IsWhole) (hc0 : ¬cond2_0 i)
    (x0 : Vec F S1024x2048 .f32) (xo1 : Vec F S1024x1 .f32) :
    { L1 : List (View.Piece (Elt F) S1024x1 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc2__rowsum_kernel i arg2 harg2 arg3 harg3) K } := by
  refine ⟨?_, fun E K => ?run⟩
  case run =>
    simp only [cc2__rowsum_kernel_eq_skeleton]; unfold cc2__rowsum_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    iexists _; iexact H1

end Cert.KernelIdeal.Hand

end
-- ==== Proof.KI.Row2.lean ====
/- Region 2 (`cc2__rowsum_kernel`): the frame half at the region-entry contents `V` — what the output's staging buffer holds
   after each point (by recursion on the point: at a point whose second coordinate is 0 the block is zeroed and the
   lane sums added; elsewhere the lane sums are added to what the point before left), the proof data and the body
   obligation. -/
import proofs.«108817_j44229573214371_2_alg».proof.Proof.KI.Row2RunB

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A's pieces for the output tile its block, so they cover it. -/
theorem cover2_A_1 (c : Dev nD) (i : grid2.Coords) (arg2 : Memref sig .tc .vmem S1024x2048 .f32) (harg2 : arg2.IsWhole) (arg3 : Memref sig .tc .vmem S1024x1 .f32) (harg3 : arg3.IsWhole) (hc0 : cond2_0 i)
    (x0 : Vec F S1024x2048 .f32) (y : S1024x1.Idx) :
    ∃ pc ∈ (kernelRun2_A c i arg2 harg2 arg3 harg3 hc0 x0).1, y ∈ pc.1.set :=
  View.cover_of_tiledL (kernelRun2_A c i arg2 harg2 arg3 harg3 hc0 x0).1 S1024x1.size (by sl_kernel_rfl) y

/-- What case A leaves in the output's staging buffer: its pieces read back over junk. -/
def out2_A_1 (c : Dev nD) (i : grid2.Coords) (arg2 : Memref sig .tc .vmem S1024x2048 .f32) (harg2 : arg2.IsWhole) (arg3 : Memref sig .tc .vmem S1024x1 .f32) (harg3 : arg3.IsWhole) (hc0 : cond2_0 i)
    (x0 : Vec F S1024x2048 .f32) : Vec F S1024x1 .f32 :=
  VO2_1.read (Elt F) (VO2_1.writes (Elt F) VO2_1.junk (kernelRun2_A c i arg2 harg2 arg3 harg3 hc0 x0).1)

/-- Case B's pieces for the output tile its block, so they cover it. -/
theorem cover2_B_1 (c : Dev nD) (i : grid2.Coords) (arg2 : Memref sig .tc .vmem S1024x2048 .f32) (harg2 : arg2.IsWhole) (arg3 : Memref sig .tc .vmem S1024x1 .f32) (harg3 : arg3.IsWhole) (hc0 : ¬cond2_0 i)
    (x0 : Vec F S1024x2048 .f32) (xo1 : Vec F S1024x1 .f32) (y : S1024x1.Idx) :
    ∃ pc ∈ (kernelRun2_B c i arg2 harg2 arg3 harg3 hc0 x0 xo1).1, y ∈ pc.1.set :=
  View.cover_of_tiledL (kernelRun2_B c i arg2 harg2 arg3 harg3 hc0 x0 xo1).1 S1024x1.size (by sl_kernel_rfl) y

/-- What case B leaves in the output's staging buffer: its pieces read back over junk. -/
def out2_B_1 (c : Dev nD) (i : grid2.Coords) (arg2 : Memref sig .tc .vmem S1024x2048 .f32) (harg2 : arg2.IsWhole) (arg3 : Memref sig .tc .vmem S1024x1 .f32) (harg3 : arg3.IsWhole) (hc0 : ¬cond2_0 i)
    (x0 : Vec F S1024x2048 .f32) (xo1 : Vec F S1024x1 .f32) : Vec F S1024x1 .f32 :=
  VO2_1.read (Elt F) (VO2_1.writes (Elt F) VO2_1.junk (kernelRun2_B c i arg2 harg2 arg3 harg3 hc0 x0 xo1).1)

section Region2
variable (V : (c : Dev nD) → (b : Ref sig .tc) → Buf (Elt F) ((c : Thread nD τ).loc b))

/-! ## What the output holds after each point -/

/-- THE ACCUMULATION. What the output's staging buffer holds after the body at position `n`: the case the closed form
    selects at `n`, run at the point's memrefs and input block; in case B over what this leaves at `n - 1` (the buffer is
    not written back between). -/
def outsAt2 (c : Dev nD) : (n : ℕ) → n < cfg2.N → Vec F S1024x1 .f32
  | 0, hn => out2_A_1 c (grid2.coords ⟨0, hn⟩) (ms2_0 ⟨0, hn⟩) (hs2_0 ⟨0, hn⟩) (ms2_1 ⟨0, hn⟩) (hs2_1 ⟨0, hn⟩) ((hcond2_0 ⟨0, hn⟩).mpr (Nat.zero_mod _)) (iblk2 V c 0 ⟨0, hn⟩)
  | n + 1, hn =>
    if h0 : (n + 1) % 4 = 0 then
      out2_A_1 c (grid2.coords ⟨n + 1, hn⟩) (ms2_0 ⟨n + 1, hn⟩) (hs2_0 ⟨n + 1, hn⟩) (ms2_1 ⟨n + 1, hn⟩) (hs2_1 ⟨n + 1, hn⟩) ((hcond2_0 ⟨n + 1, hn⟩).mpr h0) (iblk2 V c 0 ⟨n + 1, hn⟩)
    else
      out2_B_1 c (grid2.coords ⟨n + 1, hn⟩) (ms2_0 ⟨n + 1, hn⟩) (hs2_0 ⟨n + 1, hn⟩) (ms2_1 ⟨n + 1, hn⟩) (hs2_1 ⟨n + 1, hn⟩) (fun h => h0 ((hcond2_0 ⟨n + 1, hn⟩).mp h)) (iblk2 V c 0 ⟨n + 1, hn⟩) (outsAt2 c n (Nat.lt_of_succ_lt hn))

/-- `outsAt2` at a point of case A: that case's contents. -/
theorem outsAt2_A (c : Dev nD) (t : Fin cfg2.N) (h0 : t.val % 4 = 0) :
    outsAt2 V c t.val t.isLt = out2_A_1 c (grid2.coords t) (ms2_0 t) (hs2_0 t) (ms2_1 t) (hs2_1 t) ((hcond2_0 t).mpr h0) (iblk2 V c 0 t) := by
  obtain ⟨n, hn⟩ := t
  cases n with
  | zero => exact rfl
  | succ n => exact (dif_pos h0).trans rfl

/-- `outsAt2` at a point of case B: that case's contents, over what the point before left. -/
theorem outsAt2_B (c : Dev nD) (t : Fin cfg2.N) (h0 : ¬t.val % 4 = 0) :
    outsAt2 V c t.val t.isLt = out2_B_1 c (grid2.coords t) (ms2_0 t) (hs2_0 t) (ms2_1 t) (hs2_1 t) (fun h => h0 ((hcond2_0 t).mp h)) (iblk2 V c 0 t) (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 2 on core `c`: the arrays as the region finds them (`V`); after the body at point `t`
    the input's buffer at its block and the output's at `outsAt2`; the invariant the scoped rest and the generator
    register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => (outsAt2 V c t.val t.isLt)
  Φ _ := Pipeline.ΦA spec2 c
  q _ := fullShare
  owed _ := 0

/-- The proof data's arrays are the region-entry contents (the definition projected, so that `V` is never unfolded). -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = (outsAt2 V c t.val t.isLt) := by dsimp only [dat2]

/-- The input's current staging buffer holds its block at every point. -/
theorem before2_0 (c : Dev nD) (t : Fin cfg2.N) (d) : (dat2 V c).before 0 t d = iblk2 V c 0 t :=
  before2_0_of V (dat2 V c) (A_eq2 V c 0) (after2_0 V c) t d
/-- At a point of case B the output's current staging buffer holds what the body left at the point before: the point is
    not the first, the buffer was not written back between (write-backs follow the points whose position is 3 mod 4),
    the window is live and uncut. -/
theorem before2_1_B (c : Dev nD) (t : Fin cfg2.N) (h0 : ¬t.val % 4 = 0) (d) :
    (dat2 V c).before 1 t d = (outsAt2 V c (t.val - 1) (Nat.lt_of_le_of_lt (Nat.sub_le _ _) t.isLt)) := by
  have hN : t.val < 32 := lt_of_lt_of_eq t.isLt (show cfg2.N = 32 from N_2)
  rw [Dat.before_out_kept _ 1 rfl t (by omega) (Bool.eq_false_iff.mpr fun h => by have := (flush2_1 _).mp h; dsimp only at this; omega)
    (fun _ => rfl) (fun _ _ => rfl)]
  dsimp only [dat2]

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t))

set_option maxHeartbeats 800000 in
/-- The body at any point: the input's memref holds its block; the closed form says which case the point is in; in case
    B the output's memref holds what the point before left; so the case's run applies; the invariant passes through
    unread; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1]
  have hN : t.val < 32 := lt_of_lt_of_eq t.isLt (show cfg2.N = 32 from N_2)
  by_cases h0 : t.val % 4 = 0
  · rw [outsAt2_A V c t h0]
    unfold out2_A_1
    iintro ⟨HΦ, Ho, ⟨%d0, H0⟩, ⟨%d1, H1⟩⟩
    iapply ((kernelRun2_A c (grid2.coords t) _ _ _ _ ((hcond2_0 t).mpr h0) (iblk2 V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover2_A_1 c _ _ _ _ _ _ _)
  · rw [outsAt2_B V c t h0]
    simp only [before2_1_B V c t h0]
    unfold out2_B_1
    iintro ⟨HΦ, Ho, ⟨%d0, H0⟩, ⟨%d1, H1⟩⟩
    iapply ((kernelRun2_B c (grid2.coords t) _ _ _ _ (fun h => h0 ((hcond2_0 t).mp h)) (iblk2 V c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover2_B_1 c _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.KI.Uc4RunA.lean ====
/- Region 4 (the row-and-column-sums kernel): what the two cases' runs share — the block of a window at a
   point read off the region-entry contents, the branch condition decided over the grid, the staging memrefs —
   and the whole-body run of the case in which the row-sum block is reset (the second grid coordinate is 0). -/
import proofs.«108817_j44229573214371_2_alg».proof.Proof.Gen.KernelIdeal.Launch
import proofs.«108817_j44229573214371_2_alg».proof.Proof.Gen.KernelIdeal.Skeleton
import proofs.«108817_j44229573214371_2_alg».proof.Proof.Gen.KernelIdeal.Points
import Idealize.ShloMosaic.Lib.Pipeline.FrameBody
import Idealize.ShloMosaic.Lib.Ring
import Idealize.ShloMosaic.Lib.Tactic

-- membership in a rectangle of production extents: the elaborator's structural look
-- recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Shared
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s and whose body leaves the block in place: the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

end Shared

/-! ## The body's branch condition -/

/-- The condition of the body's one conditional, from the grid coordinates: the second coordinate is 0. -/
abbrev cond4_0 (i : grid4.Coords) : Prop := (Scalar.cmpi .ne (Scalar.extui (Scalar.cmpi .eq (BitVec.ofNat 32 (i 1).val) 0#32)) 0#32) = 1#1
/-- It holds at the points whose position is a multiple of 4 — decided over the grid. -/
theorem hcond4_0 : ∀ t : Fin cfg4.N, cond4_0 (grid4.coords t) ↔ t.val % 4 = 0 :=
  (by decide +kernel : ∀ t : Fin grid4.N, cond4_0 (grid4.coords t) ↔ t.val % 4 = 0)

/-! ## The staging memrefs -/

/-- One staging buffer of each output window, through which its contents are stated (the choice does not matter). -/
abbrev VO4_1 : View sig .tc .vmem S1024x1 .f32 := (Memref.whole cc4_stg1_0 : Memref sig .tc .vmem S1024x1 .f32).view
abbrev VO4_2 : View sig .tc .vmem S1x8x2048 .f32 := (Memref.whole cc4_stg2_0 : Memref sig .tc .vmem S1x8x2048 .f32).view
/-- Each window's current staging memref at point `t`, spelled as the pipeline passes it, and its wholeness. -/
abbrev ms4_0 (t : Fin cfg4.N) : Memref sig .tc .vmem S1024x2048 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x1 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x8x2048 .f32 := win4_2.stage (cfg4.slots t 2)
abbrev hs4_2 (t : Fin cfg4.N) : (ms4_2 t).IsWhole := hstage4_2 ((cfg4.slots t 2).cast nbuf4_2)

/-! ## The body in the resetting case -/

-- (the run's proof term is large)
set_option maxHeartbeats 1000000 in
/-- What the body's stores leave in each output's staging memref, as pieces (last first), where the second grid
    coordinate is 0, with the proof that on whole staging memrefs — the input's at its contents, the outputs' at
    anything — the body runs to the continuation holding the input's as it was and each output's buffer with its
    pieces written. -/
noncomputable def kernelRun4_A (c : Dev nD) (i : grid4.Coords) (arg2 : Memref sig .tc .vmem S1024x2048 .f32) (harg2 : arg2.IsWhole) (arg3 : Memref sig .tc .vmem S1024x1 .f32) (harg3 : arg3.IsWhole) (arg4 : Memref sig .tc .vmem S1x8x2048 .f32) (harg4 : arg4.IsWhole) (hc0 : cond4_0 i)
    (x0 : Vec F S1024x2048 .f32) :
    Σ' (L1 : List (View.Piece (Elt F) S1024x1 .f32)), { L2 : List (View.Piece (Elt F) S1x8x2048 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d)
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2)) -∗ K ⟨⟩))
          ⊢ wp frame (wpE (defs₀ (F := F)) Variants.none c none) E (cc4__uc_sums_kernel i arg2 harg2 arg3 harg3 arg4 harg4) K } := by
  refine ⟨?_, ?_, fun E K => ?run⟩
  case run =>
    simp only [cc4__uc_sums_kernel_eq_skeleton]; unfold cc4__uc_sums_kernel_skel
    unfold owns
    iintro ⟨⟨%f0, %hf0, H0⟩, ⟨%d1, %f1, -, H1⟩, ⟨%d2, %f2, -, H2⟩, Hk⟩
    obtain rfl := harg2.eq_unread hf0
    sl_exec (disch := first | exact hc0)
    sl_step
    iapply Hk
    isplitl [H0]
    · iexists _; isplitr; · ipureintro; exact harg2.read_unread _
      iexact H0
    isplitl [H1]
    · iexists _; iexact H1
    iexists _; iexact H2

end Cert.KernelIdeal.Hand

end
-- ==== Proof.KI.Uc4RunB.lean ====
/- Region 4 (the row-and-column-sums kernel): the whole-body run of the case in which the row-sum block
   accumulates over what the point before left (the second grid coordinate is not 0). -/
import proofs.«108817_j44229573214371_2_alg».proof.Proof.KI.Uc4RunA

-- membership in a rectangle of production extents: the elaborator's structural look
-- recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body in the accumulating case -/

-- (the run's proof term is large)
set_option maxHeartbeats 1000000 in
/-- What the body's stores leave in each output's staging memref, as pieces (last first), where the second grid
    coordinate is not 0, with the proof that on whole staging memrefs — the input's at its contents, the row-sum
    output's at its running contents `xo1`, the column-sum output's at anything — the body runs to the continuation
    holding the input's as it was and each output's buffer with its pieces written. -/
noncomputable def kernelRun4_B (c : Dev nD) (i : grid4.Coords) (arg2 : Memref sig .tc .vmem S1024x2048 .f32) (harg2 : arg2.IsWhole) (arg3 : Memref sig .tc .vmem S1024x1 .f32) (harg3 : arg3.IsWhole) (arg4 : Memref sig .tc .vmem S1x8x2048 .f32) (harg4 : arg4.IsWhole) (hc0 : ¬cond4_0 i)
    (x0 : Vec F S1024x2048 .f32) (xo1 : Vec F S1024x1 .f32) :
    Σ' (L1 : List (View.Piece (Elt F) S1024x1 .f32)), { L2 : List (View.Piece (Elt F) S1x8x2048 .f32) //
      ∀ (E : Set ℕ) (K : PUnit → sProp 𝕄),
        iprop(owns (c : Thread nD τ) arg2 fullShare x0 ∗ owns (c : Thread nD τ) arg3 fullShare xo1 ∗ (∃ d, owns (c : Thread nD τ) arg4 fullShare d)
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2)) -∗ K ⟨⟩))
          ⊢ wp frame (wpE (defs₀ (F := F)) Variants.none c none) E (cc4__uc_sums_kernel i arg2 harg2 arg3 harg3 arg4 harg4) K } := by
  refine ⟨?_, ?_, fun E K => ?run⟩
  case run =>
    simp only [cc4__uc_sums_kernel_eq_skeleton]; unfold cc4__uc_sums_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; iexact H1
    iexists _; iexact H2

end Cert.KernelIdeal.Hand

end
-- ==== Proof.KI.Uc4.lean ====
/- Region 4 (the row-and-column-sums kernel), at the region-entry contents `V`: what the two outputs' staging
   buffers hold per case (the pieces the runs found cover their blocks) and point by point (by recursion on the
   point: the row-sum block accumulates over the second grid coordinate and is reset where it is 0; the
   column-sum block is stored whole at every point), the proof data, and the body obligation. -/
import proofs.«108817_j44229573214371_2_alg».proof.Proof.KI.Uc4RunB

-- membership in a rectangle of production extents: the elaborator's structural look
-- recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the outputs' staging buffers -/

/-- The resetting case's pieces for the row-sum output tile its block, so they cover it. -/
theorem cover4_A_1 (c : Dev nD) (i : grid4.Coords) (arg2 : Memref sig .tc .vmem S1024x2048 .f32) (harg2 : arg2.IsWhole) (arg3 : Memref sig .tc .vmem S1024x1 .f32) (harg3 : arg3.IsWhole) (arg4 : Memref sig .tc .vmem S1x8x2048 .f32) (harg4 : arg4.IsWhole) (hc0 : cond4_0 i)
    (x0 : Vec F S1024x2048 .f32) (y : S1024x1.Idx) :
    ∃ pc ∈ (kernelRun4_A c i arg2 harg2 arg3 harg3 arg4 harg4 hc0 x0).1, y ∈ pc.1.set :=
  View.cover_of_tiledL (kernelRun4_A c i arg2 harg2 arg3 harg3 arg4 harg4 hc0 x0).1 S1024x1.size (by sl_kernel_rfl) y

/-- What the resetting case leaves in the row-sum output's staging buffer: its pieces read back over junk. -/
def out4_A_1 (c : Dev nD) (i : grid4.Coords) (arg2 : Memref sig .tc .vmem S1024x2048 .f32) (harg2 : arg2.IsWhole) (arg3 : Memref sig .tc .vmem S1024x1 .f32) (harg3 : arg3.IsWhole) (arg4 : Memref sig .tc .vmem S1x8x2048 .f32) (harg4 : arg4.IsWhole) (hc0 : cond4_0 i)
    (x0 : Vec F S1024x2048 .f32) : Vec F S1024x1 .f32 :=
  VO4_1.read (Elt F) (VO4_1.writes (Elt F) VO4_1.junk (kernelRun4_A c i arg2 harg2 arg3 harg3 arg4 harg4 hc0 x0).1)

/-- The resetting case's pieces for the column-sum output tile its block, so they cover it. -/
theorem cover4_A_2 (c : Dev nD) (i : grid4.Coords) (arg2 : Memref sig .tc .vmem S1024x2048 .f32) (harg2 : arg2.IsWhole) (arg3 : Memref sig .tc .vmem S1024x1 .f32) (harg3 : arg3.IsWhole) (arg4 : Memref sig .tc .vmem S1x8x2048 .f32) (harg4 : arg4.IsWhole) (hc0 : cond4_0 i)
    (x0 : Vec F S1024x2048 .f32) (y : S1x8x2048.Idx) :
    ∃ pc ∈ (kernelRun4_A c i arg2 harg2 arg3 harg3 arg4 harg4 hc0 x0).2.1, y ∈ pc.1.set :=
  View.cover_of_tiledL (kernelRun4_A c i arg2 harg2 arg3 harg3 arg4 harg4 hc0 x0).2.1 S1x8x2048.size (by sl_kernel_rfl) y

/-- What the resetting case leaves in the column-sum output's staging buffer: its pieces read back over junk. -/
def out4_A_2 (c : Dev nD) (i : grid4.Coords) (arg2 : Memref sig .tc .vmem S1024x2048 .f32) (harg2 : arg2.IsWhole) (arg3 : Memref sig .tc .vmem S1024x1 .f32) (harg3 : arg3.IsWhole) (arg4 : Memref sig .tc .vmem S1x8x2048 .f32) (harg4 : arg4.IsWhole) (hc0 : cond4_0 i)
    (x0 : Vec F S1024x2048 .f32) : Vec F S1x8x2048 .f32 :=
  VO4_2.read (Elt F) (VO4_2.writes (Elt F) VO4_2.junk (kernelRun4_A c i arg2 harg2 arg3 harg3 arg4 harg4 hc0 x0).2.1)

/-- The accumulating case's pieces for the row-sum output tile its block, so they cover it. -/
theorem cover4_B_1 (c : Dev nD) (i : grid4.Coords) (arg2 : Memref sig .tc .vmem S1024x2048 .f32) (harg2 : arg2.IsWhole) (arg3 : Memref sig .tc .vmem S1024x1 .f32) (harg3 : arg3.IsWhole) (arg4 : Memref sig .tc .vmem S1x8x2048 .f32) (harg4 : arg4.IsWhole) (hc0 : ¬cond4_0 i)
    (x0 : Vec F S1024x2048 .f32) (xo1 : Vec F S1024x1 .f32) (y : S1024x1.Idx) :
    ∃ pc ∈ (kernelRun4_B c i arg2 harg2 arg3 harg3 arg4 harg4 hc0 x0 xo1).1, y ∈ pc.1.set :=
  View.cover_of_tiledL (kernelRun4_B c i arg2 harg2 arg3 harg3 arg4 harg4 hc0 x0 xo1).1 S1024x1.size (by sl_kernel_rfl) y

/-- What the accumulating case leaves in the row-sum output's staging buffer: its pieces read back over junk. -/
def out4_B_1 (c : Dev nD) (i : grid4.Coords) (arg2 : Memref sig .tc .vmem S1024x2048 .f32) (harg2 : arg2.IsWhole) (arg3 : Memref sig .tc .vmem S1024x1 .f32) (harg3 : arg3.IsWhole) (arg4 : Memref sig .tc .vmem S1x8x2048 .f32) (harg4 : arg4.IsWhole) (hc0 : ¬cond4_0 i)
    (x0 : Vec F S1024x2048 .f32) (xo1 : Vec F S1024x1 .f32) : Vec F S1024x1 .f32 :=
  VO4_1.read (Elt F) (VO4_1.writes (Elt F) VO4_1.junk (kernelRun4_B c i arg2 harg2 arg3 harg3 arg4 harg4 hc0 x0 xo1).1)

/-- The accumulating case's pieces for the column-sum output tile its block, so they cover it. -/
theorem cover4_B_2 (c : Dev nD) (i : grid4.Coords) (arg2 : Memref sig .tc .vmem S1024x2048 .f32) (harg2 : arg2.IsWhole) (arg3 : Memref sig .tc .vmem S1024x1 .f32) (harg3 : arg3.IsWhole) (arg4 : Memref sig .tc .vmem S1x8x2048 .f32) (harg4 : arg4.IsWhole) (hc0 : ¬cond4_0 i)
    (x0 : Vec F S1024x2048 .f32) (xo1 : Vec F S1024x1 .f32) (y : S1x8x2048.Idx) :
    ∃ pc ∈ (kernelRun4_B c i arg2 harg2 arg3 harg3 arg4 harg4 hc0 x0 xo1).2.1, y ∈ pc.1.set :=
  View.cover_of_tiledL (kernelRun4_B c i arg2 harg2 arg3 harg3 arg4 harg4 hc0 x0 xo1).2.1 S1x8x2048.size (by sl_kernel_rfl) y

/-- What the accumulating case leaves in the column-sum output's staging buffer: its pieces read back over junk. -/
def out4_B_2 (c : Dev nD) (i : grid4.Coords) (arg2 : Memref sig .tc .vmem S1024x2048 .f32) (harg2 : arg2.IsWhole) (arg3 : Memref sig .tc .vmem S1024x1 .f32) (harg3 : arg3.IsWhole) (arg4 : Memref sig .tc .vmem S1x8x2048 .f32) (harg4 : arg4.IsWhole) (hc0 : ¬cond4_0 i)
    (x0 : Vec F S1024x2048 .f32) (xo1 : Vec F S1024x1 .f32) : Vec F S1x8x2048 .f32 :=
  VO4_2.read (Elt F) (VO4_2.writes (Elt F) VO4_2.junk (kernelRun4_B c i arg2 harg2 arg3 harg3 arg4 harg4 hc0 x0 xo1).2.1)

section Region
-- the TensorCore's buffer contents when the region is entered
variable (V : (c : Dev nD) → (b : Ref sig .tc) → Buf (Elt F) ((c : Thread nD τ).loc b))

/-! ## What the outputs hold after each point -/

/-- What the two outputs' staging buffers hold after the body at position `n` (a pair: the row-sum block, the
    column-sum block): the case the position selects, run at the point's memrefs and input block, the row-sum
    block read before it is covered at what this leaves at `n - 1` (its buffer is not written back between). -/
def outsAt4 (c : Dev nD) : (n : ℕ) → n < cfg4.N → Vec F S1024x1 .f32 × Vec F S1x8x2048 .f32
  | 0, hn => (out4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) ((hcond4_0 ⟨0, hn⟩).mpr (Nat.zero_mod _)) (iblk4 V c 0 ⟨0, hn⟩), out4_A_2 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) ((hcond4_0 ⟨0, hn⟩).mpr (Nat.zero_mod _)) (iblk4 V c 0 ⟨0, hn⟩))
  | n + 1, hn =>
    if h0 : (n + 1) % 4 = 0 then
      (out4_A_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) ((hcond4_0 ⟨n + 1, hn⟩).mpr h0) (iblk4 V c 0 ⟨n + 1, hn⟩), out4_A_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) ((hcond4_0 ⟨n + 1, hn⟩).mpr h0) (iblk4 V c 0 ⟨n + 1, hn⟩))
    else
      (out4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (fun h => h0 ((hcond4_0 ⟨n + 1, hn⟩).mp h)) (iblk4 V c 0 ⟨n + 1, hn⟩) (outsAt4 c n (Nat.lt_of_succ_lt hn)).1, out4_B_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (fun h => h0 ((hcond4_0 ⟨n + 1, hn⟩).mp h)) (iblk4 V c 0 ⟨n + 1, hn⟩) (outsAt4 c n (Nat.lt_of_succ_lt hn)).1)

/-- `outsAt4` at a point of the resetting case: that case's contents. -/
theorem outsAt4_A (c : Dev nD) (t : Fin cfg4.N) (h0 : t.val % 4 = 0) :
    outsAt4 V c t.val t.isLt = (out4_A_1 c (grid4.coords t) (ms4_0 t) (hs4_0 t) (ms4_1 t) (hs4_1 t) (ms4_2 t) (hs4_2 t) ((hcond4_0 t).mpr h0) (iblk4 V c 0 t), out4_A_2 c (grid4.coords t) (ms4_0 t) (hs4_0 t) (ms4_1 t) (hs4_1 t) (ms4_2 t) (hs4_2 t) ((hcond4_0 t).mpr h0) (iblk4 V c 0 t)) := by
  obtain ⟨n, hn⟩ := t
  cases n with
  | zero => exact rfl
  | succ n => exact (dif_pos h0).trans rfl

/-- `outsAt4` at a point of the accumulating case: that case's contents, over what the point before left. -/
theorem outsAt4_B (c : Dev nD) (t : Fin cfg4.N) (h0 : ¬t.val % 4 = 0) :
    outsAt4 V c t.val t.isLt = (out4_B_1 c (grid4.coords t) (ms4_0 t) (hs4_0 t) (ms4_1 t) (hs4_1 t) (ms4_2 t) (hs4_2 t) (fun h => h0 ((hcond4_0 t).mp h)) (iblk4 V c 0 t) (outsAt4 V c (t.val - 1) (Nat.lt_of_le_of_lt (Nat.sub_le _ _) t.isLt)).1, out4_B_2 c (grid4.coords t) (ms4_0 t) (hs4_0 t) (ms4_1 t) (hs4_1 t) (ms4_2 t) (hs4_2 t) (fun h => h0 ((hcond4_0 t).mp h)) (iblk4 V c 0 t) (outsAt4 V c (t.val - 1) (Nat.lt_of_le_of_lt (Nat.sub_le _ _) t.isLt)).1) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 4 on core `c`: the arrays as the region finds them (`V`); after the body at
    point `t` the input's buffer at its block and the outputs' at `outsAt4`; the invariant the scoped rest and
    the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => (outsAt4 V c t.val t.isLt).1
    | ⟨2, _⟩ => (outsAt4 V c t.val t.isLt).2
  Φ _ := Pipeline.ΦA spec4 c
  q _ := fullShare
  owed _ := 0

/-- The proof data's arrays are the region-entry contents (the proof data's definition projected). -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = (outsAt4 V c t.val t.isLt).1 := by dsimp only [dat4]
theorem after4_2 (c : Dev nD) (t : Fin cfg4.N) : (dat4 V c).after 2 t = (outsAt4 V c t.val t.isLt).2 := by dsimp only [dat4]

/-- The input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
/-- At a point of the accumulating case the row-sum output's current staging buffer holds what the body left at the
    point before: the point is not the first, the buffer was not written back between, the window is live and uncut. -/
theorem before4_1_B (c : Dev nD) (t : Fin cfg4.N) (h0 : ¬t.val % 4 = 0) (d) :
    (dat4 V c).before 1 t d = (outsAt4 V c (t.val - 1) (Nat.lt_of_le_of_lt (Nat.sub_le _ _) t.isLt)).1 := by
  have hN : t.val < 32 := lt_of_lt_of_eq t.isLt (show cfg4.N = 32 from N_4)
  rw [Dat.before_out_kept _ 1 rfl t (by omega) (Bool.eq_false_iff.mpr fun h => by have := (flush4_1 _).mp h; dsimp only at this; omega)
    (fun _ => rfl) (fun _ _ => rfl)]
  dsimp only [dat4]

/-! ## The body obligation, at a generic point -/

/-- What the body is called with at point `t` (the windows one by one), -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t))

set_option maxHeartbeats 1600000 in
/-- The body at any point: the input's memref holds its block; the position says which case the point is in; in the
    accumulating case the row-sum output holds what the point before left; so the run applies; the invariant passes
    through unread; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).Φ t.succ = (dat4 V c).Φ t.castSucc from rfl,
    show (dat4 V c).owesAt () t.succ = (dat4 V c).owesAt () t.castSucc from rfl,
    after4_0, after4_1, after4_2]
  have hN : t.val < 32 := lt_of_lt_of_eq t.isLt (show cfg4.N = 32 from N_4)
  by_cases h0 : t.val % 4 = 0
  · rw [outsAt4_A V c t h0]
    unfold out4_A_1 out4_A_2; (try dsimp only)
    iintro ⟨HΦ, Ho, ⟨%d0, H0⟩, ⟨%d1, H1⟩, ⟨%d2, H2⟩⟩
    iapply ((kernelRun4_A c (grid4.coords t) _ _ _ _ _ _ ((hcond4_0 t).mpr h0) (iblk4 V c 0 t)).2.2 Set.univ _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover4_A_1 c _ _ _ _ _ _ _ _ _)
    unfold owns; iexists _; isplitr
    swap; · iexact H2
    ipureintro; exact View.read_writes_of_cover _ _ _ _ _ (cover4_A_2 c _ _ _ _ _ _ _ _ _)
  · rw [outsAt4_B V c t h0]
    simp only [before4_1_B V c t h0]
    unfold out4_B_1 out4_B_2; (try dsimp only)
    iintro ⟨HΦ, Ho, ⟨%d0, H0⟩, ⟨%d1, H1⟩, ⟨%d2, H2⟩⟩
    iapply ((kernelRun4_B c (grid4.coords t) _ _ _ _ _ _ (fun h => h0 ((hcond4_0 t).mp h)) (iblk4 V c 0 t) _).2.2 Set.univ _)
    isplitl [H0]; · iexact H0
    isplitl [H1]; · iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover4_B_1 c _ _ _ _ _ _ _ _ _ _)
    unfold owns; iexists _; isplitr
    swap; · iexact H2
    ipureintro; exact View.read_writes_of_cover _ _ _ _ _ (cover4_B_2 c _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

end Region

end Cert.KernelIdeal.Hand

end
-- ==== Proof.KI.Wmm1Runs.lean ====
import proofs.«108817_j44229573214371_2_alg».proof.Proof.Gen.KernelIdeal.Launch
import proofs.«108817_j44229573214371_2_alg».proof.Proof.Gen.KernelIdeal.Skeleton
import proofs.«108817_j44229573214371_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when region 1 is entered: the parameter this region's half is stated at
variable (V : (c : Dev nD) → (b : Ref sig .tc) → Buf (Elt F) ((c : Thread nD τ).loc b))

/-! # Region 1: the weighted matrix product with a carried accumulator, at the entry contents `V`

Grid (8,4), point `t` at coordinates `(i, k) = (t / 4, t % 4)`. The accumulator (a scoped scratch buffer) is
zeroed where `k = 0`, added to at every point and read back, scaled row by row, into the output where `k = 3`. -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for input window 2 (fetched only where `k = 0`: at the other points its block index is the one before). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first conditional (`k = 0`), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 4) — decided over the grid. -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the body's second conditional (`k = 3`), from the grid coordinates. -/
abbrev cond1_1 (i : grid1.Coords) : Prop := k1_cond2 i = 1#1
/-- It holds at the points ≡ 3 (mod 4) — decided over the grid. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- Windows 0, 1, 2 are never idle (inputs). -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where `k = 0` output 3 is idle: nothing is stored into it, -/
theorem idleAt1_3_A : ∀ t : Fin cfg1.N, cond1_0 (grid1.coords t) → ¬cond1_1 (grid1.coords t) → cfg1.idle 3 (grid1.coords t) = true := by decide +kernel
/-- and its block is not written back. -/
theorem noFlush1_3_A : ∀ t : Fin cfg1.N, cond1_0 (grid1.coords t) → ¬cond1_1 (grid1.coords t) → (cfg1.win 3).flush t = false := by decide +kernel
/-- Where `k = 1, 2` output 3 is idle, -/
theorem idleAt1_3_B : ∀ t : Fin cfg1.N, ¬cond1_0 (grid1.coords t) → ¬cond1_1 (grid1.coords t) → cfg1.idle 3 (grid1.coords t) = true := by decide +kernel
/-- and its block is not written back. -/
theorem noFlush1_3_B : ∀ t : Fin cfg1.N, ¬cond1_0 (grid1.coords t) → ¬cond1_1 (grid1.coords t) → (cfg1.win 3).flush t = false := by decide +kernel
/-- Where `k = 3` output 3 is live: the body stores into it. -/
theorem liveAt1_3_C : ∀ t : Fin cfg1.N, ¬cond1_0 (grid1.coords t) → cond1_1 (grid1.coords t) → cfg1.idle 3 (grid1.coords t) = false := by decide +kernel

/-! ## The staging and scratch memrefs -/

/-- One staging buffer of output window 3, through which its contents are stated (the choice does not matter). -/
abbrev VO1_3 : View sig .tc .vmem S1024x32 .f32 := (Memref.whole cc1_stg3_0 : Memref sig .tc .vmem S1024x32 .f32).view
/-- Each window's current staging memref at point `t`, spelled as the pipeline passes it, and its wholeness. -/
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x32 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x32 .f32 := win1_3.stage (cfg1.slots t 3)
abbrev hs1_3 (t : Fin cfg1.N) : (ms1_3 t).IsWhole := hstage1_3 ((cfg1.slots t 3).cast nbuf1_3)
/-- The scratch operand: a whole scoped buffer of the kernel's own, passed beside the windows. -/
abbrev scM1_0 : Memref sig .tc .vmem S1024x32 .f32 := Memref.whole cc1_scratch0
/-- The accumulator the kernel carries between points, as a view: what it holds is stated through it. -/
abbrev VS1_0 : View sig .tc .vmem S1024x32 .f32 := scM1_0.view

/-- The class invariant with the scratch operand as a memref owned at some contents, the rest of the scoped
    buffers unopened: what the body obligation hands the run and takes back. -/
theorem PhiA1_eq (c : Dev nD) :
    (Pipeline.ΦA spec1 c : sProp 𝕄)
      = iprop(iprop(iprop((∃ d, owns (c : Thread nD τ) scM1_0 fullShare d))
            ∗ Pipeline.scopedRestBut (Ix := Unit) (Name := ℕ) (U := UR sig nD τ) (Lvl := ℕ) (Val := Elt F) spec1 c [cc1_scratch0])
          ∗ (∃ r, prngReg c r)) := by
  unfold Pipeline.ΦA; rw [scopedRest1_split]; simp only [scM1_0, owns_whole]; try rfl

end Cert.KernelIdeal.Hand

end
-- ==== Proof.KI.Wmm1RunA.lean ====
import proofs.«108817_j44229573214371_2_alg».proof.Proof.KI.Wmm1Runs

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref and in the accumulator, as pieces (last first), where
    `k = 0` (first conditional taken, second not), with the proof that on whole memrefs — the inputs' at their
    contents, the output's (idle here) at contents handed back untouched, the accumulator at anything — the body runs
    to the continuation holding the inputs' and the output's as they were and the accumulator with its pieces written. -/
noncomputable def kernelRun1_A (c : Dev nD) (i : grid1.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : cond1_0 i) (hc1 : ¬cond1_1 i)
    (x0 : Vec F S1024x2048 .f32) (x1 : Vec F S2048x32 .f32) (x2 : Vec F S1024x1 .f32) :
    Σ' (L3 : List (View.Piece (Elt F) S1024x32 .f32)), { LS0 : List (View.Piece (Elt F) S1024x32 .f32) //
      ∀ (xi3 : Vec F S1024x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__wmm_kernel i arg2 harg2 arg3 harg3 arg4 harg4 arg5 harg5 arg6 harg6) K } := by
  refine ⟨[], ?_, fun xi3 E K => ?run⟩
  case run =>
    simp only [cc1__wmm_kernel_eq_skeleton]; unfold cc1__wmm_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.Wmm1RunB.lean ====
import proofs.«108817_j44229573214371_2_alg».proof.Proof.KI.Wmm1RunA

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- The same where `k = 1, 2` (neither conditional taken): the accumulator at the contents `xs0` the point before
    left; the output idle, handed back untouched. -/
noncomputable def kernelRun1_B (c : Dev nD) (i : grid1.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : ¬cond1_0 i) (hc1 : ¬cond1_1 i)
    (x0 : Vec F S1024x2048 .f32) (x1 : Vec F S2048x32 .f32) (x2 : Vec F S1024x1 .f32) (xs0 : Vec F S1024x32 .f32) :
    Σ' (L3 : List (View.Piece (Elt F) S1024x32 .f32)), { LS0 : List (View.Piece (Elt F) S1024x32 .f32) //
      ∀ (xi3 : Vec F S1024x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__wmm_kernel i arg2 harg2 arg3 harg3 arg4 harg4 arg5 harg5 arg6 harg6) K } := by
  refine ⟨[], ?_, fun xi3 E K => ?run⟩
  case run =>
    simp only [cc1__wmm_kernel_eq_skeleton]; unfold cc1__wmm_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.Wmm1RunC.lean ====
import proofs.«108817_j44229573214371_2_alg».proof.Proof.KI.Wmm1RunB

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- The same where `k = 3` (first conditional not taken, second taken): the accumulator at the contents `xs0` the
    point before left; the output's buffer at anything, left with its pieces written. -/
noncomputable def kernelRun1_C (c : Dev nD) (i : grid1.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : ¬cond1_0 i) (hc1 : cond1_1 i)
    (x0 : Vec F S1024x2048 .f32) (x1 : Vec F S2048x32 .f32) (x2 : Vec F S1024x1 .f32) (xs0 : Vec F S1024x32 .f32) :
    Σ' (L3 : List (View.Piece (Elt F) S1024x32 .f32)), { LS0 : List (View.Piece (Elt F) S1024x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__wmm_kernel i arg2 harg2 arg3 harg3 arg4 harg4 arg5 harg5 arg6 harg6) K } := by
  refine ⟨?_, ?_, fun E K => ?run⟩
  case run =>
    simp only [cc1__wmm_kernel_eq_skeleton]; unfold cc1__wmm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.Wmm1.lean ====
import proofs.«108817_j44229573214371_2_alg».proof.Proof.KI.Wmm1RunC

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when region 1 is entered: the parameter this region's half is stated at
variable (V : (c : Dev nD) → (b : Ref sig .tc) → Buf (Elt F) ((c : Thread nD τ).loc b))

/-! # Region 1: what each case leaves in the output's buffer and in the accumulator -/

/-- Where `k = 0` nothing is stored into output 3 (idle there, not written back): no pieces — a placeholder that
    nothing consults. -/
def out1_A_3 (c : Dev nD) (i : grid1.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : cond1_0 i) (hc1 : ¬cond1_1 i)
    (x0 : Vec F S1024x2048 .f32) (x1 : Vec F S2048x32 .f32) (x2 : Vec F S1024x1 .f32) : Vec F S1024x32 .f32 :=
  VO1_3.read (Elt F) (VO1_3.writes (Elt F) VO1_3.junk (kernelRun1_A c i arg2 harg2 arg3 harg3 arg4 harg4 arg5 harg5 arg6 harg6 hc0 hc1 x0 x1 x2).1)

/-- Where `k = 0` the accumulator's pieces (the zero store, then the sum's) tile it, so they cover it. -/
theorem scover1_A_0 (c : Dev nD) (i : grid1.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : cond1_0 i) (hc1 : ¬cond1_1 i)
    (x0 : Vec F S1024x2048 .f32) (x1 : Vec F S2048x32 .f32) (x2 : Vec F S1024x1 .f32) (y : S1024x32.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1024x32.size (by sl_kernel_rfl) y

/-- What the case `k = 0` leaves in the accumulator: its pieces read back. -/
def sout1_A_0 (c : Dev nD) (i : grid1.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : cond1_0 i) (hc1 : ¬cond1_1 i)
    (x0 : Vec F S1024x2048 .f32) (x1 : Vec F S2048x32 .f32) (x2 : Vec F S1024x1 .f32) : Vec F S1024x32 .f32 :=
  VS1_0.read (Elt F) (VS1_0.writes (Elt F) VS1_0.junk (kernelRun1_A c i arg2 harg2 arg3 harg3 arg4 harg4 arg5 harg5 arg6 harg6 hc0 hc1 x0 x1 x2).2.1)

/-- Where `k = 1, 2` nothing is stored into output 3: a placeholder that nothing consults. -/
def out1_B_3 (c : Dev nD) (i : grid1.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : ¬cond1_0 i) (hc1 : ¬cond1_1 i)
    (x0 : Vec F S1024x2048 .f32) (x1 : Vec F S2048x32 .f32) (x2 : Vec F S1024x1 .f32) (xs0 : Vec F S1024x32 .f32) : Vec F S1024x32 .f32 :=
  VO1_3.read (Elt F) (VO1_3.writes (Elt F) VO1_3.junk (kernelRun1_B c i arg2 harg2 arg3 harg3 arg4 harg4 arg5 harg5 arg6 harg6 hc0 hc1 x0 x1 x2 xs0).1)

/-- Where `k = 1, 2` the accumulator's one piece tiles it. -/
theorem scover1_B_0 (c : Dev nD) (i : grid1.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : ¬cond1_0 i) (hc1 : ¬cond1_1 i)
    (x0 : Vec F S1024x2048 .f32) (x1 : Vec F S2048x32 .f32) (x2 : Vec F S1024x1 .f32) (xs0 : Vec F S1024x32 .f32) (y : S1024x32.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1024x32.size (by sl_kernel_rfl) y

/-- What the case `k = 1, 2` leaves in the accumulator. -/
def sout1_B_0 (c : Dev nD) (i : grid1.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : ¬cond1_0 i) (hc1 : ¬cond1_1 i)
    (x0 : Vec F S1024x2048 .f32) (x1 : Vec F S2048x32 .f32) (x2 : Vec F S1024x1 .f32) (xs0 : Vec F S1024x32 .f32) : Vec F S1024x32 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- Where `k = 3` output 3's one store tiles its block, so it covers it. -/
theorem cover1_C_3 (c : Dev nD) (i : grid1.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : ¬cond1_0 i) (hc1 : cond1_1 i)
    (x0 : Vec F S1024x2048 .f32) (x1 : Vec F S2048x32 .f32) (x2 : Vec F S1024x1 .f32) (xs0 : Vec F S1024x32 .f32) (y : S1024x32.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1024x32.size (by sl_kernel_rfl) y

/-- What the case `k = 3` leaves in output 3's staging buffer: its pieces read back. -/
def out1_C_3 (c : Dev nD) (i : grid1.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : ¬cond1_0 i) (hc1 : cond1_1 i)
    (x0 : Vec F S1024x2048 .f32) (x1 : Vec F S2048x32 .f32) (x2 : Vec F S1024x1 .f32) (xs0 : Vec F S1024x32 .f32) : Vec F S1024x32 .f32 :=
  VO1_3.read (Elt F) (VO1_3.writes (Elt F) VO1_3.junk (kernelRun1_C c i arg2 harg2 arg3 harg3 arg4 harg4 arg5 harg5 arg6 harg6 hc0 hc1 x0 x1 x2 xs0).1)

/-- Where `k = 3` the accumulator's one piece tiles it. -/
theorem scover1_C_0 (c : Dev nD) (i : grid1.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : ¬cond1_0 i) (hc1 : cond1_1 i)
    (x0 : Vec F S1024x2048 .f32) (x1 : Vec F S2048x32 .f32) (x2 : Vec F S1024x1 .f32) (xs0 : Vec F S1024x32 .f32) (y : S1024x32.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1024x32.size (by sl_kernel_rfl) y

/-- What the case `k = 3` leaves in the accumulator. -/
def sout1_C_0 (c : Dev nD) (i : grid1.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : ¬cond1_0 i) (hc1 : cond1_1 i)
    (x0 : Vec F S1024x2048 .f32) (x1 : Vec F S2048x32 .f32) (x2 : Vec F S1024x1 .f32) (xs0 : Vec F S1024x32 .f32) : Vec F S1024x32 .f32 :=
  VS1_0.read (Elt F) (VS1_0.writes (Elt F) VS1_0.junk (kernelRun1_C c i arg2 harg2 arg3 harg3 arg4 harg4 arg5 harg5 arg6 harg6 hc0 hc1 x0 x1 x2 xs0).2.1)

/-! ## What the output's buffer and the accumulator hold after each point -/

/-- THE ACCUMULATION. What output 3's staging buffer (first component) and the accumulator (second) hold after the
    body at position `n`: the case the closed forms select at `n`, run at the point's memrefs and input blocks, the
    accumulator it reads at what this leaves at `n - 1`. An assignment of the conditions no point meets is no case. -/
def outsAt1 (c : Dev nD) : (n : ℕ) → n < cfg1.N → Vec F S1024x32 .f32 × Vec F S1024x32 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a point with `k = 0`: that case's contents. -/
theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a point with `k = 1, 2`: that case's contents, over what the point before left. -/
theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point with `k = 3`: that case's contents, over what the point before left. -/
theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scratch at anything);
    afterwards the accumulator at what the point before left in it, the other scoped buffers unopened, and the
    generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2)) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop(iprop(owns (c : Thread nD τ) scM1_0 fullShare ((outsAt1 V c n hn).2)) ∗ Pipeline.scopedRestBut (Ix := Unit) (Name := ℕ) (U := UR sig nD τ) (Lvl := ℕ) (Val := Elt F) spec1 c [cc1_scratch0]) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2)) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

/-- The proof data of pipeline 1 on core `c`: the arrays as the region finds them (`V`); after the body at point
    `t` each input's buffer at its block and the output's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

/-- The inputs' posts: never idle, so the buffer at its block. -/
theorem leaves1_0 (c : Dev nD) (t : Fin cfg1.N) :
    (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (ms1_2 t) fullShare (iblk1 V c 2 t) := by
  unfold Dat.leavesExact; rw [liveAt1_2 t, after1_2]

set_option maxHeartbeats 4800000 in
/-- The body at any point: the inputs' memrefs hold their blocks; the closed forms say which case the point is in; the
    invariant hands the body the accumulator at what the point before left (at anything at the first point), and takes
    it back at this point's contents; the other scoped buffers, the generator register and what the core owes pass
    through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2]
  have hN : t.val < 32 := lt_of_lt_of_eq t.isLt (show cfg1.N = 32 from N_1)
  by_cases h0 : t.val % 4 = 0
  · by_cases h1 : t.val % 4 = 3
    · exfalso; omega
    · rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, HR⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 4 = 3
    · rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      by_cases hz : t.val = 0
      · exfalso; omega
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_C_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_B_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's contents are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

/-- The same after the last point. -/
theorem hout1 (c : Dev nD) : (dat1 V c).Φ (Fin.last cfg1.N) ⊢ (Pipeline.ΦA spec1 c : sProp 𝕄) :=
  Phi_out1 V c _ (by rw [Fin.val_last]; have : cfg1.N = 32 := N_1; omega)

end Cert.KernelIdeal.Hand

end
-- ==== Proof.KI.Wmm3Runs.lean ====
import proofs.«108817_j44229573214371_2_alg».proof.Proof.Gen.KernelIdeal.Launch
import proofs.«108817_j44229573214371_2_alg».proof.Proof.Gen.KernelIdeal.Skeleton
import proofs.«108817_j44229573214371_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when region 3 is entered: the parameter this region's half is stated at
variable (V : (c : Dev nD) → (b : Ref sig .tc) → Buf (Elt F) ((c : Thread nD τ).loc b))

/-! # Region 3: the weighted matrix product with a carried accumulator, at the entry contents `V`

Grid (8,4), point `t` at coordinates `(i, k) = (t / 4, t % 4)`. The accumulator (a scoped scratch buffer) is
zeroed where `k = 0`, added to at every point and read back, scaled row by row, into the output where `k = 3`. -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s and whose body leaves the block in place: unfetched, the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The same for input window 1. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The same for input window 2 (fetched only where `k = 0`: at the other points its block index is the one before). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch conditions -/

/-- The condition of the body's first conditional (`k = 0`), from the grid coordinates. -/
abbrev cond3_0 (i : grid3.Coords) : Prop := (Scalar.cmpi .ne (Scalar.extui (Scalar.cmpi .eq (BitVec.ofNat 32 (i 1).val) 0#32)) 0#32) = 1#1
/-- It holds at the points ≡ 0 (mod 4) — decided over the grid. -/
theorem hcond3_0 : ∀ t : Fin cfg3.N, cond3_0 (grid3.coords t) ↔ t.val % 4 = 0 :=
  (by decide +kernel : ∀ t : Fin grid3.N, cond3_0 (grid3.coords t) ↔ t.val % 4 = 0)

/-- The condition of the body's second conditional (`k = 3`), from the grid coordinates. -/
abbrev cond3_1 (i : grid3.Coords) : Prop := k3_cond2 i = 1#1
/-- It holds at the points ≡ 3 (mod 4) — decided over the grid. -/
theorem hcond3_1 : ∀ t : Fin cfg3.N, cond3_1 (grid3.coords t) ↔ t.val % 4 = 3 :=
  (by decide +kernel : ∀ t : Fin grid3.N, cond3_1 (grid3.coords t) ↔ t.val % 4 = 3)

/-! ## Where the windows are idle -/

/-- Windows 0, 1, 2 are never idle (inputs). -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- Where `k = 0` output 3 is idle: nothing is stored into it, -/
theorem idleAt3_3_A : ∀ t : Fin cfg3.N, cond3_0 (grid3.coords t) → ¬cond3_1 (grid3.coords t) → cfg3.idle 3 (grid3.coords t) = true := by decide +kernel
/-- and its block is not written back. -/
theorem noFlush3_3_A : ∀ t : Fin cfg3.N, cond3_0 (grid3.coords t) → ¬cond3_1 (grid3.coords t) → (cfg3.win 3).flush t = false := by decide +kernel
/-- Where `k = 1, 2` output 3 is idle, -/
theorem idleAt3_3_B : ∀ t : Fin cfg3.N, ¬cond3_0 (grid3.coords t) → ¬cond3_1 (grid3.coords t) → cfg3.idle 3 (grid3.coords t) = true := by decide +kernel
/-- and its block is not written back. -/
theorem noFlush3_3_B : ∀ t : Fin cfg3.N, ¬cond3_0 (grid3.coords t) → ¬cond3_1 (grid3.coords t) → (cfg3.win 3).flush t = false := by decide +kernel
/-- Where `k = 3` output 3 is live: the body stores into it. -/
theorem liveAt3_3_C : ∀ t : Fin cfg3.N, ¬cond3_0 (grid3.coords t) → cond3_1 (grid3.coords t) → cfg3.idle 3 (grid3.coords t) = false := by decide +kernel

/-! ## The staging and scratch memrefs -/

/-- One staging buffer of output window 3, through which its contents are stated (the choice does not matter). -/
abbrev VO3_3 : View sig .tc .vmem S1024x32 .f32 := (Memref.whole cc3_stg3_0 : Memref sig .tc .vmem S1024x32 .f32).view
/-- Each window's current staging memref at point `t`, spelled as the pipeline passes it, and its wholeness. -/
abbrev ms3_0 (t : Fin cfg3.N) : Memref sig .tc .vmem S1024x2048 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x32 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x1 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x32 .f32 := win3_3.stage (cfg3.slots t 3)
abbrev hs3_3 (t : Fin cfg3.N) : (ms3_3 t).IsWhole := hstage3_3 ((cfg3.slots t 3).cast nbuf3_3)
/-- The scratch operand: a whole scoped buffer of the kernel's own, passed beside the windows. -/
abbrev scM3_0 : Memref sig .tc .vmem S1024x32 .f32 := Memref.whole cc3_scratch0
/-- The accumulator the kernel carries between points, as a view: what it holds is stated through it. -/
abbrev VS3_0 : View sig .tc .vmem S1024x32 .f32 := scM3_0.view

/-- The class invariant with the scratch operand as a memref owned at some contents, the rest of the scoped
    buffers unopened: what the body obligation hands the run and takes back. -/
theorem PhiA3_eq (c : Dev nD) :
    (Pipeline.ΦA spec3 c : sProp 𝕄)
      = iprop(iprop(iprop((∃ d, owns (c : Thread nD τ) scM3_0 fullShare d))
            ∗ Pipeline.scopedRestBut (Ix := Unit) (Name := ℕ) (U := UR sig nD τ) (Lvl := ℕ) (Val := Elt F) spec3 c [cc3_scratch0])
          ∗ (∃ r, prngReg c r)) := by
  unfold Pipeline.ΦA; rw [scopedRest3_split]; simp only [scM3_0, owns_whole]; try rfl

end Cert.KernelIdeal.Hand

end
-- ==== Proof.KI.Wmm3RunA.lean ====
import proofs.«108817_j44229573214371_2_alg».proof.Proof.KI.Wmm3Runs

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref and in the accumulator, as pieces (last first), where
    `k = 0` (first conditional taken, second not), with the proof that on whole memrefs — the inputs' at their
    contents, the output's (idle here) at contents handed back untouched, the accumulator at anything — the body runs
    to the continuation holding the inputs' and the output's as they were and the accumulator with its pieces written. -/
noncomputable def kernelRun3_A (c : Dev nD) (i : grid3.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : cond3_0 i) (hc1 : ¬cond3_1 i)
    (x0 : Vec F S1024x2048 .f32) (x1 : Vec F S2048x32 .f32) (x2 : Vec F S1024x1 .f32) :
    Σ' (L3 : List (View.Piece (Elt F) S1024x32 .f32)), { LS0 : List (View.Piece (Elt F) S1024x32 .f32) //
      ∀ (xi3 : Vec F S1024x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__wmm_kernel i arg2 harg2 arg3 harg3 arg4 harg4 arg5 harg5 arg6 harg6) K } := by
  refine ⟨[], ?_, fun xi3 E K => ?run⟩
  case run =>
    simp only [cc3__wmm_kernel_eq_skeleton]; unfold cc3__wmm_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.Wmm3RunB.lean ====
import proofs.«108817_j44229573214371_2_alg».proof.Proof.KI.Wmm3RunA

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- The same where `k = 1, 2` (neither conditional taken): the accumulator at the contents `xs0` the point before
    left; the output idle, handed back untouched. -/
noncomputable def kernelRun3_B (c : Dev nD) (i : grid3.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : ¬cond3_0 i) (hc1 : ¬cond3_1 i)
    (x0 : Vec F S1024x2048 .f32) (x1 : Vec F S2048x32 .f32) (x2 : Vec F S1024x1 .f32) (xs0 : Vec F S1024x32 .f32) :
    Σ' (L3 : List (View.Piece (Elt F) S1024x32 .f32)), { LS0 : List (View.Piece (Elt F) S1024x32 .f32) //
      ∀ (xi3 : Vec F S1024x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__wmm_kernel i arg2 harg2 arg3 harg3 arg4 harg4 arg5 harg5 arg6 harg6) K } := by
  refine ⟨[], ?_, fun xi3 E K => ?run⟩
  case run =>
    simp only [cc3__wmm_kernel_eq_skeleton]; unfold cc3__wmm_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.Wmm3RunC.lean ====
import proofs.«108817_j44229573214371_2_alg».proof.Proof.KI.Wmm3RunB

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- The same where `k = 3` (first conditional not taken, second taken): the accumulator at the contents `xs0` the
    point before left; the output's buffer at anything, left with its pieces written. -/
noncomputable def kernelRun3_C (c : Dev nD) (i : grid3.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : ¬cond3_0 i) (hc1 : cond3_1 i)
    (x0 : Vec F S1024x2048 .f32) (x1 : Vec F S2048x32 .f32) (x2 : Vec F S1024x1 .f32) (xs0 : Vec F S1024x32 .f32) :
    Σ' (L3 : List (View.Piece (Elt F) S1024x32 .f32)), { LS0 : List (View.Piece (Elt F) S1024x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc3__wmm_kernel i arg2 harg2 arg3 harg3 arg4 harg4 arg5 harg5 arg6 harg6) K } := by
  refine ⟨?_, ?_, fun E K => ?run⟩
  case run =>
    simp only [cc3__wmm_kernel_eq_skeleton]; unfold cc3__wmm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.Wmm3.lean ====
import proofs.«108817_j44229573214371_2_alg».proof.Proof.KI.Wmm3RunC

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when region 3 is entered: the parameter this region's half is stated at
variable (V : (c : Dev nD) → (b : Ref sig .tc) → Buf (Elt F) ((c : Thread nD τ).loc b))

/-! # Region 3: what each case leaves in the output's buffer and in the accumulator -/

/-- Where `k = 0` nothing is stored into output 3 (idle there, not written back): no pieces — a placeholder that
    nothing consults. -/
def out3_A_3 (c : Dev nD) (i : grid3.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : cond3_0 i) (hc1 : ¬cond3_1 i)
    (x0 : Vec F S1024x2048 .f32) (x1 : Vec F S2048x32 .f32) (x2 : Vec F S1024x1 .f32) : Vec F S1024x32 .f32 :=
  VO3_3.read (Elt F) (VO3_3.writes (Elt F) VO3_3.junk (kernelRun3_A c i arg2 harg2 arg3 harg3 arg4 harg4 arg5 harg5 arg6 harg6 hc0 hc1 x0 x1 x2).1)

/-- Where `k = 0` the accumulator's pieces (the zero store, then the sum's) tile it, so they cover it. -/
theorem scover3_A_0 (c : Dev nD) (i : grid3.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : cond3_0 i) (hc1 : ¬cond3_1 i)
    (x0 : Vec F S1024x2048 .f32) (x1 : Vec F S2048x32 .f32) (x2 : Vec F S1024x1 .f32) (y : S1024x32.Idx) :
    ∃ pc ∈ (kernelRun3_A c i arg2 harg2 arg3 harg3 arg4 harg4 arg5 harg5 arg6 harg6 hc0 hc1 x0 x1 x2).2.1, y ∈ pc.1.set :=
  View.cover_of_tiledL (kernelRun3_A c i arg2 harg2 arg3 harg3 arg4 harg4 arg5 harg5 arg6 harg6 hc0 hc1 x0 x1 x2).2.1 S1024x32.size (by sl_kernel_rfl) y

/-- What the case `k = 0` leaves in the accumulator: its pieces read back. -/
def sout3_A_0 (c : Dev nD) (i : grid3.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : cond3_0 i) (hc1 : ¬cond3_1 i)
    (x0 : Vec F S1024x2048 .f32) (x1 : Vec F S2048x32 .f32) (x2 : Vec F S1024x1 .f32) : Vec F S1024x32 .f32 :=
  VS3_0.read (Elt F) (VS3_0.writes (Elt F) VS3_0.junk (kernelRun3_A c i arg2 harg2 arg3 harg3 arg4 harg4 arg5 harg5 arg6 harg6 hc0 hc1 x0 x1 x2).2.1)

/-- Where `k = 1, 2` nothing is stored into output 3: a placeholder that nothing consults. -/
def out3_B_3 (c : Dev nD) (i : grid3.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : ¬cond3_0 i) (hc1 : ¬cond3_1 i)
    (x0 : Vec F S1024x2048 .f32) (x1 : Vec F S2048x32 .f32) (x2 : Vec F S1024x1 .f32) (xs0 : Vec F S1024x32 .f32) : Vec F S1024x32 .f32 :=
  VO3_3.read (Elt F) (VO3_3.writes (Elt F) VO3_3.junk (kernelRun3_B c i arg2 harg2 arg3 harg3 arg4 harg4 arg5 harg5 arg6 harg6 hc0 hc1 x0 x1 x2 xs0).1)

/-- Where `k = 1, 2` the accumulator's one piece tiles it. -/
theorem scover3_B_0 (c : Dev nD) (i : grid3.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : ¬cond3_0 i) (hc1 : ¬cond3_1 i)
    (x0 : Vec F S1024x2048 .f32) (x1 : Vec F S2048x32 .f32) (x2 : Vec F S1024x1 .f32) (xs0 : Vec F S1024x32 .f32) (y : S1024x32.Idx) :
    ∃ pc ∈ (kernelRun3_B c i arg2 harg2 arg3 harg3 arg4 harg4 arg5 harg5 arg6 harg6 hc0 hc1 x0 x1 x2 xs0).2.1, y ∈ pc.1.set :=
  View.cover_of_tiledL (kernelRun3_B c i arg2 harg2 arg3 harg3 arg4 harg4 arg5 harg5 arg6 harg6 hc0 hc1 x0 x1 x2 xs0).2.1 S1024x32.size (by sl_kernel_rfl) y

/-- What the case `k = 1, 2` leaves in the accumulator. -/
def sout3_B_0 (c : Dev nD) (i : grid3.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : ¬cond3_0 i) (hc1 : ¬cond3_1 i)
    (x0 : Vec F S1024x2048 .f32) (x1 : Vec F S2048x32 .f32) (x2 : Vec F S1024x1 .f32) (xs0 : Vec F S1024x32 .f32) : Vec F S1024x32 .f32 :=
  VS3_0.read (Elt F) (VS3_0.writes (Elt F) VS3_0.junk (kernelRun3_B c i arg2 harg2 arg3 harg3 arg4 harg4 arg5 harg5 arg6 harg6 hc0 hc1 x0 x1 x2 xs0).2.1)

/-- Where `k = 3` output 3's one store tiles its block, so it covers it. -/
theorem cover3_C_3 (c : Dev nD) (i : grid3.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : ¬cond3_0 i) (hc1 : cond3_1 i)
    (x0 : Vec F S1024x2048 .f32) (x1 : Vec F S2048x32 .f32) (x2 : Vec F S1024x1 .f32) (xs0 : Vec F S1024x32 .f32) (y : S1024x32.Idx) :
    ∃ pc ∈ (kernelRun3_C c i arg2 harg2 arg3 harg3 arg4 harg4 arg5 harg5 arg6 harg6 hc0 hc1 x0 x1 x2 xs0).1, y ∈ pc.1.set :=
  View.cover_of_tiledL (kernelRun3_C c i arg2 harg2 arg3 harg3 arg4 harg4 arg5 harg5 arg6 harg6 hc0 hc1 x0 x1 x2 xs0).1 S1024x32.size (by sl_kernel_rfl) y

/-- What the case `k = 3` leaves in output 3's staging buffer: its pieces read back. -/
def out3_C_3 (c : Dev nD) (i : grid3.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : ¬cond3_0 i) (hc1 : cond3_1 i)
    (x0 : Vec F S1024x2048 .f32) (x1 : Vec F S2048x32 .f32) (x2 : Vec F S1024x1 .f32) (xs0 : Vec F S1024x32 .f32) : Vec F S1024x32 .f32 :=
  VO3_3.read (Elt F) (VO3_3.writes (Elt F) VO3_3.junk (kernelRun3_C c i arg2 harg2 arg3 harg3 arg4 harg4 arg5 harg5 arg6 harg6 hc0 hc1 x0 x1 x2 xs0).1)

/-- Where `k = 3` the accumulator's one piece tiles it. -/
theorem scover3_C_0 (c : Dev nD) (i : grid3.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : ¬cond3_0 i) (hc1 : cond3_1 i)
    (x0 : Vec F S1024x2048 .f32) (x1 : Vec F S2048x32 .f32) (x2 : Vec F S1024x1 .f32) (xs0 : Vec F S1024x32 .f32) (y : S1024x32.Idx) :
    ∃ pc ∈ (kernelRun3_C c i arg2 harg2 arg3 harg3 arg4 harg4 arg5 harg5 arg6 harg6 hc0 hc1 x0 x1 x2 xs0).2.1, y ∈ pc.1.set :=
  View.cover_of_tiledL (kernelRun3_C c i arg2 harg2 arg3 harg3 arg4 harg4 arg5 harg5 arg6 harg6 hc0 hc1 x0 x1 x2 xs0).2.1 S1024x32.size (by sl_kernel_rfl) y

/-- What the case `k = 3` leaves in the accumulator. -/
def sout3_C_0 (c : Dev nD) (i : grid3.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : ¬cond3_0 i) (hc1 : cond3_1 i)
    (x0 : Vec F S1024x2048 .f32) (x1 : Vec F S2048x32 .f32) (x2 : Vec F S1024x1 .f32) (xs0 : Vec F S1024x32 .f32) : Vec F S1024x32 .f32 :=
  VS3_0.read (Elt F) (VS3_0.writes (Elt F) VS3_0.junk (kernelRun3_C c i arg2 harg2 arg3 harg3 arg4 harg4 arg5 harg5 arg6 harg6 hc0 hc1 x0 x1 x2 xs0).2.1)

/-! ## What the output's buffer and the accumulator hold after each point -/

/-- THE ACCUMULATION. What output 3's staging buffer (first component) and the accumulator (second) hold after the
    body at position `n`: the case the closed forms select at `n`, run at the point's memrefs and input blocks, the
    accumulator it reads at what this leaves at `n - 1`. An assignment of the conditions no point meets is no case. -/
def outsAt3 (c : Dev nD) : (n : ℕ) → n < cfg3.N → Vec F S1024x32 .f32 × Vec F S1024x32 .f32
  | 0, hn => (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩))
  | n + 1, hn =>
    if h0 : (n + 1) % 4 = 0 then
      if h1 : (n + 1) % 4 = 3 then
        False.elim (by omega)
      else
        (out3_A_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩))
    else
      if h1 : (n + 1) % 4 = 3 then
        (out3_C_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2)
      else
        (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2)

/-- `outsAt3` at a point with `k = 0`: that case's contents. -/
theorem outsAt3_A (c : Dev nD) (t : Fin cfg3.N) (h0 : t.val % 4 = 0) (h1 : ¬t.val % 4 = 3) :
    outsAt3 V c t.val t.isLt = (out3_A_3 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t), sout3_A_0 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t)) := by
  obtain ⟨n, hn⟩ := t
  cases n with
  | zero => exact rfl
  | succ n => exact (dif_pos h0).trans ((dif_neg h1).trans rfl)

/-- `outsAt3` at a point with `k = 1, 2`: that case's contents, over what the point before left. -/
theorem outsAt3_B (c : Dev nD) (t : Fin cfg3.N) (h0 : ¬t.val % 4 = 0) (h1 : ¬t.val % 4 = 3) :
    outsAt3 V c t.val t.isLt = (out3_B_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt3` at a point with `k = 3`: that case's contents, over what the point before left. -/
theorem outsAt3_C (c : Dev nD) (t : Fin cfg3.N) (h0 : ¬t.val % 4 = 0) (h1 : t.val % 4 = 3) :
    outsAt3 V c t.val t.isLt = (out3_C_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scratch at anything);
    afterwards the accumulator at what the point before left in it, the other scoped buffers unopened, and the
    generator register at some state. -/
def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2)) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

/-- After point `n` (before point `n + 1`): the accumulator at that point's contents. -/
theorem PhiS3_succ (c : Dev nD) (n : ℕ) (hn : n < cfg3.N) :
    PhiS3 V c (n + 1) hn = iprop(iprop(iprop(owns (c : Thread nD τ) scM3_0 fullShare ((outsAt3 V c n hn).2)) ∗ Pipeline.scopedRestBut (Ix := Unit) (Name := ℕ) (U := UR sig nD τ) (Lvl := ℕ) (Val := Elt F) spec3 c [cc3_scratch0]) ∗ (∃ r, prngReg c r)) := rfl

/-- Before a point that is not the first: the accumulator at what the point before left. -/
theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2)) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The pipeline's proof data -/

/-- The proof data of pipeline 3 on core `c`: the arrays as the region finds them (`V`); after the body at point
    `t` each input's buffer at its block and the output's at `outsAt3`'s first component; the invariant `PhiS3`;
    nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

/-- The proof data's arrays are the region-entry contents. -/
theorem A_eq3 (c : Dev nD) (w : Fin cfg3.W) : (dat3 V c).A w = V c (Pipeline.arrRef spec3 w) := by
  dsimp only [dat3]

/-- The invariant at a point's start, restated at `t.val`. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t` (the windows one by one), -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

/-- The inputs' posts: never idle, so the buffer at its block. -/
theorem leaves3_0 (c : Dev nD) (t : Fin cfg3.N) :
    (dat3 V c).leavesExact 0 t = owns (c : Thread nD τ) (ms3_0 t) fullShare (iblk3 V c 0 t) := by
  unfold Dat.leavesExact; rw [liveAt3_0 t, after3_0]
theorem leaves3_1 (c : Dev nD) (t : Fin cfg3.N) :
    (dat3 V c).leavesExact 1 t = owns (c : Thread nD τ) (ms3_1 t) fullShare (iblk3 V c 1 t) := by
  unfold Dat.leavesExact; rw [liveAt3_1 t, after3_1]
theorem leaves3_2 (c : Dev nD) (t : Fin cfg3.N) :
    (dat3 V c).leavesExact 2 t = owns (c : Thread nD τ) (ms3_2 t) fullShare (iblk3 V c 2 t) := by
  unfold Dat.leavesExact; rw [liveAt3_2 t, after3_2]

set_option maxHeartbeats 4800000 in
/-- The body at any point: the inputs' memrefs hold their blocks; the closed forms say which case the point is in; the
    invariant hands the body the accumulator at what the point before left (at anything at the first point), and takes
    it back at this point's contents; the other scoped buffers, the generator register and what the core owes pass
    through untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [leaves3_0, leaves3_1, leaves3_2]
  have hN : t.val < 32 := lt_of_lt_of_eq t.isLt (show cfg3.N = 32 from N_3)
  by_cases h0 : t.val % 4 = 0
  · by_cases h1 : t.val % 4 = 3
    · exfalso; omega
    · rw [Dat.leavesExact_idle (dat3 V c) 3 t (idleAt3_3_A t ((hcond3_0 t).mpr h0) (fun h => h1 ((hcond3_1 t).mp h))) (noFlush3_3_A t ((hcond3_0 t).mpr h0) (fun h => h1 ((hcond3_1 t).mp h)))]
      rw [outsAt3_A V c t h0 h1]
      unfold sout3_A_0; (try dsimp only)
      by_cases hz : t.val = 0
      · rw [PhiS3_castSucc V c t, PhiS3_zero V c _ _ hz, PhiA3_eq]
        iintro ⟨⟨⟨HS0, HR⟩, Hg⟩, Ho, ⟨%d0, H0⟩, ⟨%d1, H1⟩, ⟨%d2, H2⟩, ⟨%d3, H3⟩⟩
        iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS3_castSucc V c t, PhiS3_pos V c _ _ hz]
        iintro ⟨⟨⟨HS0, HR⟩, Hg⟩, Ho, ⟨%d0, H0⟩, ⟨%d1, H1⟩, ⟨%d2, H2⟩, ⟨%d3, H3⟩⟩
        iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 4 = 3
    · rw [show (dat3 V c).leavesExact 3 t = owns (c : Thread nD τ) (ms3_3 t) fullShare ((dat3 V c).after 3 t) from by
        unfold Dat.leavesExact; rw [liveAt3_3_C t (fun h => h0 ((hcond3_0 t).mp h)) ((hcond3_1 t).mpr h1)], after3_3]
      rw [outsAt3_C V c t h0 h1]
      unfold out3_C_3 sout3_C_0; (try dsimp only)
      by_cases hz : t.val = 0
      · exfalso; omega
      · rw [PhiS3_castSucc V c t, PhiS3_pos V c _ _ hz]
        iintro ⟨⟨⟨HS0, HR⟩, Hg⟩, Ho, ⟨%d0, H0⟩, ⟨%d1, H1⟩, ⟨%d2, H2⟩, ⟨%d3, H3⟩⟩
        iapply ((kernelRun3_C c (grid3.coords t) _ _ _ _ _ _ _ _ _ _ (fun h => h0 ((hcond3_0 t).mp h)) ((hcond3_1 t).mpr h1) (iblk3 V c 0 t) (iblk3 V c 1 t) (iblk3 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_C_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover3_C_3 c _ _ _ _ _ _ _ _ _ _ _ _ _ _ _ _ _)
    · rw [Dat.leavesExact_idle (dat3 V c) 3 t (idleAt3_3_B t (fun h => h0 ((hcond3_0 t).mp h)) (fun h => h1 ((hcond3_1 t).mp h))) (noFlush3_3_B t (fun h => h0 ((hcond3_0 t).mp h)) (fun h => h1 ((hcond3_1 t).mp h)))]
      rw [outsAt3_B V c t h0 h1]
      unfold sout3_B_0; (try dsimp only)
      by_cases hz : t.val = 0
      · exfalso; omega
      · rw [PhiS3_castSucc V c t, PhiS3_pos V c _ _ hz]
        iintro ⟨⟨⟨HS0, HR⟩, Hg⟩, Ho, ⟨%d0, H0⟩, ⟨%d1, H1⟩, ⟨%d2, H2⟩, ⟨%d3, H3⟩⟩
        iapply ((kernelRun3_B c (grid3.coords t) _ _ _ _ _ _ _ _ _ _ (fun h => h0 ((hcond3_0 t).mp h)) (fun h => h1 ((hcond3_1 t).mp h)) (iblk3 V c 0 t) (iblk3 V c 1 t) (iblk3 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_B_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : (Pipeline.ΦA spec3 c : sProp 𝕄) ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the class's back: the accumulator's contents are forgotten. -/
theorem Phi_out3 (c : Dev nD) (t : Fin (cfg3.N + 1)) (ht : t.val ≠ 0) : (dat3 V c).Φ t ⊢ (Pipeline.ΦA spec3 c : sProp 𝕄) := by
  rw [show (dat3 V c).Φ t = PhiS3 V c t.val (Nat.le_of_lt_succ t.isLt) from rfl, PhiS3_pos V c _ _ ht, PhiA3_eq]
  iintro ⟨⟨HS0, HR⟩, Hg⟩
  isplitl [HS0 HR]
  · isplitl [HS0]
    · iexists _; iexact HS0
    iexact HR
  iexact Hg

/-- The same after the last point. -/
theorem hout3 (c : Dev nD) : (dat3 V c).Φ (Fin.last cfg3.N) ⊢ (Pipeline.ΦA spec3 c : sProp 𝕄) :=
  Phi_out3 V c _ (by rw [Fin.val_last]; have : cfg3.N = 32 := N_3; omega)

end Cert.KernelIdeal.Hand

end
-- ==== Proof.KI.Wmm5Runs.lean ====
import proofs.«108817_j44229573214371_2_alg».proof.Proof.Gen.KernelIdeal.Launch
import proofs.«108817_j44229573214371_2_alg».proof.Proof.Gen.KernelIdeal.Skeleton
import proofs.«108817_j44229573214371_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when region 5 is entered: the parameter this region's half is stated at
variable (V : (c : Dev nD) → (b : Ref sig .tc) → Buf (Elt F) ((c : Thread nD τ).loc b))

/-! # Region 5: the weighted matrix product with a carried accumulator, at the entry contents `V`

Grid (8,4), point `t` at coordinates `(i, k) = (t / 4, t % 4)`. The accumulator (a scoped scratch buffer) is
zeroed where `k = 0`, added to at every point and read back, scaled row by row, into the output where `k = 3`. -/

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s and whose body leaves the block in place: unfetched, the block index has not moved. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The same for input window 1. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The same for input window 2 (fetched only where `k = 0`: at the other points its block index is the one before). -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's branch conditions -/

/-- The condition of the body's first conditional (`k = 0`), from the grid coordinates. -/
abbrev cond5_0 (i : grid5.Coords) : Prop := (Scalar.cmpi .ne (Scalar.extui (Scalar.cmpi .eq (BitVec.ofNat 32 (i 1).val) 0#32)) 0#32) = 1#1
/-- It holds at the points ≡ 0 (mod 4) — decided over the grid. -/
theorem hcond5_0 : ∀ t : Fin cfg5.N, cond5_0 (grid5.coords t) ↔ t.val % 4 = 0 :=
  (by decide +kernel : ∀ t : Fin grid5.N, cond5_0 (grid5.coords t) ↔ t.val % 4 = 0)

/-- The condition of the body's second conditional (`k = 3`), from the grid coordinates. -/
abbrev cond5_1 (i : grid5.Coords) : Prop := k5_cond2 i = 1#1
/-- It holds at the points ≡ 3 (mod 4) — decided over the grid. -/
theorem hcond5_1 : ∀ t : Fin cfg5.N, cond5_1 (grid5.coords t) ↔ t.val % 4 = 3 :=
  (by decide +kernel : ∀ t : Fin grid5.N, cond5_1 (grid5.coords t) ↔ t.val % 4 = 3)

/-! ## Where the windows are idle -/

/-- Windows 0, 1, 2 are never idle (inputs). -/
theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
/-- Where `k = 0` output 3 is idle: nothing is stored into it, -/
theorem idleAt5_3_A : ∀ t : Fin cfg5.N, cond5_0 (grid5.coords t) → ¬cond5_1 (grid5.coords t) → cfg5.idle 3 (grid5.coords t) = true := by decide +kernel
/-- and its block is not written back. -/
theorem noFlush5_3_A : ∀ t : Fin cfg5.N, cond5_0 (grid5.coords t) → ¬cond5_1 (grid5.coords t) → (cfg5.win 3).flush t = false := by decide +kernel
/-- Where `k = 1, 2` output 3 is idle, -/
theorem idleAt5_3_B : ∀ t : Fin cfg5.N, ¬cond5_0 (grid5.coords t) → ¬cond5_1 (grid5.coords t) → cfg5.idle 3 (grid5.coords t) = true := by decide +kernel
/-- and its block is not written back. -/
theorem noFlush5_3_B : ∀ t : Fin cfg5.N, ¬cond5_0 (grid5.coords t) → ¬cond5_1 (grid5.coords t) → (cfg5.win 3).flush t = false := by decide +kernel
/-- Where `k = 3` output 3 is live: the body stores into it. -/
theorem liveAt5_3_C : ∀ t : Fin cfg5.N, ¬cond5_0 (grid5.coords t) → cond5_1 (grid5.coords t) → cfg5.idle 3 (grid5.coords t) = false := by decide +kernel

/-! ## The staging and scratch memrefs -/

/-- One staging buffer of output window 3, through which its contents are stated (the choice does not matter). -/
abbrev VO5_3 : View sig .tc .vmem S1024x32 .f32 := (Memref.whole cc5_stg3_0 : Memref sig .tc .vmem S1024x32 .f32).view
/-- Each window's current staging memref at point `t`, spelled as the pipeline passes it, and its wholeness. -/
abbrev ms5_0 (t : Fin cfg5.N) : Memref sig .tc .vmem S1024x2048 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S2048x32 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1024x1 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1024x32 .f32 := win5_3.stage (cfg5.slots t 3)
abbrev hs5_3 (t : Fin cfg5.N) : (ms5_3 t).IsWhole := hstage5_3 ((cfg5.slots t 3).cast nbuf5_3)
/-- The scratch operand: a whole scoped buffer of the kernel's own, passed beside the windows. -/
abbrev scM5_0 : Memref sig .tc .vmem S1024x32 .f32 := Memref.whole cc5_scratch0
/-- The accumulator the kernel carries between points, as a view: what it holds is stated through it. -/
abbrev VS5_0 : View sig .tc .vmem S1024x32 .f32 := scM5_0.view

/-- The class invariant with the scratch operand as a memref owned at some contents, the rest of the scoped
    buffers unopened: what the body obligation hands the run and takes back. -/
theorem PhiA5_eq (c : Dev nD) :
    (Pipeline.ΦA spec5 c : sProp 𝕄)
      = iprop(iprop(iprop((∃ d, owns (c : Thread nD τ) scM5_0 fullShare d))
            ∗ Pipeline.scopedRestBut (Ix := Unit) (Name := ℕ) (U := UR sig nD τ) (Lvl := ℕ) (Val := Elt F) spec5 c [cc5_scratch0])
          ∗ (∃ r, prngReg c r)) := by
  unfold Pipeline.ΦA; rw [scopedRest5_split]; simp only [scM5_0, owns_whole]; try rfl

end Cert.KernelIdeal.Hand

end
-- ==== Proof.KI.Wmm5RunA.lean ====
import proofs.«108817_j44229573214371_2_alg».proof.Proof.KI.Wmm5Runs

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref and in the accumulator, as pieces (last first), where
    `k = 0` (first conditional taken, second not), with the proof that on whole memrefs — the inputs' at their
    contents, the output's (idle here) at contents handed back untouched, the accumulator at anything — the body runs
    to the continuation holding the inputs' and the output's as they were and the accumulator with its pieces written. -/
noncomputable def kernelRun5_A (c : Dev nD) (i : grid5.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : cond5_0 i) (hc1 : ¬cond5_1 i)
    (x0 : Vec F S1024x2048 .f32) (x1 : Vec F S2048x32 .f32) (x2 : Vec F S1024x1 .f32) :
    Σ' (L3 : List (View.Piece (Elt F) S1024x32 .f32)), { LS0 : List (View.Piece (Elt F) S1024x32 .f32) //
      ∀ (xi3 : Vec F S1024x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc5__wmm_kernel i arg2 harg2 arg3 harg3 arg4 harg4 arg5 harg5 arg6 harg6) K } := by
  refine ⟨[], ?_, fun xi3 E K => ?run⟩
  case run =>
    simp only [cc5__wmm_kernel_eq_skeleton]; unfold cc5__wmm_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.Wmm5RunB.lean ====
import proofs.«108817_j44229573214371_2_alg».proof.Proof.KI.Wmm5RunA

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- The same where `k = 1, 2` (neither conditional taken): the accumulator at the contents `xs0` the point before
    left; the output idle, handed back untouched. -/
noncomputable def kernelRun5_B (c : Dev nD) (i : grid5.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : ¬cond5_0 i) (hc1 : ¬cond5_1 i)
    (x0 : Vec F S1024x2048 .f32) (x1 : Vec F S2048x32 .f32) (x2 : Vec F S1024x1 .f32) (xs0 : Vec F S1024x32 .f32) :
    Σ' (L3 : List (View.Piece (Elt F) S1024x32 .f32)), { LS0 : List (View.Piece (Elt F) S1024x32 .f32) //
      ∀ (xi3 : Vec F S1024x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc5__wmm_kernel i arg2 harg2 arg3 harg3 arg4 harg4 arg5 harg5 arg6 harg6) K } := by
  refine ⟨[], ?_, fun xi3 E K => ?run⟩
  case run =>
    simp only [cc5__wmm_kernel_eq_skeleton]; unfold cc5__wmm_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.Wmm5RunC.lean ====
import proofs.«108817_j44229573214371_2_alg».proof.Proof.KI.Wmm5RunB

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- The same where `k = 3` (first conditional not taken, second taken): the accumulator at the contents `xs0` the
    point before left; the output's buffer at anything, left with its pieces written. -/
noncomputable def kernelRun5_C (c : Dev nD) (i : grid5.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : ¬cond5_0 i) (hc1 : cond5_1 i)
    (x0 : Vec F S1024x2048 .f32) (x1 : Vec F S2048x32 .f32) (x2 : Vec F S1024x1 .f32) (xs0 : Vec F S1024x32 .f32) :
    Σ' (L3 : List (View.Piece (Elt F) S1024x32 .f32)), { LS0 : List (View.Piece (Elt F) S1024x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc5__wmm_kernel i arg2 harg2 arg3 harg3 arg4 harg4 arg5 harg5 arg6 harg6) K } := by
  refine ⟨?_, ?_, fun E K => ?run⟩
  case run =>
    simp only [cc5__wmm_kernel_eq_skeleton]; unfold cc5__wmm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.Wmm5.lean ====
import proofs.«108817_j44229573214371_2_alg».proof.Proof.KI.Wmm5RunC

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when region 5 is entered: the parameter this region's half is stated at
variable (V : (c : Dev nD) → (b : Ref sig .tc) → Buf (Elt F) ((c : Thread nD τ).loc b))

/-! # Region 5: what each case leaves in the output's buffer and in the accumulator -/

/-- Where `k = 0` nothing is stored into output 3 (idle there, not written back): no pieces — a placeholder that
    nothing consults. -/
def out5_A_3 (c : Dev nD) (i : grid5.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : cond5_0 i) (hc1 : ¬cond5_1 i)
    (x0 : Vec F S1024x2048 .f32) (x1 : Vec F S2048x32 .f32) (x2 : Vec F S1024x1 .f32) : Vec F S1024x32 .f32 :=
  VO5_3.read (Elt F) (VO5_3.writes (Elt F) VO5_3.junk (kernelRun5_A c i arg2 harg2 arg3 harg3 arg4 harg4 arg5 harg5 arg6 harg6 hc0 hc1 x0 x1 x2).1)

/-- Where `k = 0` the accumulator's pieces (the zero store, then the sum's) tile it, so they cover it. -/
theorem scover5_A_0 (c : Dev nD) (i : grid5.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : cond5_0 i) (hc1 : ¬cond5_1 i)
    (x0 : Vec F S1024x2048 .f32) (x1 : Vec F S2048x32 .f32) (x2 : Vec F S1024x1 .f32) (y : S1024x32.Idx) :
    ∃ pc ∈ (kernelRun5_A c i arg2 harg2 arg3 harg3 arg4 harg4 arg5 harg5 arg6 harg6 hc0 hc1 x0 x1 x2).2.1, y ∈ pc.1.set :=
  View.cover_of_tiledL (kernelRun5_A c i arg2 harg2 arg3 harg3 arg4 harg4 arg5 harg5 arg6 harg6 hc0 hc1 x0 x1 x2).2.1 S1024x32.size (by sl_kernel_rfl) y

/-- What the case `k = 0` leaves in the accumulator: its pieces read back. -/
def sout5_A_0 (c : Dev nD) (i : grid5.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : cond5_0 i) (hc1 : ¬cond5_1 i)
    (x0 : Vec F S1024x2048 .f32) (x1 : Vec F S2048x32 .f32) (x2 : Vec F S1024x1 .f32) : Vec F S1024x32 .f32 :=
  VS5_0.read (Elt F) (VS5_0.writes (Elt F) VS5_0.junk (kernelRun5_A c i arg2 harg2 arg3 harg3 arg4 harg4 arg5 harg5 arg6 harg6 hc0 hc1 x0 x1 x2).2.1)

/-- Where `k = 1, 2` nothing is stored into output 3: a placeholder that nothing consults. -/
def out5_B_3 (c : Dev nD) (i : grid5.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : ¬cond5_0 i) (hc1 : ¬cond5_1 i)
    (x0 : Vec F S1024x2048 .f32) (x1 : Vec F S2048x32 .f32) (x2 : Vec F S1024x1 .f32) (xs0 : Vec F S1024x32 .f32) : Vec F S1024x32 .f32 :=
  VO5_3.read (Elt F) (VO5_3.writes (Elt F) VO5_3.junk (kernelRun5_B c i arg2 harg2 arg3 harg3 arg4 harg4 arg5 harg5 arg6 harg6 hc0 hc1 x0 x1 x2 xs0).1)

/-- Where `k = 1, 2` the accumulator's one piece tiles it. -/
theorem scover5_B_0 (c : Dev nD) (i : grid5.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : ¬cond5_0 i) (hc1 : ¬cond5_1 i)
    (x0 : Vec F S1024x2048 .f32) (x1 : Vec F S2048x32 .f32) (x2 : Vec F S1024x1 .f32) (xs0 : Vec F S1024x32 .f32) (y : S1024x32.Idx) :
    ∃ pc ∈ (kernelRun5_B c i arg2 harg2 arg3 harg3 arg4 harg4 arg5 harg5 arg6 harg6 hc0 hc1 x0 x1 x2 xs0).2.1, y ∈ pc.1.set :=
  View.cover_of_tiledL (kernelRun5_B c i arg2 harg2 arg3 harg3 arg4 harg4 arg5 harg5 arg6 harg6 hc0 hc1 x0 x1 x2 xs0).2.1 S1024x32.size (by sl_kernel_rfl) y

/-- What the case `k = 1, 2` leaves in the accumulator. -/
def sout5_B_0 (c : Dev nD) (i : grid5.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : ¬cond5_0 i) (hc1 : ¬cond5_1 i)
    (x0 : Vec F S1024x2048 .f32) (x1 : Vec F S2048x32 .f32) (x2 : Vec F S1024x1 .f32) (xs0 : Vec F S1024x32 .f32) : Vec F S1024x32 .f32 :=
  VS5_0.read (Elt F) (VS5_0.writes (Elt F) VS5_0.junk (kernelRun5_B c i arg2 harg2 arg3 harg3 arg4 harg4 arg5 harg5 arg6 harg6 hc0 hc1 x0 x1 x2 xs0).2.1)

/-- Where `k = 3` output 3's one store tiles its block, so it covers it. -/
theorem cover5_C_3 (c : Dev nD) (i : grid5.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : ¬cond5_0 i) (hc1 : cond5_1 i)
    (x0 : Vec F S1024x2048 .f32) (x1 : Vec F S2048x32 .f32) (x2 : Vec F S1024x1 .f32) (xs0 : Vec F S1024x32 .f32) (y : S1024x32.Idx) :
    ∃ pc ∈ (kernelRun5_C c i arg2 harg2 arg3 harg3 arg4 harg4 arg5 harg5 arg6 harg6 hc0 hc1 x0 x1 x2 xs0).1, y ∈ pc.1.set :=
  View.cover_of_tiledL (kernelRun5_C c i arg2 harg2 arg3 harg3 arg4 harg4 arg5 harg5 arg6 harg6 hc0 hc1 x0 x1 x2 xs0).1 S1024x32.size (by sl_kernel_rfl) y

/-- What the case `k = 3` leaves in output 3's staging buffer: its pieces read back. -/
def out5_C_3 (c : Dev nD) (i : grid5.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : ¬cond5_0 i) (hc1 : cond5_1 i)
    (x0 : Vec F S1024x2048 .f32) (x1 : Vec F S2048x32 .f32) (x2 : Vec F S1024x1 .f32) (xs0 : Vec F S1024x32 .f32) : Vec F S1024x32 .f32 :=
  VO5_3.read (Elt F) (VO5_3.writes (Elt F) VO5_3.junk (kernelRun5_C c i arg2 harg2 arg3 harg3 arg4 harg4 arg5 harg5 arg6 harg6 hc0 hc1 x0 x1 x2 xs0).1)

/-- Where `k = 3` the accumulator's one piece tiles it. -/
theorem scover5_C_0 (c : Dev nD) (i : grid5.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : ¬cond5_0 i) (hc1 : cond5_1 i)
    (x0 : Vec F S1024x2048 .f32) (x1 : Vec F S2048x32 .f32) (x2 : Vec F S1024x1 .f32) (xs0 : Vec F S1024x32 .f32) (y : S1024x32.Idx) :
    ∃ pc ∈ (kernelRun5_C c i arg2 harg2 arg3 harg3 arg4 harg4 arg5 harg5 arg6 harg6 hc0 hc1 x0 x1 x2 xs0).2.1, y ∈ pc.1.set :=
  View.cover_of_tiledL (kernelRun5_C c i arg2 harg2 arg3 harg3 arg4 harg4 arg5 harg5 arg6 harg6 hc0 hc1 x0 x1 x2 xs0).2.1 S1024x32.size (by sl_kernel_rfl) y

/-- What the case `k = 3` leaves in the accumulator. -/
def sout5_C_0 (c : Dev nD) (i : grid5.Coords) (arg2 : Memref sig .tc .vmem S1024x2048 .f32) (harg2 : arg2.IsWhole) (arg3 : Memref sig .tc .vmem S2048x32 .f32) (harg3 : arg3.IsWhole) (arg4 : Memref sig .tc .vmem S1024x1 .f32) (harg4 : arg4.IsWhole) (arg5 : Memref sig .tc .vmem S1024x32 .f32) (harg5 : arg5.IsWhole) (arg6 : Memref sig .tc .vmem S1024x32 .f32) (harg6 : arg6.IsWhole) (hc0 : ¬cond5_0 i) (hc1 : cond5_1 i)
    (x0 : Vec F S1024x2048 .f32) (x1 : Vec F S2048x32 .f32) (x2 : Vec F S1024x1 .f32) (xs0 : Vec F S1024x32 .f32) : Vec F S1024x32 .f32 :=
  VS5_0.read (Elt F) (VS5_0.writes (Elt F) VS5_0.junk (kernelRun5_C c i arg2 harg2 arg3 harg3 arg4 harg4 arg5 harg5 arg6 harg6 hc0 hc1 x0 x1 x2 xs0).2.1)

/-! ## What the output's buffer and the accumulator hold after each point -/

/-- THE ACCUMULATION. What output 3's staging buffer (first component) and the accumulator (second) hold after the
    body at position `n`: the case the closed forms select at `n`, run at the point's memrefs and input blocks, the
    accumulator it reads at what this leaves at `n - 1`. An assignment of the conditions no point meets is no case. -/
def outsAt5 (c : Dev nD) : (n : ℕ) → n < cfg5.N → Vec F S1024x32 .f32 × Vec F S1024x32 .f32
  | 0, hn => (out5_A_3 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩), sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩))
  | n + 1, hn =>
    if h0 : (n + 1) % 4 = 0 then
      if h1 : (n + 1) % 4 = 3 then
        False.elim (by omega)
      else
        (out5_A_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩), sout5_A_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩))
    else
      if h1 : (n + 1) % 4 = 3 then
        (out5_C_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (outsAt5 c n (Nat.lt_of_succ_lt hn)).2, sout5_C_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (outsAt5 c n (Nat.lt_of_succ_lt hn)).2)
      else
        (out5_B_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (outsAt5 c n (Nat.lt_of_succ_lt hn)).2, sout5_B_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (outsAt5 c n (Nat.lt_of_succ_lt hn)).2)

/-- `outsAt5` at a point with `k = 0`: that case's contents. -/
theorem outsAt5_A (c : Dev nD) (t : Fin cfg5.N) (h0 : t.val % 4 = 0) (h1 : ¬t.val % 4 = 3) :
    outsAt5 V c t.val t.isLt = (out5_A_3 c (grid5.coords t) (ms5_0 t) (hs5_0 t) (ms5_1 t) (hs5_1 t) (ms5_2 t) (hs5_2 t) (ms5_3 t) (hs5_3 t) scM5_0 (Memref.isWhole_whole _) ((hcond5_0 t).mpr h0) (fun h => h1 ((hcond5_1 t).mp h)) (iblk5 V c 0 t) (iblk5 V c 1 t) (iblk5 V c 2 t), sout5_A_0 c (grid5.coords t) (ms5_0 t) (hs5_0 t) (ms5_1 t) (hs5_1 t) (ms5_2 t) (hs5_2 t) (ms5_3 t) (hs5_3 t) scM5_0 (Memref.isWhole_whole _) ((hcond5_0 t).mpr h0) (fun h => h1 ((hcond5_1 t).mp h)) (iblk5 V c 0 t) (iblk5 V c 1 t) (iblk5 V c 2 t)) := by
  obtain ⟨n, hn⟩ := t
  cases n with
  | zero => exact rfl
  | succ n => exact (dif_pos h0).trans ((dif_neg h1).trans rfl)

/-- `outsAt5` at a point with `k = 1, 2`: that case's contents, over what the point before left. -/
theorem outsAt5_B (c : Dev nD) (t : Fin cfg5.N) (h0 : ¬t.val % 4 = 0) (h1 : ¬t.val % 4 = 3) :
    outsAt5 V c t.val t.isLt = (out5_B_3 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) (fun h => h1 ((hcond5_1 t).mp h)) (iblk5 V c 0 t) (iblk5 V c 1 t) (iblk5 V c 2 t) (outsAt5 V c (t.val - 1) (Nat.lt_of_le_of_lt (Nat.sub_le _ _) t.isLt)).2, sout5_B_0 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) (fun h => h1 ((hcond5_1 t).mp h)) (iblk5 V c 0 t) (iblk5 V c 1 t) (iblk5 V c 2 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt5` at a point with `k = 3`: that case's contents, over what the point before left. -/
theorem outsAt5_C (c : Dev nD) (t : Fin cfg5.N) (h0 : ¬t.val % 4 = 0) (h1 : t.val % 4 = 3) :
    outsAt5 V c t.val t.isLt = (out5_C_3 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (iblk5 V c 2 t) (outsAt5 V c (t.val - 1) (Nat.lt_of_le_of_lt (Nat.sub_le _ _) t.isLt)).2, sout5_C_0 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (iblk5 V c 2 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scratch at anything);
    afterwards the accumulator at what the point before left in it, the other scoped buffers unopened, and the
    generator register at some state. -/
def PhiS5 (c : Dev nD) : (n : ℕ) → n ≤ cfg5.N → sProp 𝕄
  | 0, _ => Pipeline.ΦA spec5 c
  | n + 1, hn => iprop(iprop(iprop(owns (c : Thread nD τ) scM5_0 fullShare ((outsAt5 V c n hn).2)) ∗ Pipeline.scopedRestBut (Ix := Unit) (Name := ℕ) (U := UR sig nD τ) (Lvl := ℕ) (Val := Elt F) spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl

/-- After point `n` (before point `n + 1`): the accumulator at that point's contents. -/
theorem PhiS5_succ (c : Dev nD) (n : ℕ) (hn : n < cfg5.N) :
    PhiS5 V c (n + 1) hn = iprop(iprop(iprop(owns (c : Thread nD τ) scM5_0 fullShare ((outsAt5 V c n hn).2)) ∗ Pipeline.scopedRestBut (Ix := Unit) (Name := ℕ) (U := UR sig nD τ) (Lvl := ℕ) (Val := Elt F) spec5 c [cc5_scratch0]) ∗ (∃ r, prngReg c r)) := rfl

/-- Before a point that is not the first: the accumulator at what the point before left. -/
theorem PhiS5_pos (c : Dev nD) (n : ℕ) (h : n ≤ cfg5.N) (hz : n ≠ 0) :
    PhiS5 V c n h = iprop(iprop(iprop(owns (c : Thread nD τ) scM5_0 fullShare ((outsAt5 V c (n - 1) (by omega)).2)) ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

/-! ## The pipeline's proof data -/

/-- The proof data of pipeline 5 on core `c`: the arrays as the region finds them (`V`); after the body at point
    `t` each input's buffer at its block and the output's at `outsAt5`'s first component; the invariant `PhiS5`;
    nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt).1
  Φ t := PhiS5 V c t.val (Nat.le_of_lt_succ t.isLt)
  q _ := fullShare
  owed _ := 0

/-- The proof data's arrays are the region-entry contents. -/
theorem A_eq5 (c : Dev nD) (w : Fin cfg5.W) : (dat5 V c).A w = V c (Pipeline.arrRef spec5 w) := by
  dsimp only [dat5]

/-- The invariant at a point's start, restated at `t.val`. -/
theorem PhiS5_castSucc (c : Dev nD) (t : Fin cfg5.N) :
    (dat5 V c).Φ t.castSucc = PhiS5 V c t.val (Nat.le_of_lt t.isLt) := by
  dsimp only [dat5]; simp only [Fin.coe_castSucc]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = (outsAt5 V c t.val t.isLt).1 := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t` (the windows one by one), -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

/-- The inputs' posts: never idle, so the buffer at its block. -/
theorem leaves5_0 (c : Dev nD) (t : Fin cfg5.N) :
    (dat5 V c).leavesExact 0 t = owns (c : Thread nD τ) (ms5_0 t) fullShare (iblk5 V c 0 t) := by
  unfold Dat.leavesExact; rw [liveAt5_0 t, after5_0]
theorem leaves5_1 (c : Dev nD) (t : Fin cfg5.N) :
    (dat5 V c).leavesExact 1 t = owns (c : Thread nD τ) (ms5_1 t) fullShare (iblk5 V c 1 t) := by
  unfold Dat.leavesExact; rw [liveAt5_1 t, after5_1]
theorem leaves5_2 (c : Dev nD) (t : Fin cfg5.N) :
    (dat5 V c).leavesExact 2 t = owns (c : Thread nD τ) (ms5_2 t) fullShare (iblk5 V c 2 t) := by
  unfold Dat.leavesExact; rw [liveAt5_2 t, after5_2]

set_option maxHeartbeats 4800000 in
/-- The body at any point: the inputs' memrefs hold their blocks; the closed forms say which case the point is in; the
    invariant hands the body the accumulator at what the point before left (at anything at the first point), and takes
    it back at this point's contents; the other scoped buffers, the generator register and what the core owes pass
    through untouched. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [show (dat5 V c).Φ t.succ = PhiS5 V c (t.val + 1) t.isLt from rfl, PhiS5_succ]
  rw [leaves5_0, leaves5_1, leaves5_2]
  have hN : t.val < 32 := lt_of_lt_of_eq t.isLt (show cfg5.N = 32 from N_5)
  by_cases h0 : t.val % 4 = 0
  · by_cases h1 : t.val % 4 = 3
    · exfalso; omega
    · rw [Dat.leavesExact_idle (dat5 V c) 3 t (idleAt5_3_A t ((hcond5_0 t).mpr h0) (fun h => h1 ((hcond5_1 t).mp h))) (noFlush5_3_A t ((hcond5_0 t).mpr h0) (fun h => h1 ((hcond5_1 t).mp h)))]
      rw [outsAt5_A V c t h0 h1]
      unfold sout5_A_0; (try dsimp only)
      by_cases hz : t.val = 0
      · rw [PhiS5_castSucc V c t, PhiS5_zero V c _ _ hz, PhiA5_eq]
        iintro ⟨⟨⟨HS0, HR⟩, Hg⟩, Ho, ⟨%d0, H0⟩, ⟨%d1, H1⟩, ⟨%d2, H2⟩, ⟨%d3, H3⟩⟩
        iapply ((kernelRun5_A c (grid5.coords t) _ _ _ _ _ _ _ _ _ _ ((hcond5_0 t).mpr h0) (fun h => h1 ((hcond5_1 t).mp h)) (iblk5 V c 0 t) (iblk5 V c 1 t) (iblk5 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover5_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS5_castSucc V c t, PhiS5_pos V c _ _ hz]
        iintro ⟨⟨⟨HS0, HR⟩, Hg⟩, Ho, ⟨%d0, H0⟩, ⟨%d1, H1⟩, ⟨%d2, H2⟩, ⟨%d3, H3⟩⟩
        iapply ((kernelRun5_A c (grid5.coords t) _ _ _ _ _ _ _ _ _ _ ((hcond5_0 t).mpr h0) (fun h => h1 ((hcond5_1 t).mp h)) (iblk5 V c 0 t) (iblk5 V c 1 t) (iblk5 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover5_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 4 = 3
    · rw [show (dat5 V c).leavesExact 3 t = owns (c : Thread nD τ) (ms5_3 t) fullShare ((dat5 V c).after 3 t) from by
        unfold Dat.leavesExact; rw [liveAt5_3_C t (fun h => h0 ((hcond5_0 t).mp h)) ((hcond5_1 t).mpr h1)], after5_3]
      rw [outsAt5_C V c t h0 h1]
      unfold out5_C_3 sout5_C_0; (try dsimp only)
      by_cases hz : t.val = 0
      · exfalso; omega
      · rw [PhiS5_castSucc V c t, PhiS5_pos V c _ _ hz]
        iintro ⟨⟨⟨HS0, HR⟩, Hg⟩, Ho, ⟨%d0, H0⟩, ⟨%d1, H1⟩, ⟨%d2, H2⟩, ⟨%d3, H3⟩⟩
        iapply ((kernelRun5_C c (grid5.coords t) _ _ _ _ _ _ _ _ _ _ (fun h => h0 ((hcond5_0 t).mp h)) ((hcond5_1 t).mpr h1) (iblk5 V c 0 t) (iblk5 V c 1 t) (iblk5 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover5_C_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover5_C_3 c _ _ _ _ _ _ _ _ _ _ _ _ _ _ _ _ _)
    · rw [Dat.leavesExact_idle (dat5 V c) 3 t (idleAt5_3_B t (fun h => h0 ((hcond5_0 t).mp h)) (fun h => h1 ((hcond5_1 t).mp h))) (noFlush5_3_B t (fun h => h0 ((hcond5_0 t).mp h)) (fun h => h1 ((hcond5_1 t).mp h)))]
      rw [outsAt5_B V c t h0 h1]
      unfold sout5_B_0; (try dsimp only)
      by_cases hz : t.val = 0
      · exfalso; omega
      · rw [PhiS5_castSucc V c t, PhiS5_pos V c _ _ hz]
        iintro ⟨⟨⟨HS0, HR⟩, Hg⟩, Ho, ⟨%d0, H0⟩, ⟨%d1, H1⟩, ⟨%d2, H2⟩, ⟨%d3, H3⟩⟩
        iapply ((kernelRun5_B c (grid5.coords t) _ _ _ _ _ _ _ _ _ _ (fun h => h0 ((hcond5_0 t).mp h)) (fun h => h1 ((hcond5_1 t).mp h)) (iblk5 V c 0 t) (iblk5 V c 1 t) (iblk5 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover5_B_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point. -/
theorem hin5 (c : Dev nD) : (Pipeline.ΦA spec5 c : sProp 𝕄) ⊢ (dat5 V c).Φ 0 := by
  rw [show (dat5 V c).Φ 0 = PhiS5 V c 0 (Nat.zero_le _) from rfl, PhiS5_zero V c 0 _ rfl]
  try exact Idealize.SL.BI.Entails.refl _

/-- After any point but the first the invariant gives the class's back: the accumulator's contents are forgotten. -/
theorem Phi_out5 (c : Dev nD) (t : Fin (cfg5.N + 1)) (ht : t.val ≠ 0) : (dat5 V c).Φ t ⊢ (Pipeline.ΦA spec5 c : sProp 𝕄) := by
  rw [show (dat5 V c).Φ t = PhiS5 V c t.val (Nat.le_of_lt_succ t.isLt) from rfl, PhiS5_pos V c _ _ ht, PhiA5_eq]
  iintro ⟨⟨HS0, HR⟩, Hg⟩
  isplitl [HS0 HR]
  · isplitl [HS0]
    · iexists _; iexact HS0
    iexact HR
  iexact Hg

/-- The same after the last point. -/
theorem hout5 (c : Dev nD) : (dat5 V c).Φ (Fin.last cfg5.N) ⊢ (Pipeline.ΦA spec5 c : sProp 𝕄) :=
  Phi_out5 V c _ (by rw [Fin.val_last]; have : cfg5.N = 32 := N_5; omega)

end Cert.KernelIdeal.Hand

end
-- ==== Proof.KI.Segs.lean ====
/-
  The six kernel regions as segments of @main, and the run: between two items every unscoped buffer of the
  core is held at a named valuation — the launch contents, then after each region its output arrays at what
  the region's write-backs leave, after each host stretch the stretch's fold — beside the generator register
  and the core owing nothing.
-/
import proofs.«108817_j44229573214371_2_alg».proof.Proof.KI.RunCond
import proofs.«108817_j44229573214371_2_alg».proof.Proof.KI.Row0
import proofs.«108817_j44229573214371_2_alg».proof.Proof.KI.Row2
import proofs.«108817_j44229573214371_2_alg».proof.Proof.KI.Uc4
import proofs.«108817_j44229573214371_2_alg».proof.Proof.KI.Wmm1
import proofs.«108817_j44229573214371_2_alg».proof.Proof.KI.Wmm3
import proofs.«108817_j44229573214371_2_alg».proof.Proof.KI.Wmm5
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- A valuation read at the TensorCore's references: what a region's proof data take as its entry contents. -/
abbrev rd (W : Dev nD → Valuation τ sig (Elt F)) : (c : Dev nD) → (b : Ref sig .tc) → Buf (Elt F) ((c : Thread nD τ).loc b) :=
  fun c b => W c b

/-! ## The buffer contents at each boundary -/

/-- At launch. -/
abbrev U0 (c : Dev nD) : Valuation τ sig (Elt F) := fun b => m (c, b)
/-- After region 0: the row sums of `main_arg2` in `main_v0`. -/
abbrev U1 (c : Dev nD) : Valuation τ sig (Elt F) :=
  Function.update (U0 m c) main_v0 ((dat0 (rd (U0 m)) c).arrAt 1 cfg0.N)
/-- After the host stretch that scales the first projection. -/
abbrev U2 (c : Dev nD) : Valuation τ sig (Elt F) := StableHlo.after hostOps1 (U1 m c)
/-- After region 1: the first graph convolution in `main_v7`. -/
abbrev U3 (c : Dev nD) : Valuation τ sig (Elt F) :=
  Function.update (U2 m c) main_v7 ((dat1 (rd (U2 m)) c).arrAt 3 cfg1.N)
/-- After region 2: the row sums of `main_arg4` in `main_v8`. -/
abbrev U4 (c : Dev nD) : Valuation τ sig (Elt F) :=
  Function.update (U3 m c) main_v8 ((dat2 (rd (U3 m)) c).arrAt 1 cfg2.N)
/-- After the host stretch that scales the second projection. -/
abbrev U5 (c : Dev nD) : Valuation τ sig (Elt F) := StableHlo.after hostOps3 (U4 m c)
/-- After region 3: the second graph convolution in `main_v15`. -/
abbrev U6 (c : Dev nD) : Valuation τ sig (Elt F) :=
  Function.update (U5 m c) main_v15 ((dat3 (rd (U5 m)) c).arrAt 3 cfg3.N)
/-- After region 4: the row sums of `main_arg3` in `main_v16_0`, its band column sums in `main_v16_1`. -/
abbrev U7 (c : Dev nD) : Valuation τ sig (Elt F) :=
  Function.update (Function.update (U6 m c) main_v16_0 ((dat4 (rd (U6 m)) c).arrAt 1 cfg4.N)) main_v16_1 ((dat4 (rd (U6 m)) c).arrAt 2 cfg4.N)
/-- After the host stretch that scales the third projection. -/
abbrev U8 (c : Dev nD) : Valuation τ sig (Elt F) := StableHlo.after hostOps5 (U7 m c)
/-- After region 5: the third graph convolution in `main_v27`. -/
abbrev U9 (c : Dev nD) : Valuation τ sig (Elt F) :=
  Function.update (U8 m c) main_v27 ((dat5 (rd (U8 m)) c).arrAt 3 cfg5.N)

/-- What the regions leave, as the unknowns the conditional run is stated over: at each region's exit, its output
    arrays' contents. -/
def outs : Outs (F := F) := fun J r c =>
  match J with
  | 1 => U1 m c r
  | 3 => U3 m c r
  | 4 => U4 m c r
  | 6 => U6 m c r
  | 7 => U7 m c r
  | 9 => U9 m c r
  | _ => U0 m c r

/-! ## The proof data family, and what rides beside the buffers -/

/-- Every pipeline's proof data, each at its region's entry contents. -/
def pdats : (p : Fin 6) → (c : Dev nD) → Dat τ (Elt F) Unit ℕ (UR sig nD τ) ℕ (cfgs p) c
  | ⟨0, _⟩ => fun c => dat0 (rd (U0 m)) c
  | ⟨1, _⟩ => fun c => dat1 (rd (U2 m)) c
  | ⟨2, _⟩ => fun c => dat2 (rd (U3 m)) c
  | ⟨3, _⟩ => fun c => dat3 (rd (U5 m)) c
  | ⟨4, _⟩ => fun c => dat4 (rd (U6 m)) c
  | ⟨5, _⟩ => fun c => dat5 (rd (U8 m)) c

/-- No core owes another anything: no level is assigned. -/
abbrev L : GSem nD τ sig → Finset Unit := fun _ => ∅
abbrev lv : GSem nD τ sig → Unit → ℕ := fun _ _ => 0
/-- Beside the buffers: the core's generator register at some state, and the core owing nothing. -/
abbrev R (c : Dev nD) : sProp 𝕄 := iprop((∃ r, prngReg c r) ∗ ∃ W, owes (c : Thread nD τ) (0 : CellTallies nD τ sig Unit) W)

/-- An update of a valuation read off the updated reference, and read at that reference. -/
theorem upd_ne (W : Valuation τ sig (Elt F)) (a b : Ref sig .tc) (v : _) (h : b ≠ a) :
    Function.update W (Proc.devRef .tc a) v (Proc.devRef .tc b) = W (Proc.devRef .tc b) :=
  Function.update_of_ne (StableHlo.devRef_ne_of_ne h) _ _
theorem upd_self (W : Valuation τ sig (Elt F)) (a : Ref sig .tc) (v : _) :
    Function.update W (Proc.devRef .tc a) v (Proc.devRef .tc a) = v :=
  Function.update_self _ _ _

/-! ## Each region's exit contents: its arrays at what the write-backs leave, every other buffer as entered -/

theorem hF0 (c : Dev nD) (w : Fin cfg0.W) : (dat0 (rd (U0 m)) c).arrAt w cfg0.N = rd (U1 m) c (Pipeline.arrRef spec0 w) := by
  match w with
  | ⟨0, _⟩ =>
    refine (((dat0 (rd (U0 m)) c).arrAt_in 0 rfl _).trans (A_eq0 (rd (U0 m)) c 0)).trans ?_
    exact (upd_ne _ main_v0 main_arg2 _ (by decide)).symm
  | ⟨1, _⟩ => exact (upd_self _ main_v0 _).symm

theorem hrest0 (c : Dev nD) : ∀ b, b ∉ Finset.univ.image (Pipeline.arrRef spec0) → rd (U1 m) c b = rd (U0 m) c b := by
  intro b hb
  have h0 : b ≠ main_v0 := fun e => hb (Finset.mem_image.mpr ⟨1, Finset.mem_univ _, show Pipeline.arrRef spec0 1 = b from e.symm⟩)
  exact upd_ne _ main_v0 b _ h0

theorem hF1 (c : Dev nD) (w : Fin cfg1.W) : (dat1 (rd (U2 m)) c).arrAt w cfg1.N = rd (U3 m) c (Pipeline.arrRef spec1 w) := by
  match w with
  | ⟨0, _⟩ =>
    refine (((dat1 (rd (U2 m)) c).arrAt_in 0 rfl _).trans (A_eq1 (rd (U2 m)) c 0)).trans ?_
    exact (upd_ne _ main_v7 main_arg2 _ (by decide)).symm
  | ⟨1, _⟩ =>
    refine (((dat1 (rd (U2 m)) c).arrAt_in 1 rfl _).trans (A_eq1 (rd (U2 m)) c 1)).trans ?_
    exact (upd_ne _ main_v7 main_v6 _ (by decide)).symm
  | ⟨2, _⟩ =>
    refine (((dat1 (rd (U2 m)) c).arrAt_in 2 rfl _).trans (A_eq1 (rd (U2 m)) c 2)).trans ?_
    exact (upd_ne _ main_v7 main_v3 _ (by decide)).symm
  | ⟨3, _⟩ => exact (upd_self _ main_v7 _).symm

theorem hrest1 (c : Dev nD) : ∀ b, b ∉ Finset.univ.image (Pipeline.arrRef spec1) → rd (U3 m) c b = rd (U2 m) c b := by
  intro b hb
  have h0 : b ≠ main_v7 := fun e => hb (Finset.mem_image.mpr ⟨3, Finset.mem_univ _, show Pipeline.arrRef spec1 3 = b from e.symm⟩)
  exact upd_ne _ main_v7 b _ h0

theorem hF2 (c : Dev nD) (w : Fin cfg2.W) : (dat2 (rd (U3 m)) c).arrAt w cfg2.N = rd (U4 m) c (Pipeline.arrRef spec2 w) := by
  match w with
  | ⟨0, _⟩ =>
    refine (((dat2 (rd (U3 m)) c).arrAt_in 0 rfl _).trans (A_eq2 (rd (U3 m)) c 0)).trans ?_
    exact (upd_ne _ main_v8 main_arg4 _ (by decide)).symm
  | ⟨1, _⟩ => exact (upd_self _ main_v8 _).symm

theorem hrest2 (c : Dev nD) : ∀ b, b ∉ Finset.univ.image (Pipeline.arrRef spec2) → rd (U4 m) c b = rd (U3 m) c b := by
  intro b hb
  have h0 : b ≠ main_v8 := fun e => hb (Finset.mem_image.mpr ⟨1, Finset.mem_univ _, show Pipeline.arrRef spec2 1 = b from e.symm⟩)
  exact upd_ne _ main_v8 b _ h0

theorem hF3 (c : Dev nD) (w : Fin cfg3.W) : (dat3 (rd (U5 m)) c).arrAt w cfg3.N = rd (U6 m) c (Pipeline.arrRef spec3 w) := by
  match w with
  | ⟨0, _⟩ =>
    refine (((dat3 (rd (U5 m)) c).arrAt_in 0 rfl _).trans (A_eq3 (rd (U5 m)) c 0)).trans ?_
    exact (upd_ne _ main_v15 main_arg4 _ (by decide)).symm
  | ⟨1, _⟩ =>
    refine (((dat3 (rd (U5 m)) c).arrAt_in 1 rfl _).trans (A_eq3 (rd (U5 m)) c 1)).trans ?_
    exact (upd_ne _ main_v15 main_v14 _ (by decide)).symm
  | ⟨2, _⟩ =>
    refine (((dat3 (rd (U5 m)) c).arrAt_in 2 rfl _).trans (A_eq3 (rd (U5 m)) c 2)).trans ?_
    exact (upd_ne _ main_v15 main_v11 _ (by decide)).symm
  | ⟨3, _⟩ => exact (upd_self _ main_v15 _).symm

theorem hrest3 (c : Dev nD) : ∀ b, b ∉ Finset.univ.image (Pipeline.arrRef spec3) → rd (U6 m) c b = rd (U5 m) c b := by
  intro b hb
  have h0 : b ≠ main_v15 := fun e => hb (Finset.mem_image.mpr ⟨3, Finset.mem_univ _, show Pipeline.arrRef spec3 3 = b from e.symm⟩)
  exact upd_ne _ main_v15 b _ h0

theorem hF4 (c : Dev nD) (w : Fin cfg4.W) : (dat4 (rd (U6 m)) c).arrAt w cfg4.N = rd (U7 m) c (Pipeline.arrRef spec4 w) := by
  match w with
  | ⟨0, _⟩ =>
    refine (((dat4 (rd (U6 m)) c).arrAt_in 0 rfl _).trans (A_eq4 (rd (U6 m)) c 0)).trans ?_
    exact ((upd_ne _ main_v16_1 main_arg3 _ (by decide)).trans (upd_ne _ main_v16_0 main_arg3 _ (by decide))).symm
  | ⟨1, _⟩ => exact ((upd_ne _ main_v16_1 main_v16_0 _ (by decide)).trans (upd_self _ main_v16_0 _)).symm
  | ⟨2, _⟩ => exact (upd_self _ main_v16_1 _).symm

theorem hrest4 (c : Dev nD) : ∀ b, b ∉ Finset.univ.image (Pipeline.arrRef spec4) → rd (U7 m) c b = rd (U6 m) c b := by
  intro b hb
  have h0 : b ≠ main_v16_0 := fun e => hb (Finset.mem_image.mpr ⟨1, Finset.mem_univ _, show Pipeline.arrRef spec4 1 = b from e.symm⟩)
  have h1 : b ≠ main_v16_1 := fun e => hb (Finset.mem_image.mpr ⟨2, Finset.mem_univ _, show Pipeline.arrRef spec4 2 = b from e.symm⟩)
  exact (upd_ne _ main_v16_1 b _ h1).trans (upd_ne _ main_v16_0 b _ h0)

theorem hF5 (c : Dev nD) (w : Fin cfg5.W) : (dat5 (rd (U8 m)) c).arrAt w cfg5.N = rd (U9 m) c (Pipeline.arrRef spec5 w) := by
  match w with
  | ⟨0, _⟩ =>
    refine (((dat5 (rd (U8 m)) c).arrAt_in 0 rfl _).trans (A_eq5 (rd (U8 m)) c 0)).trans ?_
    exact (upd_ne _ main_v27 main_arg3 _ (by decide)).symm
  | ⟨1, _⟩ =>
    refine (((dat5 (rd (U8 m)) c).arrAt_in 1 rfl _).trans (A_eq5 (rd (U8 m)) c 1)).trans ?_
    exact (upd_ne _ main_v27 main_v26 _ (by decide)).symm
  | ⟨2, _⟩ =>
    refine (((dat5 (rd (U8 m)) c).arrAt_in 2 rfl _).trans (A_eq5 (rd (U8 m)) c 2)).trans ?_
    exact (upd_ne _ main_v27 main_v20 _ (by decide)).symm
  | ⟨3, _⟩ => exact (upd_self _ main_v27 _).symm

theorem hrest5 (c : Dev nD) : ∀ b, b ∉ Finset.univ.image (Pipeline.arrRef spec5) → rd (U9 m) c b = rd (U8 m) c b := by
  intro b hb
  have h0 : b ≠ main_v27 := fun e => hb (Finset.mem_image.mpr ⟨3, Finset.mem_univ _, show Pipeline.arrRef spec5 3 = b from e.symm⟩)
  exact upd_ne _ main_v27 b _ h0

/-! ## The regions as segments -/

set_option backward.isDefEq.respectTransparency.types false in
/-- Region 0: entered with every unscoped buffer at `U0`, left with them at `U1`. Its arrays are split out of the
    unscoped buffers and put back at the exit contents; the generator register goes into the invariant and comes back;
    nothing is owed; the kernel has no semaphore of its own. -/
def reg0 : RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (rd (U0 m)) c).loose
  hwaits := Pipeline.hwaits_of_owed_zero _ _ _ _ L lv 0 fun _ _ => rfl
  pre c := iprop(StableHlo.held (c : Thread nD τ) (Pipeline.ucRefs τ sig) (U0 m c) ∗ R c)
  post c := iprop(StableHlo.held (c : Thread nD τ) (Pipeline.ucRefs τ sig) (U1 m c) ∗ R c)
  X c := iprop(∃ r, prngReg c r)
  Y c := iprop(∃ r, prngReg c r)
  Z c := Pipeline.unscopedRest (Ix := Unit) (Name := ℕ) (U := UR sig nD τ) (Lvl := ℕ) spec0 c (rd (U0 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (rd (U0 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (rd (U0 m) c) (rd (U1 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered with every unscoped buffer at `U2`, left with them at `U3`. Its arrays are split out of the
    unscoped buffers and put back at the exit contents; the generator register goes into the invariant and comes back;
    nothing is owed; the kernel has no semaphore of its own. -/
def reg1 : RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (rd (U2 m)) c).loose
  hwaits := Pipeline.hwaits_of_owed_zero _ _ _ _ L lv 1 fun _ _ => rfl
  pre c := iprop(StableHlo.held (c : Thread nD τ) (Pipeline.ucRefs τ sig) (U2 m c) ∗ R c)
  post c := iprop(StableHlo.held (c : Thread nD τ) (Pipeline.ucRefs τ sig) (U3 m c) ∗ R c)
  X c := iprop(∃ r, prngReg c r)
  Y c := iprop(∃ r, prngReg c r)
  Z c := Pipeline.unscopedRest (Ix := Unit) (Name := ℕ) (U := UR sig nD τ) (Lvl := ℕ) spec1 c (rd (U2 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (rd (U2 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (rd (U2 m)) c); unfold Pipeline.ΦA
    iintro ⟨Hp, -, Hr⟩
    isplitl [Hr]; · iexact Hr
    iexact Hp
  hout c := by
    rw [Pipeline.ownSems0_none]
    refine BIBase.Entails.trans (hout1 (rd (U2 m)) c) ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (rd (U2 m) c) (rd (U3 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered with every unscoped buffer at `U3`, left with them at `U4`. Its arrays are split out of the
    unscoped buffers and put back at the exit contents; the generator register goes into the invariant and comes back;
    nothing is owed; the kernel has no semaphore of its own. -/
def reg2 : RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (rd (U3 m)) c).loose
  hwaits := Pipeline.hwaits_of_owed_zero _ _ _ _ L lv 2 fun _ _ => rfl
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec2 c (rd (U3 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (rd (U3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    rw [show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (rd (U3 m) c) (rd (U4 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered with every unscoped buffer at `U5`, left with them at `U6`. Its arrays are split out of the
    unscoped buffers and put back at the exit contents; the generator register goes into the invariant and comes back;
    nothing is owed; the kernel has no semaphore of its own. -/
def reg3 : RegionSeg (pcfgs (F := F)) adm (pdats m) () defs₀ Variants.none L lv 3 where
  win := launch3.win.to₀
  block_pos := launch3.block_pos
  stage_whole := launch3.stage_whole
  K := PEmpty
  osem k := k.elim
  ho := Pipeline.OwnSemFacts.none _
  hbody c := (body_obligation3 (rd (U5 m)) c).loose
  hwaits := Pipeline.hwaits_of_owed_zero _ _ _ _ L lv 3 fun _ _ => rfl
  pre c := iprop(StableHlo.held (c : Thread nD τ) (Pipeline.ucRefs τ sig) (U5 m c) ∗ R c)
  post c := iprop(StableHlo.held (c : Thread nD τ) (Pipeline.ucRefs τ sig) (U6 m c) ∗ R c)
  X c := iprop(∃ r, prngReg c r)
  Y c := iprop(∃ r, prngReg c r)
  Z c := Pipeline.unscopedRest (Ix := Unit) (Name := ℕ) (U := UR sig nD τ) (Lvl := ℕ) spec3 c (rd (U5 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (rd (U5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (rd (U5 m)) c); unfold Pipeline.ΦA
    iintro ⟨Hp, -, Hr⟩
    isplitl [Hr]; · iexact Hr
    iexact Hp
  hout c := by
    rw [Pipeline.ownSems0_none]
    refine BIBase.Entails.trans (hout3 (rd (U5 m)) c) ?_; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (rd (U5 m) c) (rd (U6 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered with every unscoped buffer at `U6`, left with them at `U7`. Its arrays are split out of the
    unscoped buffers and put back at the exit contents; the generator register goes into the invariant and comes back;
    nothing is owed; the kernel has no semaphore of its own. -/
def reg4 : RegionSeg (pcfgs (F := F)) adm (pdats m) () defs₀ Variants.none L lv 4 where
  win := launch4.win.to₀
  block_pos := launch4.block_pos
  stage_whole := launch4.stage_whole
  K := PEmpty
  osem k := k.elim
  ho := Pipeline.OwnSemFacts.none _
  hbody c := (body_obligation4 (rd (U6 m)) c).loose
  hwaits := Pipeline.hwaits_of_owed_zero _ _ _ _ L lv 4 fun _ _ => rfl
  pre c := iprop(StableHlo.held (c : Thread nD τ) (Pipeline.ucRefs τ sig) (U6 m c) ∗ R c)
  post c := iprop(StableHlo.held (c : Thread nD τ) (Pipeline.ucRefs τ sig) (U7 m c) ∗ R c)
  X c := iprop(∃ r, prngReg c r)
  Y c := iprop(∃ r, prngReg c r)
  Z c := Pipeline.unscopedRest (Ix := Unit) (Name := ℕ) (U := UR sig nD τ) (Lvl := ℕ) spec4 c (rd (U6 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (rd (U6 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none]
    rw [show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (rd (U6 m) c) (rd (U7 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered with every unscoped buffer at `U8`, left with them at `U9`. Its arrays are split out of the
    unscoped buffers and put back at the exit contents; the generator register goes into the invariant and comes back;
    nothing is owed; the kernel has no semaphore of its own. -/
def reg5 : RegionSeg (pcfgs (F := F)) adm (pdats m) () defs₀ Variants.none L lv 5 where
  win := launch5.win.to₀
  block_pos := launch5.block_pos
  stage_whole := launch5.stage_whole
  K := PEmpty
  osem k := k.elim
  ho := Pipeline.OwnSemFacts.none _
  hbody c := (body_obligation5 (rd (U8 m)) c).loose
  hwaits := Pipeline.hwaits_of_owed_zero _ _ _ _ L lv 5 fun _ _ => rfl
  pre c := iprop(StableHlo.held (c : Thread nD τ) (Pipeline.ucRefs τ sig) (U8 m c) ∗ R c)
  post c := iprop(StableHlo.held (c : Thread nD τ) (Pipeline.ucRefs τ sig) (U9 m c) ∗ R c)
  X c := iprop(∃ r, prngReg c r)
  Y c := iprop(∃ r, prngReg c r)
  Z c := Pipeline.unscopedRest (Ix := Unit) (Name := ℕ) (U := UR sig nD τ) (Lvl := ℕ) spec5 c (rd (U8 m) c)
  hentry c := by
    rw [Pipeline.ownSems0_none]
    have hsplit := Pipeline.arrays_of_unscopedBufs (p := 5) (pcfgs (F := F)) adm (pdats m) launch5.win launch5.arr_whole c
      ((pdats m 5 c).share_full fun _ => rfl) (rd (U8 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin5 (rd (U8 m)) c); unfold Pipeline.ΦA
    iintro ⟨Hp, -, Hr⟩
    isplitl [Hr]; · iexact Hr
    iexact Hp
  hout c := by
    rw [Pipeline.ownSems0_none]
    refine BIBase.Entails.trans (hout5 (rd (U8 m)) c) ?_; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (rd (U8 m) c) (rd (U9 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The boundaries' contents are the conditional run's valuations at these unknowns -/

theorem V1_eq (c : Dev nD) : Gen.V1 m (outs m) c = U1 m c :=
  congrArg (Function.update (U0 m c) (main_v0 : DevRef τ sig)) (upd_self _ _ _)
theorem V2_eq (c : Dev nD) : Gen.V2 m (outs m) c = U2 m c := congrArg (StableHlo.after hostOps1) (V1_eq m c)
theorem V3_eq (c : Dev nD) : Gen.V3 m (outs m) c = U3 m c := by
  show Function.update (Gen.V2 m (outs m) c) (main_v7 : DevRef τ sig) (U3 m c main_v7) = _
  rw [V2_eq]; exact congrArg (Function.update (U2 m c) (main_v7 : DevRef τ sig)) (upd_self _ _ _)
theorem V4_eq (c : Dev nD) : Gen.V4 m (outs m) c = U4 m c := by
  show Function.update (Gen.V3 m (outs m) c) (main_v8 : DevRef τ sig) (U4 m c main_v8) = _
  rw [V3_eq]; exact congrArg (Function.update (U3 m c) (main_v8 : DevRef τ sig)) (upd_self _ _ _)
theorem V5_eq (c : Dev nD) : Gen.V5 m (outs m) c = U5 m c := congrArg (StableHlo.after hostOps3) (V4_eq m c)
theorem V6_eq (c : Dev nD) : Gen.V6 m (outs m) c = U6 m c := by
  show Function.update (Gen.V5 m (outs m) c) (main_v15 : DevRef τ sig) (U6 m c main_v15) = _
  rw [V5_eq]; exact congrArg (Function.update (U5 m c) (main_v15 : DevRef τ sig)) (upd_self _ _ _)
theorem V7_eq (c : Dev nD) : Gen.V7 m (outs m) c = U7 m c := by
  show Function.update (Function.update (Gen.V6 m (outs m) c) (main_v16_0 : DevRef τ sig) (U7 m c main_v16_0)) (main_v16_1 : DevRef τ sig) (U7 m c main_v16_1) = _
  rw [V6_eq]
  have e0 : U7 m c main_v16_0 = (dat4 (rd (U6 m)) c).arrAt 1 cfg4.N :=
    (upd_ne _ main_v16_1 main_v16_0 _ (by decide)).trans (upd_self _ main_v16_0 _)
  have e1 : U7 m c main_v16_1 = (dat4 (rd (U6 m)) c).arrAt 2 cfg4.N := upd_self _ main_v16_1 _
  rw [e0, e1]
theorem V8_eq (c : Dev nD) : Gen.V8 m (outs m) c = U8 m c := congrArg (StableHlo.after hostOps5) (V7_eq m c)
theorem V9_eq (c : Dev nD) : Gen.V9 m (outs m) c = U9 m c := by
  show Function.update (Gen.V8 m (outs m) c) (main_v27 : DevRef τ sig) (U9 m c main_v27) = _
  rw [V8_eq]; exact congrArg (Function.update (U8 m c) (main_v27 : DevRef τ sig)) (upd_self _ _ _)

/-! ## The run -/

set_option backward.isDefEq.respectTransparency.types false in
/-- From any memory with zero counters every weakly fair execution of @main terminates, nothing faulting, and every
    final memory holds each unscoped buffer at the contents the last valuation names. -/
theorem run_main (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = Gen.V14 m (outs m) c b) :=
  GenP.run_cond m emb₁ () Variants.none L lv (fun _ _ => rfl) ρ (outs m) (pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := Pipeline.initEach L lv fun c => by
      iintro ⟨⟨-, HO, -, Hp, -⟩, -⟩
      imodintro
      isplitl [Hp]; · iexists _; iexact Hp
      iexists ∅; iexact HO)
    (hE6 := fun c => by iintro ⟨-, HO⟩; iexact HO)
    (R0 := reg0 m) (hpre0 := fun c => .rfl) (hpost0 := fun c => by rw [V1_eq]; exact .rfl)
    (R1 := reg1 m) (hpre1 := fun c => by rw [V2_eq]; exact .rfl) (hpost1 := fun c => by rw [V3_eq]; exact .rfl)
    (R2 := reg2 m) (hpre2 := fun c => by rw [V3_eq]; exact .rfl) (hpost2 := fun c => by rw [V4_eq]; exact .rfl)
    (R3 := reg3 m) (hpre3 := fun c => by rw [V5_eq]; exact .rfl) (hpost3 := fun c => by rw [V6_eq]; exact .rfl)
    (R4 := reg4 m) (hpre4 := fun c => by rw [V6_eq]; exact .rfl) (hpost4 := fun c => by rw [V7_eq]; exact .rfl)
    (R5 := reg5 m) (hpre5 := fun c => by rw [V8_eq]; exact .rfl) (hpost5 := fun c => by rw [V9_eq]; exact .rfl)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: every weakly fair execution terminates, nothing faulting, and every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨(h c _ (mem_uc main_arg0 (by decide))).trans (Gen.V14_main_arg0 m (outs m) c),
     (h c _ (mem_uc main_arg1 (by decide))).trans (Gen.V14_main_arg1 m (outs m) c),
     (h c _ (mem_uc main_arg2 (by decide))).trans (Gen.V14_main_arg2 m (outs m) c),
     (h c _ (mem_uc main_arg3 (by decide))).trans (Gen.V14_main_arg3 m (outs m) c),
     (h c _ (mem_uc main_arg4 (by decide))).trans (Gen.V14_main_arg4 m (outs m) c),
     (h c _ (mem_uc main_arg5 (by decide))).trans (Gen.V14_main_arg5 m (outs m) c),
     (h c _ (mem_uc main_arg6 (by decide))).trans (Gen.V14_main_arg6 m (outs m) c),
     (h c _ (mem_uc main_arg7 (by decide))).trans (Gen.V14_main_arg7 m (outs m) c),
     (h c _ (mem_uc main_arg8 (by decide))).trans (Gen.V14_main_arg8 m (outs m) c),
     (h c _ (mem_uc main_arg9 (by decide))).trans (Gen.V14_main_arg9 m (outs m) c),
     (h c _ (mem_uc main_arg10 (by decide))).trans (Gen.V14_main_arg10 m (outs m) c)⟩) (run_main m ρ)

end Cert.KernelIdeal.Hand

end
-- ==== Proof.KI.Chain.lean ====
/-
  Reading the boundary valuations: a buffer no item since some boundary has written holds there what it held at
  that boundary — back to the launch contents for the argument arrays.
-/
import proofs.«108817_j44229573214371_2_alg».proof.Proof.KI.Segs

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

theorem U1_of (c : Dev nD) (r : Ref sig .tc) (h : r ∉ ([main_v0] : List (Ref sig .tc))) : U1 m c r = U0 m c r := by
  rw [← V1_eq]; exact Gen.V1_of m (outs m) c r h
theorem U2_of (c : Dev nD) (r : Ref sig .tc) (h : r ∉ hostOps1_W) : U2 m c r = U1 m c r := by
  rw [← V2_eq, ← V1_eq]; exact Gen.V2_of m (outs m) c r h
theorem U3_of (c : Dev nD) (r : Ref sig .tc) (h : r ∉ ([main_v7] : List (Ref sig .tc))) : U3 m c r = U2 m c r := by
  rw [← V3_eq, ← V2_eq]; exact Gen.V3_of m (outs m) c r h
theorem U4_of (c : Dev nD) (r : Ref sig .tc) (h : r ∉ ([main_v8] : List (Ref sig .tc))) : U4 m c r = U3 m c r := by
  rw [← V4_eq, ← V3_eq]; exact Gen.V4_of m (outs m) c r h
theorem U5_of (c : Dev nD) (r : Ref sig .tc) (h : r ∉ hostOps3_W) : U5 m c r = U4 m c r := by
  rw [← V5_eq, ← V4_eq]; exact Gen.V5_of m (outs m) c r h
theorem U6_of (c : Dev nD) (r : Ref sig .tc) (h : r ∉ ([main_v15] : List (Ref sig .tc))) : U6 m c r = U5 m c r := by
  rw [← V6_eq, ← V5_eq]; exact Gen.V6_of m (outs m) c r h
theorem U7_of (c : Dev nD) (r : Ref sig .tc) (h : r ∉ ([main_v16_0, main_v16_1] : List (Ref sig .tc))) : U7 m c r = U6 m c r := by
  rw [← V7_eq, ← V6_eq]; exact Gen.V7_of m (outs m) c r h
theorem U8_of (c : Dev nD) (r : Ref sig .tc) (h : r ∉ hostOps5_W) : U8 m c r = U7 m c r := by
  rw [← V8_eq, ← V7_eq]; exact Gen.V8_of m (outs m) c r h
theorem U9_of (c : Dev nD) (r : Ref sig .tc) (h : r ∉ ([main_v27] : List (Ref sig .tc))) : U9 m c r = U8 m c r := by
  rw [← V9_eq, ← V8_eq]; exact Gen.V9_of m (outs m) c r h

/-- An argument array, or any buffer no region and no host stretch before the attention head writes, holds at
    every boundary what the launch memory holds. -/
theorem U9_launch (c : Dev nD) (r : Ref sig .tc)
    (h9 : r ∉ ([main_v27] : List (Ref sig .tc))) (h8 : r ∉ hostOps5_W) (h7 : r ∉ ([main_v16_0, main_v16_1] : List (Ref sig .tc)))
    (h6 : r ∉ ([main_v15] : List (Ref sig .tc))) (h5 : r ∉ hostOps3_W) (h4 : r ∉ ([main_v8] : List (Ref sig .tc)))
    (h3 : r ∉ ([main_v7] : List (Ref sig .tc))) (h2 : r ∉ hostOps1_W) (h1 : r ∉ ([main_v0] : List (Ref sig .tc))) :
    U9 m c r = U0 m c r ∧ U8 m c r = U0 m c r ∧ U7 m c r = U0 m c r ∧ U6 m c r = U0 m c r ∧ U5 m c r = U0 m c r
      ∧ U4 m c r = U0 m c r ∧ U3 m c r = U0 m c r ∧ U2 m c r = U0 m c r ∧ U1 m c r = U0 m c r := by
  have e1 := U1_of m c r h1
  have e2 := (U2_of m c r h2).trans e1
  have e3 := (U3_of m c r h3).trans e2
  have e4 := (U4_of m c r h4).trans e3
  have e5 := (U5_of m c r h5).trans e4
  have e6 := (U6_of m c r h6).trans e5
  have e7 := (U7_of m c r h7).trans e6
  have e8 := (U8_of m c r h8).trans e7
  have e9 := (U9_of m c r h9).trans e8
  exact ⟨e9, e8, e7, e6, e5, e4, e3, e2, e1⟩

end Cert.KernelIdeal.Hand

end
-- ==== Proof.Spec.lean ====
/-
  The array functions the six kernel regions compute, and the two graph-convolution formulas both
  programs compute from them, over extended reals and plain coordinates: a row sum of a square
  matrix, the column sums of each band of 1024 consecutive rows, the product of a matrix with a
  tall table followed by a scaling of each row; then D^(-1/2) A D^(-1/2) (X W) with D = 1 + rowsum A,
  and Du^(-1/2) A Dc^(-1/2) ((X P) W) with Du, Dc the row and column sums of A.
  Sums over the extended reals are sums in a commutative monoid, so the order in which a kernel
  adds its tiles does not matter; products commute.
-/
import Idealize.ShloMosaic.PureOps.Ideal

noncomputable section

open scoped BigOperators

namespace Cert.Spec

open Idealize.ShloMosaic

/-- Row `i` of `a` summed over all 8192 columns. -/
def rowSum (a : Fin 8192 → Fin 8192 → EReal) (i : Fin 8192) : EReal := ∑ k : Fin 8192, a i k

/-- Column `j` of `a` summed over all 8192 rows. -/
def colSum (a : Fin 8192 → Fin 8192 → EReal) (j : Fin 8192) : EReal := ∑ i : Fin 8192, a i j

/-- Column `j` of `a` summed over the rows of band `t` (rows `1024 t` to `1024 t + 1023`). -/
def bandColSum (a : Fin 8192 → Fin 8192 → EReal) (t : Fin 8) (j : Fin 8192) : EReal :=
  ∑ r : Fin 1024, a ⟨t.val * 1024 + r.val, by have := t.isLt; have := r.isLt; omega⟩ j

/-- Entry `(i, d)` of `a · s`, then multiplied by the row's scale `rs i` (the scale on the right, as the
    kernel multiplies its accumulator). -/
def scaledProd (a : Fin 8192 → Fin 8192 → EReal) (s : Fin 8192 → Fin 32 → EReal) (rs : Fin 8192 → EReal)
    (i : Fin 8192) (d : Fin 32) : EReal :=
  (∑ k : Fin 8192, a i k * s k d) * rs i

/-- Entry `(k, d)` of the projection `x · w` of a table of 32 features. -/
def proj (x : Fin 8192 → Fin 32 → EReal) (w : Fin 32 → Fin 32 → EReal) (k : Fin 8192) (d : Fin 32) : EReal :=
  ∑ j : Fin 32, x k j * w j d

/-- The number one, as the f32 word both programs print for it. -/
def one : EReal := Ideal.ofBits .f32 0x3F800000#32

/-- `(1 + rowsum)^(-1/2)` of row `i`. -/
def dinvS (a : Fin 8192 → Fin 8192 → EReal) (i : Fin 8192) : EReal := Ideal.rsqrt (one + rowSum a i)

/-- D^(-1/2) A D^(-1/2) (X W) at `(i, d)`, D = 1 + rowsum A. -/
def gcnS (a : Fin 8192 → Fin 8192 → EReal) (x : Fin 8192 → Fin 32 → EReal) (w : Fin 32 → Fin 32 → EReal)
    (i : Fin 8192) (d : Fin 32) : EReal :=
  scaledProd a (fun k e => dinvS a k * proj x w k e) (dinvS a) i d

/-- Du^(-1/2) A Dc^(-1/2) ((X P) W) at `(i, d)`, Du the row sums and Dc the column sums of A. -/
def gcnC (a : Fin 8192 → Fin 8192 → EReal) (x : Fin 8192 → Fin 32 → EReal) (p w : Fin 32 → Fin 32 → EReal)
    (i : Fin 8192) (d : Fin 32) : EReal :=
  scaledProd a (fun k e => Ideal.rsqrt (colSum a k) * proj (proj x p) w k e) (fun r => Ideal.rsqrt (rowSum a r)) i d

end Cert.Spec

end
-- ==== Proof.LibKeepdims.lean ====
/-
  Three layout facts a row reduction with kept dimensions meets, each read at an entry given by its coordinates:
  a vector of per-row values viewed as a one-column array, a one-column array spread across the columns of each
  row, and the sum along the second axis of a two-axis array.  They hold for arrays of any extents `[a]`,
  `[a, 1]`, `[a, b]` and, the first two, for entries of any type.
-/
import Idealize.ShloMosaic.Lib.Pipeline.Value
import Idealize.ShloMosaic.Lib.ValueIdx
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, j)`, the operand's one entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Over the extended reals, the sum of a `[a, b]` array along its second axis, started from the zero word, is at
    row `i` the sum over the columns `k` of the entries `(i, k)`. -/
theorem multiReduction_add_rows_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext ax
  apply Fin.ext
  match ax with
  | ⟨0, _⟩ => rfl
  | ⟨1, _⟩ => rfl

end Cert.LibKeepdims

end
-- ==== Proof.LibTileSum.lean ====
/-
  A sum over J consecutive tiles of R entries each is the sum over all J * R entries.

  For `f : ℕ → M` into any additive commutative monoid (the extended reals among them), any tile length `R` and any
  number of tiles `J`:

    `tile_sum` :  Σ_{j < J} Σ_{r : Fin R} f (j * R + r) = Σ_{s : Fin (J * R)} f s.

  This is pure reindexing (the position `s` is `j * R + r` with `j = s / R`, `r = s % R`); no property of the
  summands is used.  `tile_sum_range` is the same with both sides as sums over ranges of naturals, and
  `tile_sum_fin` has the outer sum over `Fin J`.
-/
import Mathlib.Algebra.BigOperators.Fin
import Mathlib.Algebra.BigOperators.Intervals

open scoped BigOperators

namespace Cert.LibTileSum

variable {M : Type*} [AddCommMonoid M]

/-- Both sides over ranges of naturals: Σ_{j < J} Σ_{r < R} f (j * R + r) = Σ_{s < J * R} f s. -/
theorem tile_sum_range (R : ℕ) (f : ℕ → M) (J : ℕ) :
    ∑ j ∈ Finset.range J, ∑ r ∈ Finset.range R, f (j * R + r) = ∑ s ∈ Finset.range (J * R), f s := by
  induction J with
  | zero => simp
  | succ J ih =>
    rw [Finset.sum_range_succ, ih, Nat.succ_mul, Finset.sum_range_add]

/-- A sum over J consecutive tiles of R entries each is the sum over all J * R entries. -/
theorem tile_sum (R : ℕ) (f : ℕ → M) (J : ℕ) :
    (Finset.range J).sum (fun j => ∑ r : Fin R, f (j * R + r.val)) = ∑ s : Fin (J * R), f s.val := by
  rw [Fin.sum_univ_eq_sum_range (fun s => f s) (J * R), ← tile_sum_range R f J]
  refine Finset.sum_congr rfl fun j _ => ?_
  exact Fin.sum_univ_eq_sum_range (fun r => f (j * R + r)) R

/-- The same with the outer sum over `Fin J`. -/
theorem tile_sum_fin (R : ℕ) (f : ℕ → M) (J : ℕ) :
    ∑ j : Fin J, ∑ r : Fin R, f (j.val * R + r.val) = ∑ s : Fin (J * R), f s.val := by
  rw [← tile_sum R f J]
  exact Fin.sum_univ_eq_sum_range (fun j => ∑ r : Fin R, f (j * R + r.val)) J

end Cert.LibTileSum
-- ==== Proof.KI.Row0ValueSum.lean ====
/- Region 0 (`cc0__rowsum_kernel`), the values, first part: what each case of the body leaves (the zero block or the running
   block, plus the lane sums of the input block), the input block and its lane sums read at coordinates over the extended
   reals, and the running sum after each point. -/
import proofs.«108817_j44229573214371_2_alg».proof.Proof.KI.Row0
import proofs.«108817_j44229573214371_2_alg».proof.Proof.Spec
import proofs.«108817_j44229573214371_2_alg».proof.Proof.LibKeepdims
import proofs.«108817_j44229573214371_2_alg».proof.Proof.LibTileSum
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

section CaseValues0
variable {F : FTy → Type} [FloatOps F]

theorem hz0 : (![0, 0] : Fin 2 → Nat) = fun _ => 0 := funext fun a => by fin_cases a <;> rfl

/-- The zero block the reset stores: a broadcast of the word of `+0.0`. -/
abbrev zero0 : Vec F S1024x1 .f32 := broadcast S1024x1 (Scalar.ofBits .f32 0x00000000#32)

/-- The lane sums of a 1024 x 2048 block, as a 1024 x 1 column. -/
abbrev lane0 (x : Vec F S1024x2048 .f32) : FVec F S1024x1 .f32 :=
  shapeCast S1024x1 (multiReduction .add [1] S1024 x 0x00000000#32 reduces_S1024x2048_S1024 (.inl rfl) rfl) shapeCasts_S1024_S1024x1

/-- CASE B's value: over the output's staging buffer holding `xo` the body leaves `xo + lane sums of x`. -/
theorem out0_B_eq (c : Dev nD) (i : grid0.Coords) (a2 : Memref sig .tc .vmem S1024x2048 .f32) (h2 : a2.IsWhole)
    (a3 : Memref sig .tc .vmem S1024x1 .f32) (h3 : a3.IsWhole) (hc : ¬cond0_0 i) (x : Vec F S1024x2048 .f32) (xo : Vec F S1024x1 .f32) :
    out0_B_1 c i a2 h2 a3 h3 hc x xo = addf xo (lane0 x) := by
  unfold out0_B_1
  rw [View.read_writes_eq_canon _ _ _ (cover0_B_1 c i a2 h2 a3 h3 hc x xo)]
  unfold kernelRun0_B
  dsimp only
  rw [View.canon_unit_zero hz0]
  unfold k0_pay2
  simp only [View.readAt_eq_ld, h2.read_unread, h3.read_unread, View.ld_unit_zero (S := S1024x1) hz0, View.ld_unit_zero (S := S1024x2048) hz0, shapeCast_self]

/-- CASE A's value: the body stores the zero block, reads it back, and leaves `0 + lane sums of x`. -/
theorem out0_A_eq (c : Dev nD) (i : grid0.Coords) (a2 : Memref sig .tc .vmem S1024x2048 .f32) (h2 : a2.IsWhole)
    (a3 : Memref sig .tc .vmem S1024x1 .f32) (h3 : a3.IsWhole) (hc : cond0_0 i) (x : Vec F S1024x2048 .f32) :
    out0_A_1 c i a2 h2 a3 h3 hc x = addf zero0 (lane0 x) := by
  unfold out0_A_1
  rw [View.read_writes_eq_canon _ _ _ (cover0_A_1 c i a2 h2 a3 h3 hc x)]
  unfold kernelRun0_A
  dsimp only
  sl_unfold_words
  rw [View.canon_cons_unit_zero (S := S1024x1) hz0, View.readCov_unit_zero (S := S1024x1) _ hz0]
  unfold k0_pay2 k0_pay1
  simp only [View.readAt_eq_ld, h2.read_unread, View.ld_unit_zero (S := S1024x2048) hz0, shapeCast_self]

end CaseValues0
section Value0
variable (V : (c : Dev nD) → (b : Ref sig .tc) → Buf (Elt Ideal) ((c : Thread nD τ).loc b))

/-- A square matrix over the extended reals read at natural coordinates (zero outside the matrix). -/
def ext0 (G : S8192x8192.Idx → EReal) (p q : ℕ) : EReal :=
  if h : p < 8192 ∧ q < 8192 then G (ix2 ⟨p, h.1⟩ ⟨q, h.2⟩) else 0

/-- The block indices of the two windows at point `t`: `(t / 4, t % 4)` and `(t / 4, 0)` — decided over the grid. -/
theorem hidx0_0 : ∀ t : Fin cfg0.N, win0_0.index t 0 = t.val / 4 ∧ win0_0.index t 1 = t.val % 4 :=
  (by decide +kernel : ∀ t : Fin grid0.N, win0_0.index t 0 = t.val / 4 ∧ win0_0.index t 1 = t.val % 4)
theorem hidx0_1 : ∀ t : Fin cfg0.N, win0_1.index t 0 = t.val / 4 ∧ win0_1.index t 1 = 0 :=
  (by decide +kernel : ∀ t : Fin grid0.N, win0_1.index t 0 = t.val / 4 ∧ win0_1.index t 1 = 0)

/-- The input block at point `t` reads the matrix at rows `1024 (t / 4) + r`, columns `2048 (t % 4) + l`. -/
theorem iblk0_apply (c : Dev nD) (t : Fin cfg0.N) (r : Fin 1024) (l : Fin 2048) :
    (iblk0 (F := Ideal) V c 0 t : S1024x2048.Idx → EReal) (ix2 r l)
      = ext0 (V c main_arg2) (t.val / 4 * 1024 + r.val) (t.val % 4 * 2048 + l.val) := by
  have hN : t.val < 32 := lt_of_lt_of_eq t.isLt (show cfg0.N = 32 from N_0)
  have hr := r.isLt
  have hl := l.isLt
  have hmod : t.val % 4 < 4 := Nat.mod_lt _ (by decide)
  have hp : t.val / 4 * 1024 + r.val < 8192 ∧ t.val % 4 * 2048 + l.val < 8192 := by omega
  unfold iblk0 ext0
  rw [dif_pos hp, View.read_apply]
  show V c main_arg2 _ = V c main_arg2 _
  congr 1
  funext a
  apply Fin.ext
  match a with
  | ⟨0, _⟩ => show win0_0.index t 0 * 1024 + 1 * r.val = t.val / 4 * 1024 + r.val; rw [(hidx0_0 t).1]; omega
  | ⟨1, _⟩ => show win0_0.index t 1 * 2048 + 1 * l.val = t.val % 4 * 2048 + l.val; rw [(hidx0_0 t).2]; omega

/-- The lane sums of a block over the extended reals, at row `r`: the sum of the row's 2048 entries. -/
theorem lane0_apply (x : Vec Ideal S1024x2048 .f32) (r : Fin 1024) (u : Fin 1) :
    (lane0 x : S1024x1.Idx → EReal) (ix2 r u) = ∑ l : Fin 2048, x (ix2 r l) :=
  (Cert.LibKeepdims.shapeCast_a_a1_apply _ _ r u).trans (Cert.LibKeepdims.multiReduction_add_rows_apply x _ _ _ r)

/-- The lane sums of the input block at point `t`. -/
theorem lane_iblk0 (c : Dev nD) (t : Fin cfg0.N) (r : Fin 1024) (u : Fin 1) :
    (lane0 (iblk0 (F := Ideal) V c 0 t) : S1024x1.Idx → EReal) (ix2 r u)
      = ∑ l : Fin 2048, ext0 (V c main_arg2) (t.val / 4 * 1024 + r.val) (t.val % 4 * 2048 + l.val) := by
  rw [lane0_apply]
  exact Finset.sum_congr rfl fun l _ => iblk0_apply V c t r l

end Value0
section Running0
variable (V : (c : Dev nD) → (b : Ref sig .tc) → Buf (Elt Ideal) ((c : Thread nD τ).loc b))

/-- At a point whose second coordinate is 0 the zeroed block plus the lane sums is the first tile's sum. -/
theorem caseA_val0 (c : Dev nD) (t : Fin cfg0.N) (h0 : t.val % 4 = 0) (r : Fin 1024) (u : Fin 1) :
    (addf (zero0 (F := Ideal)) (lane0 (iblk0 (F := Ideal) V c 0 t)) : S1024x1.Idx → EReal) (ix2 r u)
      = ∑ j ∈ Finset.range (t.val % 4 + 1), ∑ l : Fin 2048, ext0 (V c main_arg2) (t.val / 4 * 1024 + r.val) (j * 2048 + l.val) := by
  rw [addf_apply, lane_iblk0, h0, Finset.sum_range_one]
  show Ideal.ofBits .f32 0x00000000#32 + _ = _
  rw [Ideal.ofBits_zero_f32, zero_add]

/-- THE RUNNING SUM. After point `n` the output block holds, at row `r`, the sum of the entries of matrix row
    `1024 (n / 4) + r` over the column tiles `0 … n % 4`: by induction on the point. -/
theorem outsAt0_apply (c : Dev nD) : ∀ (n : ℕ) (h : n < cfg0.N) (r : Fin 1024) (u : Fin 1),
    (outsAt0 (F := Ideal) V c n h : S1024x1.Idx → EReal) (ix2 r u)
      = ∑ j ∈ Finset.range (n % 4 + 1), ∑ l : Fin 2048, ext0 (V c main_arg2) (n / 4 * 1024 + r.val) (j * 2048 + l.val)
  | 0, h, r, u => by
    rw [outsAt0_A V c ⟨0, h⟩ rfl, out0_A_eq]
    exact caseA_val0 V c ⟨0, h⟩ rfl r u
  | n + 1, h, r, u => by
    by_cases h0 : (n + 1) % 4 = 0
    · rw [outsAt0_A V c ⟨n + 1, h⟩ h0, out0_A_eq]
      exact caseA_val0 V c ⟨n + 1, h⟩ h0 r u
    · rw [outsAt0_B V c ⟨n + 1, h⟩ h0, out0_B_eq, addf_apply, lane_iblk0]
      show (outsAt0 V c n _ : S1024x1.Idx → EReal) (ix2 r u) + _ = _
      rw [outsAt0_apply c n _ r u]
      have e1 : (n + 1) / 4 = n / 4 := by omega
      have e2 : (n + 1) % 4 = n % 4 + 1 := by omega
      show _ + ∑ l : Fin 2048, ext0 (V c main_arg2) ((n + 1) / 4 * 1024 + r.val) ((n + 1) % 4 * 2048 + l.val) = _
      rw [e1, e2]
      exact (Finset.sum_range_succ _ _).symm

end Running0

end Cert.KernelIdeal.Hand

end
-- ==== Proof.KI.Row0Value.lean ====
/- Region 0 (`cc0__rowsum_kernel`), the values, second part: the output array after the region. Each row tile's block is written
   back after its fourth column tile, holding for each of its rows the sum of the four tiles' lane sums, that is the sum
   of the row's 8192 entries; the eight written blocks cover the output column. -/
import proofs.«108817_j44229573214371_2_alg».proof.Proof.KI.Row0ValueSum
import proofs.«108817_j44229573214371_2_alg».proof.Proof.Spec
import proofs.«108817_j44229573214371_2_alg».proof.Proof.LibKeepdims
import proofs.«108817_j44229573214371_2_alg».proof.Proof.LibTileSum
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

section Final0
variable (V : (c : Dev nD) → (b : Ref sig .tc) → Buf (Elt Ideal) ((c : Thread nD τ).loc b))

/-- Four column tiles of 2048 entries are the 8192 entries of a row. -/
theorem tiles0 (G : S8192x8192.Idx → EReal) (p p' : ℕ) (hp : p = p') :
    (∑ j ∈ Finset.range (3 + 1), ∑ l : Fin 2048, ext0 G p (j * 2048 + l.val) : EReal)
      = ∑ s : Fin (4 * 2048), ext0 G p' s.val := by
  subst hp
  exact Cert.LibTileSum.tile_sum 2048 (fun s => ext0 G p s) 4

/-- The sum of a row read at natural coordinates is the row sum. -/
theorem res0_row (G : S8192x8192.Idx → EReal) (i : Fin 8192) :
    (∑ s : Fin (4 * 2048), ext0 G i.val s.val : EReal) = Cert.Spec.rowSum (fun a b => G (ix2 a b)) i := by
  unfold Cert.Spec.rowSum
  refine Finset.sum_congr rfl fun s _ => ?_
  unfold ext0
  exact dif_pos (show i.val < 8192 ∧ s.val < 8192 from ⟨i.isLt, s.isLt⟩)

/-- The column of row sums, as contents of the output array. -/
def res0 (c : Dev nD) : Buf (Elt Ideal) ((c : Thread nD τ).loc main_v0) :=
  fun (y : S8192x1.Idx) => (∑ s : Fin (4 * 2048), ext0 (V c main_arg2) (y 0).val s.val : EReal)

/-- Each write-back (after the points whose position is 3 mod 4) writes its block of the column of row sums: the four
    column tiles of 2048 entries are the row's 8192 entries. -/
theorem flushed_eq0 (c : Dev nD) (t : Fin cfg0.N) (hf : (cfg0.win 1).flush t = true) :
    (dat0 V c).flushed 1 t = ((cfg0.win 1).blk t).view.read (Elt Ideal) (res0 V c) := by
  have h3 : t.val % 4 = 3 := (flush0_1 t).mp hf
  funext y
  have hy0 : (y 0).val < 1024 := (y 0).isLt
  have hy1 : (y 1).val < 1 := (y 1).isLt
  have hy : ((cfg0.win 1).xinj (grid0.coords t) y : S1024x1.Idx) = ix2 ⟨(y 0).val, hy0⟩ ⟨(y 1).val, hy1⟩ :=
    funext fun a => match a with
      | ⟨0, _⟩ => rfl
      | ⟨1, _⟩ => rfl
  show (dat0 V c).after 1 t ((cfg0.win 1).xinj (grid0.coords t) y) = _
  rw [after0_1, hy, outsAt0_apply, h3, View.read_apply]
  exact tiles0 (V c main_arg2) _ _ (by
    show t.val / 4 * 1024 + (y 0).val = win0_1.index t 0 * 1024 + 1 * (y 0).val
    rw [(hidx0_1 t).1]; omega)

/-- Every entry of the output column is in the block some write-back writes. -/
theorem cover_arr0 (y : S8192x1.Idx) :
    ∃ t : Fin cfg0.N, (cfg0.win 1).flush t = true ∧ y ∈ ((cfg0.win 1).blk t).view.set := by
  have hy0 : (y 0).val < 8192 := (y 0).isLt
  have hy1 : (y 1).val < 1 := (y 1).isLt
  have ht : 4 * ((y 0).val / 1024) + 3 < cfg0.N := by rw [show cfg0.N = 32 from N_0]; omega
  refine ⟨⟨4 * ((y 0).val / 1024) + 3, ht⟩, (flush0_1 _).mpr (by dsimp only; omega), ?_⟩
  show y ∈ ((View.whole main_v0).slice (win0_1.rect ⟨4 * ((y 0).val / 1024) + 3, ht⟩)).set
  rw [View.set_slice_whole, Rect.mem_set_unit]
  intro a
  match a with
  | ⟨0, _⟩ =>
    show win0_1.index ⟨4 * ((y 0).val / 1024) + 3, ht⟩ 0 * 1024 ≤ (y 0 : Nat) ∧ (y 0 : Nat) < win0_1.index ⟨4 * ((y 0).val / 1024) + 3, ht⟩ 0 * 1024 + 1024
    rw [(hidx0_1 _).1]; dsimp only; omega
  | ⟨1, _⟩ =>
    show win0_1.index ⟨4 * ((y 0).val / 1024) + 3, ht⟩ 1 * 1 ≤ (y 1 : Nat) ∧ (y 1 : Nat) < win0_1.index ⟨4 * ((y 0).val / 1024) + 3, ht⟩ 1 * 1 + 1
    rw [(hidx0_1 _).2]; omega

/-- So the output array ends holding the column of row sums. -/
theorem final_arr0 (c : Dev nD) : (dat0 (F := Ideal) V c).arrAt 1 cfg0.N = res0 V c :=
  (dat0 V c).arrAt_eq_of_cover 1 (res0 V c) (flushed_eq0 V c) (cover_arr0)

/-- THE REGION'S VALUE: after the last point, entry `(i, 0)` of the output array is the sum of row `i` of the input
    matrix as the region found it. -/
theorem final0 (c : Dev nD) (i : Fin 8192) :
    ((dat0 (F := Ideal) V c).arrAt 1 cfg0.N : S8192x1.Idx → EReal) (ix2 i (0 : Fin 1))
      = Cert.Spec.rowSum (fun a b => (V c main_arg2 : S8192x8192.Idx → EReal) (ix2 a b)) i := by
  rw [final_arr0]
  exact res0_row (V c main_arg2) i

end Final0

end Cert.KernelIdeal.Hand

end
-- ==== Proof.KI.Row2ValueSum.lean ====
/- Region 2 (`cc2__rowsum_kernel`), the values, first part: what each case of the body leaves (the zero block or the running
   block, plus the lane sums of the input block), the input block and its lane sums read at coordinates over the extended
   reals, and the running sum after each point. -/
import proofs.«108817_j44229573214371_2_alg».proof.Proof.KI.Row2
import proofs.«108817_j44229573214371_2_alg».proof.Proof.Spec
import proofs.«108817_j44229573214371_2_alg».proof.Proof.LibKeepdims
import proofs.«108817_j44229573214371_2_alg».proof.Proof.LibTileSum
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

section CaseValues2
variable {F : FTy → Type} [FloatOps F]

theorem hz2 : (![0, 0] : Fin 2 → Nat) = fun _ => 0 := funext fun a => by fin_cases a <;> rfl

/-- The zero block the reset stores: a broadcast of the word of `+0.0`. -/
abbrev zero2 : Vec F S1024x1 .f32 := broadcast S1024x1 (Scalar.ofBits .f32 0x00000000#32)

/-- The lane sums of a 1024 x 2048 block, as a 1024 x 1 column. -/
abbrev lane2 (x : Vec F S1024x2048 .f32) : FVec F S1024x1 .f32 :=
  shapeCast S1024x1 (multiReduction .add [1] S1024 x 0x00000000#32 reduces_S1024x2048_S1024 (.inl rfl) rfl) shapeCasts_S1024_S1024x1

/-- CASE B's value: over the output's staging buffer holding `xo` the body leaves `xo + lane sums of x`. -/
theorem out2_B_eq (c : Dev nD) (i : grid2.Coords) (a2 : Memref sig .tc .vmem S1024x2048 .f32) (h2 : a2.IsWhole)
    (a3 : Memref sig .tc .vmem S1024x1 .f32) (h3 : a3.IsWhole) (hc : ¬cond2_0 i) (x : Vec F S1024x2048 .f32) (xo : Vec F S1024x1 .f32) :
    out2_B_1 c i a2 h2 a3 h3 hc x xo = addf xo (lane2 x) := by
  unfold out2_B_1
  rw [View.read_writes_eq_canon _ _ _ (cover2_B_1 c i a2 h2 a3 h3 hc x xo)]
  unfold kernelRun2_B
  dsimp only
  rw [View.canon_unit_zero hz2]
  unfold k2_pay2
  simp only [View.readAt_eq_ld, h2.read_unread, h3.read_unread, View.ld_unit_zero (S := S1024x1) hz2, View.ld_unit_zero (S := S1024x2048) hz2, shapeCast_self]

/-- CASE A's value: the body stores the zero block, reads it back, and leaves `0 + lane sums of x`. -/
theorem out2_A_eq (c : Dev nD) (i : grid2.Coords) (a2 : Memref sig .tc .vmem S1024x2048 .f32) (h2 : a2.IsWhole)
    (a3 : Memref sig .tc .vmem S1024x1 .f32) (h3 : a3.IsWhole) (hc : cond2_0 i) (x : Vec F S1024x2048 .f32) :
    out2_A_1 c i a2 h2 a3 h3 hc x = addf zero2 (lane2 x) := by
  unfold out2_A_1
  rw [View.read_writes_eq_canon _ _ _ (cover2_A_1 c i a2 h2 a3 h3 hc x)]
  unfold kernelRun2_A
  dsimp only
  sl_unfold_words
  rw [View.canon_cons_unit_zero (S := S1024x1) hz2, View.readCov_unit_zero (S := S1024x1) _ hz2]
  unfold k2_pay2 k2_pay1
  simp only [View.readAt_eq_ld, h2.read_unread, View.ld_unit_zero (S := S1024x2048) hz2, shapeCast_self]

end CaseValues2
section Value2
variable (V : (c : Dev nD) → (b : Ref sig .tc) → Buf (Elt Ideal) ((c : Thread nD τ).loc b))

/-- A square matrix over the extended reals read at natural coordinates (zero outside the matrix). -/
def ext2 (G : S8192x8192.Idx → EReal) (p q : ℕ) : EReal :=
  if h : p < 8192 ∧ q < 8192 then G (ix2 ⟨p, h.1⟩ ⟨q, h.2⟩) else 0

/-- The block indices of the two windows at point `t`: `(t / 4, t % 4)` and `(t / 4, 0)` — decided over the grid. -/
theorem hidx2_0 : ∀ t : Fin cfg2.N, win2_0.index t 0 = t.val / 4 ∧ win2_0.index t 1 = t.val % 4 :=
  (by decide +kernel : ∀ t : Fin grid2.N, win2_0.index t 0 = t.val / 4 ∧ win2_0.index t 1 = t.val % 4)
theorem hidx2_1 : ∀ t : Fin cfg2.N, win2_1.index t 0 = t.val / 4 ∧ win2_1.index t 1 = 0 :=
  (by decide +kernel : ∀ t : Fin grid2.N, win2_1.index t 0 = t.val / 4 ∧ win2_1.index t 1 = 0)

/-- The input block at point `t` reads the matrix at rows `1024 (t / 4) + r`, columns `2048 (t % 4) + l`. -/
theorem iblk2_apply (c : Dev nD) (t : Fin cfg2.N) (r : Fin 1024) (l : Fin 2048) :
    (iblk2 (F := Ideal) V c 0 t : S1024x2048.Idx → EReal) (ix2 r l)
      = ext2 (V c main_arg4) (t.val / 4 * 1024 + r.val) (t.val % 4 * 2048 + l.val) := by
  have hN : t.val < 32 := lt_of_lt_of_eq t.isLt (show cfg2.N = 32 from N_2)
  have hr := r.isLt
  have hl := l.isLt
  have hmod : t.val % 4 < 4 := Nat.mod_lt _ (by decide)
  have hp : t.val / 4 * 1024 + r.val < 8192 ∧ t.val % 4 * 2048 + l.val < 8192 := by omega
  unfold iblk2 ext2
  rw [dif_pos hp, View.read_apply]
  show V c main_arg4 _ = V c main_arg4 _
  congr 1
  funext a
  apply Fin.ext
  match a with
  | ⟨0, _⟩ => show win2_0.index t 0 * 1024 + 1 * r.val = t.val / 4 * 1024 + r.val; rw [(hidx2_0 t).1]; omega
  | ⟨1, _⟩ => show win2_0.index t 1 * 2048 + 1 * l.val = t.val % 4 * 2048 + l.val; rw [(hidx2_0 t).2]; omega

/-- The lane sums of a block over the extended reals, at row `r`: the sum of the row's 2048 entries. -/
theorem lane2_apply (x : Vec Ideal S1024x2048 .f32) (r : Fin 1024) (u : Fin 1) :
    (lane2 x : S1024x1.Idx → EReal) (ix2 r u) = ∑ l : Fin 2048, x (ix2 r l) :=
  (Cert.LibKeepdims.shapeCast_a_a1_apply _ _ r u).trans (Cert.LibKeepdims.multiReduction_add_rows_apply x _ _ _ r)

/-- The lane sums of the input block at point `t`. -/
theorem lane_iblk2 (c : Dev nD) (t : Fin cfg2.N) (r : Fin 1024) (u : Fin 1) :
    (lane2 (iblk2 (F := Ideal) V c 0 t) : S1024x1.Idx → EReal) (ix2 r u)
      = ∑ l : Fin 2048, ext2 (V c main_arg4) (t.val / 4 * 1024 + r.val) (t.val % 4 * 2048 + l.val) := by
  rw [lane2_apply]
  exact Finset.sum_congr rfl fun l _ => iblk2_apply V c t r l

end Value2
section Running2
variable (V : (c : Dev nD) → (b : Ref sig .tc) → Buf (Elt Ideal) ((c : Thread nD τ).loc b))

/-- At a point whose second coordinate is 0 the zeroed block plus the lane sums is the first tile's sum. -/
theorem caseA_val2 (c : Dev nD) (t : Fin cfg2.N) (h0 : t.val % 4 = 0) (r : Fin 1024) (u : Fin 1) :
    (addf (zero2 (F := Ideal)) (lane2 (iblk2 (F := Ideal) V c 0 t)) : S1024x1.Idx → EReal) (ix2 r u)
      = ∑ j ∈ Finset.range (t.val % 4 + 1), ∑ l : Fin 2048, ext2 (V c main_arg4) (t.val / 4 * 1024 + r.val) (j * 2048 + l.val) := by
  rw [addf_apply, lane_iblk2, h0, Finset.sum_range_one]
  show Ideal.ofBits .f32 0x00000000#32 + _ = _
  rw [Ideal.ofBits_zero_f32, zero_add]

/-- THE RUNNING SUM. After point `n` the output block holds, at row `r`, the sum of the entries of matrix row
    `1024 (n / 4) + r` over the column tiles `0 … n % 4`: by induction on the point. -/
theorem outsAt2_apply (c : Dev nD) : ∀ (n : ℕ) (h : n < cfg2.N) (r : Fin 1024) (u : Fin 1),
    (outsAt2 (F := Ideal) V c n h : S1024x1.Idx → EReal) (ix2 r u)
      = ∑ j ∈ Finset.range (n % 4 + 1), ∑ l : Fin 2048, ext2 (V c main_arg4) (n / 4 * 1024 + r.val) (j * 2048 + l.val)
  | 0, h, r, u => by
    rw [outsAt2_A V c ⟨0, h⟩ rfl, out2_A_eq]
    exact caseA_val2 V c ⟨0, h⟩ rfl r u
  | n + 1, h, r, u => by
    by_cases h0 : (n + 1) % 4 = 0
    · rw [outsAt2_A V c ⟨n + 1, h⟩ h0, out2_A_eq]
      exact caseA_val2 V c ⟨n + 1, h⟩ h0 r u
    · rw [outsAt2_B V c ⟨n + 1, h⟩ h0, out2_B_eq, addf_apply, lane_iblk2]
      show (outsAt2 V c n _ : S1024x1.Idx → EReal) (ix2 r u) + _ = _
      rw [outsAt2_apply c n _ r u]
      have e1 : (n + 1) / 4 = n / 4 := by omega
      have e2 : (n + 1) % 4 = n % 4 + 1 := by omega
      show _ + ∑ l : Fin 2048, ext2 (V c main_arg4) ((n + 1) / 4 * 1024 + r.val) ((n + 1) % 4 * 2048 + l.val) = _
      rw [e1, e2]
      exact (Finset.sum_range_succ _ _).symm

end Running2

end Cert.KernelIdeal.Hand

end
-- ==== Proof.KI.Row2Value.lean ====
/- Region 2 (`cc2__rowsum_kernel`), the values, second part: the output array after the region. Each row tile's block is written
   back after its fourth column tile, holding for each of its rows the sum of the four tiles' lane sums, that is the sum
   of the row's 8192 entries; the eight written blocks cover the output column. -/
import proofs.«108817_j44229573214371_2_alg».proof.Proof.KI.Row2ValueSum
import proofs.«108817_j44229573214371_2_alg».proof.Proof.Spec
import proofs.«108817_j44229573214371_2_alg».proof.Proof.LibKeepdims
import proofs.«108817_j44229573214371_2_alg».proof.Proof.LibTileSum
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

section Final2
variable (V : (c : Dev nD) → (b : Ref sig .tc) → Buf (Elt Ideal) ((c : Thread nD τ).loc b))

/-- Four column tiles of 2048 entries are the 8192 entries of a row. -/
theorem tiles2 (G : S8192x8192.Idx → EReal) (p p' : ℕ) (hp : p = p') :
    (∑ j ∈ Finset.range (3 + 1), ∑ l : Fin 2048, ext2 G p (j * 2048 + l.val) : EReal)
      = ∑ s : Fin (4 * 2048), ext2 G p' s.val := by
  subst hp
  exact Cert.LibTileSum.tile_sum 2048 (fun s => ext2 G p s) 4

/-- The sum of a row read at natural coordinates is the row sum. -/
theorem res2_row (G : S8192x8192.Idx → EReal) (i : Fin 8192) :
    (∑ s : Fin (4 * 2048), ext2 G i.val s.val : EReal) = Cert.Spec.rowSum (fun a b => G (ix2 a b)) i := by
  unfold Cert.Spec.rowSum
  refine Finset.sum_congr rfl fun s _ => ?_
  unfold ext2
  exact dif_pos (show i.val < 8192 ∧ s.val < 8192 from ⟨i.isLt, s.isLt⟩)

/-- The column of row sums, as contents of the output array. -/
def res2 (c : Dev nD) : Buf (Elt Ideal) ((c : Thread nD τ).loc main_v8) :=
  fun (y : S8192x1.Idx) => (∑ s : Fin (4 * 2048), ext2 (V c main_arg4) (y 0).val s.val : EReal)

/-- Each write-back (after the points whose position is 3 mod 4) writes its block of the column of row sums: the four
    column tiles of 2048 entries are the row's 8192 entries. -/
theorem flushed_eq2 (c : Dev nD) (t : Fin cfg2.N) (hf : (cfg2.win 1).flush t = true) :
    (dat2 V c).flushed 1 t = ((cfg2.win 1).blk t).view.read (Elt Ideal) (res2 V c) := by
  have h3 : t.val % 4 = 3 := (flush2_1 t).mp hf
  funext y
  have hy0 : (y 0).val < 1024 := (y 0).isLt
  have hy1 : (y 1).val < 1 := (y 1).isLt
  have hy : ((cfg2.win 1).xinj (grid2.coords t) y : S1024x1.Idx) = ix2 ⟨(y 0).val, hy0⟩ ⟨(y 1).val, hy1⟩ :=
    funext fun a => match a with
      | ⟨0, _⟩ => rfl
      | ⟨1, _⟩ => rfl
  show (dat2 V c).after 1 t ((cfg2.win 1).xinj (grid2.coords t) y) = _
  rw [after2_1, hy, outsAt2_apply, h3, View.read_apply]
  exact tiles2 (V c main_arg4) _ _ (by
    show t.val / 4 * 1024 + (y 0).val = win2_1.index t 0 * 1024 + 1 * (y 0).val
    rw [(hidx2_1 t).1]; omega)

/-- Every entry of the output column is in the block some write-back writes. -/
theorem cover_arr2 (y : S8192x1.Idx) :
    ∃ t : Fin cfg2.N, (cfg2.win 1).flush t = true ∧ y ∈ ((cfg2.win 1).blk t).view.set := by
  have hy0 : (y 0).val < 8192 := (y 0).isLt
  have hy1 : (y 1).val < 1 := (y 1).isLt
  have ht : 4 * ((y 0).val / 1024) + 3 < cfg2.N := by rw [show cfg2.N = 32 from N_2]; omega
  refine ⟨⟨4 * ((y 0).val / 1024) + 3, ht⟩, (flush2_1 _).mpr (by dsimp only; omega), ?_⟩
  show y ∈ ((View.whole main_v8).slice (win2_1.rect ⟨4 * ((y 0).val / 1024) + 3, ht⟩)).set
  rw [View.set_slice_whole, Rect.mem_set_unit]
  intro a
  match a with
  | ⟨0, _⟩ =>
    show win2_1.index ⟨4 * ((y 0).val / 1024) + 3, ht⟩ 0 * 1024 ≤ (y 0 : Nat) ∧ (y 0 : Nat) < win2_1.index ⟨4 * ((y 0).val / 1024) + 3, ht⟩ 0 * 1024 + 1024
    rw [(hidx2_1 _).1]; dsimp only; omega
  | ⟨1, _⟩ =>
    show win2_1.index ⟨4 * ((y 0).val / 1024) + 3, ht⟩ 1 * 1 ≤ (y 1 : Nat) ∧ (y 1 : Nat) < win2_1.index ⟨4 * ((y 0).val / 1024) + 3, ht⟩ 1 * 1 + 1
    rw [(hidx2_1 _).2]; omega

/-- So the output array ends holding the column of row sums. -/
theorem final_arr2 (c : Dev nD) : (dat2 (F := Ideal) V c).arrAt 1 cfg2.N = res2 V c :=
  (dat2 V c).arrAt_eq_of_cover 1 (res2 V c) (flushed_eq2 V c) (cover_arr2)

/-- THE REGION'S VALUE: after the last point, entry `(i, 0)` of the output array is the sum of row `i` of the input
    matrix as the region found it. -/
theorem final2 (c : Dev nD) (i : Fin 8192) :
    ((dat2 (F := Ideal) V c).arrAt 1 cfg2.N : S8192x1.Idx → EReal) (ix2 i (0 : Fin 1))
      = Cert.Spec.rowSum (fun a b => (V c main_arg4 : S8192x8192.Idx → EReal) (ix2 a b)) i := by
  rw [final_arr2]
  exact res2_row (V c main_arg4) i

end Final2

end Cert.KernelIdeal.Hand

end
-- ==== Proof.LibColumnSum.lean ====
/-
  The sum of a two-axis array along its FIRST axis, read at an entry: over the extended reals, started from the zero
  word, the sum of an `[a, b]` array over its rows is at column `j` the sum over the rows `k` of the entries
  `(k, j)`.  It holds for any extents; with `b = 1` it is the total of a one-column array.
-/
import Idealize.ShloMosaic.Lib.ValueIdx
import Idealize.ShloMosaic.PureOps.Ideal.Laws

noncomputable section

open scoped BigOperators

namespace Cert.LibColumnSum

open Idealize.ShloMosaic Idealize.ShloMosaic.ValueIdx

/-- Over the extended reals, the sum of an `[a, b]` array along its first axis, started from the zero word, is at
    column `j` the sum over the rows `k` of the entries `(k, j)`. -/
theorem multiReduction_add_cols_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (j : Fin b) :
    multiReduction .add [0] ⟨1, ![b]⟩ src 0x00000000#32 h hφ hacc (ix1 j) = ∑ k : Fin a, src (ix2 k j) := by
  refine (Ideal.multiReduction_add_single src 0x00000000#32 h hφ hacc (ix1 j)).trans ?_
  refine Finset.sum_congr rfl fun k _ => congrArg src ?_
  funext ax
  apply Fin.ext
  match ax with
  | ⟨0, _⟩ => rfl
  | ⟨1, _⟩ => rfl

end Cert.LibColumnSum

end
-- ==== Proof.KI.Uc4Value.lean ====
/- Region 4 (the row-and-column-sums kernel), read at the extended reals: what each case's run leaves is the
   payload of its one covering store per output; the row-sum block after the point (i, k) is the sum of the
   row's entries over the column tiles 0 … k; so the row-sum array ends holding every row's sum and the
   column-sum array, at (t, b, j), the sum of column j over the rows of band t, for every b. -/
import proofs.«108817_j44229573214371_2_alg».proof.Proof.KI.Uc4
import proofs.«108817_j44229573214371_2_alg».proof.Proof.Spec
import proofs.«108817_j44229573214371_2_alg».proof.Proof.LibColumnSum
import proofs.«108817_j44229573214371_2_alg».proof.Proof.LibKeepdims
import proofs.«108817_j44229573214371_2_alg».proof.Proof.LibTileSum
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

-- membership in a rectangle of production extents: the elaborator's structural look
-- recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

theorem hz4_2 : (![0, 0] : Fin 2 → Nat) = fun _ => 0 := funext fun a => by fin_cases a <;> rfl
theorem hz4_3 : (![0, 0, 0] : Fin 3 → Nat) = fun _ => 0 := funext fun a => by fin_cases a <;> rfl

/-! ## What each case leaves: the payloads of its covering stores -/

/-- The accumulating case leaves, in the row-sum block holding `xo`, the payload of its one covering store. -/
theorem out4_B_1_eq (c : Dev nD) (i : grid4.Coords) (a2 : Memref sig .tc .vmem S1024x2048 .f32) (h2 : a2.IsWhole)
    (a3 : Memref sig .tc .vmem S1024x1 .f32) (h3 : a3.IsWhole) (a4 : Memref sig .tc .vmem S1x8x2048 .f32) (h4 : a4.IsWhole)
    (hc : ¬cond4_0 i) (x : Vec F S1024x2048 .f32) (xo : Vec F S1024x1 .f32) :
    out4_B_1 c i a2 h2 a3 h3 a4 h4 hc x xo = k4_pay2 x xo := by
  unfold out4_B_1
  rw [View.read_writes_eq_canon _ _ _ (cover4_B_1 c i a2 h2 a3 h3 a4 h4 hc x xo)]
  unfold kernelRun4_B
  dsimp only
  rw [View.canon_unit_zero hz4_2]
  simp only [View.readAt_eq_ld, h2.read_unread, h3.read_unread, View.ld_unit_zero (S := S1024x2048) hz4_2, View.ld_unit_zero (S := S1024x1) hz4_2]

/-- The accumulating case leaves, in the column-sum block, the payload of its one covering store. -/
theorem out4_B_2_eq (c : Dev nD) (i : grid4.Coords) (a2 : Memref sig .tc .vmem S1024x2048 .f32) (h2 : a2.IsWhole)
    (a3 : Memref sig .tc .vmem S1024x1 .f32) (h3 : a3.IsWhole) (a4 : Memref sig .tc .vmem S1x8x2048 .f32) (h4 : a4.IsWhole)
    (hc : ¬cond4_0 i) (x : Vec F S1024x2048 .f32) (xo : Vec F S1024x1 .f32) :
    out4_B_2 c i a2 h2 a3 h3 a4 h4 hc x xo = k4_pay3 x := by
  unfold out4_B_2
  rw [View.read_writes_eq_canon _ _ _ (cover4_B_2 c i a2 h2 a3 h3 a4 h4 hc x xo)]
  unfold kernelRun4_B
  dsimp only
  rw [View.canon_unit_zero hz4_3]
  simp only [View.readAt_eq_ld, h2.read_unread, View.ld_unit_zero (S := S1024x2048) hz4_2]

/-- The resetting case stores the zero block, reads it back, and leaves the payload of its last store over it. -/
theorem out4_A_1_eq (c : Dev nD) (i : grid4.Coords) (a2 : Memref sig .tc .vmem S1024x2048 .f32) (h2 : a2.IsWhole)
    (a3 : Memref sig .tc .vmem S1024x1 .f32) (h3 : a3.IsWhole) (a4 : Memref sig .tc .vmem S1x8x2048 .f32) (h4 : a4.IsWhole)
    (hc : cond4_0 i) (x : Vec F S1024x2048 .f32) :
    out4_A_1 c i a2 h2 a3 h3 a4 h4 hc x = k4_pay2 x k4_pay1 := by
  unfold out4_A_1
  rw [View.read_writes_eq_canon _ _ _ (cover4_A_1 c i a2 h2 a3 h3 a4 h4 hc x)]
  unfold kernelRun4_A
  dsimp only
  sl_unfold_words
  rw [View.canon_cons_unit_zero (S := S1024x1) hz4_2, View.readCov_unit_zero (S := S1024x1) _ hz4_2]
  simp only [View.readAt_eq_ld, h2.read_unread, View.ld_unit_zero (S := S1024x2048) hz4_2]

/-- The resetting case leaves, in the column-sum block, the payload of its one covering store. -/
theorem out4_A_2_eq (c : Dev nD) (i : grid4.Coords) (a2 : Memref sig .tc .vmem S1024x2048 .f32) (h2 : a2.IsWhole)
    (a3 : Memref sig .tc .vmem S1024x1 .f32) (h3 : a3.IsWhole) (a4 : Memref sig .tc .vmem S1x8x2048 .f32) (h4 : a4.IsWhole)
    (hc : cond4_0 i) (x : Vec F S1024x2048 .f32) :
    out4_A_2 c i a2 h2 a3 h3 a4 h4 hc x = k4_pay3 x := by
  unfold out4_A_2
  rw [View.read_writes_eq_canon _ _ _ (cover4_A_2 c i a2 h2 a3 h3 a4 h4 hc x)]
  unfold kernelRun4_A
  dsimp only
  rw [View.canon_unit_zero hz4_3]
  simp only [View.readAt_eq_ld, h2.read_unread, View.ld_unit_zero (S := S1024x2048) hz4_2]

/-! ## The payloads at an entry, over the extended reals -/

/-- The zero block at an entry. -/
theorem pay4_1_apply (r : Fin 1024) (u : Fin 1) : k4_pay1 (F := Ideal) (ix2 r u) = 0 :=
  Ideal.ofBits_zero_f32

/-- The row-sum payload at row `r`: what the block held there plus the sum of the input block's row. -/
theorem pay4_2_apply (x : Vec Ideal S1024x2048 .f32) (xo : Vec Ideal S1024x1 .f32) (r : Fin 1024) (u : Fin 1) :
    k4_pay2 (F := Ideal) x xo (ix2 r u) = xo (ix2 r u) + ∑ k : Fin 2048, x (ix2 r k) := by
  unfold k4_pay2
  show shapeCast S1024x1 xo shapeCasts_S1024x1_S1024x1 (ix2 r u) + shapeCast S1024x1 (multiReduction (F := Ideal) .add [1] S1024 x 0x00000000#32 reduces_S1024x2048_S1024 (.inl rfl) rfl) shapeCasts_S1024_S1024x1 (ix2 r u) = _
  refine congr (congrArg _ (congrFun (shapeCast_self xo _) _)) ?_
  refine (Cert.LibKeepdims.shapeCast_a_a1_apply _ shapeCasts_S1024_S1024x1 r u).trans ?_
  exact Cert.LibKeepdims.multiReduction_add_rows_apply x reduces_S1024x2048_S1024 (.inl rfl) rfl r

/-- The column-sum payload at `(u, b, l)`: the sum of the input block's column `l`, for every `b`. -/
theorem pay4_3_apply (x : Vec Ideal S1024x2048 .f32) (u : Fin 1) (b : Fin 8) (l : Fin 2048) :
    k4_pay3 (F := Ideal) x (ix3 u b l) = ∑ k : Fin 1024, x (ix2 k l) := by
  unfold k4_pay3
  refine (shapeCast_apply _ shapeCasts_S8x2048_S1x8x2048 (ix3 u b l) (ix2 b l) (by
    have hu : u.val = 0 := by omega
    rw [Shape.rowMajor_val_two, Shape.rowMajor_val_three]
    show b.val * 2048 + l.val = (u.val * 8 + b.val) * 2048 + l.val
    rw [hu]; omega)).trans ?_
  refine (broadcastTo_apply _ broadcasts_S1x2048_S8x2048 (ix2 b l) (ix2 (0 : Fin 1) l) (fun ax => by
    match ax with
    | ⟨0, _⟩ => rfl
    | ⟨1, _⟩ => rfl)).trans ?_
  refine (congrFun (shapeCast_self _ shapeCasts_S1x2048_S1x2048) _).trans ?_
  refine (shapeCast_apply _ shapeCasts_S2048_S1x2048 (ix2 (0 : Fin 1) l) (ix1 l) (by
    rw [Shape.rowMajor_val_two, Shape.rowMajor_val_one]
    show l.val = (0 : Fin 1).val * 2048 + l.val
    simp)).trans ?_
  exact Cert.LibColumnSum.multiReduction_add_cols_apply x reduces_S1024x2048_S2048 (.inl rfl) rfl l

/-! ## The matrix by plain coordinates, and a row as four column tiles -/

/-- A matrix of extended reals read at natural coordinates (0 outside). -/
def matN4 (a : Fin 8192 → Fin 8192 → EReal) (p q : ℕ) : EReal :=
  if h : p < 8192 ∧ q < 8192 then a ⟨p, h.1⟩ ⟨q, h.2⟩ else 0

/-- A row's sum is the sum over its four tiles of 2048 columns. -/
theorem rowSum_tiles4 (a : Fin 8192 → Fin 8192 → EReal) (p : Fin 8192) :
    ∑ s ∈ Finset.range 4, ∑ k : Fin 2048, matN4 a p.val (s * 2048 + k.val) = Cert.Spec.rowSum a p := by
  rw [Cert.LibTileSum.tile_sum 2048 (fun q => matN4 a p.val q) 4]
  unfold Cert.Spec.rowSum
  show (∑ s : Fin 8192, matN4 a p.val s.val) = _
  refine Finset.sum_congr rfl fun k _ => ?_
  unfold matN4
  rw [dif_pos ⟨p.isLt, k.isLt⟩]

section Region
-- the TensorCore's buffer contents when the region is entered
variable (V : (c : Dev nD) → (b : Ref sig .tc) → Buf (Elt Ideal) ((c : Thread nD τ).loc b))

/-- The input matrix as the region finds it, by plain coordinates. -/
abbrev mat4 (c : Dev nD) : Fin 8192 → Fin 8192 → EReal :=
  fun a b => (V c main_arg3 : S8192x8192.Idx → EReal) (ix2 a b)

/-- The printed index maps, decided over the grid: point `t` is at row tile `t / 4` and column tile `t % 4`. -/
theorem idx_facts4 : ∀ t : Fin cfg4.N, win4_0.index t (0 : Fin 2) = t.val / 4 ∧ win4_0.index t (1 : Fin 2) = t.val % 4
    ∧ win4_1.index t (0 : Fin 2) = t.val / 4 ∧ win4_1.index t (1 : Fin 2) = 0
    ∧ win4_2.index t (0 : Fin 3) = t.val / 4 ∧ win4_2.index t (1 : Fin 3) = 0 ∧ win4_2.index t (2 : Fin 3) = t.val % 4 :=
  (by decide +kernel : ∀ t : Fin grid4.N, _)

/-- The input block at point `t`, read at `(k, l)`: the matrix at row `1024 (t / 4) + k`, column `2048 (t % 4) + l`. -/
theorem iblk4_apply (c : Dev nD) (t : Fin cfg4.N) (q s : ℕ) (hq : t.val / 4 = q) (hs : t.val % 4 = s) (k : Fin 1024) (l : Fin 2048) :
    (iblk4 V c 0 t : Vec Ideal S1024x2048 .f32) (ix2 k l) = matN4 (mat4 V c) (1024 * q + k.val) (s * 2048 + l.val) := by
  have hN : t.val < 32 := lt_of_lt_of_eq t.isLt (show cfg4.N = 32 from N_4)
  obtain ⟨e0, e1, -⟩ := idx_facts4 t
  subst hq hs
  unfold matN4
  rw [dif_pos ⟨by have := k.isLt; omega, by have := l.isLt; omega⟩]
  unfold iblk4
  rw [View.read_apply]
  show V c main_arg3 _ = V c main_arg3 _
  congr 1
  funext a
  apply Fin.ext
  match a with
  | ⟨0, _⟩ => show win4_0.index t (0 : Fin 2) * 1024 + 1 * k.val = 1024 * (t.val / 4) + k.val; rw [e0]; omega
  | ⟨1, _⟩ => show win4_0.index t (1 : Fin 2) * 2048 + 1 * l.val = t.val % 4 * 2048 + l.val; rw [e1]; omega

/-! ## What the outputs' staging buffers hold after each point -/

/-- The column-sum block after any point is the column-sum payload of the point's input block. -/
theorem outs4_2_eq (c : Dev nD) (t : Fin cfg4.N) : (outsAt4 V c t.val t.isLt).2 = k4_pay3 (iblk4 V c 0 t) := by
  by_cases h0 : t.val % 4 = 0
  · rw [outsAt4_A V c t h0]; dsimp only
    exact out4_A_2_eq c (grid4.coords t) (ms4_0 t) (hs4_0 t) (ms4_1 t) (hs4_1 t) (ms4_2 t) (hs4_2 t) ((hcond4_0 t).mpr h0) (iblk4 V c 0 t)
  · rw [outsAt4_B V c t h0]; dsimp only
    exact out4_B_2_eq c (grid4.coords t) (ms4_0 t) (hs4_0 t) (ms4_1 t) (hs4_1 t) (ms4_2 t) (hs4_2 t) (fun h => h0 ((hcond4_0 t).mp h)) (iblk4 V c 0 t) _

/-- The row-sum block after a point with column tile 0: the row-sum payload over the zero block. -/
theorem outs4_1_A (c : Dev nD) (t : Fin cfg4.N) (h0 : t.val % 4 = 0) :
    (outsAt4 V c t.val t.isLt).1 = k4_pay2 (iblk4 V c 0 t) (k4_pay1 (F := Ideal)) := by
  rw [outsAt4_A V c t h0]; dsimp only
  exact out4_A_1_eq c (grid4.coords t) (ms4_0 t) (hs4_0 t) (ms4_1 t) (hs4_1 t) (ms4_2 t) (hs4_2 t) ((hcond4_0 t).mpr h0) (iblk4 V c 0 t)

/-- The row-sum block after any other point: the row-sum payload over what the point before left. -/
theorem outs4_1_B (c : Dev nD) (t : Fin cfg4.N) (h0 : ¬t.val % 4 = 0) :
    (outsAt4 V c t.val t.isLt).1 = k4_pay2 (iblk4 V c 0 t) (outsAt4 V c (t.val - 1) (Nat.lt_of_le_of_lt (Nat.sub_le _ _) t.isLt)).1 := by
  rw [outsAt4_B V c t h0]; dsimp only
  exact out4_B_1_eq c (grid4.coords t) (ms4_0 t) (hs4_0 t) (ms4_1 t) (hs4_1 t) (ms4_2 t) (hs4_2 t) (fun h => h0 ((hcond4_0 t).mp h)) (iblk4 V c 0 t) _

/-- THE ACCUMULATION: after the point at position `n` — row tile `n / 4`, column tile `n % 4` — the row-sum block
    holds at row `r` the sum of the matrix row `1024 (n / 4) + r` over the column tiles `0 … n % 4`. -/
theorem rowAcc4 (c : Dev nD) : ∀ (n : ℕ) (h : n < cfg4.N) (r : Fin 1024) (u : Fin 1),
    (outsAt4 V c n h).1 (ix2 r u)
      = ∑ s ∈ Finset.range (n % 4 + 1), ∑ k : Fin 2048, matN4 (mat4 V c) (1024 * (n / 4) + r.val) (s * 2048 + k.val) := by
  intro n
  induction n with
  | zero =>
    intro h r u
    rw [outs4_1_A V c ⟨0, h⟩ rfl]
    refine (pay4_2_apply _ _ r u).trans ?_
    rw [pay4_1_apply, zero_add]
    show _ = ∑ s ∈ Finset.range 1, _
    rw [Finset.sum_range_one]
    refine Finset.sum_congr rfl fun k _ => ?_
    exact iblk4_apply V c ⟨0, h⟩ (0 / 4) 0 rfl rfl r k
  | succ n ih =>
    intro h r u
    by_cases h0 : (n + 1) % 4 = 0
    · rw [outs4_1_A V c ⟨n + 1, h⟩ h0]
      refine (pay4_2_apply _ _ r u).trans ?_
      rw [pay4_1_apply, zero_add, h0]
      show _ = ∑ s ∈ Finset.range 1, _
      rw [Finset.sum_range_one]
      refine Finset.sum_congr rfl fun k _ => ?_
      exact iblk4_apply V c ⟨n + 1, h⟩ ((n + 1) / 4) 0 rfl h0 r k
    · rw [outs4_1_B V c ⟨n + 1, h⟩ h0]
      refine (pay4_2_apply _ _ r u).trans ?_
      have e1 : (n + 1) / 4 = n / 4 := by omega
      have e2 : (n + 1) % 4 = n % 4 + 1 := by omega
      rw [e2, Finset.sum_range_succ, e1]
      refine congr (congrArg _ (ih (Nat.lt_of_succ_lt h) r u)) ?_
      refine Finset.sum_congr rfl fun k _ => ?_
      exact iblk4_apply V c ⟨n + 1, h⟩ (n / 4) (n % 4 + 1) e1 e2 r k

/-! ## From the blocks to the arrays -/

/-- What the row-sum array ends holding: at `(i, 0)` the sum of row `i`. -/
abbrev G4_1 (c : Dev nD) : S8192x1.Idx → EReal := fun idx => Cert.Spec.rowSum (mat4 V c) (idx 0)

/-- What the column-sum array ends holding: at `(t, b, j)` the sum of column `j` over the rows of band `t`. -/
abbrev G4_2 (c : Dev nD) : S8x8x8192.Idx → EReal := fun idx => Cert.Spec.bandColSum (mat4 V c) (idx 0) (idx 2)

/-- What a point that writes the row-sum block back writes is its block of `G4_1`: it is at column tile 3, where
    the block holds the rows' sums over all four column tiles. -/
theorem flushed4_1_eq (c : Dev nD) (t : Fin cfg4.N) (hf : (cfg4.win 1).flush t = true) :
    (dat4 V c).flushed 1 t = ((cfg4.win 1).blk t).view.read (Elt Ideal) (G4_1 V c) := by
  have hN : t.val < 32 := lt_of_lt_of_eq t.isLt (show cfg4.N = 32 from N_4)
  have h3 : t.val % 4 = 3 := (flush4_1 t).mp hf
  obtain ⟨-, -, e0, e1, -⟩ := idx_facts4 t
  show (cfg4.win 1).cut (grid4.coords t) ((dat4 V c).after 1 t) = _
  rw [after4_1]
  funext y
  obtain ⟨r, u, rfl⟩ : ∃ (r : Fin 1024) (u : Fin 1), y = ix2 r u := ⟨y 0, y 1, eq_ix2 y⟩
  show (outsAt4 V c t.val t.isLt).1 (ix2 r u) = Cert.Spec.rowSum (mat4 V c) ((((cfg4.win 1).blk t).view.emb (ix2 r u)) 0)
  have hp : ((((cfg4.win 1).blk t).view.emb (ix2 r u)) 0).val = 1024 * (t.val / 4) + r.val := by
    show win4_1.index t (0 : Fin 2) * 1024 + 1 * r.val = _
    rw [e0]; omega
  rw [rowAcc4 V c t.val t.isLt r u, h3, ← hp]
  exact rowSum_tiles4 (mat4 V c) _

/-- What any point writes back of the column-sum block is its block of `G4_2`. -/
theorem flushed4_2_eq (c : Dev nD) (t : Fin cfg4.N) :
    (dat4 V c).flushed 2 t = ((cfg4.win 2).blk t).view.read (Elt Ideal) (G4_2 V c) := by
  have hN : t.val < 32 := lt_of_lt_of_eq t.isLt (show cfg4.N = 32 from N_4)
  obtain ⟨-, -, -, -, e0, e1, e2⟩ := idx_facts4 t
  show (cfg4.win 2).cut (grid4.coords t) ((dat4 V c).after 2 t) = _
  rw [after4_2]
  funext y
  obtain ⟨u, b, l, rfl⟩ : ∃ (u : Fin 1) (b : Fin 8) (l : Fin 2048), y = ix3 u b l := ⟨y 0, y 1, y 2, eq_ix3 y⟩
  show (outsAt4 V c t.val t.isLt).2 (ix3 u b l) = Cert.Spec.bandColSum (mat4 V c) ((((cfg4.win 2).blk t).view.emb (ix3 u b l)) 0) ((((cfg4.win 2).blk t).view.emb (ix3 u b l)) 2)
  have hp0 : ((((cfg4.win 2).blk t).view.emb (ix3 u b l)) 0).val = t.val / 4 := by
    show win4_2.index t (0 : Fin 3) * 1 + 1 * u.val = _
    rw [e0]; omega
  have hp2 : ((((cfg4.win 2).blk t).view.emb (ix3 u b l)) 2).val = t.val % 4 * 2048 + l.val := by
    show win4_2.index t (2 : Fin 3) * 2048 + 1 * l.val = _
    rw [e2]; omega
  rw [outs4_2_eq V c t]
  refine (pay4_3_apply (iblk4 V c 0 t) u b l).trans ?_
  unfold Cert.Spec.bandColSum
  refine Finset.sum_congr rfl fun k _ => ?_
  refine (iblk4_apply V c t _ _ rfl rfl k l).trans ?_
  unfold matN4
  rw [dif_pos ⟨by have := k.isLt; omega, by have := l.isLt; omega⟩]
  exact congr (congrArg (mat4 V c) (Fin.ext (by
    show 1024 * (t.val / 4) + k.val = ((((cfg4.win 2).blk t).view.emb (ix3 u b l)) 0).val * 1024 + k.val
    rw [hp0]; omega))) (Fin.ext hp2.symm)

/-- An index of the row-sum array is in point `t`'s block iff each coordinate is in the block's range on its axis. -/
theorem mem_blk4_1 (t : Fin cfg4.N) (i : S8192x1.Idx) :
    i ∈ ((cfg4.win 1).blk t).view.set ↔ ∀ a : Fin 2, win4_1.index t a * S1024x1.size a ≤ (i a).val ∧ (i a).val < win4_1.index t a * S1024x1.size a + S1024x1.size a := by
  show i ∈ ((View.whole main_v16_0).slice (win4_1.rect t)).set ↔ _
  rw [View.set_slice_whole, Rect.mem_set_unit]
  exact Iff.rfl

/-- An index of the column-sum array is in point `t`'s block iff each coordinate is in the block's range on its axis. -/
theorem mem_blk4_2 (t : Fin cfg4.N) (i : S8x8x8192.Idx) :
    i ∈ ((cfg4.win 2).blk t).view.set ↔ ∀ a : Fin 3, win4_2.index t a * S1x8x2048.size a ≤ (i a).val ∧ (i a).val < win4_2.index t a * S1x8x2048.size a + S1x8x2048.size a := by
  show i ∈ ((View.whole main_v16_1).slice (win4_2.rect t)).set ↔ _
  rw [View.set_slice_whole, Rect.mem_set_unit]
  exact Iff.rfl

/-- THE ROW SUMS: after the region the row-sum array holds at `(i, 0)` the sum of row `i` of the matrix (the point at
    row tile `i / 1024` and column tile 3 wrote it). -/
theorem final4_1 (c : Dev nD) (i : Fin 8192) :
    ((dat4 (F := Ideal) V c).arrAt 1 cfg4.N : S8192x1.Idx → EReal) (ix2 i (0 : Fin 1))
      = Cert.Spec.rowSum (fun a b => (V c main_arg3 : S8192x8192.Idx → EReal) (ix2 a b)) i := by
  have hi := i.isLt
  have hN : cfg4.N = 32 := N_4
  have ht : 4 * (i.val / 1024) + 3 < cfg4.N := by rw [hN]; omega
  have hf : (cfg4.win 1).flush ⟨4 * (i.val / 1024) + 3, ht⟩ = true := (flush4_1 _).mpr (by show (4 * (i.val / 1024) + 3) % 4 = 3; omega)
  obtain ⟨-, -, e0, e1, -⟩ := idx_facts4 ⟨4 * (i.val / 1024) + 3, ht⟩
  refine ((dat4 V c).arrAt_apply_of_mem 1 (G4_1 V c) (fun t hf => flushed4_1_eq V c t hf) cfg4.N ⟨4 * (i.val / 1024) + 3, ht⟩
    (ix2 i (0 : Fin 1)) ht hf ?_).trans rfl
  rw [mem_blk4_1]
  intro a
  match a with
  | ⟨0, _⟩ =>
    show win4_1.index ⟨4 * (i.val / 1024) + 3, ht⟩ (0 : Fin 2) * 1024 ≤ i.val ∧ i.val < win4_1.index ⟨4 * (i.val / 1024) + 3, ht⟩ (0 : Fin 2) * 1024 + 1024
    rw [e0]; show (4 * (i.val / 1024) + 3) / 4 * 1024 ≤ i.val ∧ i.val < (4 * (i.val / 1024) + 3) / 4 * 1024 + 1024; omega
  | ⟨1, _⟩ =>
    show win4_1.index ⟨4 * (i.val / 1024) + 3, ht⟩ (1 : Fin 2) * 1 ≤ 0 ∧ 0 < win4_1.index ⟨4 * (i.val / 1024) + 3, ht⟩ (1 : Fin 2) * 1 + 1
    rw [e1]; omega

/-- THE BAND COLUMN SUMS: after the region the column-sum array holds at `(t, b, j)`, for every `b`, the sum of column
    `j` over the rows of band `t` (the point at row tile `t` and column tile `j / 2048` wrote it). -/
theorem final4_2 (c : Dev nD) (t : Fin 8) (b : Fin 8) (j : Fin 8192) :
    ((dat4 (F := Ideal) V c).arrAt 2 cfg4.N : S8x8x8192.Idx → EReal) (ix3 t b j)
      = Cert.Spec.bandColSum (fun a b => (V c main_arg3 : S8192x8192.Idx → EReal) (ix2 a b)) t j := by
  have hj := j.isLt
  have htt := t.isLt
  have hb := b.isLt
  have hN : cfg4.N = 32 := N_4
  have ht : 4 * t.val + j.val / 2048 < cfg4.N := by rw [hN]; omega
  obtain ⟨-, -, -, -, e0, e1, e2⟩ := idx_facts4 ⟨4 * t.val + j.val / 2048, ht⟩
  refine ((dat4 V c).arrAt_apply_of_mem 2 (G4_2 V c) (fun t _ => flushed4_2_eq V c t) cfg4.N ⟨4 * t.val + j.val / 2048, ht⟩
    (ix3 t b j) ht (flush4_2 _) ?_).trans rfl
  rw [mem_blk4_2]
  intro a
  match a with
  | ⟨0, _⟩ =>
    show win4_2.index ⟨4 * t.val + j.val / 2048, ht⟩ (0 : Fin 3) * 1 ≤ t.val ∧ t.val < win4_2.index ⟨4 * t.val + j.val / 2048, ht⟩ (0 : Fin 3) * 1 + 1
    rw [e0]; show (4 * t.val + j.val / 2048) / 4 * 1 ≤ t.val ∧ t.val < (4 * t.val + j.val / 2048) / 4 * 1 + 1; omega
  | ⟨1, _⟩ =>
    show win4_2.index ⟨4 * t.val + j.val / 2048, ht⟩ (1 : Fin 3) * 8 ≤ b.val ∧ b.val < win4_2.index ⟨4 * t.val + j.val / 2048, ht⟩ (1 : Fin 3) * 8 + 8
    rw [e1]; omega
  | ⟨2, _⟩ =>
    show win4_2.index ⟨4 * t.val + j.val / 2048, ht⟩ (2 : Fin 3) * 2048 ≤ j.val ∧ j.val < win4_2.index ⟨4 * t.val + j.val / 2048, ht⟩ (2 : Fin 3) * 2048 + 2048
    rw [e2]; show (4 * t.val + j.val / 2048) % 4 * 2048 ≤ j.val ∧ j.val < (4 * t.val + j.val / 2048) % 4 * 2048 + 2048; omega

end Region

end Cert.KernelIdeal.Hand

end
-- ==== Proof.LibPlainDot.lean ====
/-
  A plain matrix product read at an entry.

  A contraction whose dimension numbers say "the second axis of an [A, K] operand against the first axis of a [K, B]
  operand, no batch axis, result [A, B]" reads its left operand at (row of the result, k) and its right operand at
  (k, column of the result), `k` ranging over the one contracted axis.  So the sum over the contraction index of the
  operands' products, at result entry (p, c), is `Σ_{k < K} l (p, k) · r (k, c)`; a `tpu.matmul` into the zero splat
  is exactly that sum at the ideal values.  Generic in A, K, B and in the record: the hypotheses are the record's six lists.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product `[A, K] × [K, B] → [A, B]`. -/
structure Plain {A K B : Nat} (D : DotDims ⟨2, ![A, K]⟩ ⟨2, ![K, B]⟩ ⟨2, ![A, B]⟩) : Prop where
  lc : D.lhsContracting = [1]
  rc : D.rhsContracting = [0]
  ln : D.lhsNonContracting = [0]
  rn : D.rhsNonContracting = [1]
  lb : D.lhsBatch = []
  rb : D.rhsBatch = []

variable {A K B : Nat} {D : DotDims ⟨2, ![A, K]⟩ ⟨2, ![K, B]⟩ ⟨2, ![A, B]⟩}

/-- One axis is contracted. -/
theorem Plain.rank (h : Plain D) : D.contr.rank = 1 := by rw [D.rank_contr, h.lc]; rfl

/-- Its extent is `K`. -/
theorem Plain.size (h : Plain D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Plain.lhs0 (h : Plain D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Plain.lhs1 (h : Plain D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the contraction position … -/
theorem Plain.rhs0 (h : Plain D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Plain.rhs1 (h : Plain D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (p, k) · r (k, c)`. -/
theorem Plain.sum_eq (h : Plain D) (l : (⟨2, ![A, K]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 p k) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Plain.matmul_zero_apply (h : Plain D) (prec : Option ContractPrecision)
    (l : FVec Ideal ⟨2, ![A, K]⟩ .f32) (r : FVec Ideal ⟨2, ![K, B]⟩ .f32) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

/-- A host `dot_general` of such dimension numbers, at the ideal values, read at `(p, c)`. -/
theorem Plain.dotGeneral_apply (h : Plain D) (prec : Option ContractPrecision) (sched : HostSchedule)
    (l : FVec Ideal ⟨2, ![A, K]⟩ .f32) (r : FVec Ideal ⟨2, ![K, B]⟩ .f32) (p : Fin A) (c : Fin B) :
    FloatOps.dotGeneral D prec sched l r (ix2 p c) = ∑ k : Fin K, l (ix2 p k) * r (ix2 k c) :=
  (Ideal.dotGeneral_apply D prec sched l r (ix2 p c)).trans (h.sum_eq l r p c)

end Cert.LibPlainDot

end
-- ==== Proof.LibPlainDotFormats.lean ====
/-
  A plain matrix product `[A, K] × [K, B] → [A, B]` into the zero accumulator read at an entry, for operands of ANY
  float formats: over the extended reals a format only names the set the entries came from, so the sum
  `Σ_{k < K} l (p, k) · r (k, c)` is the same whatever the two formats are.
-/
import proofs.«108817_j44229573214371_2_alg».proof.Proof.LibPlainDot

noncomputable section

namespace Cert.LibPlainDot

open Idealize.ShloMosaic Idealize.ShloMosaic.ValueIdx

variable {A K B : Nat} {D : DotDims ⟨2, ![A, K]⟩ ⟨2, ![K, B]⟩ ⟨2, ![A, B]⟩}

/-- A `tpu.matmul` of plain dimension numbers into the zero accumulator, at the ideal values, read at `(p, c)`,
    whatever the operands' formats. -/
theorem Plain.matmul_zero_apply_formats (h : Plain D) (prec : Option ContractPrecision) {φ₁ φ₂ : FTy}
    (l : FVec Ideal ⟨2, ![A, K]⟩ φ₁) (r : FVec Ideal ⟨2, ![K, B]⟩ φ₂) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

end Cert.LibPlainDot

end
-- ==== Proof.KI.WmmPayload.lean ====
/-
  The three payloads of the weighted-matmul kernel read at an entry, at the ideal values, and the arithmetic of its
  accumulation: four steps over column tiles of 2048, started from zero, add up to the sum over all 8192 columns.
-/
import proofs.«108817_j44229573214371_2_alg».proof.Proof.Gen.KernelIdeal.Skeleton
import proofs.«108817_j44229573214371_2_alg».proof.Proof.LibPlainDotFormats
import proofs.«108817_j44229573214371_2_alg».proof.Proof.LibTileSum
import proofs.«108817_j44229573214371_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Hand

open Idealize.ShloMosaic Idealize.ShloMosaic.ValueIdx
open Cert.KernelIdeal Cert.KernelIdeal.Gen

/-- The kernel's contraction is a plain matrix product [1024, 2048] × [2048, 32] → [1024, 32]. -/
theorem plain_wmm : Cert.LibPlainDot.Plain dot_S1024x2048_S2048x32_S1024x32_1_0_0_1_n_n :=
  ⟨rfl, rfl, rfl, rfl, rfl, rfl⟩

/-- A column of 1024 scales broadcast along 32 lanes, read at an entry, is the row's scale. -/
theorem bcast_col_apply {α : Type} (v : S1024x1.Idx → α) (h : S1024x1.Broadcasts S1024x32) (p : Fin 1024) (d : Fin 32) :
    broadcastTo S1024x32 v h (ix2 p d) = v (ix2 p (0 : Fin 1)) := by
  refine broadcastTo_apply v h (ix2 p d) (ix2 p (0 : Fin 1)) fun ax => ?_
  match ax with
  | ⟨0, _⟩ => rfl
  | ⟨1, _⟩ => rfl

/-! ## Region 1 -/

/-- The reset block: every entry is zero. -/
theorem k1_pay1_apply (p : Fin 1024) (d : Fin 32) : (k1_pay1 (F := Ideal)) (ix2 p d) = 0 := by
  unfold k1_pay1
  rw [shapeCast_self]
  exact Ideal.ofBits_zero_f32

/-- One accumulation step at an entry: the old accumulator plus the product of the two tiles there (the two
    narrowings of the operands change no extended real). -/
theorem k1_pay2_apply (x : Vec Ideal S1024x2048 .f32) (s : Vec Ideal S2048x32 .f32) (acc : Vec Ideal S1024x32 .f32)
    (p : Fin 1024) (d : Fin 32) :
    k1_pay2 x s acc (ix2 p d) = acc (ix2 p d) + ∑ k : Fin 2048, x (ix2 p k) * s (ix2 k d) := by
  unfold k1_pay2
  rw [shapeCast_self, shapeCast_self, addf_apply]
  congr 1
  exact plain_wmm.matmul_zero_apply_formats none _ _ p d

/-- The scaled output at an entry: the accumulator times the row's scale. -/
theorem k1_pay3_apply (v17 : Vec Ideal S1024x32 .f32) (v18 : Vec Ideal S1024x1 .f32) (p : Fin 1024) (d : Fin 32) :
    k1_pay3 v17 v18 (ix2 p d) = v17 (ix2 p d) * v18 (ix2 p (0 : Fin 1)) := by
  unfold k1_pay3
  rw [shapeCast_self, mulf_apply, bcast_col_apply]

/-! ## Region 3 -/

/-- The reset block: every entry is zero. -/
theorem k3_pay1_apply (p : Fin 1024) (d : Fin 32) : (k3_pay1 (F := Ideal)) (ix2 p d) = 0 := by
  unfold k3_pay1
  rw [shapeCast_self]
  exact Ideal.ofBits_zero_f32

/-- One accumulation step at an entry: the old accumulator plus the product of the two tiles there (the two
    narrowings of the operands change no extended real). -/
theorem k3_pay2_apply (x : Vec Ideal S1024x2048 .f32) (s : Vec Ideal S2048x32 .f32) (acc : Vec Ideal S1024x32 .f32)
    (p : Fin 1024) (d : Fin 32) :
    k3_pay2 x s acc (ix2 p d) = acc (ix2 p d) + ∑ k : Fin 2048, x (ix2 p k) * s (ix2 k d) := by
  unfold k3_pay2
  rw [shapeCast_self, shapeCast_self, addf_apply]
  congr 1
  exact plain_wmm.matmul_zero_apply_formats none _ _ p d

/-- The scaled output at an entry: the accumulator times the row's scale. -/
theorem k3_pay3_apply (v17 : Vec Ideal S1024x32 .f32) (v18 : Vec Ideal S1024x1 .f32) (p : Fin 1024) (d : Fin 32) :
    k3_pay3 v17 v18 (ix2 p d) = v17 (ix2 p d) * v18 (ix2 p (0 : Fin 1)) := by
  unfold k3_pay3
  rw [shapeCast_self, mulf_apply, bcast_col_apply]

/-! ## Region 5 -/

/-- The reset block: every entry is zero. -/
theorem k5_pay1_apply (p : Fin 1024) (d : Fin 32) : (k5_pay1 (F := Ideal)) (ix2 p d) = 0 := by
  unfold k5_pay1
  rw [shapeCast_self]
  exact Ideal.ofBits_zero_f32

/-- One accumulation step at an entry: the old accumulator plus the product of the two tiles there (the two
    narrowings of the operands change no extended real). -/
theorem k5_pay2_apply (x : Vec Ideal S1024x2048 .f32) (s : Vec Ideal S2048x32 .f32) (acc : Vec Ideal S1024x32 .f32)
    (p : Fin 1024) (d : Fin 32) :
    k5_pay2 x s acc (ix2 p d) = acc (ix2 p d) + ∑ k : Fin 2048, x (ix2 p k) * s (ix2 k d) := by
  unfold k5_pay2
  rw [shapeCast_self, shapeCast_self, addf_apply]
  congr 1
  exact plain_wmm.matmul_zero_apply_formats none _ _ p d

/-- The scaled output at an entry: the accumulator times the row's scale. -/
theorem k5_pay3_apply (v17 : Vec Ideal S1024x32 .f32) (v18 : Vec Ideal S1024x1 .f32) (p : Fin 1024) (d : Fin 32) :
    k5_pay3 v17 v18 (ix2 p d) = v17 (ix2 p d) * v18 (ix2 p (0 : Fin 1)) := by
  unfold k5_pay3
  rw [shapeCast_self, mulf_apply, bcast_col_apply]

/-! ## The accumulation over four column tiles -/

/-- The sum of the first `n` tiles of 2048 consecutive terms of `f`. -/
def tiles (f : ℕ → EReal) (n : ℕ) : EReal := ∑ j ∈ Finset.range n, ∑ r : Fin 2048, f (j * 2048 + r.val)

theorem tiles_zero (f : ℕ → EReal) : tiles f 0 = 0 := Finset.sum_range_zero _

/-- Adding tile `n` to the first `n` tiles gives the first `n + 1`. -/
theorem tiles_succ (f : ℕ → EReal) (n : ℕ) : tiles f (n + 1) = tiles f n + ∑ r : Fin 2048, f (n * 2048 + r.val) :=
  Finset.sum_range_succ _ n

/-- Starting from zero, the first step leaves the first tile. -/
theorem tiles_one (f : ℕ → EReal) : tiles f 1 = 0 + ∑ r : Fin 2048, f (0 * 2048 + r.val) := by
  rw [tiles_succ, tiles_zero]

/-- Four tiles of 2048 are all 8192 terms. -/
theorem tiles_four (f : ℕ → EReal) : tiles f 4 = ∑ s : Fin 8192, f s.val :=
  Cert.LibTileSum.tile_sum 2048 f 4

/-! ## A row against a column, tile by tile -/

/-- Row `r` of `a` against column `d` of `s`, term by term, as a sequence indexed by the column (zero past the last). -/
def rowTerms (a : S8192x8192.Idx → EReal) (s : S8192x32.Idx → EReal) (r : Fin 8192) (d : Fin 32) (n : ℕ) : EReal :=
  if h : n < 8192 then a (ix2 r ⟨n, h⟩) * s (ix2 ⟨n, h⟩ d) else 0

/-- All 8192 terms of the sequence are the row's product with the column. -/
theorem rowTerms_sum (a : S8192x8192.Idx → EReal) (s : S8192x32.Idx → EReal) (r : Fin 8192) (d : Fin 32) :
    ∑ q : Fin 8192, rowTerms a s r d q.val = ∑ k : Fin 8192, a (ix2 r k) * s (ix2 k d) :=
  Finset.sum_congr rfl fun k _ => by unfold rowTerms; rw [dif_pos k.isLt]

/-- The products of a matrix block's row with a table block's column, the blocks sitting at column tile `j`, are
    the sequence's tile `j`. -/
theorem tile_blocks (a : S8192x8192.Idx → EReal) (s : S8192x32.Idx → EReal) (r : Fin 8192) (d : Fin 32) (j : ℕ) (hj : j < 4)
    (x : Vec Ideal S1024x2048 .f32) (y : Vec Ideal S2048x32 .f32) (p : Fin 1024)
    (hx : ∀ k : Fin 2048, x (ix2 p k) = a (ix2 r ⟨j * 2048 + k.val, by have := k.isLt; omega⟩))
    (hy : ∀ k : Fin 2048, y (ix2 k d) = s (ix2 ⟨j * 2048 + k.val, by have := k.isLt; omega⟩ d)) :
    ∑ k : Fin 2048, x (ix2 p k) * y (ix2 k d) = ∑ q : Fin 2048, rowTerms a s r d (j * 2048 + q.val) :=
  Finset.sum_congr rfl fun k _ => by
    unfold rowTerms
    rw [dif_pos (by have := k.isLt; omega), hx, hy]

/-- Four tiles, scaled by the row's scale: the scaled product of the specification. -/
theorem tiles_four_scaled (a : S8192x8192.Idx → EReal) (s : S8192x32.Idx → EReal) (v : S8192x1.Idx → EReal) (r : Fin 8192) (d : Fin 32) :
    tiles (rowTerms a s r d) 4 * v (ix2 r (0 : Fin 1))
      = Cert.Spec.scaledProd (fun i k => a (ix2 i k)) (fun k e => s (ix2 k e)) (fun i => v (ix2 i (0 : Fin 1))) r d := by
  rw [tiles_four, rowTerms_sum]
  rfl

end Cert.KernelIdeal.Hand

end
-- ==== Proof.KI.Wmm1Value.lean ====
/-
  Region 1 (the weighted matrix product) read as values: what each control case leaves in the accumulator and in
  the output's buffer is a payload of the point's blocks; at the ideal values the accumulator after point (i, k) holds
  the products over the first k + 1 column tiles, so the output array ends holding, entry by entry, the sum over all
  8192 columns times the row's scale.
-/
import proofs.«108817_j44229573214371_2_alg».proof.Proof.KI.Wmm1
import proofs.«108817_j44229573214371_2_alg».proof.Proof.KI.WmmPayload
import Idealize.ShloMosaic.Lib.Pipeline.Value
import Idealize.ShloMosaic.Lib.ValueIdx
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx Idealize.SL.Sem
open Idealize.ShloMosaic.Pipeline (Dat)

section AnyValues

variable {F : FTy → Type} [FloatOps F]
variable (V : (c : Dev nD) → (b : Ref sig .tc) → Buf (Elt F) ((c : Thread nD τ).loc b))

theorem hz1 : (![0, 0] : Fin 2 → Nat) = fun _ => 0 := funext fun a => by fin_cases a <;> rfl

/-! ## The windows' blocks of region 1, read at an entry -/

/-- The block indices at point `t`: the row band is `t / 4`, the column tile `t % 4`. -/
theorem idx1 : ∀ t : Fin cfg1.N, win1_0.index t 0 = t.val / 4 ∧ win1_0.index t 1 = t.val % 4
    ∧ win1_1.index t 0 = t.val % 4 ∧ win1_1.index t 1 = 0
    ∧ win1_2.index t 0 = t.val / 4 ∧ win1_2.index t 1 = 0
    ∧ win1_3.index t 0 = t.val / 4 ∧ win1_3.index t 1 = 0 :=
  (by decide +kernel : ∀ t : Fin grid1.N, win1_0.index t 0 = t.val / 4 ∧ win1_0.index t 1 = t.val % 4
    ∧ win1_1.index t 0 = t.val % 4 ∧ win1_1.index t 1 = 0
    ∧ win1_2.index t 0 = t.val / 4 ∧ win1_2.index t 1 = 0
    ∧ win1_3.index t 0 = t.val / 4 ∧ win1_3.index t 1 = 0)

theorem N1_lt (t : Fin cfg1.N) : t.val < 32 := lt_of_lt_of_eq t.isLt (show cfg1.N = 32 from N_1)

/-- The matrix block at point `t`: rows of band `t / 4`, columns of tile `t % 4`. -/
theorem iblk1_0_apply (c : Dev nD) (t : Fin cfg1.N) (p : Fin 1024) (k : Fin 2048) (r q : Fin 8192)
    (hr : r.val = t.val / 4 * 1024 + p.val) (hq : q.val = t.val % 4 * 2048 + k.val) :
    (iblk1 V c 0 t : Vec F S1024x2048 .f32) (ix2 p k) = (V c main_arg2 : S8192x8192.Idx → F .f32) (ix2 r q) := by
  obtain ⟨e0, e1, -⟩ := idx1 t
  unfold iblk1
  rw [View.read_apply]
  show V c main_arg2 _ = V c main_arg2 _
  congr 1
  funext a; apply Fin.ext
  match a with
  | ⟨0, _⟩ => show win1_0.index t 0 * 1024 + 1 * p.val = r.val; rw [e0, hr]; omega
  | ⟨1, _⟩ => show win1_0.index t 1 * 2048 + 1 * k.val = q.val; rw [e1, hq]; omega

/-- The table block at point `t`: rows of tile `t % 4`. -/
theorem iblk1_1_apply (c : Dev nD) (t : Fin cfg1.N) (k : Fin 2048) (d : Fin 32) (q : Fin 8192)
    (hq : q.val = t.val % 4 * 2048 + k.val) :
    (iblk1 V c 1 t : Vec F S2048x32 .f32) (ix2 k d) = (V c main_v6 : S8192x32.Idx → F .f32) (ix2 q d) := by
  obtain ⟨-, -, e0, e1, -⟩ := idx1 t
  unfold iblk1
  rw [View.read_apply]
  show V c main_v6 _ = V c main_v6 _
  congr 1
  funext a; apply Fin.ext
  match a with
  | ⟨0, _⟩ => show win1_1.index t 0 * 2048 + 1 * k.val = q.val; rw [e0, hq]; omega
  | ⟨1, _⟩ => show win1_1.index t 1 * 32 + 1 * d.val = d.val; rw [e1]; omega

/-- The scale block at point `t`: rows of band `t / 4`. -/
theorem iblk1_2_apply (c : Dev nD) (t : Fin cfg1.N) (p : Fin 1024) (r : Fin 8192) (hr : r.val = t.val / 4 * 1024 + p.val) :
    (iblk1 V c 2 t : Vec F S1024x1 .f32) (ix2 p (0 : Fin 1)) = (V c main_v3 : S8192x1.Idx → F .f32) (ix2 r (0 : Fin 1)) := by
  obtain ⟨-, -, -, -, e0, e1, -⟩ := idx1 t
  unfold iblk1
  rw [View.read_apply]
  show V c main_v3 _ = V c main_v3 _
  congr 1
  funext a; apply Fin.ext
  match a with
  | ⟨0, _⟩ => show win1_2.index t 0 * 1024 + 1 * p.val = r.val; rw [e0, hr]; omega
  | ⟨1, _⟩ => show win1_2.index t 1 * 1 + 1 * 0 = 0; rw [e1]

/-! ## What each case's found pieces are, as payloads of the point's blocks (any float values) -/

/-- Where `k = 1, 2`: the accumulator is left at one accumulation step over what it held. -/
theorem sout1_B_0_eq (c : Dev nD) (i : grid1.Coords) (a2 : Memref sig .tc .vmem S1024x2048 .f32) (h2 : a2.IsWhole) (a3 : Memref sig .tc .vmem S2048x32 .f32) (h3 : a3.IsWhole) (a4 : Memref sig .tc .vmem S1024x1 .f32) (h4 : a4.IsWhole) (a5 : Memref sig .tc .vmem S1024x32 .f32) (h5 : a5.IsWhole) (a6 : Memref sig .tc .vmem S1024x32 .f32) (h6 : a6.IsWhole) (hc0 : ¬cond1_0 i) (hc1 : ¬cond1_1 i) (x0 : Vec F S1024x2048 .f32) (x1 : Vec F S2048x32 .f32) (x2 : Vec F S1024x1 .f32) (xs0 : Vec F S1024x32 .f32) :
    sout1_B_0 c i a2 h2 a3 h3 a4 h4 a5 h5 a6 h6 hc0 hc1 x0 x1 x2 xs0 = k1_pay2 x0 x1 xs0 := by
  unfold sout1_B_0
  rw [View.read_writes_eq_canon _ _ _ (scover1_B_0 c i a2 h2 a3 h3 a4 h4 a5 h5 a6 h6 hc0 hc1 x0 x1 x2 xs0)]
  unfold kernelRun1_B
  dsimp only
  rw [View.canon_unit_zero hz1]
  simp only [View.readAt_eq_ld, h2.read_unread, h3.read_unread, h6.read_unread, View.ld_unit_zero (S := S1024x2048) hz1,
    View.ld_unit_zero (S := S2048x32) hz1, View.ld_unit_zero (S := S1024x32) hz1]

/-- Where `k = 0`: the accumulator is zeroed, read back, and left at one accumulation step over zero. -/
theorem sout1_A_0_eq (c : Dev nD) (i : grid1.Coords) (a2 : Memref sig .tc .vmem S1024x2048 .f32) (h2 : a2.IsWhole) (a3 : Memref sig .tc .vmem S2048x32 .f32) (h3 : a3.IsWhole) (a4 : Memref sig .tc .vmem S1024x1 .f32) (h4 : a4.IsWhole) (a5 : Memref sig .tc .vmem S1024x32 .f32) (h5 : a5.IsWhole) (a6 : Memref sig .tc .vmem S1024x32 .f32) (h6 : a6.IsWhole) (hc0 : cond1_0 i) (hc1 : ¬cond1_1 i) (x0 : Vec F S1024x2048 .f32) (x1 : Vec F S2048x32 .f32) (x2 : Vec F S1024x1 .f32) :
    sout1_A_0 c i a2 h2 a3 h3 a4 h4 a5 h5 a6 h6 hc0 hc1 x0 x1 x2 = k1_pay2 x0 x1 (k1_pay1 (F := F)) := by
  unfold sout1_A_0
  rw [View.read_writes_eq_canon _ _ _ (scover1_A_0 c i a2 h2 a3 h3 a4 h4 a5 h5 a6 h6 hc0 hc1 x0 x1 x2)]
  unfold kernelRun1_A
  dsimp only
  sl_unfold_words
  rw [View.canon_cons_unit_zero (S := S1024x32) hz1, View.readCov_unit_zero (S := S1024x32) _ hz1]
  simp only [View.readAt_eq_ld, h2.read_unread, h3.read_unread, View.ld_unit_zero (S := S1024x2048) hz1,
    View.ld_unit_zero (S := S2048x32) hz1]

/-- Where `k = 3`: the accumulator is left at one accumulation step over what it held, -/
theorem sout1_C_0_eq (c : Dev nD) (i : grid1.Coords) (a2 : Memref sig .tc .vmem S1024x2048 .f32) (h2 : a2.IsWhole) (a3 : Memref sig .tc .vmem S2048x32 .f32) (h3 : a3.IsWhole) (a4 : Memref sig .tc .vmem S1024x1 .f32) (h4 : a4.IsWhole) (a5 : Memref sig .tc .vmem S1024x32 .f32) (h5 : a5.IsWhole) (a6 : Memref sig .tc .vmem S1024x32 .f32) (h6 : a6.IsWhole) (hc0 : ¬cond1_0 i) (hc1 : cond1_1 i) (x0 : Vec F S1024x2048 .f32) (x1 : Vec F S2048x32 .f32) (x2 : Vec F S1024x1 .f32) (xs0 : Vec F S1024x32 .f32) :
    sout1_C_0 c i a2 h2 a3 h3 a4 h4 a5 h5 a6 h6 hc0 hc1 x0 x1 x2 xs0 = k1_pay2 x0 x1 xs0 := by
  unfold sout1_C_0
  rw [View.read_writes_eq_canon _ _ _ (scover1_C_0 c i a2 h2 a3 h3 a4 h4 a5 h5 a6 h6 hc0 hc1 x0 x1 x2 xs0)]
  unfold kernelRun1_C
  dsimp only
  sl_unfold_words
  rw [View.canon_unit_zero hz1]
  simp only [View.readAt_eq_ld, h2.read_unread, h3.read_unread, h6.read_unread, View.ld_unit_zero (S := S1024x2048) hz1,
    View.ld_unit_zero (S := S2048x32) hz1, View.ld_unit_zero (S := S1024x32) hz1]

/-- and the output's buffer at that accumulator, read back, scaled row by row. -/
theorem out1_C_3_eq (c : Dev nD) (i : grid1.Coords) (a2 : Memref sig .tc .vmem S1024x2048 .f32) (h2 : a2.IsWhole) (a3 : Memref sig .tc .vmem S2048x32 .f32) (h3 : a3.IsWhole) (a4 : Memref sig .tc .vmem S1024x1 .f32) (h4 : a4.IsWhole) (a5 : Memref sig .tc .vmem S1024x32 .f32) (h5 : a5.IsWhole) (a6 : Memref sig .tc .vmem S1024x32 .f32) (h6 : a6.IsWhole) (hc0 : ¬cond1_0 i) (hc1 : cond1_1 i) (x0 : Vec F S1024x2048 .f32) (x1 : Vec F S2048x32 .f32) (x2 : Vec F S1024x1 .f32) (xs0 : Vec F S1024x32 .f32) :
    out1_C_3 c i a2 h2 a3 h3 a4 h4 a5 h5 a6 h6 hc0 hc1 x0 x1 x2 xs0 = k1_pay3 (k1_pay2 x0 x1 xs0) x2 := by
  unfold out1_C_3
  rw [View.read_writes_eq_canon _ _ _ (cover1_C_3 c i a2 h2 a3 h3 a4 h4 a5 h5 a6 h6 hc0 hc1 x0 x1 x2 xs0)]
  unfold kernelRun1_C
  dsimp only
  sl_unfold_words
  rw [View.canon_unit_zero hz1, View.readCov_unit_zero (S := S1024x32) _ hz1]
  simp only [View.readAt_eq_ld, h2.read_unread, h3.read_unread, h4.read_unread, h6.read_unread, View.ld_unit_zero (S := S1024x2048) hz1,
    View.ld_unit_zero (S := S2048x32) hz1, View.ld_unit_zero (S := S1024x32) hz1, View.ld_unit_zero (S := S1024x1) hz1]

end AnyValues

section IdealValues

variable (V : (c : Dev nD) → (b : Ref sig .tc) → Buf (Elt Ideal) ((c : Thread nD τ).loc b))

/-! ## The accumulation, at the ideal values -/

/-- One accumulation step at an entry, in terms of the row's sequence of products: with the blocks sitting at column
    tile `j` and the accumulator at the first `j` tiles, the step leaves the first `j + 1`. -/
theorem step1 (a : S8192x8192.Idx → EReal) (s : S8192x32.Idx → EReal) (r : Fin 8192) (d : Fin 32) (j : ℕ) (hj : j < 4)
    (x : Vec Ideal S1024x2048 .f32) (y : Vec Ideal S2048x32 .f32) (acc : Vec Ideal S1024x32 .f32) (p : Fin 1024)
    (hx : ∀ k : Fin 2048, x (ix2 p k) = a (ix2 r ⟨j * 2048 + k.val, by have := k.isLt; omega⟩))
    (hy : ∀ k : Fin 2048, y (ix2 k d) = s (ix2 ⟨j * 2048 + k.val, by have := k.isLt; omega⟩ d))
    (hacc : acc (ix2 p d) = tiles (rowTerms a s r d) j) :
    k1_pay2 x y acc (ix2 p d) = tiles (rowTerms a s r d) (j + 1) := by
  rw [k1_pay2_apply, hacc, tiles_succ, tile_blocks a s r d j hj x y p hx hy]

/-- At a point with `k = 0` the accumulator ends at the first tile. -/
theorem accA1 (c : Dev nD) (t : Fin cfg1.N) (h0 : t.val % 4 = 0) (p : Fin 1024) (d : Fin 32) (r : Fin 8192)
    (hr : r.val = t.val / 4 * 1024 + p.val) :
    (outsAt1 V c t.val t.isLt).2 (ix2 p d) = tiles (rowTerms (V c main_arg2) (V c main_v6) r d) (t.val % 4 + 1) := by
  rw [outsAt1_A V c t h0 (by omega)]
  dsimp only
  rw [sout1_A_0_eq]
  exact step1 (V c main_arg2) (V c main_v6) r d (t.val % 4) (Nat.mod_lt _ (by decide)) (iblk1 V c 0 t) (iblk1 V c 1 t) (k1_pay1 (F := Ideal)) p
    (fun k => iblk1_0_apply V c t p k r _ hr rfl) (fun k => iblk1_1_apply V c t k d _ rfl)
    (by rw [k1_pay1_apply, h0]; exact (tiles_zero _).symm)

/-- At a point with `k ≠ 0`, over an accumulator at the first `k` tiles, it ends at the first `k + 1`. -/
theorem accBC1 (c : Dev nD) (t : Fin cfg1.N) (h0 : ¬t.val % 4 = 0) (p : Fin 1024) (d : Fin 32) (r : Fin 8192)
    (hr : r.val = t.val / 4 * 1024 + p.val)
    (ih : (outsAt1 V c (t.val - 1) (Nat.lt_of_le_of_lt (Nat.sub_le _ _) t.isLt)).2 (ix2 p d) = tiles (rowTerms (V c main_arg2) (V c main_v6) r d) (t.val % 4)) :
    (outsAt1 V c t.val t.isLt).2 (ix2 p d) = tiles (rowTerms (V c main_arg2) (V c main_v6) r d) (t.val % 4 + 1) := by
  by_cases h1 : t.val % 4 = 3
  · rw [outsAt1_C V c t h0 h1]
    dsimp only
    rw [sout1_C_0_eq]
    exact step1 (V c main_arg2) (V c main_v6) r d (t.val % 4) (Nat.mod_lt _ (by decide)) (iblk1 V c 0 t) (iblk1 V c 1 t) _ p
      (fun k => iblk1_0_apply V c t p k r _ hr rfl) (fun k => iblk1_1_apply V c t k d _ rfl) ih
  · rw [outsAt1_B V c t h0 h1]
    dsimp only
    rw [sout1_B_0_eq]
    exact step1 (V c main_arg2) (V c main_v6) r d (t.val % 4) (Nat.mod_lt _ (by decide)) (iblk1 V c 0 t) (iblk1 V c 1 t) _ p
      (fun k => iblk1_0_apply V c t p k r _ hr rfl) (fun k => iblk1_1_apply V c t k d _ rfl) ih

/-- THE INVARIANT: after point `(i, k)` the accumulator's row `p` holds row `1024 i + p` of the matrix against
    the table over the first `k + 1` column tiles — by induction on the point. -/
theorem acc1_eq (c : Dev nD) : ∀ (n : ℕ) (hn : n < cfg1.N) (p : Fin 1024) (d : Fin 32) (r : Fin 8192),
    r.val = n / 4 * 1024 + p.val → (outsAt1 V c n hn).2 (ix2 p d) = tiles (rowTerms (V c main_arg2) (V c main_v6) r d) (n % 4 + 1) := by
  intro n
  induction n with
  | zero =>
    intro hn p d r hr
    exact accA1 V c ⟨0, hn⟩ rfl p d r hr
  | succ m ih =>
    intro hn p d r hr
    by_cases h0 : (m + 1) % 4 = 0
    · exact accA1 V c ⟨m + 1, hn⟩ h0 p d r hr
    · refine accBC1 V c ⟨m + 1, hn⟩ h0 p d r hr ?_
      have h := ih (Nat.lt_of_succ_lt hn) p d r (by omega)
      rw [show m % 4 + 1 = (m + 1) % 4 from by omega] at h
      exact h

/-- At a point with `k = 3` the output's buffer holds the scaled product's rows of band `i`. -/
theorem out1_eq (c : Dev nD) (t : Fin cfg1.N) (h3 : t.val % 4 = 3) (p : Fin 1024) (d : Fin 32) (r : Fin 8192)
    (hr : r.val = t.val / 4 * 1024 + p.val) :
    (outsAt1 V c t.val t.isLt).1 (ix2 p d)
      = Cert.Spec.scaledProd (fun a b => (V c main_arg2 : S8192x8192.Idx → EReal) (ix2 a b)) (fun k e => (V c main_v6 : S8192x32.Idx → EReal) (ix2 k e))
          (fun i => (V c main_v3 : S8192x1.Idx → EReal) (ix2 i (0 : Fin 1))) r d := by
  have h0 : ¬t.val % 4 = 0 := by omega
  have hprev := acc1_eq V c (t.val - 1) (Nat.lt_of_le_of_lt (Nat.sub_le _ _) t.isLt) p d r (by omega)
  rw [show (t.val - 1) % 4 + 1 = t.val % 4 from by omega] at hprev
  rw [outsAt1_C V c t h0 h3]
  dsimp only
  rw [out1_C_3_eq, k1_pay3_apply]
  rw [step1 (V c main_arg2) (V c main_v6) r d (t.val % 4) (Nat.mod_lt _ (by decide)) (iblk1 V c 0 t) (iblk1 V c 1 t) _ p
    (fun k => iblk1_0_apply V c t p k r _ hr rfl) (fun k => iblk1_1_apply V c t k d _ rfl) hprev]
  rw [iblk1_2_apply V c t p r hr, show t.val % 4 + 1 = 4 from by omega]
  exact tiles_four_scaled (V c main_arg2) (V c main_v6) (V c main_v3) r d

/-! ## From the blocks to the array -/

/-- The array the region leaves: the scaled product of the three arrays it finds. -/
def G1 (c : Dev nD) : S8192x32.Idx → EReal := fun j =>
  Cert.Spec.scaledProd (fun a b => (V c main_arg2 : S8192x8192.Idx → EReal) (ix2 a b)) (fun k e => (V c main_v6 : S8192x32.Idx → EReal) (ix2 k e))
    (fun i => (V c main_v3 : S8192x1.Idx → EReal) (ix2 i (0 : Fin 1))) (j 0) (j 1)

/-- The output's buffer at a point with `k = 3`, as a function of the entry inside the block. -/
theorem out1_fun (c : Dev nD) (t : Fin cfg1.N) (h3 : t.val % 4 = 3) :
    (outsAt1 V c t.val t.isLt).1 = fun j : S1024x32.Idx =>
      G1 V c (ix2 ⟨t.val / 4 * 1024 + (j 0).val, by have := N1_lt t; have := idx2_lt0 j; omega⟩ (j 1)) := by
  funext j
  obtain ⟨p, d, rfl⟩ : ∃ (p : Fin 1024) (d : Fin 32), j = ix2 p d := ⟨j 0, j 1, eq_ix2 j⟩
  exact out1_eq V c t h3 p d _ rfl

/-- What a point with `k = 3` writes back is its block of that array. -/
theorem flushed1_eq (c : Dev nD) (t : Fin cfg1.N) (hf : (cfg1.win 3).flush t = true) :
    (dat1 V c).flushed 3 t = ((cfg1.win 3).blk t).view.read (Elt Ideal) (G1 V c) := by
  have h3 := (flush1_3 t).mp hf
  obtain ⟨-, -, -, -, -, -, e0, e1⟩ := idx1 t
  show (cfg1.win 3).cut (grid1.coords t) ((dat1 V c).after 3 t) = _
  rw [after1_3, out1_fun V c t h3]
  funext j
  show G1 V c _ = G1 V c (((cfg1.win 3).blk t).view.emb j)
  congr 1
  funext a; apply Fin.ext
  match a with
  | ⟨0, _⟩ => show t.val / 4 * 1024 + (j 0).val = win1_3.index t 0 * 1024 + 1 * (j 0).val; rw [e0]; omega
  | ⟨1, _⟩ => show (j 1).val = win1_3.index t 1 * 32 + 1 * (j 1).val; rw [e1]; omega

/-- An entry of the array is in point `t`'s block iff each coordinate is in the block's range. -/
theorem mem_blk1 (t : Fin cfg1.N) (i : S8192x32.Idx) :
    i ∈ ((cfg1.win 3).blk t).view.set ↔ ∀ a : Fin 2, win1_3.index t a * S1024x32.size a ≤ (i a).val ∧ (i a).val < win1_3.index t a * S1024x32.size a + S1024x32.size a := by
  show i ∈ ((View.whole main_v7).slice (win1_3.rect t)).set ↔ _
  rw [View.set_slice_whole, Rect.mem_set_unit]
  exact Iff.rfl

/-- Every entry is in the block some point with `k = 3` writes back: row `r` is in band `r / 1024`. -/
theorem cover1 (i : S8192x32.Idx) : ∃ t : Fin cfg1.N, (cfg1.win 3).flush t = true ∧ i ∈ ((cfg1.win 3).blk t).view.set := by
  have hi0 : (i 0).val < 8192 := idx2_lt0 i
  have hi1 : (i 1).val < 32 := idx2_lt1 i
  obtain ⟨t, ht⟩ : ∃ t : Fin cfg1.N, t.val = (i 0).val / 1024 * 4 + 3 :=
    ⟨⟨(i 0).val / 1024 * 4 + 3, by rw [show cfg1.N = 32 from N_1]; omega⟩, rfl⟩
  obtain ⟨-, -, -, -, -, -, e0, e1⟩ := idx1 t
  refine ⟨t, (flush1_3 t).mpr (by omega), ?_⟩
  rw [mem_blk1]
  intro a
  match a with
  | ⟨0, _⟩ => show win1_3.index t 0 * 1024 ≤ (i 0).val ∧ (i 0).val < win1_3.index t 0 * 1024 + 1024; rw [e0]; omega
  | ⟨1, _⟩ => show win1_3.index t 1 * 32 ≤ (i 1).val ∧ (i 1).val < win1_3.index t 1 * 32 + 32; rw [e1]; omega

/-- The array after the region: the scaled product. -/
theorem arr1_eq (c : Dev nD) : (dat1 V c).arrAt 3 cfg1.N = G1 V c :=
  (dat1 V c).arrAt_eq_of_cover 3 (G1 V c) (flushed1_eq V c) (cover1)

/-- THE RESULT OF REGION 1, entry by entry: the matrix against the table, each row scaled. -/
theorem final1 (c : Dev nD) (i : Fin 8192) (d : Fin 32) :
    ((dat1 (F := Ideal) V c).arrAt 3 cfg1.N : S8192x32.Idx → EReal) (ix2 i d)
      = Cert.Spec.scaledProd (fun a b => (V c main_arg2 : S8192x8192.Idx → EReal) (ix2 a b)) (fun k e => (V c main_v6 : S8192x32.Idx → EReal) (ix2 k e))
          (fun r => (V c main_v3 : S8192x1.Idx → EReal) (ix2 r (0 : Fin 1))) i d := by
  rw [arr1_eq V c]
  rfl

end IdealValues

end Cert.KernelIdeal.Hand

end
-- ==== Proof.KI.Wmm3Value.lean ====
/-
  Region 3 (the weighted matrix product) read as values: what each control case leaves in the accumulator and in
  the output's buffer is a payload of the point's blocks; at the ideal values the accumulator after point (i, k) holds
  the products over the first k + 1 column tiles, so the output array ends holding, entry by entry, the sum over all
  8192 columns times the row's scale.
-/
import proofs.«108817_j44229573214371_2_alg».proof.Proof.KI.Wmm3
import proofs.«108817_j44229573214371_2_alg».proof.Proof.KI.WmmPayload
import Idealize.ShloMosaic.Lib.Pipeline.Value
import Idealize.ShloMosaic.Lib.ValueIdx
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx Idealize.SL.Sem
open Idealize.ShloMosaic.Pipeline (Dat)

section AnyValues

variable {F : FTy → Type} [FloatOps F]
variable (V : (c : Dev nD) → (b : Ref sig .tc) → Buf (Elt F) ((c : Thread nD τ).loc b))

theorem hz3 : (![0, 0] : Fin 2 → Nat) = fun _ => 0 := funext fun a => by fin_cases a <;> rfl

/-! ## The windows' blocks of region 3, read at an entry -/

/-- The block indices at point `t`: the row band is `t / 4`, the column tile `t % 4`. -/
theorem idx3 : ∀ t : Fin cfg3.N, win3_0.index t 0 = t.val / 4 ∧ win3_0.index t 1 = t.val % 4
    ∧ win3_1.index t 0 = t.val % 4 ∧ win3_1.index t 1 = 0
    ∧ win3_2.index t 0 = t.val / 4 ∧ win3_2.index t 1 = 0
    ∧ win3_3.index t 0 = t.val / 4 ∧ win3_3.index t 1 = 0 :=
  (by decide +kernel : ∀ t : Fin grid3.N, win3_0.index t 0 = t.val / 4 ∧ win3_0.index t 1 = t.val % 4
    ∧ win3_1.index t 0 = t.val % 4 ∧ win3_1.index t 1 = 0
    ∧ win3_2.index t 0 = t.val / 4 ∧ win3_2.index t 1 = 0
    ∧ win3_3.index t 0 = t.val / 4 ∧ win3_3.index t 1 = 0)

theorem N3_lt (t : Fin cfg3.N) : t.val < 32 := lt_of_lt_of_eq t.isLt (show cfg3.N = 32 from N_3)

/-- The matrix block at point `t`: rows of band `t / 4`, columns of tile `t % 4`. -/
theorem iblk3_0_apply (c : Dev nD) (t : Fin cfg3.N) (p : Fin 1024) (k : Fin 2048) (r q : Fin 8192)
    (hr : r.val = t.val / 4 * 1024 + p.val) (hq : q.val = t.val % 4 * 2048 + k.val) :
    (iblk3 V c 0 t : Vec F S1024x2048 .f32) (ix2 p k) = (V c main_arg4 : S8192x8192.Idx → F .f32) (ix2 r q) := by
  obtain ⟨e0, e1, -⟩ := idx3 t
  unfold iblk3
  rw [View.read_apply]
  show V c main_arg4 _ = V c main_arg4 _
  congr 1
  funext a; apply Fin.ext
  match a with
  | ⟨0, _⟩ => show win3_0.index t 0 * 1024 + 1 * p.val = r.val; rw [e0, hr]; omega
  | ⟨1, _⟩ => show win3_0.index t 1 * 2048 + 1 * k.val = q.val; rw [e1, hq]; omega

/-- The table block at point `t`: rows of tile `t % 4`. -/
theorem iblk3_1_apply (c : Dev nD) (t : Fin cfg3.N) (k : Fin 2048) (d : Fin 32) (q : Fin 8192)
    (hq : q.val = t.val % 4 * 2048 + k.val) :
    (iblk3 V c 1 t : Vec F S2048x32 .f32) (ix2 k d) = (V c main_v14 : S8192x32.Idx → F .f32) (ix2 q d) := by
  obtain ⟨-, -, e0, e1, -⟩ := idx3 t
  unfold iblk3
  rw [View.read_apply]
  show V c main_v14 _ = V c main_v14 _
  congr 1
  funext a; apply Fin.ext
  match a with
  | ⟨0, _⟩ => show win3_1.index t 0 * 2048 + 1 * k.val = q.val; rw [e0, hq]; omega
  | ⟨1, _⟩ => show win3_1.index t 1 * 32 + 1 * d.val = d.val; rw [e1]; omega

/-- The scale block at point `t`: rows of band `t / 4`. -/
theorem iblk3_2_apply (c : Dev nD) (t : Fin cfg3.N) (p : Fin 1024) (r : Fin 8192) (hr : r.val = t.val / 4 * 1024 + p.val) :
    (iblk3 V c 2 t : Vec F S1024x1 .f32) (ix2 p (0 : Fin 1)) = (V c main_v11 : S8192x1.Idx → F .f32) (ix2 r (0 : Fin 1)) := by
  obtain ⟨-, -, -, -, e0, e1, -⟩ := idx3 t
  unfold iblk3
  rw [View.read_apply]
  show V c main_v11 _ = V c main_v11 _
  congr 1
  funext a; apply Fin.ext
  match a with
  | ⟨0, _⟩ => show win3_2.index t 0 * 1024 + 1 * p.val = r.val; rw [e0, hr]; omega
  | ⟨1, _⟩ => show win3_2.index t 1 * 1 + 1 * 0 = 0; rw [e1]

/-! ## What each case's found pieces are, as payloads of the point's blocks (any float values) -/

/-- Where `k = 1, 2`: the accumulator is left at one accumulation step over what it held. -/
theorem sout3_B_0_eq (c : Dev nD) (i : grid3.Coords) (a2 : Memref sig .tc .vmem S1024x2048 .f32) (h2 : a2.IsWhole) (a3 : Memref sig .tc .vmem S2048x32 .f32) (h3 : a3.IsWhole) (a4 : Memref sig .tc .vmem S1024x1 .f32) (h4 : a4.IsWhole) (a5 : Memref sig .tc .vmem S1024x32 .f32) (h5 : a5.IsWhole) (a6 : Memref sig .tc .vmem S1024x32 .f32) (h6 : a6.IsWhole) (hc0 : ¬cond3_0 i) (hc1 : ¬cond3_1 i) (x0 : Vec F S1024x2048 .f32) (x1 : Vec F S2048x32 .f32) (x2 : Vec F S1024x1 .f32) (xs0 : Vec F S1024x32 .f32) :
    sout3_B_0 c i a2 h2 a3 h3 a4 h4 a5 h5 a6 h6 hc0 hc1 x0 x1 x2 xs0 = k3_pay2 x0 x1 xs0 := by
  unfold sout3_B_0
  rw [View.read_writes_eq_canon _ _ _ (scover3_B_0 c i a2 h2 a3 h3 a4 h4 a5 h5 a6 h6 hc0 hc1 x0 x1 x2 xs0)]
  unfold kernelRun3_B
  dsimp only
  rw [View.canon_unit_zero hz3]
  simp only [View.readAt_eq_ld, h2.read_unread, h3.read_unread, h6.read_unread, View.ld_unit_zero (S := S1024x2048) hz3,
    View.ld_unit_zero (S := S2048x32) hz3, View.ld_unit_zero (S := S1024x32) hz3]

/-- Where `k = 0`: the accumulator is zeroed, read back, and left at one accumulation step over zero. -/
theorem sout3_A_0_eq (c : Dev nD) (i : grid3.Coords) (a2 : Memref sig .tc .vmem S1024x2048 .f32) (h2 : a2.IsWhole) (a3 : Memref sig .tc .vmem S2048x32 .f32) (h3 : a3.IsWhole) (a4 : Memref sig .tc .vmem S1024x1 .f32) (h4 : a4.IsWhole) (a5 : Memref sig .tc .vmem S1024x32 .f32) (h5 : a5.IsWhole) (a6 : Memref sig .tc .vmem S1024x32 .f32) (h6 : a6.IsWhole) (hc0 : cond3_0 i) (hc1 : ¬cond3_1 i) (x0 : Vec F S1024x2048 .f32) (x1 : Vec F S2048x32 .f32) (x2 : Vec F S1024x1 .f32) :
    sout3_A_0 c i a2 h2 a3 h3 a4 h4 a5 h5 a6 h6 hc0 hc1 x0 x1 x2 = k3_pay2 x0 x1 (k3_pay1 (F := F)) := by
  unfold sout3_A_0
  rw [View.read_writes_eq_canon _ _ _ (scover3_A_0 c i a2 h2 a3 h3 a4 h4 a5 h5 a6 h6 hc0 hc1 x0 x1 x2)]
  unfold kernelRun3_A
  dsimp only
  sl_unfold_words
  rw [View.canon_cons_unit_zero (S := S1024x32) hz3, View.readCov_unit_zero (S := S1024x32) _ hz3]
  simp only [View.readAt_eq_ld, h2.read_unread, h3.read_unread, View.ld_unit_zero (S := S1024x2048) hz3,
    View.ld_unit_zero (S := S2048x32) hz3]

/-- Where `k = 3`: the accumulator is left at one accumulation step over what it held, -/
theorem sout3_C_0_eq (c : Dev nD) (i : grid3.Coords) (a2 : Memref sig .tc .vmem S1024x2048 .f32) (h2 : a2.IsWhole) (a3 : Memref sig .tc .vmem S2048x32 .f32) (h3 : a3.IsWhole) (a4 : Memref sig .tc .vmem S1024x1 .f32) (h4 : a4.IsWhole) (a5 : Memref sig .tc .vmem S1024x32 .f32) (h5 : a5.IsWhole) (a6 : Memref sig .tc .vmem S1024x32 .f32) (h6 : a6.IsWhole) (hc0 : ¬cond3_0 i) (hc1 : cond3_1 i) (x0 : Vec F S1024x2048 .f32) (x1 : Vec F S2048x32 .f32) (x2 : Vec F S1024x1 .f32) (xs0 : Vec F S1024x32 .f32) :
    sout3_C_0 c i a2 h2 a3 h3 a4 h4 a5 h5 a6 h6 hc0 hc1 x0 x1 x2 xs0 = k3_pay2 x0 x1 xs0 := by
  unfold sout3_C_0
  rw [View.read_writes_eq_canon _ _ _ (scover3_C_0 c i a2 h2 a3 h3 a4 h4 a5 h5 a6 h6 hc0 hc1 x0 x1 x2 xs0)]
  unfold kernelRun3_C
  dsimp only
  sl_unfold_words
  rw [View.canon_unit_zero hz3]
  simp only [View.readAt_eq_ld, h2.read_unread, h3.read_unread, h6.read_unread, View.ld_unit_zero (S := S1024x2048) hz3,
    View.ld_unit_zero (S := S2048x32) hz3, View.ld_unit_zero (S := S1024x32) hz3]

/-- and the output's buffer at that accumulator, read back, scaled row by row. -/
theorem out3_C_3_eq (c : Dev nD) (i : grid3.Coords) (a2 : Memref sig .tc .vmem S1024x2048 .f32) (h2 : a2.IsWhole) (a3 : Memref sig .tc .vmem S2048x32 .f32) (h3 : a3.IsWhole) (a4 : Memref sig .tc .vmem S1024x1 .f32) (h4 : a4.IsWhole) (a5 : Memref sig .tc .vmem S1024x32 .f32) (h5 : a5.IsWhole) (a6 : Memref sig .tc .vmem S1024x32 .f32) (h6 : a6.IsWhole) (hc0 : ¬cond3_0 i) (hc1 : cond3_1 i) (x0 : Vec F S1024x2048 .f32) (x1 : Vec F S2048x32 .f32) (x2 : Vec F S1024x1 .f32) (xs0 : Vec F S1024x32 .f32) :
    out3_C_3 c i a2 h2 a3 h3 a4 h4 a5 h5 a6 h6 hc0 hc1 x0 x1 x2 xs0 = k3_pay3 (k3_pay2 x0 x1 xs0) x2 := by
  unfold out3_C_3
  rw [View.read_writes_eq_canon _ _ _ (cover3_C_3 c i a2 h2 a3 h3 a4 h4 a5 h5 a6 h6 hc0 hc1 x0 x1 x2 xs0)]
  unfold kernelRun3_C
  dsimp only
  sl_unfold_words
  rw [View.canon_unit_zero hz3, View.readCov_unit_zero (S := S1024x32) _ hz3]
  simp only [View.readAt_eq_ld, h2.read_unread, h3.read_unread, h4.read_unread, h6.read_unread, View.ld_unit_zero (S := S1024x2048) hz3,
    View.ld_unit_zero (S := S2048x32) hz3, View.ld_unit_zero (S := S1024x32) hz3, View.ld_unit_zero (S := S1024x1) hz3]

end AnyValues

section IdealValues

variable (V : (c : Dev nD) → (b : Ref sig .tc) → Buf (Elt Ideal) ((c : Thread nD τ).loc b))

/-! ## The accumulation, at the ideal values -/

/-- One accumulation step at an entry, in terms of the row's sequence of products: with the blocks sitting at column
    tile `j` and the accumulator at the first `j` tiles, the step leaves the first `j + 1`. -/
theorem step3 (a : S8192x8192.Idx → EReal) (s : S8192x32.Idx → EReal) (r : Fin 8192) (d : Fin 32) (j : ℕ) (hj : j < 4)
    (x : Vec Ideal S1024x2048 .f32) (y : Vec Ideal S2048x32 .f32) (acc : Vec Ideal S1024x32 .f32) (p : Fin 1024)
    (hx : ∀ k : Fin 2048, x (ix2 p k) = a (ix2 r ⟨j * 2048 + k.val, by have := k.isLt; omega⟩))
    (hy : ∀ k : Fin 2048, y (ix2 k d) = s (ix2 ⟨j * 2048 + k.val, by have := k.isLt; omega⟩ d))
    (hacc : acc (ix2 p d) = tiles (rowTerms a s r d) j) :
    k3_pay2 x y acc (ix2 p d) = tiles (rowTerms a s r d) (j + 1) := by
  rw [k3_pay2_apply, hacc, tiles_succ, tile_blocks a s r d j hj x y p hx hy]

/-- At a point with `k = 0` the accumulator ends at the first tile. -/
theorem accA3 (c : Dev nD) (t : Fin cfg3.N) (h0 : t.val % 4 = 0) (p : Fin 1024) (d : Fin 32) (r : Fin 8192)
    (hr : r.val = t.val / 4 * 1024 + p.val) :
    (outsAt3 V c t.val t.isLt).2 (ix2 p d) = tiles (rowTerms (V c main_arg4) (V c main_v14) r d) (t.val % 4 + 1) := by
  rw [outsAt3_A V c t h0 (by omega)]
  dsimp only
  rw [sout3_A_0_eq]
  exact step3 (V c main_arg4) (V c main_v14) r d (t.val % 4) (Nat.mod_lt _ (by decide)) (iblk3 V c 0 t) (iblk3 V c 1 t) (k3_pay1 (F := Ideal)) p
    (fun k => iblk3_0_apply V c t p k r _ hr rfl) (fun k => iblk3_1_apply V c t k d _ rfl)
    (by rw [k3_pay1_apply, h0]; exact (tiles_zero _).symm)

/-- At a point with `k ≠ 0`, over an accumulator at the first `k` tiles, it ends at the first `k + 1`. -/
theorem accBC3 (c : Dev nD) (t : Fin cfg3.N) (h0 : ¬t.val % 4 = 0) (p : Fin 1024) (d : Fin 32) (r : Fin 8192)
    (hr : r.val = t.val / 4 * 1024 + p.val)
    (ih : (outsAt3 V c (t.val - 1) (Nat.lt_of_le_of_lt (Nat.sub_le _ _) t.isLt)).2 (ix2 p d) = tiles (rowTerms (V c main_arg4) (V c main_v14) r d) (t.val % 4)) :
    (outsAt3 V c t.val t.isLt).2 (ix2 p d) = tiles (rowTerms (V c main_arg4) (V c main_v14) r d) (t.val % 4 + 1) := by
  by_cases h1 : t.val % 4 = 3
  · rw [outsAt3_C V c t h0 h1]
    dsimp only
    rw [sout3_C_0_eq]
    exact step3 (V c main_arg4) (V c main_v14) r d (t.val % 4) (Nat.mod_lt _ (by decide)) (iblk3 V c 0 t) (iblk3 V c 1 t) _ p
      (fun k => iblk3_0_apply V c t p k r _ hr rfl) (fun k => iblk3_1_apply V c t k d _ rfl) ih
  · rw [outsAt3_B V c t h0 h1]
    dsimp only
    rw [sout3_B_0_eq]
    exact step3 (V c main_arg4) (V c main_v14) r d (t.val % 4) (Nat.mod_lt _ (by decide)) (iblk3 V c 0 t) (iblk3 V c 1 t) _ p
      (fun k => iblk3_0_apply V c t p k r _ hr rfl) (fun k => iblk3_1_apply V c t k d _ rfl) ih

/-- THE INVARIANT: after point `(i, k)` the accumulator's row `p` holds row `1024 i + p` of the matrix against
    the table over the first `k + 1` column tiles — by induction on the point. -/
theorem acc3_eq (c : Dev nD) : ∀ (n : ℕ) (hn : n < cfg3.N) (p : Fin 1024) (d : Fin 32) (r : Fin 8192),
    r.val = n / 4 * 1024 + p.val → (outsAt3 V c n hn).2 (ix2 p d) = tiles (rowTerms (V c main_arg4) (V c main_v14) r d) (n % 4 + 1) := by
  intro n
  induction n with
  | zero =>
    intro hn p d r hr
    exact accA3 V c ⟨0, hn⟩ rfl p d r hr
  | succ m ih =>
    intro hn p d r hr
    by_cases h0 : (m + 1) % 4 = 0
    · exact accA3 V c ⟨m + 1, hn⟩ h0 p d r hr
    · refine accBC3 V c ⟨m + 1, hn⟩ h0 p d r hr ?_
      have h := ih (Nat.lt_of_succ_lt hn) p d r (by omega)
      rw [show m % 4 + 1 = (m + 1) % 4 from by omega] at h
      exact h

/-- At a point with `k = 3` the output's buffer holds the scaled product's rows of band `i`. -/
theorem out3_eq (c : Dev nD) (t : Fin cfg3.N) (h3 : t.val % 4 = 3) (p : Fin 1024) (d : Fin 32) (r : Fin 8192)
    (hr : r.val = t.val / 4 * 1024 + p.val) :
    (outsAt3 V c t.val t.isLt).1 (ix2 p d)
      = Cert.Spec.scaledProd (fun a b => (V c main_arg4 : S8192x8192.Idx → EReal) (ix2 a b)) (fun k e => (V c main_v14 : S8192x32.Idx → EReal) (ix2 k e))
          (fun i => (V c main_v11 : S8192x1.Idx → EReal) (ix2 i (0 : Fin 1))) r d := by
  have h0 : ¬t.val % 4 = 0 := by omega
  have hprev := acc3_eq V c (t.val - 1) (Nat.lt_of_le_of_lt (Nat.sub_le _ _) t.isLt) p d r (by omega)
  rw [show (t.val - 1) % 4 + 1 = t.val % 4 from by omega] at hprev
  rw [outsAt3_C V c t h0 h3]
  dsimp only
  rw [out3_C_3_eq, k3_pay3_apply]
  rw [step3 (V c main_arg4) (V c main_v14) r d (t.val % 4) (Nat.mod_lt _ (by decide)) (iblk3 V c 0 t) (iblk3 V c 1 t) _ p
    (fun k => iblk3_0_apply V c t p k r _ hr rfl) (fun k => iblk3_1_apply V c t k d _ rfl) hprev]
  rw [iblk3_2_apply V c t p r hr, show t.val % 4 + 1 = 4 from by omega]
  exact tiles_four_scaled (V c main_arg4) (V c main_v14) (V c main_v11) r d

/-! ## From the blocks to the array -/

/-- The array the region leaves: the scaled product of the three arrays it finds. -/
def G3 (c : Dev nD) : S8192x32.Idx → EReal := fun j =>
  Cert.Spec.scaledProd (fun a b => (V c main_arg4 : S8192x8192.Idx → EReal) (ix2 a b)) (fun k e => (V c main_v14 : S8192x32.Idx → EReal) (ix2 k e))
    (fun i => (V c main_v11 : S8192x1.Idx → EReal) (ix2 i (0 : Fin 1))) (j 0) (j 1)

/-- The output's buffer at a point with `k = 3`, as a function of the entry inside the block. -/
theorem out3_fun (c : Dev nD) (t : Fin cfg3.N) (h3 : t.val % 4 = 3) :
    (outsAt3 V c t.val t.isLt).1 = fun j : S1024x32.Idx =>
      G3 V c (ix2 ⟨t.val / 4 * 1024 + (j 0).val, by have := N3_lt t; have := idx2_lt0 j; omega⟩ (j 1)) := by
  funext j
  obtain ⟨p, d, rfl⟩ : ∃ (p : Fin 1024) (d : Fin 32), j = ix2 p d := ⟨j 0, j 1, eq_ix2 j⟩
  exact out3_eq V c t h3 p d _ rfl

/-- What a point with `k = 3` writes back is its block of that array. -/
theorem flushed3_eq (c : Dev nD) (t : Fin cfg3.N) (hf : (cfg3.win 3).flush t = true) :
    (dat3 V c).flushed 3 t = ((cfg3.win 3).blk t).view.read (Elt Ideal) (G3 V c) := by
  have h3 := (flush3_3 t).mp hf
  obtain ⟨-, -, -, -, -, -, e0, e1⟩ := idx3 t
  show (cfg3.win 3).cut (grid3.coords t) ((dat3 V c).after 3 t) = _
  rw [after3_3, out3_fun V c t h3]
  funext j
  show G3 V c _ = G3 V c (((cfg3.win 3).blk t).view.emb j)
  congr 1
  funext a; apply Fin.ext
  match a with
  | ⟨0, _⟩ => show t.val / 4 * 1024 + (j 0).val = win3_3.index t 0 * 1024 + 1 * (j 0).val; rw [e0]; omega
  | ⟨1, _⟩ => show (j 1).val = win3_3.index t 1 * 32 + 1 * (j 1).val; rw [e1]; omega

/-- An entry of the array is in point `t`'s block iff each coordinate is in the block's range. -/
theorem mem_blk3 (t : Fin cfg3.N) (i : S8192x32.Idx) :
    i ∈ ((cfg3.win 3).blk t).view.set ↔ ∀ a : Fin 2, win3_3.index t a * S1024x32.size a ≤ (i a).val ∧ (i a).val < win3_3.index t a * S1024x32.size a + S1024x32.size a := by
  show i ∈ ((View.whole main_v15).slice (win3_3.rect t)).set ↔ _
  rw [View.set_slice_whole, Rect.mem_set_unit]
  exact Iff.rfl

/-- Every entry is in the block some point with `k = 3` writes back: row `r` is in band `r / 1024`. -/
theorem cover3 (i : S8192x32.Idx) : ∃ t : Fin cfg3.N, (cfg3.win 3).flush t = true ∧ i ∈ ((cfg3.win 3).blk t).view.set := by
  have hi0 : (i 0).val < 8192 := idx2_lt0 i
  have hi1 : (i 1).val < 32 := idx2_lt1 i
  obtain ⟨t, ht⟩ : ∃ t : Fin cfg3.N, t.val = (i 0).val / 1024 * 4 + 3 :=
    ⟨⟨(i 0).val / 1024 * 4 + 3, by rw [show cfg3.N = 32 from N_3]; omega⟩, rfl⟩
  obtain ⟨-, -, -, -, -, -, e0, e1⟩ := idx3 t
  refine ⟨t, (flush3_3 t).mpr (by omega), ?_⟩
  rw [mem_blk3]
  intro a
  match a with
  | ⟨0, _⟩ => show win3_3.index t 0 * 1024 ≤ (i 0).val ∧ (i 0).val < win3_3.index t 0 * 1024 + 1024; rw [e0]; omega
  | ⟨1, _⟩ => show win3_3.index t 1 * 32 ≤ (i 1).val ∧ (i 1).val < win3_3.index t 1 * 32 + 32; rw [e1]; omega

/-- The array after the region: the scaled product. -/
theorem arr3_eq (c : Dev nD) : (dat3 V c).arrAt 3 cfg3.N = G3 V c :=
  (dat3 V c).arrAt_eq_of_cover 3 (G3 V c) (flushed3_eq V c) (cover3)

/-- THE RESULT OF REGION 3, entry by entry: the matrix against the table, each row scaled. -/
theorem final3 (c : Dev nD) (i : Fin 8192) (d : Fin 32) :
    ((dat3 (F := Ideal) V c).arrAt 3 cfg3.N : S8192x32.Idx → EReal) (ix2 i d)
      = Cert.Spec.scaledProd (fun a b => (V c main_arg4 : S8192x8192.Idx → EReal) (ix2 a b)) (fun k e => (V c main_v14 : S8192x32.Idx → EReal) (ix2 k e))
          (fun r => (V c main_v11 : S8192x1.Idx → EReal) (ix2 r (0 : Fin 1))) i d := by
  rw [arr3_eq V c]
  rfl

end IdealValues

end Cert.KernelIdeal.Hand

end
-- ==== Proof.KI.Wmm5Value.lean ====
/-
  Region 5 (the weighted matrix product) read as values: what each control case leaves in the accumulator and in
  the output's buffer is a payload of the point's blocks; at the ideal values the accumulator after point (i, k) holds
  the products over the first k + 1 column tiles, so the output array ends holding, entry by entry, the sum over all
  8192 columns times the row's scale.
-/
import proofs.«108817_j44229573214371_2_alg».proof.Proof.KI.Wmm5
import proofs.«108817_j44229573214371_2_alg».proof.Proof.KI.WmmPayload
import Idealize.ShloMosaic.Lib.Pipeline.Value
import Idealize.ShloMosaic.Lib.ValueIdx
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx Idealize.SL.Sem
open Idealize.ShloMosaic.Pipeline (Dat)

section AnyValues

variable {F : FTy → Type} [FloatOps F]
variable (V : (c : Dev nD) → (b : Ref sig .tc) → Buf (Elt F) ((c : Thread nD τ).loc b))

theorem hz5 : (![0, 0] : Fin 2 → Nat) = fun _ => 0 := funext fun a => by fin_cases a <;> rfl

/-! ## The windows' blocks of region 5, read at an entry -/

/-- The block indices at point `t`: the row band is `t / 4`, the column tile `t % 4`. -/
theorem idx5 : ∀ t : Fin cfg5.N, win5_0.index t 0 = t.val / 4 ∧ win5_0.index t 1 = t.val % 4
    ∧ win5_1.index t 0 = t.val % 4 ∧ win5_1.index t 1 = 0
    ∧ win5_2.index t 0 = t.val / 4 ∧ win5_2.index t 1 = 0
    ∧ win5_3.index t 0 = t.val / 4 ∧ win5_3.index t 1 = 0 :=
  (by decide +kernel : ∀ t : Fin grid5.N, win5_0.index t 0 = t.val / 4 ∧ win5_0.index t 1 = t.val % 4
    ∧ win5_1.index t 0 = t.val % 4 ∧ win5_1.index t 1 = 0
    ∧ win5_2.index t 0 = t.val / 4 ∧ win5_2.index t 1 = 0
    ∧ win5_3.index t 0 = t.val / 4 ∧ win5_3.index t 1 = 0)

theorem N5_lt (t : Fin cfg5.N) : t.val < 32 := lt_of_lt_of_eq t.isLt (show cfg5.N = 32 from N_5)

/-- The matrix block at point `t`: rows of band `t / 4`, columns of tile `t % 4`. -/
theorem iblk5_0_apply (c : Dev nD) (t : Fin cfg5.N) (p : Fin 1024) (k : Fin 2048) (r q : Fin 8192)
    (hr : r.val = t.val / 4 * 1024 + p.val) (hq : q.val = t.val % 4 * 2048 + k.val) :
    (iblk5 V c 0 t : Vec F S1024x2048 .f32) (ix2 p k) = (V c main_arg3 : S8192x8192.Idx → F .f32) (ix2 r q) := by
  obtain ⟨e0, e1, -⟩ := idx5 t
  unfold iblk5
  rw [View.read_apply]
  show V c main_arg3 _ = V c main_arg3 _
  congr 1
  funext a; apply Fin.ext
  match a with
  | ⟨0, _⟩ => show win5_0.index t 0 * 1024 + 1 * p.val = r.val; rw [e0, hr]; omega
  | ⟨1, _⟩ => show win5_0.index t 1 * 2048 + 1 * k.val = q.val; rw [e1, hq]; omega

/-- The table block at point `t`: rows of tile `t % 4`. -/
theorem iblk5_1_apply (c : Dev nD) (t : Fin cfg5.N) (k : Fin 2048) (d : Fin 32) (q : Fin 8192)
    (hq : q.val = t.val % 4 * 2048 + k.val) :
    (iblk5 V c 1 t : Vec F S2048x32 .f32) (ix2 k d) = (V c main_v26 : S8192x32.Idx → F .f32) (ix2 q d) := by
  obtain ⟨-, -, e0, e1, -⟩ := idx5 t
  unfold iblk5
  rw [View.read_apply]
  show V c main_v26 _ = V c main_v26 _
  congr 1
  funext a; apply Fin.ext
  match a with
  | ⟨0, _⟩ => show win5_1.index t 0 * 2048 + 1 * k.val = q.val; rw [e0, hq]; omega
  | ⟨1, _⟩ => show win5_1.index t 1 * 32 + 1 * d.val = d.val; rw [e1]; omega

/-- The scale block at point `t`: rows of band `t / 4`. -/
theorem iblk5_2_apply (c : Dev nD) (t : Fin cfg5.N) (p : Fin 1024) (r : Fin 8192) (hr : r.val = t.val / 4 * 1024 + p.val) :
    (iblk5 V c 2 t : Vec F S1024x1 .f32) (ix2 p (0 : Fin 1)) = (V c main_v20 : S8192x1.Idx → F .f32) (ix2 r (0 : Fin 1)) := by
  obtain ⟨-, -, -, -, e0, e1, -⟩ := idx5 t
  unfold iblk5
  rw [View.read_apply]
  show V c main_v20 _ = V c main_v20 _
  congr 1
  funext a; apply Fin.ext
  match a with
  | ⟨0, _⟩ => show win5_2.index t 0 * 1024 + 1 * p.val = r.val; rw [e0, hr]; omega
  | ⟨1, _⟩ => show win5_2.index t 1 * 1 + 1 * 0 = 0; rw [e1]

/-! ## What each case's found pieces are, as payloads of the point's blocks (any float values) -/

/-- Where `k = 1, 2`: the accumulator is left at one accumulation step over what it held. -/
theorem sout5_B_0_eq (c : Dev nD) (i : grid5.Coords) (a2 : Memref sig .tc .vmem S1024x2048 .f32) (h2 : a2.IsWhole) (a3 : Memref sig .tc .vmem S2048x32 .f32) (h3 : a3.IsWhole) (a4 : Memref sig .tc .vmem S1024x1 .f32) (h4 : a4.IsWhole) (a5 : Memref sig .tc .vmem S1024x32 .f32) (h5 : a5.IsWhole) (a6 : Memref sig .tc .vmem S1024x32 .f32) (h6 : a6.IsWhole) (hc0 : ¬cond5_0 i) (hc1 : ¬cond5_1 i) (x0 : Vec F S1024x2048 .f32) (x1 : Vec F S2048x32 .f32) (x2 : Vec F S1024x1 .f32) (xs0 : Vec F S1024x32 .f32) :
    sout5_B_0 c i a2 h2 a3 h3 a4 h4 a5 h5 a6 h6 hc0 hc1 x0 x1 x2 xs0 = k5_pay2 x0 x1 xs0 := by
  unfold sout5_B_0
  rw [View.read_writes_eq_canon _ _ _ (scover5_B_0 c i a2 h2 a3 h3 a4 h4 a5 h5 a6 h6 hc0 hc1 x0 x1 x2 xs0)]
  unfold kernelRun5_B
  dsimp only
  rw [View.canon_unit_zero hz5]
  simp only [View.readAt_eq_ld, h2.read_unread, h3.read_unread, h6.read_unread, View.ld_unit_zero (S := S1024x2048) hz5,
    View.ld_unit_zero (S := S2048x32) hz5, View.ld_unit_zero (S := S1024x32) hz5]

/-- Where `k = 0`: the accumulator is zeroed, read back, and left at one accumulation step over zero. -/
theorem sout5_A_0_eq (c : Dev nD) (i : grid5.Coords) (a2 : Memref sig .tc .vmem S1024x2048 .f32) (h2 : a2.IsWhole) (a3 : Memref sig .tc .vmem S2048x32 .f32) (h3 : a3.IsWhole) (a4 : Memref sig .tc .vmem S1024x1 .f32) (h4 : a4.IsWhole) (a5 : Memref sig .tc .vmem S1024x32 .f32) (h5 : a5.IsWhole) (a6 : Memref sig .tc .vmem S1024x32 .f32) (h6 : a6.IsWhole) (hc0 : cond5_0 i) (hc1 : ¬cond5_1 i) (x0 : Vec F S1024x2048 .f32) (x1 : Vec F S2048x32 .f32) (x2 : Vec F S1024x1 .f32) :
    sout5_A_0 c i a2 h2 a3 h3 a4 h4 a5 h5 a6 h6 hc0 hc1 x0 x1 x2 = k5_pay2 x0 x1 (k5_pay1 (F := F)) := by
  unfold sout5_A_0
  rw [View.read_writes_eq_canon _ _ _ (scover5_A_0 c i a2 h2 a3 h3 a4 h4 a5 h5 a6 h6 hc0 hc1 x0 x1 x2)]
  unfold kernelRun5_A
  dsimp only
  sl_unfold_words
  rw [View.canon_cons_unit_zero (S := S1024x32) hz5, View.readCov_unit_zero (S := S1024x32) _ hz5]
  simp only [View.readAt_eq_ld, h2.read_unread, h3.read_unread, View.ld_unit_zero (S := S1024x2048) hz5,
    View.ld_unit_zero (S := S2048x32) hz5]

/-- Where `k = 3`: the accumulator is left at one accumulation step over what it held, -/
theorem sout5_C_0_eq (c : Dev nD) (i : grid5.Coords) (a2 : Memref sig .tc .vmem S1024x2048 .f32) (h2 : a2.IsWhole) (a3 : Memref sig .tc .vmem S2048x32 .f32) (h3 : a3.IsWhole) (a4 : Memref sig .tc .vmem S1024x1 .f32) (h4 : a4.IsWhole) (a5 : Memref sig .tc .vmem S1024x32 .f32) (h5 : a5.IsWhole) (a6 : Memref sig .tc .vmem S1024x32 .f32) (h6 : a6.IsWhole) (hc0 : ¬cond5_0 i) (hc1 : cond5_1 i) (x0 : Vec F S1024x2048 .f32) (x1 : Vec F S2048x32 .f32) (x2 : Vec F S1024x1 .f32) (xs0 : Vec F S1024x32 .f32) :
    sout5_C_0 c i a2 h2 a3 h3 a4 h4 a5 h5 a6 h6 hc0 hc1 x0 x1 x2 xs0 = k5_pay2 x0 x1 xs0 := by
  unfold sout5_C_0
  rw [View.read_writes_eq_canon _ _ _ (scover5_C_0 c i a2 h2 a3 h3 a4 h4 a5 h5 a6 h6 hc0 hc1 x0 x1 x2 xs0)]
  unfold kernelRun5_C
  dsimp only
  sl_unfold_words
  rw [View.canon_unit_zero hz5]
  simp only [View.readAt_eq_ld, h2.read_unread, h3.read_unread, h6.read_unread, View.ld_unit_zero (S := S1024x2048) hz5,
    View.ld_unit_zero (S := S2048x32) hz5, View.ld_unit_zero (S := S1024x32) hz5]

/-- and the output's buffer at that accumulator, read back, scaled row by row. -/
theorem out5_C_3_eq (c : Dev nD) (i : grid5.Coords) (a2 : Memref sig .tc .vmem S1024x2048 .f32) (h2 : a2.IsWhole) (a3 : Memref sig .tc .vmem S2048x32 .f32) (h3 : a3.IsWhole) (a4 : Memref sig .tc .vmem S1024x1 .f32) (h4 : a4.IsWhole) (a5 : Memref sig .tc .vmem S1024x32 .f32) (h5 : a5.IsWhole) (a6 : Memref sig .tc .vmem S1024x32 .f32) (h6 : a6.IsWhole) (hc0 : ¬cond5_0 i) (hc1 : cond5_1 i) (x0 : Vec F S1024x2048 .f32) (x1 : Vec F S2048x32 .f32) (x2 : Vec F S1024x1 .f32) (xs0 : Vec F S1024x32 .f32) :
    out5_C_3 c i a2 h2 a3 h3 a4 h4 a5 h5 a6 h6 hc0 hc1 x0 x1 x2 xs0 = k5_pay3 (k5_pay2 x0 x1 xs0) x2 := by
  unfold out5_C_3
  rw [View.read_writes_eq_canon _ _ _ (cover5_C_3 c i a2 h2 a3 h3 a4 h4 a5 h5 a6 h6 hc0 hc1 x0 x1 x2 xs0)]
  unfold kernelRun5_C
  dsimp only
  sl_unfold_words
  rw [View.canon_unit_zero hz5, View.readCov_unit_zero (S := S1024x32) _ hz5]
  simp only [View.readAt_eq_ld, h2.read_unread, h3.read_unread, h4.read_unread, h6.read_unread, View.ld_unit_zero (S := S1024x2048) hz5,
    View.ld_unit_zero (S := S2048x32) hz5, View.ld_unit_zero (S := S1024x32) hz5, View.ld_unit_zero (S := S1024x1) hz5]

end AnyValues

section IdealValues

variable (V : (c : Dev nD) → (b : Ref sig .tc) → Buf (Elt Ideal) ((c : Thread nD τ).loc b))

/-! ## The accumulation, at the ideal values -/

/-- One accumulation step at an entry, in terms of the row's sequence of products: with the blocks sitting at column
    tile `j` and the accumulator at the first `j` tiles, the step leaves the first `j + 1`. -/
theorem step5 (a : S8192x8192.Idx → EReal) (s : S8192x32.Idx → EReal) (r : Fin 8192) (d : Fin 32) (j : ℕ) (hj : j < 4)
    (x : Vec Ideal S1024x2048 .f32) (y : Vec Ideal S2048x32 .f32) (acc : Vec Ideal S1024x32 .f32) (p : Fin 1024)
    (hx : ∀ k : Fin 2048, x (ix2 p k) = a (ix2 r ⟨j * 2048 + k.val, by have := k.isLt; omega⟩))
    (hy : ∀ k : Fin 2048, y (ix2 k d) = s (ix2 ⟨j * 2048 + k.val, by have := k.isLt; omega⟩ d))
    (hacc : acc (ix2 p d) = tiles (rowTerms a s r d) j) :
    k5_pay2 x y acc (ix2 p d) = tiles (rowTerms a s r d) (j + 1) := by
  rw [k5_pay2_apply, hacc, tiles_succ, tile_blocks a s r d j hj x y p hx hy]

/-- At a point with `k = 0` the accumulator ends at the first tile. -/
theorem accA5 (c : Dev nD) (t : Fin cfg5.N) (h0 : t.val % 4 = 0) (p : Fin 1024) (d : Fin 32) (r : Fin 8192)
    (hr : r.val = t.val / 4 * 1024 + p.val) :
    (outsAt5 V c t.val t.isLt).2 (ix2 p d) = tiles (rowTerms (V c main_arg3) (V c main_v26) r d) (t.val % 4 + 1) := by
  rw [outsAt5_A V c t h0 (by omega)]
  dsimp only
  rw [sout5_A_0_eq]
  exact step5 (V c main_arg3) (V c main_v26) r d (t.val % 4) (Nat.mod_lt _ (by decide)) (iblk5 V c 0 t) (iblk5 V c 1 t) (k5_pay1 (F := Ideal)) p
    (fun k => iblk5_0_apply V c t p k r _ hr rfl) (fun k => iblk5_1_apply V c t k d _ rfl)
    (by rw [k5_pay1_apply, h0]; exact (tiles_zero _).symm)

/-- At a point with `k ≠ 0`, over an accumulator at the first `k` tiles, it ends at the first `k + 1`. -/
theorem accBC5 (c : Dev nD) (t : Fin cfg5.N) (h0 : ¬t.val % 4 = 0) (p : Fin 1024) (d : Fin 32) (r : Fin 8192)
    (hr : r.val = t.val / 4 * 1024 + p.val)
    (ih : (outsAt5 V c (t.val - 1) (Nat.lt_of_le_of_lt (Nat.sub_le _ _) t.isLt)).2 (ix2 p d) = tiles (rowTerms (V c main_arg3) (V c main_v26) r d) (t.val % 4)) :
    (outsAt5 V c t.val t.isLt).2 (ix2 p d) = tiles (rowTerms (V c main_arg3) (V c main_v26) r d) (t.val % 4 + 1) := by
  by_cases h1 : t.val % 4 = 3
  · rw [outsAt5_C V c t h0 h1]
    dsimp only
    rw [sout5_C_0_eq]
    exact step5 (V c main_arg3) (V c main_v26) r d (t.val % 4) (Nat.mod_lt _ (by decide)) (iblk5 V c 0 t) (iblk5 V c 1 t) _ p
      (fun k => iblk5_0_apply V c t p k r _ hr rfl) (fun k => iblk5_1_apply V c t k d _ rfl) ih
  · rw [outsAt5_B V c t h0 h1]
    dsimp only
    rw [sout5_B_0_eq]
    exact step5 (V c main_arg3) (V c main_v26) r d (t.val % 4) (Nat.mod_lt _ (by decide)) (iblk5 V c 0 t) (iblk5 V c 1 t) _ p
      (fun k => iblk5_0_apply V c t p k r _ hr rfl) (fun k => iblk5_1_apply V c t k d _ rfl) ih

/-- THE INVARIANT: after point `(i, k)` the accumulator's row `p` holds row `1024 i + p` of the matrix against
    the table over the first `k + 1` column tiles — by induction on the point. -/
theorem acc5_eq (c : Dev nD) : ∀ (n : ℕ) (hn : n < cfg5.N) (p : Fin 1024) (d : Fin 32) (r : Fin 8192),
    r.val = n / 4 * 1024 + p.val → (outsAt5 V c n hn).2 (ix2 p d) = tiles (rowTerms (V c main_arg3) (V c main_v26) r d) (n % 4 + 1) := by
  intro n
  induction n with
  | zero =>
    intro hn p d r hr
    exact accA5 V c ⟨0, hn⟩ rfl p d r hr
  | succ m ih =>
    intro hn p d r hr
    by_cases h0 : (m + 1) % 4 = 0
    · exact accA5 V c ⟨m + 1, hn⟩ h0 p d r hr
    · refine accBC5 V c ⟨m + 1, hn⟩ h0 p d r hr ?_
      have h := ih (Nat.lt_of_succ_lt hn) p d r (by omega)
      rw [show m % 4 + 1 = (m + 1) % 4 from by omega] at h
      exact h

/-- At a point with `k = 3` the output's buffer holds the scaled product's rows of band `i`. -/
theorem out5_eq (c : Dev nD) (t : Fin cfg5.N) (h3 : t.val % 4 = 3) (p : Fin 1024) (d : Fin 32) (r : Fin 8192)
    (hr : r.val = t.val / 4 * 1024 + p.val) :
    (outsAt5 V c t.val t.isLt).1 (ix2 p d)
      = Cert.Spec.scaledProd (fun a b => (V c main_arg3 : S8192x8192.Idx → EReal) (ix2 a b)) (fun k e => (V c main_v26 : S8192x32.Idx → EReal) (ix2 k e))
          (fun i => (V c main_v20 : S8192x1.Idx → EReal) (ix2 i (0 : Fin 1))) r d := by
  have h0 : ¬t.val % 4 = 0 := by omega
  have hprev := acc5_eq V c (t.val - 1) (Nat.lt_of_le_of_lt (Nat.sub_le _ _) t.isLt) p d r (by omega)
  rw [show (t.val - 1) % 4 + 1 = t.val % 4 from by omega] at hprev
  rw [outsAt5_C V c t h0 h3]
  dsimp only
  rw [out5_C_3_eq, k5_pay3_apply]
  rw [step5 (V c main_arg3) (V c main_v26) r d (t.val % 4) (Nat.mod_lt _ (by decide)) (iblk5 V c 0 t) (iblk5 V c 1 t) _ p
    (fun k => iblk5_0_apply V c t p k r _ hr rfl) (fun k => iblk5_1_apply V c t k d _ rfl) hprev]
  rw [iblk5_2_apply V c t p r hr, show t.val % 4 + 1 = 4 from by omega]
  exact tiles_four_scaled (V c main_arg3) (V c main_v26) (V c main_v20) r d

/-! ## From the blocks to the array -/

/-- The array the region leaves: the scaled product of the three arrays it finds. -/
def G5 (c : Dev nD) : S8192x32.Idx → EReal := fun j =>
  Cert.Spec.scaledProd (fun a b => (V c main_arg3 : S8192x8192.Idx → EReal) (ix2 a b)) (fun k e => (V c main_v26 : S8192x32.Idx → EReal) (ix2 k e))
    (fun i => (V c main_v20 : S8192x1.Idx → EReal) (ix2 i (0 : Fin 1))) (j 0) (j 1)

/-- The output's buffer at a point with `k = 3`, as a function of the entry inside the block. -/
theorem out5_fun (c : Dev nD) (t : Fin cfg5.N) (h3 : t.val % 4 = 3) :
    (outsAt5 V c t.val t.isLt).1 = fun j : S1024x32.Idx =>
      G5 V c (ix2 ⟨t.val / 4 * 1024 + (j 0).val, by have := N5_lt t; have := idx2_lt0 j; omega⟩ (j 1)) := by
  funext j
  obtain ⟨p, d, rfl⟩ : ∃ (p : Fin 1024) (d : Fin 32), j = ix2 p d := ⟨j 0, j 1, eq_ix2 j⟩
  exact out5_eq V c t h3 p d _ rfl

/-- What a point with `k = 3` writes back is its block of that array. -/
theorem flushed5_eq (c : Dev nD) (t : Fin cfg5.N) (hf : (cfg5.win 3).flush t = true) :
    (dat5 V c).flushed 3 t = ((cfg5.win 3).blk t).view.read (Elt Ideal) (G5 V c) := by
  have h3 := (flush5_3 t).mp hf
  obtain ⟨-, -, -, -, -, -, e0, e1⟩ := idx5 t
  show (cfg5.win 3).cut (grid5.coords t) ((dat5 V c).after 3 t) = _
  rw [after5_3, out5_fun V c t h3]
  funext j
  show G5 V c _ = G5 V c (((cfg5.win 3).blk t).view.emb j)
  congr 1
  funext a; apply Fin.ext
  match a with
  | ⟨0, _⟩ => show t.val / 4 * 1024 + (j 0).val = win5_3.index t 0 * 1024 + 1 * (j 0).val; rw [e0]; omega
  | ⟨1, _⟩ => show (j 1).val = win5_3.index t 1 * 32 + 1 * (j 1).val; rw [e1]; omega

/-- An entry of the array is in point `t`'s block iff each coordinate is in the block's range. -/
theorem mem_blk5 (t : Fin cfg5.N) (i : S8192x32.Idx) :
    i ∈ ((cfg5.win 3).blk t).view.set ↔ ∀ a : Fin 2, win5_3.index t a * S1024x32.size a ≤ (i a).val ∧ (i a).val < win5_3.index t a * S1024x32.size a + S1024x32.size a := by
  show i ∈ ((View.whole main_v27).slice (win5_3.rect t)).set ↔ _
  rw [View.set_slice_whole, Rect.mem_set_unit]
  exact Iff.rfl

/-- Every entry is in the block some point with `k = 3` writes back: row `r` is in band `r / 1024`. -/
theorem cover5 (i : S8192x32.Idx) : ∃ t : Fin cfg5.N, (cfg5.win 3).flush t = true ∧ i ∈ ((cfg5.win 3).blk t).view.set := by
  have hi0 : (i 0).val < 8192 := idx2_lt0 i
  have hi1 : (i 1).val < 32 := idx2_lt1 i
  obtain ⟨t, ht⟩ : ∃ t : Fin cfg5.N, t.val = (i 0).val / 1024 * 4 + 3 :=
    ⟨⟨(i 0).val / 1024 * 4 + 3, by rw [show cfg5.N = 32 from N_5]; omega⟩, rfl⟩
  obtain ⟨-, -, -, -, -, -, e0, e1⟩ := idx5 t
  refine ⟨t, (flush5_3 t).mpr (by omega), ?_⟩
  rw [mem_blk5]
  intro a
  match a with
  | ⟨0, _⟩ => show win5_3.index t 0 * 1024 ≤ (i 0).val ∧ (i 0).val < win5_3.index t 0 * 1024 + 1024; rw [e0]; omega
  | ⟨1, _⟩ => show win5_3.index t 1 * 32 ≤ (i 1).val ∧ (i 1).val < win5_3.index t 1 * 32 + 32; rw [e1]; omega

/-- The array after the region: the scaled product. -/
theorem arr5_eq (c : Dev nD) : (dat5 V c).arrAt 3 cfg5.N = G5 V c :=
  (dat5 V c).arrAt_eq_of_cover 3 (G5 V c) (flushed5_eq V c) (cover5)

/-- THE RESULT OF REGION 5, entry by entry: the matrix against the table, each row scaled. -/
theorem final5 (c : Dev nD) (i : Fin 8192) (d : Fin 32) :
    ((dat5 (F := Ideal) V c).arrAt 3 cfg5.N : S8192x32.Idx → EReal) (ix2 i d)
      = Cert.Spec.scaledProd (fun a b => (V c main_arg3 : S8192x8192.Idx → EReal) (ix2 a b)) (fun k e => (V c main_v26 : S8192x32.Idx → EReal) (ix2 k e))
          (fun r => (V c main_v20 : S8192x1.Idx → EReal) (ix2 r (0 : Fin 1))) i d := by
  rw [arr5_eq V c]
  rfl

end IdealValues

end Cert.KernelIdeal.Hand

end
-- ==== Proof.KI.HostValue.lean ====
/-
  The three stretches of plain array operations that run between the kernel regions, read at an entry over the
  extended reals.

  The first two stretches take a column r of 8192 row sums and two tables x : [8192, 32], w : [32, 32] and produce
  the column (1 + r)^(-1/2) and the table whose entry (k, e) is (1 + r k)^(-1/2) * Σ_j x k j * w j e.  The third
  takes a column of row sums and an [8, 8, 8192] array whose entry (t, b, j) is the sum of column j over the t-th
  band of 1024 rows, and produces the column r^(-1/2) and the table whose entry (k, e) is
  (Σ_t band t k)^(-1/2) * Σ_j (Σ_i x k i * p i j) * w j e; the eight band sums add up to the column sum.

  Each fact is first stated over variables of the arrays' types, then instantiated at the buffer contents.
-/
import proofs.«108817_j44229573214371_2_alg».proof.Proof.Gen.KernelIdeal.Launch
import proofs.«108817_j44229573214371_2_alg».proof.Proof.Spec
import proofs.«108817_j44229573214371_2_alg».proof.Proof.LibPlainDot
import proofs.«108817_j44229573214371_2_alg».proof.Proof.LibTileSum
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

open scoped BigOperators

namespace Cert.KernelIdeal.HostValue

open Cert.KernelIdeal Cert.KernelIdeal.Gen Idealize.ShloMosaic Idealize.ShloMosaic.TcCoe Idealize.ShloMosaic.ValueIdx

/-- The host dot_general of the program is a plain matrix product [8192, 32] × [32, 32] → [8192, 32]. -/
theorem plain_proj : Cert.LibPlainDot.Plain dot_S8192x32_S32x32_S8192x32_1_0_0_1_n_n :=
  ⟨rfl, rfl, rfl, rfl, rfl, rfl⟩

/-- The scalar one broadcast to a column, added to a column, then the reciprocal square root: at row i. -/
theorem dinv_apply (r : FVec Ideal S8192x1 .f32) (i : Fin 8192) :
    (Host.rsqrt (addf (broadcastInDim S8192x1 ![] bcast_S_S8192x1 (constant (F := Ideal) S_ .f32 0x3F800000#32)) r) : FVec Ideal S8192x1 .f32) (ix2 i (0 : Fin 1))
      = Ideal.rsqrt (Cert.Spec.one + r (ix2 i (0 : Fin 1))) := by
  show Ideal.rsqrt (broadcastInDim S8192x1 ![] bcast_S_S8192x1 (constant (F := Ideal) S_ .f32 0x3F800000#32) (ix2 i (0 : Fin 1)) + r (ix2 i (0 : Fin 1))) = _
  rw [broadcastInDim_apply ![] bcast_S_S8192x1 _ (ix2 i (0 : Fin 1)) ix0 (fun a => a.elim0)]
  rfl

/-- A column of 8192 scales broadcast along 32 lanes, read at an entry, is the row's scale. -/
theorem bcast_col_apply {α : Type} (v : S8192x1.Idx → α) (k : Fin 8192) (e : Fin 32) :
    broadcastInDim S8192x32 ![0, 1] bcast_S8192x1_S8192x32_0_1 v (ix2 k e) = v (ix2 k (0 : Fin 1)) := by
  refine broadcastInDim_apply ![0, 1] bcast_S8192x1_S8192x32_0_1 v (ix2 k e) (ix2 k (0 : Fin 1)) fun ax => ?_
  match ax with
  | ⟨0, _⟩ => rfl
  | ⟨1, _⟩ => rfl

/-- The scaled projection: a column of scales broadcast along the lanes times the product x · w, at (k, e). -/
theorem scaled_proj_apply (s : FVec Ideal S8192x1 .f32) (x : FVec Ideal S8192x32 .f32) (w : FVec Ideal S32x32 .f32)
    (k : Fin 8192) (e : Fin 32) :
    (mulf (broadcastInDim S8192x32 ![0, 1] bcast_S8192x1_S8192x32_0_1 s)
        (Host.dotGeneral dot_S8192x32_S32x32_S8192x32_1_0_0_1_n_n none x w) : FVec Ideal S8192x32 .f32) (ix2 k e)
      = s (ix2 k (0 : Fin 1)) * Cert.Spec.proj (fun p q => x (ix2 p q)) (fun p q => w (ix2 p q)) k e := by
  rw [mulf_apply, bcast_col_apply]
  exact congrArg (s (ix2 k (0 : Fin 1)) * ·) (plain_proj.dotGeneral_apply none .single x w k e)

/-- After the first host stretch, the column main_v3 holds (1 + rowsum)^(-1/2). -/
theorem stretch1_v3 (W : Valuation τ sig (Elt Ideal)) (a : Fin 8192 → Fin 8192 → EReal)
    (hr : ∀ i : Fin 8192, (W main_v0 : S8192x1.Idx → EReal) (ix2 i (0 : Fin 1)) = Cert.Spec.rowSum a i) (i : Fin 8192) :
    (StableHlo.after hostOps1 W main_v3 : S8192x1.Idx → EReal) (ix2 i (0 : Fin 1)) = Cert.Spec.dinvS a i := by
  have e : (StableHlo.after hostOps1 W main_v3 : S8192x1.Idx → EReal) = (Host.rsqrt (addf (broadcastInDim S8192x1 ![] bcast_S_S8192x1 (constant (F := Ideal) S_ .f32 0x3F800000#32)) (W main_v0 : FVec Ideal S8192x1 .f32)) : FVec Ideal S8192x1 .f32) := by
    show StableHlo.after hostOps1 W (Proc.devRef .tc main_v3) = _
    after_results
  rw [e, dinv_apply, hr]
  rfl

/-- After the first host stretch, main_v6 holds the scaled projection of the features. -/
theorem stretch1_v6 (W : Valuation τ sig (Elt Ideal)) (a : Fin 8192 → Fin 8192 → EReal)
    (hr : ∀ i : Fin 8192, (W main_v0 : S8192x1.Idx → EReal) (ix2 i (0 : Fin 1)) = Cert.Spec.rowSum a i) (k : Fin 8192) (e : Fin 32) :
    (StableHlo.after hostOps1 W main_v6 : S8192x32.Idx → EReal) (ix2 k e)
      = Cert.Spec.dinvS a k * Cert.Spec.proj (fun p q => (W main_arg0 : S8192x32.Idx → EReal) (ix2 p q)) (fun p q => (W main_arg5 : S32x32.Idx → EReal) (ix2 p q)) k e := by
  have e6 : (StableHlo.after hostOps1 W main_v6 : S8192x32.Idx → EReal)
      = (mulf (broadcastInDim S8192x32 ![0, 1] bcast_S8192x1_S8192x32_0_1
            (Host.rsqrt (addf (broadcastInDim S8192x1 ![] bcast_S_S8192x1 (constant (F := Ideal) S_ .f32 0x3F800000#32)) (W main_v0 : FVec Ideal S8192x1 .f32)) : FVec Ideal S8192x1 .f32))
          (Host.dotGeneral (φ₁ := .f32) (φ₂ := .f32) dot_S8192x32_S32x32_S8192x32_1_0_0_1_n_n none (W main_arg0 : FVec Ideal S8192x32 .f32) (W main_arg5 : FVec Ideal S32x32 .f32)) : FVec Ideal S8192x32 .f32) := by
    show StableHlo.after hostOps1 W (Proc.devRef .tc main_v6) = _
    after_results
  rw [e6, scaled_proj_apply, dinv_apply, hr]
  rfl

/-- After the second host stretch, the column main_v11 holds (1 + rowsum)^(-1/2). -/
theorem stretch3_v11 (W : Valuation τ sig (Elt Ideal)) (a : Fin 8192 → Fin 8192 → EReal)
    (hr : ∀ i : Fin 8192, (W main_v8 : S8192x1.Idx → EReal) (ix2 i (0 : Fin 1)) = Cert.Spec.rowSum a i) (i : Fin 8192) :
    (StableHlo.after hostOps3 W main_v11 : S8192x1.Idx → EReal) (ix2 i (0 : Fin 1)) = Cert.Spec.dinvS a i := by
  have e : (StableHlo.after hostOps3 W main_v11 : S8192x1.Idx → EReal) = (Host.rsqrt (addf (broadcastInDim S8192x1 ![] bcast_S_S8192x1 (constant (F := Ideal) S_ .f32 0x3F800000#32)) (W main_v8 : FVec Ideal S8192x1 .f32)) : FVec Ideal S8192x1 .f32) := by
    show StableHlo.after hostOps3 W (Proc.devRef .tc main_v11) = _
    after_results
  rw [e, dinv_apply, hr]
  rfl

/-- After the second host stretch, main_v14 holds the scaled projection of the second feature table. -/
theorem stretch3_v14 (W : Valuation τ sig (Elt Ideal)) (a : Fin 8192 → Fin 8192 → EReal)
    (hr : ∀ i : Fin 8192, (W main_v8 : S8192x1.Idx → EReal) (ix2 i (0 : Fin 1)) = Cert.Spec.rowSum a i) (k : Fin 8192) (e : Fin 32) :
    (StableHlo.after hostOps3 W main_v14 : S8192x32.Idx → EReal) (ix2 k e)
      = Cert.Spec.dinvS a k * Cert.Spec.proj (fun p q => (W main_arg1 : S8192x32.Idx → EReal) (ix2 p q)) (fun p q => (W main_arg5 : S32x32.Idx → EReal) (ix2 p q)) k e := by
  have e14 : (StableHlo.after hostOps3 W main_v14 : S8192x32.Idx → EReal)
      = (mulf (broadcastInDim S8192x32 ![0, 1] bcast_S8192x1_S8192x32_0_1
            (Host.rsqrt (addf (broadcastInDim S8192x1 ![] bcast_S_S8192x1 (constant (F := Ideal) S_ .f32 0x3F800000#32)) (W main_v8 : FVec Ideal S8192x1 .f32)) : FVec Ideal S8192x1 .f32))
          (Host.dotGeneral (φ₁ := .f32) (φ₂ := .f32) dot_S8192x32_S32x32_S8192x32_1_0_0_1_n_n none (W main_arg1 : FVec Ideal S8192x32 .f32) (W main_arg5 : FVec Ideal S32x32 .f32)) : FVec Ideal S8192x32 .f32) := by
    show StableHlo.after hostOps3 W (Proc.devRef .tc main_v14) = _
    after_results
  rw [e14, scaled_proj_apply, dinv_apply, hr]
  rfl

/-- The eight bands of 1024 rows make up all 8192 rows: the band column sums add up to the column sum. -/
theorem bands_colSum (a : Fin 8192 → Fin 8192 → EReal) (j : Fin 8192) :
    (0 : EReal) + ∑ t : Fin 8, Cert.Spec.bandColSum a t j = Cert.Spec.colSum a j := by
  rw [zero_add]
  have h := Cert.LibTileSum.tile_sum_fin 1024 (fun n => if h : n < 8192 then a ⟨n, h⟩ j else 0) 8
  unfold Cert.Spec.colSum Cert.Spec.bandColSum
  refine Eq.trans (Finset.sum_congr rfl fun t _ => Finset.sum_congr rfl fun r _ => ?_) (h.trans ?_)
  · have hlt : t.val * 1024 + r.val < 8192 := by have := t.isLt; have := r.isLt; omega
    rw [dif_pos hlt]
  · show ∑ s : Fin 8192, (if h : s.val < 8192 then a ⟨s.val, h⟩ j else 0) = _
    exact Finset.sum_congr rfl fun s _ => dif_pos s.isLt

/-- The slice [:, 0:1, :] of an [8, 8, 8192] array, viewed as [8, 8192] and summed over its 8 rows from the zero word:
    at column k, zero plus the sum over t of the entries (t, 0, k). -/
theorem bandsum_apply (c : FVec Ideal S8x8x8192 .f32) (k : Fin 8192) :
    (Host.reduceAdd (shapeCast S8x8192 (extractStridedSlice S8x1x8192 ![0, 0, 0] c slices_S8x8x8192_S8x1x8192_0_0_0) shapeCasts_S8x1x8192_S8x8192 : FVec Ideal S8x8192 .f32)
        (constant (F := Ideal) S_ .f32 0x00000000#32) reducesTo_S8x8192_S8192_d0 h_S_ : FVec Ideal S8192 .f32) (ix1 k)
      = 0 + ∑ t : Fin 8, c (ix3 t (0 : Fin 8) k) := by
  unfold Host.reduceAdd
  rw [Ideal.hostReduceAdd_def, Ideal.hostReduceAdd_single reducesTo_S8x8192_S8192_d0 (by decide : S8x8192.Reduces [0] S8192)]
  have key : ∀ t : Fin 8,
      (shapeCast S8x8192 (extractStridedSlice S8x1x8192 ![0, 0, 0] c slices_S8x8x8192_S8x1x8192_0_0_0) shapeCasts_S8x1x8192_S8x8192 : FVec Ideal S8x8192 .f32)
          ((by decide : S8x8192.Reduces [0] S8192).lift (ix1 k) t) = c (ix3 t (0 : Fin 8) k) := fun t => by
    have hl : (by decide : S8x8192.Reduces [0] S8192).lift (ix1 k) t = ix2 t k := funext fun ax => Fin.ext (by
      match ax with
      | ⟨0, _⟩ => rfl
      | ⟨1, _⟩ => rfl)
    rw [hl, shapeCast_apply _ shapeCasts_S8x1x8192_S8x8192 (ix2 t k) (ix3 t (0 : Fin 1) k) (by
      rw [Shape.rowMajor_val_three, Shape.rowMajor_val_two]
      show (t.val * 1 + 0) * 8192 + k.val = t.val * 8192 + k.val
      omega)]
    exact slice3_axis1_apply 0 c slices_S8x8x8192_S8x1x8192_0_0_0 t (0 : Fin 1) k (0 : Fin 8) rfl
  exact congrArg₂ (· + ·) Ideal.ofBits_zero_f32 (Finset.sum_congr rfl fun t _ => key t)

/-- A vector of 8192 values viewed as a column reads, at (i, 0), the vector at i. -/
theorem col_of_vec_apply {α : Type} (v : S8192.Idx → α) (i : Fin 8192) :
    shapeCast S8192x1 v shapeCasts_S8192_S8192x1 (ix2 i (0 : Fin 1)) = v (ix1 i) :=
  shapeCast_apply v shapeCasts_S8192_S8192x1 _ _ (by
    rw [Shape.rowMajor_val_two, Shape.rowMajor_val_one]
    show i.val = i.val * 1 + 0
    omega)

/-- The third stretch's scaled double projection over variables. -/
theorem colscaled_apply (c : FVec Ideal S8x8x8192 .f32) (x : FVec Ideal S8192x32 .f32) (p w : FVec Ideal S32x32 .f32)
    (a : Fin 8192 → Fin 8192 → EReal) (hc : ∀ (t : Fin 8) (b : Fin 8) (j : Fin 8192), c (ix3 t b j) = Cert.Spec.bandColSum a t j)
    (k : Fin 8192) (e : Fin 32) :
    (mulf (broadcastInDim S8192x32 ![0, 1] bcast_S8192x1_S8192x32_0_1
          (shapeCast S8192x1
            (Host.rsqrt (Host.reduceAdd (shapeCast S8x8192 (extractStridedSlice S8x1x8192 ![0, 0, 0] c slices_S8x8x8192_S8x1x8192_0_0_0) shapeCasts_S8x1x8192_S8x8192 : FVec Ideal S8x8192 .f32)
              (constant (F := Ideal) S_ .f32 0x00000000#32) reducesTo_S8x8192_S8192_d0 h_S_ : FVec Ideal S8192 .f32) : FVec Ideal S8192 .f32)
            shapeCasts_S8192_S8192x1 : FVec Ideal S8192x1 .f32))
        (Host.dotGeneral dot_S8192x32_S32x32_S8192x32_1_0_0_1_n_n none
          (Host.dotGeneral dot_S8192x32_S32x32_S8192x32_1_0_0_1_n_n none x p : FVec Ideal S8192x32 .f32) w) : FVec Ideal S8192x32 .f32) (ix2 k e)
      = Ideal.rsqrt (Cert.Spec.colSum a k)
          * Cert.Spec.proj (Cert.Spec.proj (fun a b => x (ix2 a b)) (fun a b => p (ix2 a b))) (fun a b => w (ix2 a b)) k e := by
  have hin : (fun a b => (Host.dotGeneral dot_S8192x32_S32x32_S8192x32_1_0_0_1_n_n none x p : FVec Ideal S8192x32 .f32) (ix2 a b))
      = Cert.Spec.proj (fun a b => x (ix2 a b)) (fun a b => p (ix2 a b)) :=
    funext fun a => funext fun b => plain_proj.dotGeneral_apply none .single x p a b
  rw [scaled_proj_apply, hin, col_of_vec_apply]
  show Ideal.rsqrt (_) * _ = _
  rw [bandsum_apply, Finset.sum_congr rfl fun t _ => hc t (0 : Fin 8) k, bands_colSum]

/-- After the third host stretch, main_v20 holds rowsum^(-1/2). -/
theorem stretch5_v20 (W : Valuation τ sig (Elt Ideal)) (a : Fin 8192 → Fin 8192 → EReal)
    (hr : ∀ i : Fin 8192, (W main_v16_0 : S8192x1.Idx → EReal) (ix2 i (0 : Fin 1)) = Cert.Spec.rowSum a i) (i : Fin 8192) :
    (StableHlo.after hostOps5 W main_v20 : S8192x1.Idx → EReal) (ix2 i (0 : Fin 1)) = Ideal.rsqrt (Cert.Spec.rowSum a i) := by
  have e : (StableHlo.after hostOps5 W main_v20 : S8192x1.Idx → EReal) = (Host.rsqrt (W main_v16_0 : FVec Ideal S8192x1 .f32) : FVec Ideal S8192x1 .f32) := by
    show StableHlo.after hostOps5 W (Proc.devRef .tc main_v20) = _
    after_results
  rw [e]
  show Ideal.rsqrt ((W main_v16_0 : S8192x1.Idx → EReal) (ix2 i (0 : Fin 1))) = _
  rw [hr]

/-- After the third host stretch, main_v26 holds colsum^(-1/2) times the twice-projected features. -/
theorem stretch5_v26 (W : Valuation τ sig (Elt Ideal)) (a : Fin 8192 → Fin 8192 → EReal)
    (hc : ∀ (t : Fin 8) (b : Fin 8) (j : Fin 8192), (W main_v16_1 : S8x8x8192.Idx → EReal) (ix3 t b j) = Cert.Spec.bandColSum a t j)
    (k : Fin 8192) (e : Fin 32) :
    (StableHlo.after hostOps5 W main_v26 : S8192x32.Idx → EReal) (ix2 k e)
      = Ideal.rsqrt (Cert.Spec.colSum a k)
          * Cert.Spec.proj (Cert.Spec.proj (fun p q => (W main_arg0 : S8192x32.Idx → EReal) (ix2 p q)) (fun p q => (W main_arg6 : S32x32.Idx → EReal) (ix2 p q)))
              (fun p q => (W main_arg8 : S32x32.Idx → EReal) (ix2 p q)) k e := by
  have e26 : (StableHlo.after hostOps5 W main_v26 : S8192x32.Idx → EReal)
      = (mulf (broadcastInDim S8192x32 ![0, 1] bcast_S8192x1_S8192x32_0_1
          (shapeCast S8192x1
            (Host.rsqrt (Host.reduceAdd (shapeCast S8x8192 (extractStridedSlice S8x1x8192 ![0, 0, 0] (W main_v16_1 : FVec Ideal S8x8x8192 .f32) slices_S8x8x8192_S8x1x8192_0_0_0) shapeCasts_S8x1x8192_S8x8192 : FVec Ideal S8x8192 .f32)
              (constant (F := Ideal) S_ .f32 0x00000000#32) reducesTo_S8x8192_S8192_d0 h_S_ : FVec Ideal S8192 .f32) : FVec Ideal S8192 .f32)
            shapeCasts_S8192_S8192x1 : FVec Ideal S8192x1 .f32))
        (Host.dotGeneral (φ₁ := .f32) (φ₂ := .f32) dot_S8192x32_S32x32_S8192x32_1_0_0_1_n_n none
          (Host.dotGeneral (φ₁ := .f32) (φ₂ := .f32) dot_S8192x32_S32x32_S8192x32_1_0_0_1_n_n none (W main_arg0 : FVec Ideal S8192x32 .f32) (W main_arg6 : FVec Ideal S32x32 .f32) : FVec Ideal S8192x32 .f32)
          (W main_arg8 : FVec Ideal S32x32 .f32)) : FVec Ideal S8192x32 .f32) := by
    show StableHlo.after hostOps5 W (Proc.devRef .tc main_v26) = _
    after_results
    rfl
  rw [e26]
  exact colscaled_apply (W main_v16_1 : FVec Ideal S8x8x8192 .f32) (W main_arg0 : FVec Ideal S8192x32 .f32)
    (W main_arg6 : FVec Ideal S32x32 .f32) (W main_arg8 : FVec Ideal S32x32 .f32) a hc k e

end Cert.KernelIdeal.HostValue

end
-- ==== Proof.KI.KernelValue.lean ====
/-
  What the kernel's program holds in its three graph-convolution tables, entry by entry: each is the shared
  specification's formula of the argument arrays. A region's output array is read off its proof data's final
  contents; the host stretch before the matrix product turns the degree sums into the two scalings; the
  product region then returns (sum over k of a(i,k) * (scale(k) * projection(k,d))) * scale(i).
-/
import proofs.«108817_j44229573214371_2_alg».proof.Proof.KI.Chain
import proofs.«108817_j44229573214371_2_alg».proof.Proof.KI.Row0Value
import proofs.«108817_j44229573214371_2_alg».proof.Proof.KI.Row2Value
import proofs.«108817_j44229573214371_2_alg».proof.Proof.KI.Uc4Value
import proofs.«108817_j44229573214371_2_alg».proof.Proof.KI.Wmm1Value
import proofs.«108817_j44229573214371_2_alg».proof.Proof.KI.Wmm3Value
import proofs.«108817_j44229573214371_2_alg».proof.Proof.KI.Wmm5Value
import proofs.«108817_j44229573214371_2_alg».proof.Proof.KI.HostValue
import proofs.«108817_j44229573214371_2_alg».proof.Proof.Spec

noncomputable section

namespace Cert.KernelIdeal.Hand

open Cert.KernelIdeal Cert.KernelIdeal.Gen
open Idealize.ShloMosaic Idealize.ShloMosaic.TcCoe Idealize.SL.Sem Idealize.ShloMosaic.ValueIdx
open scoped BigOperators

variable (m : (ℓ : Loc nD τ sig) → Buf (Elt Ideal) ℓ) (c : Dev nD)

/-- The scaled product depends on its three operands only through their entries. -/
theorem scaledProd_congr {a a' : Fin 8192 → Fin 8192 → EReal} {s s' : Fin 8192 → Fin 32 → EReal} {rs rs' : Fin 8192 → EReal}
    (ha : ∀ i k, a i k = a' i k) (hs : ∀ k e, s k e = s' k e) (hrs : ∀ r, rs r = rs' r) (i : Fin 8192) (d : Fin 32) :
    Cert.Spec.scaledProd a s rs i d = Cert.Spec.scaledProd a' s' rs' i d := by
  unfold Cert.Spec.scaledProd
  rw [hrs i]
  exact congrArg (· * rs' i) (Finset.sum_congr rfl fun k _ => by rw [ha, hs])

/-- An argument array of the launch memory as a function of two coordinates. -/
abbrev arg2d {n0 n1 : Nat} (x : (⟨2, ![n0, n1]⟩ : Shape).Idx → EReal) : Fin n0 → Fin n1 → EReal := fun p q => x (ix2 p q)

/-! ## The argument arrays at every boundary -/

theorem keep_arg0 : U9 m c main_arg0 = U0 m c main_arg0 ∧ U8 m c main_arg0 = U0 m c main_arg0 ∧ U7 m c main_arg0 = U0 m c main_arg0 ∧ U6 m c main_arg0 = U0 m c main_arg0 ∧ U5 m c main_arg0 = U0 m c main_arg0 ∧ U4 m c main_arg0 = U0 m c main_arg0 ∧ U3 m c main_arg0 = U0 m c main_arg0 ∧ U2 m c main_arg0 = U0 m c main_arg0 ∧ U1 m c main_arg0 = U0 m c main_arg0 :=
  U9_launch m c main_arg0 (by decide) (by decide) (by decide) (by decide) (by decide) (by decide) (by decide) (by decide) (by decide)
theorem keep_arg1 : U9 m c main_arg1 = U0 m c main_arg1 ∧ U8 m c main_arg1 = U0 m c main_arg1 ∧ U7 m c main_arg1 = U0 m c main_arg1 ∧ U6 m c main_arg1 = U0 m c main_arg1 ∧ U5 m c main_arg1 = U0 m c main_arg1 ∧ U4 m c main_arg1 = U0 m c main_arg1 ∧ U3 m c main_arg1 = U0 m c main_arg1 ∧ U2 m c main_arg1 = U0 m c main_arg1 ∧ U1 m c main_arg1 = U0 m c main_arg1 :=
  U9_launch m c main_arg1 (by decide) (by decide) (by decide) (by decide) (by decide) (by decide) (by decide) (by decide) (by decide)
theorem keep_arg2 : U9 m c main_arg2 = U0 m c main_arg2 ∧ U8 m c main_arg2 = U0 m c main_arg2 ∧ U7 m c main_arg2 = U0 m c main_arg2 ∧ U6 m c main_arg2 = U0 m c main_arg2 ∧ U5 m c main_arg2 = U0 m c main_arg2 ∧ U4 m c main_arg2 = U0 m c main_arg2 ∧ U3 m c main_arg2 = U0 m c main_arg2 ∧ U2 m c main_arg2 = U0 m c main_arg2 ∧ U1 m c main_arg2 = U0 m c main_arg2 :=
  U9_launch m c main_arg2 (by decide) (by decide) (by decide) (by decide) (by decide) (by decide) (by decide) (by decide) (by decide)
theorem keep_arg3 : U9 m c main_arg3 = U0 m c main_arg3 ∧ U8 m c main_arg3 = U0 m c main_arg3 ∧ U7 m c main_arg3 = U0 m c main_arg3 ∧ U6 m c main_arg3 = U0 m c main_arg3 ∧ U5 m c main_arg3 = U0 m c main_arg3 ∧ U4 m c main_arg3 = U0 m c main_arg3 ∧ U3 m c main_arg3 = U0 m c main_arg3 ∧ U2 m c main_arg3 = U0 m c main_arg3 ∧ U1 m c main_arg3 = U0 m c main_arg3 :=
  U9_launch m c main_arg3 (by decide) (by decide) (by decide) (by decide) (by decide) (by decide) (by decide) (by decide) (by decide)
theorem keep_arg4 : U9 m c main_arg4 = U0 m c main_arg4 ∧ U8 m c main_arg4 = U0 m c main_arg4 ∧ U7 m c main_arg4 = U0 m c main_arg4 ∧ U6 m c main_arg4 = U0 m c main_arg4 ∧ U5 m c main_arg4 = U0 m c main_arg4 ∧ U4 m c main_arg4 = U0 m c main_arg4 ∧ U3 m c main_arg4 = U0 m c main_arg4 ∧ U2 m c main_arg4 = U0 m c main_arg4 ∧ U1 m c main_arg4 = U0 m c main_arg4 :=
  U9_launch m c main_arg4 (by decide) (by decide) (by decide) (by decide) (by decide) (by decide) (by decide) (by decide) (by decide)
theorem keep_arg5 : U9 m c main_arg5 = U0 m c main_arg5 ∧ U8 m c main_arg5 = U0 m c main_arg5 ∧ U7 m c main_arg5 = U0 m c main_arg5 ∧ U6 m c main_arg5 = U0 m c main_arg5 ∧ U5 m c main_arg5 = U0 m c main_arg5 ∧ U4 m c main_arg5 = U0 m c main_arg5 ∧ U3 m c main_arg5 = U0 m c main_arg5 ∧ U2 m c main_arg5 = U0 m c main_arg5 ∧ U1 m c main_arg5 = U0 m c main_arg5 :=
  U9_launch m c main_arg5 (by decide) (by decide) (by decide) (by decide) (by decide) (by decide) (by decide) (by decide) (by decide)
theorem keep_arg6 : U9 m c main_arg6 = U0 m c main_arg6 ∧ U8 m c main_arg6 = U0 m c main_arg6 ∧ U7 m c main_arg6 = U0 m c main_arg6 ∧ U6 m c main_arg6 = U0 m c main_arg6 ∧ U5 m c main_arg6 = U0 m c main_arg6 ∧ U4 m c main_arg6 = U0 m c main_arg6 ∧ U3 m c main_arg6 = U0 m c main_arg6 ∧ U2 m c main_arg6 = U0 m c main_arg6 ∧ U1 m c main_arg6 = U0 m c main_arg6 :=
  U9_launch m c main_arg6 (by decide) (by decide) (by decide) (by decide) (by decide) (by decide) (by decide) (by decide) (by decide)
theorem keep_arg8 : U9 m c main_arg8 = U0 m c main_arg8 ∧ U8 m c main_arg8 = U0 m c main_arg8 ∧ U7 m c main_arg8 = U0 m c main_arg8 ∧ U6 m c main_arg8 = U0 m c main_arg8 ∧ U5 m c main_arg8 = U0 m c main_arg8 ∧ U4 m c main_arg8 = U0 m c main_arg8 ∧ U3 m c main_arg8 = U0 m c main_arg8 ∧ U2 m c main_arg8 = U0 m c main_arg8 ∧ U1 m c main_arg8 = U0 m c main_arg8 :=
  U9_launch m c main_arg8 (by decide) (by decide) (by decide) (by decide) (by decide) (by decide) (by decide) (by decide) (by decide)
theorem keep_arg9 : U9 m c main_arg9 = U0 m c main_arg9 ∧ U8 m c main_arg9 = U0 m c main_arg9 ∧ U7 m c main_arg9 = U0 m c main_arg9 ∧ U6 m c main_arg9 = U0 m c main_arg9 ∧ U5 m c main_arg9 = U0 m c main_arg9 ∧ U4 m c main_arg9 = U0 m c main_arg9 ∧ U3 m c main_arg9 = U0 m c main_arg9 ∧ U2 m c main_arg9 = U0 m c main_arg9 ∧ U1 m c main_arg9 = U0 m c main_arg9 :=
  U9_launch m c main_arg9 (by decide) (by decide) (by decide) (by decide) (by decide) (by decide) (by decide) (by decide) (by decide)
theorem keep_arg10 : U9 m c main_arg10 = U0 m c main_arg10 ∧ U8 m c main_arg10 = U0 m c main_arg10 ∧ U7 m c main_arg10 = U0 m c main_arg10 ∧ U6 m c main_arg10 = U0 m c main_arg10 ∧ U5 m c main_arg10 = U0 m c main_arg10 ∧ U4 m c main_arg10 = U0 m c main_arg10 ∧ U3 m c main_arg10 = U0 m c main_arg10 ∧ U2 m c main_arg10 = U0 m c main_arg10 ∧ U1 m c main_arg10 = U0 m c main_arg10 :=
  U9_launch m c main_arg10 (by decide) (by decide) (by decide) (by decide) (by decide) (by decide) (by decide) (by decide) (by decide)

/-! ## The first table: region 0's row sums, the first host stretch, region 1's product -/

theorem v0_at (i : Fin 8192) :
    (U1 m c main_v0 : S8192x1.Idx → EReal) (ix2 i (0 : Fin 1)) = Cert.Spec.rowSum (arg2d (U0 m c main_arg2 : S8192x8192.Idx → EReal)) i := by
  have e : (U1 m c main_v0 : S8192x1.Idx → EReal) = ((dat0 (F := Ideal) (rd (U0 m)) c).arrAt 1 cfg0.N : S8192x1.Idx → EReal) := upd_self _ main_v0 _
  rw [e]
  exact final0 (rd (U0 m)) c i

theorem v7_at (i : Fin 8192) (d : Fin 32) :
    (U3 m c main_v7 : S8192x32.Idx → EReal) (ix2 i d)
      = Cert.Spec.gcnS (arg2d (U0 m c main_arg2 : S8192x8192.Idx → EReal)) (arg2d (U0 m c main_arg0 : S8192x32.Idx → EReal))
          (arg2d (U0 m c main_arg5 : S32x32.Idx → EReal)) i d := by
  have e : (U3 m c main_v7 : S8192x32.Idx → EReal) = ((dat1 (F := Ideal) (rd (U2 m)) c).arrAt 3 cfg1.N : S8192x32.Idx → EReal) := upd_self _ main_v7 _
  rw [e, final1 (rd (U2 m)) c i d]
  unfold Cert.Spec.gcnS
  refine scaledProd_congr (fun p k => ?_) (fun k e => ?_) (fun r => ?_) i d
  · show (U2 m c main_arg2 : S8192x8192.Idx → EReal) (ix2 p k) = (U0 m c main_arg2 : S8192x8192.Idx → EReal) (ix2 p k)
    rw [(keep_arg2 m c).2.2.2.2.2.2.2.1]
  · refine (HostValue.stretch1_v6 (U1 m c) _ (v0_at m c) k e).trans ?_
    rw [(keep_arg0 m c).2.2.2.2.2.2.2.2, (keep_arg5 m c).2.2.2.2.2.2.2.2]
  · exact HostValue.stretch1_v3 (U1 m c) _ (v0_at m c) r

/-! ## The second table: region 2's row sums, the second host stretch, region 3's product -/

theorem v8_at (i : Fin 8192) :
    (U4 m c main_v8 : S8192x1.Idx → EReal) (ix2 i (0 : Fin 1)) = Cert.Spec.rowSum (arg2d (U0 m c main_arg4 : S8192x8192.Idx → EReal)) i := by
  have e : (U4 m c main_v8 : S8192x1.Idx → EReal) = ((dat2 (F := Ideal) (rd (U3 m)) c).arrAt 1 cfg2.N : S8192x1.Idx → EReal) := upd_self _ main_v8 _
  rw [e, final2 (rd (U3 m)) c i]
  show Cert.Spec.rowSum (arg2d (U3 m c main_arg4 : S8192x8192.Idx → EReal)) i = _
  rw [(keep_arg4 m c).2.2.2.2.2.2.1]

theorem v15_at (i : Fin 8192) (d : Fin 32) :
    (U6 m c main_v15 : S8192x32.Idx → EReal) (ix2 i d)
      = Cert.Spec.gcnS (arg2d (U0 m c main_arg4 : S8192x8192.Idx → EReal)) (arg2d (U0 m c main_arg1 : S8192x32.Idx → EReal))
          (arg2d (U0 m c main_arg5 : S32x32.Idx → EReal)) i d := by
  have e : (U6 m c main_v15 : S8192x32.Idx → EReal) = ((dat3 (F := Ideal) (rd (U5 m)) c).arrAt 3 cfg3.N : S8192x32.Idx → EReal) := upd_self _ main_v15 _
  rw [e, final3 (rd (U5 m)) c i d]
  unfold Cert.Spec.gcnS
  refine scaledProd_congr (fun p k => ?_) (fun k e => ?_) (fun r => ?_) i d
  · show (U5 m c main_arg4 : S8192x8192.Idx → EReal) (ix2 p k) = (U0 m c main_arg4 : S8192x8192.Idx → EReal) (ix2 p k)
    rw [(keep_arg4 m c).2.2.2.2.1]
  · refine (HostValue.stretch3_v14 (U4 m c) _ (v8_at m c) k e).trans ?_
    rw [(keep_arg1 m c).2.2.2.2.2.1, (keep_arg5 m c).2.2.2.2.2.1]
  · exact HostValue.stretch3_v11 (U4 m c) _ (v8_at m c) r

/-! ## The third table: region 4's row sums and band column sums, the third host stretch, region 5's product -/

theorem v16_0_at (i : Fin 8192) :
    (U7 m c main_v16_0 : S8192x1.Idx → EReal) (ix2 i (0 : Fin 1)) = Cert.Spec.rowSum (arg2d (U0 m c main_arg3 : S8192x8192.Idx → EReal)) i := by
  have e : (U7 m c main_v16_0 : S8192x1.Idx → EReal) = ((dat4 (F := Ideal) (rd (U6 m)) c).arrAt 1 cfg4.N : S8192x1.Idx → EReal) :=
    (upd_ne _ main_v16_1 main_v16_0 _ (by decide)).trans (upd_self _ main_v16_0 _)
  rw [e, final4_1 (rd (U6 m)) c i]
  show Cert.Spec.rowSum (arg2d (U6 m c main_arg3 : S8192x8192.Idx → EReal)) i = _
  rw [(keep_arg3 m c).2.2.2.1]

theorem v16_1_at (t : Fin 8) (b : Fin 8) (j : Fin 8192) :
    (U7 m c main_v16_1 : S8x8x8192.Idx → EReal) (ix3 t b j) = Cert.Spec.bandColSum (arg2d (U0 m c main_arg3 : S8192x8192.Idx → EReal)) t j := by
  have e : (U7 m c main_v16_1 : S8x8x8192.Idx → EReal) = ((dat4 (F := Ideal) (rd (U6 m)) c).arrAt 2 cfg4.N : S8x8x8192.Idx → EReal) := upd_self _ main_v16_1 _
  rw [e, final4_2 (rd (U6 m)) c t b j]
  show Cert.Spec.bandColSum (arg2d (U6 m c main_arg3 : S8192x8192.Idx → EReal)) t j = _
  rw [(keep_arg3 m c).2.2.2.1]

theorem v27_at (i : Fin 8192) (d : Fin 32) :
    (U9 m c main_v27 : S8192x32.Idx → EReal) (ix2 i d)
      = Cert.Spec.gcnC (arg2d (U0 m c main_arg3 : S8192x8192.Idx → EReal)) (arg2d (U0 m c main_arg0 : S8192x32.Idx → EReal))
          (arg2d (U0 m c main_arg6 : S32x32.Idx → EReal)) (arg2d (U0 m c main_arg8 : S32x32.Idx → EReal)) i d := by
  have e : (U9 m c main_v27 : S8192x32.Idx → EReal) = ((dat5 (F := Ideal) (rd (U8 m)) c).arrAt 3 cfg5.N : S8192x32.Idx → EReal) := upd_self _ main_v27 _
  rw [e, final5 (rd (U8 m)) c i d]
  unfold Cert.Spec.gcnC
  refine scaledProd_congr (fun p k => ?_) (fun k e => ?_) (fun r => ?_) i d
  · show (U8 m c main_arg3 : S8192x8192.Idx → EReal) (ix2 p k) = (U0 m c main_arg3 : S8192x8192.Idx → EReal) (ix2 p k)
    rw [(keep_arg3 m c).2.1]
  · refine (HostValue.stretch5_v26 (U7 m c) _ (v16_1_at m c) k e).trans ?_
    rw [(keep_arg0 m c).2.2.1, (keep_arg6 m c).2.2.1, (keep_arg8 m c).2.2.1]
  · exact HostValue.stretch5_v20 (U7 m c) _ (v16_0_at m c) r

end Cert.KernelIdeal.Hand

end
-- ==== Proof.KI.TailValue.lean ====
/-
  The last five host stretches of the kernel's program — the shared attention head — read as functions of the
  buffers they start from: each of the two graph-convolution tables is concatenated with the features,
  passed through the linear layer and the rectifier, and contracted with the attention vector to one column
  of logits; the two columns are joined, a softmax is taken along the pair, and each table is scaled by its
  column of weights; the results are the two scaled tables and their sum.
-/
import proofs.«108817_j44229573214371_2_alg».proof.Proof.Gen.KernelIdeal.Regions
import Idealize.ShloMosaic.Lib.StableHlo.Run
import Idealize.ShloMosaic.PureOps.Ideal

noncomputable section

namespace Cert.KernelIdeal.HostTail

open Cert.KernelIdeal Cert.KernelIdeal.Gen
open Idealize.ShloMosaic Idealize.ShloMosaic.TcCoe Idealize.SL.Sem Idealize.ShloMosaic.StableHlo

/-- One column of logits: the table joined with the features, the linear layer, the rectifier, the attention vector. -/
def logit (c xc : FVec Ideal S8192x32 .f32) (wl : FVec Ideal S64x32 .f32) (av : FVec Ideal S32x1 .f32) : FVec Ideal S8192x1 .f32 :=
  Host.dotGeneral (F := Ideal) dot_S8192x32_S32x1_S8192x1_1_0_0_1_n_n none
    (maximumf
      (Host.dotGeneral (F := Ideal) dot_S8192x64_S64x32_S8192x32_1_0_0_1_n_n none
        (concatenate S8192x64 1 [⟨S8192x32, c⟩, ⟨S8192x32, xc⟩] concatenates_S8192x32_S8192x32_S8192x64_d1) wl)
      (broadcastInDim S8192x32 ![] bcast_S_S8192x32 (constant (F := Ideal) S_ .f32 0x00000000#32)))
    av

/-- A buffer's contents named as an f32 array of a given shape. -/
abbrev asV (s : Shape) (x : s.Idx → Ideal .f32) : FVec Ideal s .f32 := x

variable (W : Valuation τ sig (Elt Ideal))

theorem s6_v29 : StableHlo.after hostOps6 W main_v29 =
    Host.dotGeneral (F := Ideal) dot_S8192x64_S64x32_S8192x32_1_0_0_1_n_n none
      (concatenate S8192x64 1 [⟨S8192x32, asV S8192x32 (W main_v15)⟩, ⟨S8192x32, asV S8192x32 (W main_arg1)⟩] concatenates_S8192x32_S8192x32_S8192x64_d1) (asV S64x32 (W main_arg9)) := by
  after_results <;> rfl

theorem s6_1_v30 : StableHlo.after hostOps6_1 W main_v30 =
    maximumf (asV S8192x32 (W main_v29)) (broadcastInDim S8192x32 ![] bcast_S_S8192x32 (constant (F := Ideal) S_ .f32 0x00000000#32)) := by
  after_results <;> rfl

theorem s6_2_v31 : StableHlo.after hostOps6_2 W main_v31 =
    Host.dotGeneral (F := Ideal) dot_S8192x32_S32x1_S8192x1_1_0_0_1_n_n none (asV S8192x32 (W main_v30)) (asV S32x1 (W main_arg10)) := by
  after_results <;> rfl

theorem s6_2_v33 : StableHlo.after hostOps6_2 W main_v33 =
    Host.dotGeneral (F := Ideal) dot_S8192x64_S64x32_S8192x32_1_0_0_1_n_n none
      (concatenate S8192x64 1 [⟨S8192x32, asV S8192x32 (W main_v27)⟩, ⟨S8192x32, asV S8192x32 (W main_arg1)⟩] concatenates_S8192x32_S8192x32_S8192x64_d1) (asV S64x32 (W main_arg9)) := by
  after_results <;> rfl

theorem s6_3_v34 : StableHlo.after hostOps6_3 W main_v34 =
    maximumf (asV S8192x32 (W main_v33)) (broadcastInDim S8192x32 ![] bcast_S_S8192x32 (constant (F := Ideal) S_ .f32 0x00000000#32)) := by
  after_results <;> rfl

/-- The softmax along the pair of logit columns: the pair joined, its row maximum (never below minus infinity)
    subtracted, exponentials, divided by their row sum. -/
def weights (l1 l2 : FVec Ideal S8192x1 .f32) : FVec Ideal S8192x2 .f32 :=
  Host.divf (F := Ideal)
    (Host.exp (F := Ideal)
      (subf (concatenate S8192x2 1 [⟨S8192x1, l1⟩, ⟨S8192x1, l2⟩] concatenates_S8192x1_S8192x1_S8192x2_d1)
        (broadcastInDim S8192x2 ![0, 1] bcast_S8192x1_S8192x2_0_1
          (broadcastInDim S8192x1 ![0] bcast_S8192_S8192x1_0
            (maximumf (broadcastInDim S8192 ![] bcast_S_S8192 (constant (F := Ideal) S_ .f32 0xFF800000#32))
              (Host.reduce FloatOps.maximumf
                (concatenate S8192x2 1 [⟨S8192x1, l1⟩, ⟨S8192x1, l2⟩] concatenates_S8192x1_S8192x1_S8192x2_d1)
                (constant (F := Ideal) S_ .f32 0xFF800000#32) reducesTo_S8192x2_S8192_d1 h_S_))))))
    (broadcastInDim S8192x2 ![0, 1] bcast_S8192x1_S8192x2_0_1
      (broadcastInDim S8192x1 ![0] bcast_S8192_S8192x1_0
        (Host.reduceAdd (F := Ideal)
          (Host.exp (F := Ideal)
            (subf (concatenate S8192x2 1 [⟨S8192x1, l1⟩, ⟨S8192x1, l2⟩] concatenates_S8192x1_S8192x1_S8192x2_d1)
              (broadcastInDim S8192x2 ![0, 1] bcast_S8192x1_S8192x2_0_1
                (broadcastInDim S8192x1 ![0] bcast_S8192_S8192x1_0
                  (maximumf (broadcastInDim S8192 ![] bcast_S_S8192 (constant (F := Ideal) S_ .f32 0xFF800000#32))
                    (Host.reduce FloatOps.maximumf
                      (concatenate S8192x2 1 [⟨S8192x1, l1⟩, ⟨S8192x1, l2⟩] concatenates_S8192x1_S8192x1_S8192x2_d1)
                      (constant (F := Ideal) S_ .f32 0xFF800000#32) reducesTo_S8192x2_S8192_d1 h_S_))))))
          (constant (F := Ideal) S_ .f32 0x00000000#32) reducesTo_S8192x2_S8192_d1 h_S_)))

/-- The first table scaled by the first column of weights. -/
def scaledFirst (c1 : FVec Ideal S8192x32 .f32) (l1 l2 : FVec Ideal S8192x1 .f32) : FVec Ideal S8192x32 .f32 :=
  mulf (broadcastInDim S8192x32 ![0, 1] bcast_S8192x1_S8192x32_0_1
    (extractStridedSlice S8192x1 ![0, 0] (weights l1 l2) slices_S8192x2_S8192x1_0_0)) c1

/-- The second table scaled by the second column of weights. -/
def scaledSecond (c2 : FVec Ideal S8192x32 .f32) (l1 l2 : FVec Ideal S8192x1 .f32) : FVec Ideal S8192x32 .f32 :=
  mulf (broadcastInDim S8192x32 ![0, 1] bcast_S8192x1_S8192x32_0_1
    (extractStridedSlice S8192x1 ![0, 1] (weights l1 l2) slices_S8192x2_S8192x1_0_1)) c2

theorem s6_4_v50 : StableHlo.after hostOps6_4 W main_v50 =
    scaledFirst (asV S8192x32 (W main_v15)) (asV S8192x1 (W main_v31))
      (Host.dotGeneral (F := Ideal) dot_S8192x32_S32x1_S8192x1_1_0_0_1_n_n none (asV S8192x32 (W main_v34)) (asV S32x1 (W main_arg10))) := by
  after_results_simp <;> rfl

theorem s6_4_v53 : StableHlo.after hostOps6_4 W main_v53 =
    scaledSecond (asV S8192x32 (W main_v27)) (asV S8192x1 (W main_v31))
      (Host.dotGeneral (F := Ideal) dot_S8192x32_S32x1_S8192x1_1_0_0_1_n_n none (asV S8192x32 (W main_v34)) (asV S32x1 (W main_arg10))) := by
  after_results_simp <;> rfl

theorem s6_4_v54 : StableHlo.after hostOps6_4 W main_v54 =
    addf
      (scaledFirst (asV S8192x32 (W main_v15)) (asV S8192x1 (W main_v31))
        (Host.dotGeneral (F := Ideal) dot_S8192x32_S32x1_S8192x1_1_0_0_1_n_n none (asV S8192x32 (W main_v34)) (asV S32x1 (W main_arg10))))
      (scaledSecond (asV S8192x32 (W main_v27)) (asV S8192x1 (W main_v31))
        (Host.dotGeneral (F := Ideal) dot_S8192x32_S32x1_S8192x1_1_0_0_1_n_n none (asV S8192x32 (W main_v34)) (asV S32x1 (W main_arg10)))) := by
  after_results_simp <;> rfl

/-! ## What each stretch leaves alone, and the five stretches in order -/

theorem keep6 (r : Ref sig .tc) (h : r ∉ hostOps6_W) : StableHlo.after hostOps6 W r = W r :=
  StableHlo.after_of_writes_sub hostOps6 _ hostOps6_writes h
theorem keep6_1 (r : Ref sig .tc) (h : r ∉ hostOps6_1_W) : StableHlo.after hostOps6_1 W r = W r :=
  StableHlo.after_of_writes_sub hostOps6_1 _ hostOps6_1_writes h
theorem keep6_2 (r : Ref sig .tc) (h : r ∉ hostOps6_2_W) : StableHlo.after hostOps6_2 W r = W r :=
  StableHlo.after_of_writes_sub hostOps6_2 _ hostOps6_2_writes h
theorem keep6_3 (r : Ref sig .tc) (h : r ∉ hostOps6_3_W) : StableHlo.after hostOps6_3 W r = W r :=
  StableHlo.after_of_writes_sub hostOps6_3 _ hostOps6_3_writes h

/-- The buffers before the last stretch: the first four stretches in order. -/
abbrev after4 : Valuation τ sig (Elt Ideal) :=
  StableHlo.after hostOps6_3 (StableHlo.after hostOps6_2 (StableHlo.after hostOps6_1 (StableHlo.after hostOps6 W)))

theorem after4_keep (r : Ref sig .tc) (h3 : r ∉ hostOps6_3_W) (h2 : r ∉ hostOps6_2_W) (h1 : r ∉ hostOps6_1_W) (h0 : r ∉ hostOps6_W) :
    after4 W r = W r := by
  rw [after4, keep6_3 _ r h3, keep6_2 _ r h2, keep6_1 _ r h1, keep6 _ r h0]

/-- The first column of logits is ready after the third stretch and left alone by the fourth. -/
theorem after4_v31 : after4 W main_v31 =
    logit (asV S8192x32 (W main_v15)) (asV S8192x32 (W main_arg1)) (asV S64x32 (W main_arg9)) (asV S32x1 (W main_arg10)) := by
  rw [after4, keep6_3 _ main_v31 (by decide), s6_2_v31, s6_1_v30, s6_v29, keep6_1 _ main_arg10 (by decide), keep6 _ main_arg10 (by decide)]
  rfl

/-- The second table after the rectifier, before its contraction with the attention vector. -/
theorem after4_v34 : after4 W main_v34 =
    maximumf
      (Host.dotGeneral (F := Ideal) dot_S8192x64_S64x32_S8192x32_1_0_0_1_n_n none
        (concatenate S8192x64 1 [⟨S8192x32, asV S8192x32 (W main_v27)⟩, ⟨S8192x32, asV S8192x32 (W main_arg1)⟩] concatenates_S8192x32_S8192x32_S8192x64_d1)
        (asV S64x32 (W main_arg9)))
      (broadcastInDim S8192x32 ![] bcast_S_S8192x32 (constant (F := Ideal) S_ .f32 0x00000000#32)) := by
  rw [after4, s6_3_v34, s6_2_v33,
    keep6_1 _ main_v27 (by decide), keep6 _ main_v27 (by decide),
    keep6_1 _ main_arg1 (by decide), keep6 _ main_arg1 (by decide),
    keep6_1 _ main_arg9 (by decide), keep6 _ main_arg9 (by decide)]

/-- The three results of the attention head, from the buffers before its first stretch. -/
theorem tail_v50 : StableHlo.after hostOps6_4 (after4 W) main_v50 =
    scaledFirst (asV S8192x32 (W main_v15))
      (logit (asV S8192x32 (W main_v15)) (asV S8192x32 (W main_arg1)) (asV S64x32 (W main_arg9)) (asV S32x1 (W main_arg10)))
      (logit (asV S8192x32 (W main_v27)) (asV S8192x32 (W main_arg1)) (asV S64x32 (W main_arg9)) (asV S32x1 (W main_arg10))) := by
  rw [s6_4_v50, after4_v31, after4_v34, after4_keep W main_v15 (by decide) (by decide) (by decide) (by decide),
    after4_keep W main_arg10 (by decide) (by decide) (by decide) (by decide)]
  rfl

theorem tail_v53 : StableHlo.after hostOps6_4 (after4 W) main_v53 =
    scaledSecond (asV S8192x32 (W main_v27))
      (logit (asV S8192x32 (W main_v15)) (asV S8192x32 (W main_arg1)) (asV S64x32 (W main_arg9)) (asV S32x1 (W main_arg10)))
      (logit (asV S8192x32 (W main_v27)) (asV S8192x32 (W main_arg1)) (asV S64x32 (W main_arg9)) (asV S32x1 (W main_arg10))) := by
  rw [s6_4_v53, after4_v31, after4_v34, after4_keep W main_v27 (by decide) (by decide) (by decide) (by decide),
    after4_keep W main_arg10 (by decide) (by decide) (by decide) (by decide)]
  rfl

theorem tail_v54 : StableHlo.after hostOps6_4 (after4 W) main_v54 =
    addf
      (scaledFirst (asV S8192x32 (W main_v15))
        (logit (asV S8192x32 (W main_v15)) (asV S8192x32 (W main_arg1)) (asV S64x32 (W main_arg9)) (asV S32x1 (W main_arg10)))
        (logit (asV S8192x32 (W main_v27)) (asV S8192x32 (W main_arg1)) (asV S64x32 (W main_arg9)) (asV S32x1 (W main_arg10))))
      (scaledSecond (asV S8192x32 (W main_v27))
        (logit (asV S8192x32 (W main_v15)) (asV S8192x32 (W main_arg1)) (asV S64x32 (W main_arg9)) (asV S32x1 (W main_arg10)))
        (logit (asV S8192x32 (W main_v27)) (asV S8192x32 (W main_arg1)) (asV S64x32 (W main_arg9)) (asV S32x1 (W main_arg10)))) := by
  rw [s6_4_v54, after4_v31, after4_v34, after4_keep W main_v15 (by decide) (by decide) (by decide) (by decide),
    after4_keep W main_v27 (by decide) (by decide) (by decide) (by decide),
    after4_keep W main_arg10 (by decide) (by decide) (by decide) (by decide)]
  rfl

end Cert.KernelIdeal.HostTail

end
-- ==== Proof.RefGcn.lean ====
/-
  The reference's two graph-convolution terms, entry by entry, over variable arrays.

  On the host at the ideal values: a sum over one axis of a square matrix from the zero word is 0 plus the row sum
  (axis 1) or the column sum (axis 0); the reciprocal square root is taken entry by entry; a vector broadcast first
  to a column and then along the rows is read at the row's entry; a plain matrix product read at (p, c) is the sum
  over the contracted axis of l (p, k) * r (k, c); an entrywise product is the product of the entries.  Putting these
  together, each term at (i, d) is  scale_i * (sum_k a (i, k) * (scale'_k * proj (k, d)))  and the shared
  specification writes the row's scale on the right: the two agree because products of extended reals commute.
  Nothing here needs finiteness, and distributivity is not used.
-/
import proofs.«108817_j44229573214371_2_alg».proof.Proof.Gen.ReferenceIdeal
import proofs.«108817_j44229573214371_2_alg».proof.Proof.Spec
import proofs.«108817_j44229573214371_2_alg».proof.Proof.LibPlainDot
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-! ## Entrywise operations at an entry -/

theorem mulf_at {s : Shape} (u v : FVec Ideal s .f32) (j : s.Idx) : mulf u v j = u j * v j := rfl
theorem addf_at {s : Shape} (u v : FVec Ideal s .f32) (j : s.Idx) : addf u v j = u j + v j := rfl
theorem rsqrt_at {s : Shape} (u : FVec Ideal s .f32) (j : s.Idx) : Host.rsqrt u j = Ideal.rsqrt (u j) := rfl

/-! ## Layout reads -/

/-- A scalar constant broadcast to a vector is the constant at every entry. -/
theorem oneVec_at (j : S8192.Idx) :
    broadcastInDim S8192 ![] bcast_S_S8192 (constant (F := Ideal) S_ .f32 0x3F800000#32) j = Cert.Spec.one :=
  broadcastInDim_apply _ bcast_S_S8192 (constant (F := Ideal) S_ .f32 0x3F800000#32) j (fun b => b.elim0) (fun b => b.elim0)

/-- A vector made a column and then repeated along the rows, read at (i, d), is the vector at i. -/
theorem colBcast_at (v : FVec Ideal S8192 .f32) (i : Fin 8192) (d : Fin 32) :
    broadcastInDim S8192x32 ![0, 1] bcast_S8192x1_S8192x32_0_1 (broadcastInDim S8192x1 ![0] bcast_S8192_S8192x1_0 v) (ix2 i d)
      = v (ix1 i) := by
  rw [broadcastInDim_apply _ bcast_S8192x1_S8192x32_0_1 _ (ix2 i d) (ix2 i (0 : Fin 1)) (fun b => match b with
    | ⟨0, _⟩ => by show i.val = if (8192 : Nat) = 1 then 0 else i.val; rw [if_neg (by decide)]
    | ⟨1, _⟩ => by show 0 = if (1 : Nat) = 1 then 0 else d.val; rw [if_pos rfl])]
  exact broadcastInDim_apply _ bcast_S8192_S8192x1_0 v (ix2 i (0 : Fin 1)) (ix1 i) (fun b => match b with
    | ⟨0, _⟩ => by show i.val = if (8192 : Nat) = 1 then 0 else i.val; rw [if_neg (by decide)])

/-! ## The two sums of a square matrix -/

/-- The host's sum over axis 1 from the zero word, at row i, is the row sum. -/
theorem rowReduce_at (a : FVec Ideal S8192x8192 .f32) (i : Fin 8192) :
    Host.reduceAdd a (constant S_ .f32 0x00000000#32) reducesTo_S8192x8192_S8192_d1 h_S_ (ix1 i)
      = Cert.Spec.rowSum (fun p q => a (ix2 p q)) i := by
  simp only [Host.reduceAdd, Ideal.hostReduceAdd_def]
  rw [Ideal.hostReduceAdd_single reducesTo_S8192x8192_S8192_d1 (by decide)]
  refine Eq.trans (congrArg (· + _) (show _ = (0 : EReal) from Ideal.ofBits_zero_f32)) ?_
  rw [zero_add]
  refine Finset.sum_congr rfl fun k _ => ?_
  exact congrArg a (funext fun b => Fin.ext (by match b with | ⟨0, _⟩ => rfl | ⟨1, _⟩ => rfl))

/-- The host's sum over axis 0 from the zero word, at column j, is the column sum. -/
theorem colReduce_at (a : FVec Ideal S8192x8192 .f32) (j : Fin 8192) :
    Host.reduceAdd a (constant S_ .f32 0x00000000#32) reducesTo_S8192x8192_S8192_d0 h_S_ (ix1 j)
      = Cert.Spec.colSum (fun p q => a (ix2 p q)) j := by
  simp only [Host.reduceAdd, Ideal.hostReduceAdd_def]
  rw [Ideal.hostReduceAdd_single reducesTo_S8192x8192_S8192_d0 (by decide)]
  refine Eq.trans (congrArg (· + _) (show _ = (0 : EReal) from Ideal.ofBits_zero_f32)) ?_
  rw [zero_add]
  refine Finset.sum_congr rfl fun k _ => ?_
  exact congrArg a (funext fun b => Fin.ext (by match b with | ⟨0, _⟩ => rfl | ⟨1, _⟩ => rfl))

/-! ## The two matrix products -/

theorem plain_big : Cert.LibPlainDot.Plain dot_S8192x8192_S8192x32_S8192x32_1_0_0_1_n_n := ⟨rfl, rfl, rfl, rfl, rfl, rfl⟩
theorem plain_small : Cert.LibPlainDot.Plain dot_S8192x32_S32x32_S8192x32_1_0_0_1_n_n := ⟨rfl, rfl, rfl, rfl, rfl, rfl⟩

/-- The [8192, 8192] x [8192, 32] product at (i, d). -/
theorem bigDot_at (l : FVec Ideal S8192x8192 .f32) (r : FVec Ideal S8192x32 .f32) (i : Fin 8192) (d : Fin 32) :
    Host.dotGeneral dot_S8192x8192_S8192x32_S8192x32_1_0_0_1_n_n none l r (ix2 i d) = ∑ k : Fin 8192, l (ix2 i k) * r (ix2 k d) := by
  simp only [Host.dotGeneral]
  exact plain_big.dotGeneral_apply none _ l r i d

/-- The [8192, 32] x [32, 32] product at (k, d). -/
theorem smallDot_at (l : FVec Ideal S8192x32 .f32) (r : FVec Ideal S32x32 .f32) (k : Fin 8192) (d : Fin 32) :
    Host.dotGeneral dot_S8192x32_S32x32_S8192x32_1_0_0_1_n_n none l r (ix2 k d) = ∑ j : Fin 32, l (ix2 k j) * r (ix2 j d) := by
  simp only [Host.dotGeneral]
  exact plain_small.dotGeneral_apply none _ l r k d

/-- The projection of a table, as the specification writes it. -/
theorem proj_at (x : FVec Ideal S8192x32 .f32) (w : FVec Ideal S32x32 .f32) (k : Fin 8192) (d : Fin 32) :
    Host.dotGeneral dot_S8192x32_S32x32_S8192x32_1_0_0_1_n_n none x w (ix2 k d)
      = Cert.Spec.proj (fun p q => x (ix2 p q)) (fun p q => w (ix2 p q)) k d :=
  smallDot_at x w k d

/-! ## The scales -/

/-- (1 + row sum)^(-1/2) at row i. -/
theorem dinvS_at (a : FVec Ideal S8192x8192 .f32) (i : Fin 8192) :
    Host.rsqrt (addf (broadcastInDim S8192 ![] bcast_S_S8192 (constant S_ .f32 0x3F800000#32)) (Host.reduceAdd a (constant S_ .f32 0x00000000#32) reducesTo_S8192x8192_S8192_d1 h_S_)) (ix1 i)
      = Cert.Spec.dinvS (fun p q => a (ix2 p q)) i := by
  rw [rsqrt_at, addf_at, oneVec_at, rowReduce_at]
  rfl

/-- (row sum)^(-1/2) at row i. -/
theorem rsRow_at (a : FVec Ideal S8192x8192 .f32) (i : Fin 8192) :
    Host.rsqrt (Host.reduceAdd a (constant S_ .f32 0x00000000#32) reducesTo_S8192x8192_S8192_d1 h_S_) (ix1 i)
      = Ideal.rsqrt (Cert.Spec.rowSum (fun p q => a (ix2 p q)) i) := by
  rw [rsqrt_at, rowReduce_at]

/-- (column sum)^(-1/2) at column j. -/
theorem rsCol_at (a : FVec Ideal S8192x8192 .f32) (j : Fin 8192) :
    Host.rsqrt (Host.reduceAdd a (constant S_ .f32 0x00000000#32) reducesTo_S8192x8192_S8192_d0 h_S_) (ix1 j)
      = Ideal.rsqrt (Cert.Spec.colSum (fun p q => a (ix2 p q)) j) := by
  rw [rsqrt_at, colReduce_at]

/-! ## The two terms -/

/-- D^(-1/2) A D^(-1/2) (X W), D = 1 + row sums: the reference's term at (i, d) is the specification's. -/
theorem ref_gcnS (a : FVec Ideal S8192x8192 .f32) (x : FVec Ideal S8192x32 .f32) (w : FVec Ideal S32x32 .f32)
    (i : Fin 8192) (d : Fin 32) :
    (mulf (broadcastInDim S8192x32 ![0, 1] bcast_S8192x1_S8192x32_0_1 (broadcastInDim S8192x1 ![0] bcast_S8192_S8192x1_0 (Host.rsqrt (addf (broadcastInDim S8192 ![] bcast_S_S8192 (constant S_ .f32 0x3F800000#32)) (Host.reduceAdd a (constant S_ .f32 0x00000000#32) reducesTo_S8192x8192_S8192_d1 h_S_))))) (Host.dotGeneral dot_S8192x8192_S8192x32_S8192x32_1_0_0_1_n_n none a (mulf (broadcastInDim S8192x32 ![0, 1] bcast_S8192x1_S8192x32_0_1 (broadcastInDim S8192x1 ![0] bcast_S8192_S8192x1_0 (Host.rsqrt (addf (broadcastInDim S8192 ![] bcast_S_S8192 (constant S_ .f32 0x3F800000#32)) (Host.reduceAdd a (constant S_ .f32 0x00000000#32) reducesTo_S8192x8192_S8192_d1 h_S_))))) (Host.dotGeneral dot_S8192x32_S32x32_S8192x32_1_0_0_1_n_n none x w)))) (ix2 i d)
      = Cert.Spec.gcnS (fun p q => a (ix2 p q)) (fun p q => x (ix2 p q)) (fun p q => w (ix2 p q)) i d := by
  rw [mulf_at, colBcast_at, dinvS_at, bigDot_at]
  unfold Cert.Spec.gcnS Cert.Spec.scaledProd
  refine Eq.trans (mul_comm (G := EReal) _ _) (congrArg (· * _) (Finset.sum_congr rfl fun k _ => ?_))
  rw [mulf_at, colBcast_at, dinvS_at, proj_at]

/-- Du^(-1/2) A Dc^(-1/2) ((X P) W), Du the row sums and Dc the column sums: the reference's term at (i, d) is the
    specification's. -/
theorem ref_gcnC (a : FVec Ideal S8192x8192 .f32) (x : FVec Ideal S8192x32 .f32) (p w : FVec Ideal S32x32 .f32)
    (i : Fin 8192) (d : Fin 32) :
    (mulf (broadcastInDim S8192x32 ![0, 1] bcast_S8192x1_S8192x32_0_1 (broadcastInDim S8192x1 ![0] bcast_S8192_S8192x1_0 (Host.rsqrt (Host.reduceAdd a (constant S_ .f32 0x00000000#32) reducesTo_S8192x8192_S8192_d1 h_S_)))) (Host.dotGeneral dot_S8192x8192_S8192x32_S8192x32_1_0_0_1_n_n none a (mulf (broadcastInDim S8192x32 ![0, 1] bcast_S8192x1_S8192x32_0_1 (broadcastInDim S8192x1 ![0] bcast_S8192_S8192x1_0 (Host.rsqrt (Host.reduceAdd a (constant S_ .f32 0x00000000#32) reducesTo_S8192x8192_S8192_d0 h_S_)))) (Host.dotGeneral dot_S8192x32_S32x32_S8192x32_1_0_0_1_n_n none (Host.dotGeneral dot_S8192x32_S32x32_S8192x32_1_0_0_1_n_n none x p) w)))) (ix2 i d)
      = Cert.Spec.gcnC (fun p' q => a (ix2 p' q)) (fun p' q => x (ix2 p' q)) (fun p' q => p (ix2 p' q)) (fun p' q => w (ix2 p' q)) i d := by
  rw [mulf_at, colBcast_at, rsRow_at, bigDot_at]
  have hp : ∀ k e, Host.dotGeneral dot_S8192x32_S32x32_S8192x32_1_0_0_1_n_n none (Host.dotGeneral dot_S8192x32_S32x32_S8192x32_1_0_0_1_n_n none x p) w (ix2 k e)
      = Cert.Spec.proj (Cert.Spec.proj (fun p' q => x (ix2 p' q)) (fun p' q => p (ix2 p' q))) (fun p' q => w (ix2 p' q)) k e := fun k e => by
    rw [smallDot_at]
    unfold Cert.Spec.proj
    exact Finset.sum_congr rfl fun j _ => by rw [smallDot_at]
  unfold Cert.Spec.gcnC Cert.Spec.scaledProd
  refine Eq.trans (mul_comm (G := EReal) _ _) (congrArg (· * _) (Finset.sum_congr rfl fun k _ => ?_))
  rw [mulf_at, colBcast_at, rsCol_at, hp]

/-! ## The same at any index, and as whole arrays -/

/-- Every index of a rank-2 array is the pair of its coordinates. -/
theorem idx_eq_ix2 (j : S8192x32.Idx) : j = ix2 (⟨(j 0).val, idx2_lt0 j⟩ : Fin 8192) (⟨(j 1).val, idx2_lt1 j⟩ : Fin 32) :=
  funext fun b => match b with | ⟨0, _⟩ => rfl | ⟨1, _⟩ => rfl

/-- The first term, named. -/
def gcnSTerm (a : FVec Ideal S8192x8192 .f32) (x : FVec Ideal S8192x32 .f32) (w : FVec Ideal S32x32 .f32) : FVec Ideal S8192x32 .f32 :=
  mulf (broadcastInDim S8192x32 ![0, 1] bcast_S8192x1_S8192x32_0_1 (broadcastInDim S8192x1 ![0] bcast_S8192_S8192x1_0 (Host.rsqrt (addf (broadcastInDim S8192 ![] bcast_S_S8192 (constant S_ .f32 0x3F800000#32)) (Host.reduceAdd a (constant S_ .f32 0x00000000#32) reducesTo_S8192x8192_S8192_d1 h_S_))))) (Host.dotGeneral dot_S8192x8192_S8192x32_S8192x32_1_0_0_1_n_n none a (mulf (broadcastInDim S8192x32 ![0, 1] bcast_S8192x1_S8192x32_0_1 (broadcastInDim S8192x1 ![0] bcast_S8192_S8192x1_0 (Host.rsqrt (addf (broadcastInDim S8192 ![] bcast_S_S8192 (constant S_ .f32 0x3F800000#32)) (Host.reduceAdd a (constant S_ .f32 0x00000000#32) reducesTo_S8192x8192_S8192_d1 h_S_))))) (Host.dotGeneral dot_S8192x32_S32x32_S8192x32_1_0_0_1_n_n none x w)))

/-- The second term, named. -/
def gcnCTerm (a : FVec Ideal S8192x8192 .f32) (x : FVec Ideal S8192x32 .f32) (p w : FVec Ideal S32x32 .f32) : FVec Ideal S8192x32 .f32 :=
  mulf (broadcastInDim S8192x32 ![0, 1] bcast_S8192x1_S8192x32_0_1 (broadcastInDim S8192x1 ![0] bcast_S8192_S8192x1_0 (Host.rsqrt (Host.reduceAdd a (constant S_ .f32 0x00000000#32) reducesTo_S8192x8192_S8192_d1 h_S_)))) (Host.dotGeneral dot_S8192x8192_S8192x32_S8192x32_1_0_0_1_n_n none a (mulf (broadcastInDim S8192x32 ![0, 1] bcast_S8192x1_S8192x32_0_1 (broadcastInDim S8192x1 ![0] bcast_S8192_S8192x1_0 (Host.rsqrt (Host.reduceAdd a (constant S_ .f32 0x00000000#32) reducesTo_S8192x8192_S8192_d0 h_S_)))) (Host.dotGeneral dot_S8192x32_S32x32_S8192x32_1_0_0_1_n_n none (Host.dotGeneral dot_S8192x32_S32x32_S8192x32_1_0_0_1_n_n none x p) w)))

/-- The first term at (i, d) is the specification's. -/
theorem gcnSTerm_apply (a : FVec Ideal S8192x8192 .f32) (x : FVec Ideal S8192x32 .f32) (w : FVec Ideal S32x32 .f32) (i : Fin 8192) (d : Fin 32) :
    gcnSTerm a x w (ix2 i d) = Cert.Spec.gcnS (fun p q => a (ix2 p q)) (fun p q => x (ix2 p q)) (fun p q => w (ix2 p q)) i d :=
  ref_gcnS a x w i d

/-- The second term at (i, d) is the specification's. -/
theorem gcnCTerm_apply (a : FVec Ideal S8192x8192 .f32) (x : FVec Ideal S8192x32 .f32) (p w : FVec Ideal S32x32 .f32) (i : Fin 8192) (d : Fin 32) :
    gcnCTerm a x p w (ix2 i d)
      = Cert.Spec.gcnC (fun p' q => a (ix2 p' q)) (fun p' q => x (ix2 p' q)) (fun p' q => p (ix2 p' q)) (fun p' q => w (ix2 p' q)) i d :=
  ref_gcnC a x p w i d

theorem ref_gcnS_idx (a : FVec Ideal S8192x8192 .f32) (x : FVec Ideal S8192x32 .f32) (w : FVec Ideal S32x32 .f32) (j : S8192x32.Idx) :
    gcnSTerm a x w j
      = Cert.Spec.gcnS (fun p q => a (ix2 p q)) (fun p q => x (ix2 p q)) (fun p q => w (ix2 p q)) ⟨(j 0).val, idx2_lt0 j⟩ ⟨(j 1).val, idx2_lt1 j⟩ :=
  (congrArg (gcnSTerm a x w) (idx_eq_ix2 j)).trans (gcnSTerm_apply a x w _ _)

theorem ref_gcnC_idx (a : FVec Ideal S8192x8192 .f32) (x : FVec Ideal S8192x32 .f32) (p w : FVec Ideal S32x32 .f32) (j : S8192x32.Idx) :
    gcnCTerm a x p w j
      = Cert.Spec.gcnC (fun p' q => a (ix2 p' q)) (fun p' q => x (ix2 p' q)) (fun p' q => p (ix2 p' q)) (fun p' q => w (ix2 p' q)) ⟨(j 0).val, idx2_lt0 j⟩ ⟨(j 1).val, idx2_lt1 j⟩ :=
  (congrArg (gcnCTerm a x p w) (idx_eq_ix2 j)).trans (gcnCTerm_apply a x p w _ _)

theorem ref_gcnS_arr (a : FVec Ideal S8192x8192 .f32) (x : FVec Ideal S8192x32 .f32) (w : FVec Ideal S32x32 .f32) :
    gcnSTerm a x w
      = fun j => Cert.Spec.gcnS (fun p q => a (ix2 p q)) (fun p q => x (ix2 p q)) (fun p q => w (ix2 p q)) ⟨(j 0).val, idx2_lt0 j⟩ ⟨(j 1).val, idx2_lt1 j⟩ :=
  funext (ref_gcnS_idx a x w)

theorem ref_gcnC_arr (a : FVec Ideal S8192x8192 .f32) (x : FVec Ideal S8192x32 .f32) (p w : FVec Ideal S32x32 .f32) :
    gcnCTerm a x p w
      = fun j => Cert.Spec.gcnC (fun p' q => a (ix2 p' q)) (fun p' q => x (ix2 p' q)) (fun p' q => p (ix2 p' q)) (fun p' q => w (ix2 p' q)) ⟨(j 0).val, idx2_lt0 j⟩ ⟨(j 1).val, idx2_lt1 j⟩ :=
  funext (ref_gcnC_idx a x p w)

end Cert.ReferenceIdeal.RefValue

end
-- ==== Proof.RefTail.lean ====
/-
  The reference's results with their pieces named.

  Every result of the reference is a function of two graph-convolution terms c1, c2 and of three more arguments:
  each term is joined to the table xc along the feature axis, projected by wl, clamped at zero and contracted with
  av to one logit per row; the two logits per row are turned into two weights by the usual shifted exponential
  normalisation (subtract the row's maximum, exponentiate, divide by the row's sum); the results are the two weighted
  terms and their sum.  The definitions below are the printed terms, cut at those pieces.
-/
import proofs.«108817_j44229573214371_2_alg».proof.Proof.Gen.ReferenceIdeal.Run
import proofs.«108817_j44229573214371_2_alg».proof.Proof.RefGcn

noncomputable section

namespace Cert.ReferenceIdeal.RefValue

open Cert.ReferenceIdeal Cert.ReferenceIdeal.Gen Idealize.ShloMosaic Idealize.ShloMosaic.TcCoe Idealize.SL.Sem Idealize.ShloMosaic.StableHlo

/-- One logit per row of a term: join with the table, project, clamp at zero, contract with the attention vector. -/
def logit (cc xc : FVec Ideal S8192x32 .f32) (wl : FVec Ideal S64x32 .f32) (av : FVec Ideal S32x1 .f32) : FVec Ideal S8192x1 .f32 :=
  Host.dotGeneral dot_S8192x32_S32x1_S8192x1_1_0_0_1_n_n none (maximumf (Host.dotGeneral dot_S8192x64_S64x32_S8192x32_1_0_0_1_n_n none (concatenate S8192x64 1 [⟨S8192x32, cc⟩, ⟨S8192x32, xc⟩] concatenates_S8192x32_S8192x32_S8192x64_d1) wl) (broadcastInDim S8192x32 ![] bcast_S_S8192x32 (constant S_ .f32 0x00000000#32))) av

/-- The two logits of each row, side by side. -/
def logits (c1 c2 xc : FVec Ideal S8192x32 .f32) (wl : FVec Ideal S64x32 .f32) (av : FVec Ideal S32x1 .f32) : FVec Ideal S8192x2 .f32 :=
  concatenate S8192x2 1 [⟨S8192x1, (logit c1 xc wl av)⟩, ⟨S8192x1, (logit c2 xc wl av)⟩] concatenates_S8192x1_S8192x1_S8192x2_d1

/-- Each row's larger logit, repeated along the row. -/
def rowMax (z : FVec Ideal S8192x2 .f32) : FVec Ideal S8192x2 .f32 :=
  broadcastInDim S8192x2 ![0, 1] bcast_S8192x1_S8192x2_0_1 (broadcastInDim S8192x1 ![0] bcast_S8192_S8192x1_0 (maximumf (broadcastInDim S8192 ![] bcast_S_S8192 (constant S_ .f32 0xFF800000#32)) (Host.reduce FloatOps.maximumf z (constant S_ .f32 0xFF800000#32) reducesTo_S8192x2_S8192_d1 h_S_)))

/-- The exponentials of the logits shifted by the row's maximum. -/
def shiftedExp (z : FVec Ideal S8192x2 .f32) : FVec Ideal S8192x2 .f32 :=
  Host.exp (subf z (rowMax z))

/-- The two weights of each row: the shifted exponentials divided by their sum over the row. -/
def weights (z : FVec Ideal S8192x2 .f32) : FVec Ideal S8192x2 .f32 :=
  Host.divf (shiftedExp z) (broadcastInDim S8192x2 ![0, 1] bcast_S8192x1_S8192x2_0_1 (broadcastInDim S8192x1 ![0] bcast_S8192_S8192x1_0 (Host.reduceAdd (shiftedExp z) (constant S_ .f32 0x00000000#32) reducesTo_S8192x2_S8192_d1 h_S_)))

/-- The first term weighted by the first weight of its row. -/
def tailYc (c1 c2 xc : FVec Ideal S8192x32 .f32) (wl : FVec Ideal S64x32 .f32) (av : FVec Ideal S32x1 .f32) : FVec Ideal S8192x32 .f32 :=
  mulf (broadcastInDim S8192x32 ![0, 1] bcast_S8192x1_S8192x32_0_1 (extractStridedSlice S8192x1 ![0, 0] (weights (logits c1 c2 xc wl av)) slices_S8192x2_S8192x1_0_0)) c1

/-- The second term weighted by the second weight of its row. -/
def tailYu (c1 c2 xc : FVec Ideal S8192x32 .f32) (wl : FVec Ideal S64x32 .f32) (av : FVec Ideal S32x1 .f32) : FVec Ideal S8192x32 .f32 :=
  mulf (broadcastInDim S8192x32 ![0, 1] bcast_S8192x1_S8192x32_0_1 (extractStridedSlice S8192x1 ![0, 1] (weights (logits c1 c2 xc wl av)) slices_S8192x2_S8192x1_0_1)) c2

/-- The sum of the two weighted terms. -/
def tailOut (c1 c2 xc : FVec Ideal S8192x32 .f32) (wl : FVec Ideal S64x32 .f32) (av : FVec Ideal S32x1 .f32) : FVec Ideal S8192x32 .f32 :=
  addf (tailYc c1 c2 xc wl av) (tailYu c1 c2 xc wl av)

/-! ## The printed results are these functions of the two named terms -/

set_option maxRecDepth 8192 in
theorem res_out0_eq (m : (ℓ : Loc nD τ sig) → Buf (Elt Ideal) ℓ) (c : Dev nD) :
    mulf (broadcastInDim S8192x32 ![0, 1] bcast_S8192x1_S8192x32_0_1 (broadcastInDim S8192x1 ![0] bcast_S8192_S8192x1_0 (Host.rsqrt (addf (broadcastInDim S8192 ![] bcast_S_S8192 (constant S_ .f32 0x3F800000#32)) (Host.reduceAdd (m ((c.tc : Thread nD τ).loc main_arg2)) (constant S_ .f32 0x00000000#32) reducesTo_S8192x8192_S8192_d1 h_S_))))) (Host.dotGeneral (φ₁ := .f32) (φ₂ := .f32) dot_S8192x8192_S8192x32_S8192x32_1_0_0_1_n_n none (m ((c.tc : Thread nD τ).loc main_arg2)) (mulf (broadcastInDim S8192x32 ![0, 1] bcast_S8192x1_S8192x32_0_1 (broadcastInDim S8192x1 ![0] bcast_S8192_S8192x1_0 (Host.rsqrt (addf (broadcastInDim S8192 ![] bcast_S_S8192 (constant S_ .f32 0x3F800000#32)) (Host.reduceAdd (m ((c.tc : Thread nD τ).loc main_arg2)) (constant S_ .f32 0x00000000#32) reducesTo_S8192x8192_S8192_d1 h_S_))))) (Host.dotGeneral (φ₁ := .f32) (φ₂ := .f32) dot_S8192x32_S32x32_S8192x32_1_0_0_1_n_n none (m ((c.tc : Thread nD τ).loc main_arg0)) (m ((c.tc : Thread nD τ).loc main_arg5)))))
      = gcnSTerm (m ((c.tc : Thread nD τ).loc main_arg2)) (m ((c.tc : Thread nD τ).loc main_arg0)) (m ((c.tc : Thread nD τ).loc main_arg5)) := by
  unfold gcnSTerm
  rfl

set_option maxRecDepth 8192 in
theorem res_out1_eq (m : (ℓ : Loc nD τ sig) → Buf (Elt Ideal) ℓ) (c : Dev nD) :
    Cert.ReferenceIdeal.Value.res_main_v63 m c
      = tailOut (gcnSTerm (m ((c.tc : Thread nD τ).loc main_arg4)) (m ((c.tc : Thread nD τ).loc main_arg1)) (m ((c.tc : Thread nD τ).loc main_arg5))) (gcnCTerm (m ((c.tc : Thread nD τ).loc main_arg3)) (m ((c.tc : Thread nD τ).loc main_arg0)) (m ((c.tc : Thread nD τ).loc main_arg6)) (m ((c.tc : Thread nD τ).loc main_arg8))) (m ((c.tc : Thread nD τ).loc main_arg1)) (m ((c.tc : Thread nD τ).loc main_arg9)) (m ((c.tc : Thread nD τ).loc main_arg10)) := by
  unfold Cert.ReferenceIdeal.Value.res_main_v63 tailOut tailYc tailYu weights shiftedExp rowMax logits logit gcnSTerm gcnCTerm
  rfl

set_option maxRecDepth 8192 in
theorem res_out2_eq (m : (ℓ : Loc nD τ sig) → Buf (Elt Ideal) ℓ) (c : Dev nD) :
    Cert.ReferenceIdeal.Value.res_main_v59 m c
      = tailYc (gcnSTerm (m ((c.tc : Thread nD τ).loc main_arg4)) (m ((c.tc : Thread nD τ).loc main_arg1)) (m ((c.tc : Thread nD τ).loc main_arg5))) (gcnCTerm (m ((c.tc : Thread nD τ).loc main_arg3)) (m ((c.tc : Thread nD τ).loc main_arg0)) (m ((c.tc : Thread nD τ).loc main_arg6)) (m ((c.tc : Thread nD τ).loc main_arg8))) (m ((c.tc : Thread nD τ).loc main_arg1)) (m ((c.tc : Thread nD τ).loc main_arg9)) (m ((c.tc : Thread nD τ).loc main_arg10)) := by
  unfold Cert.ReferenceIdeal.Value.res_main_v59 tailYc weights shiftedExp rowMax logits logit gcnSTerm gcnCTerm
  rfl

set_option maxRecDepth 8192 in
theorem res_out3_eq (m : (ℓ : Loc nD τ sig) → Buf (Elt Ideal) ℓ) (c : Dev nD) :
    Cert.ReferenceIdeal.Value.res_main_v62 m c
      = tailYu (gcnSTerm (m ((c.tc : Thread nD τ).loc main_arg4)) (m ((c.tc : Thread nD τ).loc main_arg1)) (m ((c.tc : Thread nD τ).loc main_arg5))) (gcnCTerm (m ((c.tc : Thread nD τ).loc main_arg3)) (m ((c.tc : Thread nD τ).loc main_arg0)) (m ((c.tc : Thread nD τ).loc main_arg6)) (m ((c.tc : Thread nD τ).loc main_arg8))) (m ((c.tc : Thread nD τ).loc main_arg1)) (m ((c.tc : Thread nD τ).loc main_arg9)) (m ((c.tc : Thread nD τ).loc main_arg10)) := by
  unfold Cert.ReferenceIdeal.Value.res_main_v62 tailYu weights shiftedExp rowMax logits logit gcnSTerm gcnCTerm
  rfl

/-! ## The run, with the results named -/

set_option maxRecDepth 8192 in
/-- The reference's run at the ideal values with every result written through the named pieces: the first result is
    the first graph-convolution term of (arg2, arg0, arg5); the other three are the tail functions of the two terms of
    (arg4, arg1, arg5) and (arg3, arg0, arg6, arg8) and of arg1, arg9, arg10; the arguments end unchanged. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v11) = gcnSTerm (m ((c.tc : Thread nD τ).loc main_arg2)) (m ((c.tc : Thread nD τ).loc main_arg0)) (m ((c.tc : Thread nD τ).loc main_arg5))
      ∧ r.2.mem ((c.tc : Thread nD τ).loc main_v63) = tailOut (gcnSTerm (m ((c.tc : Thread nD τ).loc main_arg4)) (m ((c.tc : Thread nD τ).loc main_arg1)) (m ((c.tc : Thread nD τ).loc main_arg5))) (gcnCTerm (m ((c.tc : Thread nD τ).loc main_arg3)) (m ((c.tc : Thread nD τ).loc main_arg0)) (m ((c.tc : Thread nD τ).loc main_arg6)) (m ((c.tc : Thread nD τ).loc main_arg8))) (m ((c.tc : Thread nD τ).loc main_arg1)) (m ((c.tc : Thread nD τ).loc main_arg9)) (m ((c.tc : Thread nD τ).loc main_arg10))
      ∧ r.2.mem ((c.tc : Thread nD τ).loc main_v59) = tailYc (gcnSTerm (m ((c.tc : Thread nD τ).loc main_arg4)) (m ((c.tc : Thread nD τ).loc main_arg1)) (m ((c.tc : Thread nD τ).loc main_arg5))) (gcnCTerm (m ((c.tc : Thread nD τ).loc main_arg3)) (m ((c.tc : Thread nD τ).loc main_arg0)) (m ((c.tc : Thread nD τ).loc main_arg6)) (m ((c.tc : Thread nD τ).loc main_arg8))) (m ((c.tc : Thread nD τ).loc main_arg1)) (m ((c.tc : Thread nD τ).loc main_arg9)) (m ((c.tc : Thread nD τ).loc main_arg10))
      ∧ r.2.mem ((c.tc : Thread nD τ).loc main_v62) = tailYu (gcnSTerm (m ((c.tc : Thread nD τ).loc main_arg4)) (m ((c.tc : Thread nD τ).loc main_arg1)) (m ((c.tc : Thread nD τ).loc main_arg5))) (gcnCTerm (m ((c.tc : Thread nD τ).loc main_arg3)) (m ((c.tc : Thread nD τ).loc main_arg0)) (m ((c.tc : Thread nD τ).loc main_arg6)) (m ((c.tc : Thread nD τ).loc main_arg8))) (m ((c.tc : Thread nD τ).loc main_arg1)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => by
      obtain ⟨h0, h1, h2, h3, rest⟩ := h c
      rw [res_out0_eq] at h0
      rw [res_out1_eq] at h1
      rw [res_out2_eq] at h2
      rw [res_out3_eq] at h3
      exact ⟨h0, h1, h2, h3, rest⟩)
    (Cert.ReferenceIdeal.Value.run (F := Ideal) m ρ)

end Cert.ReferenceIdeal.RefValue

end
-- ==== Proof.TailBridge.lean ====
/-
  The attention head of the kernel's program is the reference's.

  Both programs print the same chain of host operations for the head: each of two tables is joined with the
  features, projected, clamped at zero and contracted with the attention vector to a column of logits; the two
  columns are joined, the row maximum is subtracted, exponentials are taken and divided by their row sum; each
  table is scaled by its column of weights, and the two scaled tables are added.  The two programs name their
  shapes and their dimension records separately, but the shapes are the same literals and the records the same
  lists, so the two chains are the same term: each equation below holds by unfolding the definitions.
-/
import proofs.«108817_j44229573214371_2_alg».proof.Proof.KI.TailValue
import proofs.«108817_j44229573214371_2_alg».proof.Proof.RefTail

noncomputable section

namespace Cert.Proof.TailBridge

open Idealize.ShloMosaic

/-- One column of logits. -/
theorem logit_eq (c xc : FVec Ideal Cert.KernelIdeal.S8192x32 .f32) (wl : FVec Ideal Cert.KernelIdeal.S64x32 .f32) (av : FVec Ideal Cert.KernelIdeal.S32x1 .f32) :
    Cert.KernelIdeal.HostTail.logit c xc wl av = Cert.ReferenceIdeal.RefValue.logit c xc wl av := by
  unfold Cert.KernelIdeal.HostTail.logit Cert.ReferenceIdeal.RefValue.logit
  rfl

/-- The first table scaled by its weights. -/
theorem yc_eq (c1 c2 xc : FVec Ideal Cert.KernelIdeal.S8192x32 .f32) (wl : FVec Ideal Cert.KernelIdeal.S64x32 .f32) (av : FVec Ideal Cert.KernelIdeal.S32x1 .f32) :
    Cert.KernelIdeal.HostTail.scaledFirst c1 (Cert.KernelIdeal.HostTail.logit c1 xc wl av) (Cert.KernelIdeal.HostTail.logit c2 xc wl av) = Cert.ReferenceIdeal.RefValue.tailYc c1 c2 xc wl av := by
  unfold Cert.KernelIdeal.HostTail.scaledFirst Cert.KernelIdeal.HostTail.weights Cert.KernelIdeal.HostTail.logit Cert.ReferenceIdeal.RefValue.tailYc Cert.ReferenceIdeal.RefValue.weights Cert.ReferenceIdeal.RefValue.shiftedExp Cert.ReferenceIdeal.RefValue.rowMax Cert.ReferenceIdeal.RefValue.logits Cert.ReferenceIdeal.RefValue.logit
  rfl

/-- The second table scaled by its weights. -/
theorem yu_eq (c1 c2 xc : FVec Ideal Cert.KernelIdeal.S8192x32 .f32) (wl : FVec Ideal Cert.KernelIdeal.S64x32 .f32) (av : FVec Ideal Cert.KernelIdeal.S32x1 .f32) :
    Cert.KernelIdeal.HostTail.scaledSecond c2 (Cert.KernelIdeal.HostTail.logit c1 xc wl av) (Cert.KernelIdeal.HostTail.logit c2 xc wl av) = Cert.ReferenceIdeal.RefValue.tailYu c1 c2 xc wl av := by
  unfold Cert.KernelIdeal.HostTail.scaledSecond Cert.KernelIdeal.HostTail.weights Cert.KernelIdeal.HostTail.logit Cert.ReferenceIdeal.RefValue.tailYu Cert.ReferenceIdeal.RefValue.weights Cert.ReferenceIdeal.RefValue.shiftedExp Cert.ReferenceIdeal.RefValue.rowMax Cert.ReferenceIdeal.RefValue.logits Cert.ReferenceIdeal.RefValue.logit
  rfl

/-- The sum of the two scaled tables. -/
theorem out_eq (c1 c2 xc : FVec Ideal Cert.KernelIdeal.S8192x32 .f32) (wl : FVec Ideal Cert.KernelIdeal.S64x32 .f32) (av : FVec Ideal Cert.KernelIdeal.S32x1 .f32) :
    addf (Cert.KernelIdeal.HostTail.scaledFirst c1 (Cert.KernelIdeal.HostTail.logit c1 xc wl av) (Cert.KernelIdeal.HostTail.logit c2 xc wl av)) (Cert.KernelIdeal.HostTail.scaledSecond c2 (Cert.KernelIdeal.HostTail.logit c1 xc wl av) (Cert.KernelIdeal.HostTail.logit c2 xc wl av))
      = Cert.ReferenceIdeal.RefValue.tailOut c1 c2 xc wl av := by
  rw [yc_eq, yu_eq]
  rfl

end Cert.Proof.TailBridge

end
-- ==== Proof.Algebraic.lean ====
/-
  The kernel's program and the reference compute the same four arrays.
  The first result is the graph convolution of the first adjacency matrix; the kernel holds it as the scaled
  product its second region leaves, the reference as its composed host term; both are the specification's
  formula entry by entry. The other three results are one attention head applied to the second and third graph
  convolutions, the same head in both programs, so they agree as soon as the two tables do.
-/
import proofs.«108817_j44229573214371_2_alg».proof.Defs
import proofs.«108817_j44229573214371_2_alg».proof.Proof.KI.KernelValue
import proofs.«108817_j44229573214371_2_alg».proof.Proof.KI.TailValue
import proofs.«108817_j44229573214371_2_alg».proof.Proof.RefGcn
import proofs.«108817_j44229573214371_2_alg».proof.Proof.RefTail
import proofs.«108817_j44229573214371_2_alg».proof.Proof.TailBridge
import proofs.«108817_j44229573214371_2_alg».proof.Proof.Gen.KernelIdeal
import proofs.«108817_j44229573214371_2_alg».proof.Proof.Gen.ReferenceIdeal
import proofs.«108817_j44229573214371_2_alg».proof.Proof.Gen.Pre_finite_inputs

noncomputable section

namespace Cert.Proof.Alg

open Cert.KernelIdeal Cert.KernelIdeal.Gen Cert.KernelIdeal.Hand
open Idealize.ShloMosaic Idealize.ShloMosaic.TcCoe Idealize.SL.Sem Idealize.ShloMosaic.ValueIdx

variable (m : (ℓ : Loc nD τ sig) → Buf (Elt Ideal) ℓ) (c : Dev nD)

/-! ## The three tables as the reference's named terms -/

theorem table1 : Cert.KernelIdeal.HostTail.asV S8192x32 (U3 m c main_v7) = Cert.ReferenceIdeal.RefValue.gcnSTerm (U0 m c main_arg2) (U0 m c main_arg0) (U0 m c main_arg5) := by
  funext j
  obtain ⟨i, d, rfl⟩ : ∃ (i : Fin 8192) (d : Fin 32), j = ix2 i d := ⟨_, _, Cert.ReferenceIdeal.RefValue.idx_eq_ix2 j⟩
  exact (v7_at m c i d).trans (Cert.ReferenceIdeal.RefValue.gcnSTerm_apply _ _ _ i d).symm

theorem table2 : Cert.KernelIdeal.HostTail.asV S8192x32 (U6 m c main_v15) = Cert.ReferenceIdeal.RefValue.gcnSTerm (U0 m c main_arg4) (U0 m c main_arg1) (U0 m c main_arg5) := by
  funext j
  obtain ⟨i, d, rfl⟩ : ∃ (i : Fin 8192) (d : Fin 32), j = ix2 i d := ⟨_, _, Cert.ReferenceIdeal.RefValue.idx_eq_ix2 j⟩
  exact (v15_at m c i d).trans (Cert.ReferenceIdeal.RefValue.gcnSTerm_apply _ _ _ i d).symm

theorem table3 : Cert.KernelIdeal.HostTail.asV S8192x32 (U9 m c main_v27) = Cert.ReferenceIdeal.RefValue.gcnCTerm (U0 m c main_arg3) (U0 m c main_arg0) (U0 m c main_arg6) (U0 m c main_arg8) := by
  funext j
  obtain ⟨i, d, rfl⟩ : ∃ (i : Fin 8192) (d : Fin 32), j = ix2 i d := ⟨_, _, Cert.ReferenceIdeal.RefValue.idx_eq_ix2 j⟩
  exact (v27_at m c i d).trans (Cert.ReferenceIdeal.RefValue.gcnCTerm_apply _ _ _ _ i d).symm

/-- The second table is still there when the attention head starts. -/
theorem v15_kept : U9 m c main_v15 = U6 m c main_v15 :=
  (U9_of m c main_v15 (by decide)).trans ((U8_of m c main_v15 (by decide)).trans (U7_of m c main_v15 (by decide)))

/-! ## The kernel's four results -/

theorem kres0 : Gen.V14 m (outs m) c main_v7 = Cert.ReferenceIdeal.RefValue.gcnSTerm (U0 m c main_arg2) (U0 m c main_arg0) (U0 m c main_arg5) := by
  refine (Gen.V14_of m (outs m) c main_v7 (by decide)).trans <| (Gen.V13_of m (outs m) c main_v7 (by decide)).trans <|
    (Gen.V12_of m (outs m) c main_v7 (by decide)).trans <| (Gen.V11_of m (outs m) c main_v7 (by decide)).trans <|
    (Gen.V10_of m (outs m) c main_v7 (by decide)).trans <| (Gen.V9_of m (outs m) c main_v7 (by decide)).trans <|
    (Gen.V8_of m (outs m) c main_v7 (by decide)).trans <| (Gen.V7_of m (outs m) c main_v7 (by decide)).trans <|
    (Gen.V6_of m (outs m) c main_v7 (by decide)).trans <| (Gen.V5_of m (outs m) c main_v7 (by decide)).trans <|
    (Gen.V4_of m (outs m) c main_v7 (by decide)).trans ?_
  rw [V3_eq]
  exact table1 m c

/-- The operands of the attention head when it starts: the two tables and three argument arrays. -/
theorem head_operands :
    Cert.KernelIdeal.HostTail.asV S8192x32 (U9 m c main_v15) = Cert.ReferenceIdeal.RefValue.gcnSTerm (U0 m c main_arg4) (U0 m c main_arg1) (U0 m c main_arg5)
    ∧ Cert.KernelIdeal.HostTail.asV S8192x32 (U9 m c main_arg1) = U0 m c main_arg1 ∧ Cert.KernelIdeal.HostTail.asV S64x32 (U9 m c main_arg9) = U0 m c main_arg9
    ∧ Cert.KernelIdeal.HostTail.asV S32x1 (U9 m c main_arg10) = U0 m c main_arg10 :=
  ⟨(congrArg (Cert.KernelIdeal.HostTail.asV S8192x32) (v15_kept m c)).trans (table2 m c), (keep_arg1 m c).1, (keep_arg9 m c).1, (keep_arg10 m c).1⟩

theorem kres1 : Gen.V14 m (outs m) c main_v54
    = Cert.ReferenceIdeal.RefValue.tailOut (Cert.ReferenceIdeal.RefValue.gcnSTerm (U0 m c main_arg4) (U0 m c main_arg1) (U0 m c main_arg5))
        (Cert.ReferenceIdeal.RefValue.gcnCTerm (U0 m c main_arg3) (U0 m c main_arg0) (U0 m c main_arg6) (U0 m c main_arg8))
        (U0 m c main_arg1) (U0 m c main_arg9) (U0 m c main_arg10) := by
  show StableHlo.after hostOps6_4 (Cert.KernelIdeal.HostTail.after4 (Gen.V9 m (outs m) c)) main_v54 = _
  rw [V9_eq, Cert.KernelIdeal.HostTail.tail_v54, (head_operands m c).1, (head_operands m c).2.1, (head_operands m c).2.2.1, (head_operands m c).2.2.2, table3]
  exact Cert.Proof.TailBridge.out_eq _ _ _ _ _

theorem kres2 : Gen.V14 m (outs m) c main_v50
    = Cert.ReferenceIdeal.RefValue.tailYc (Cert.ReferenceIdeal.RefValue.gcnSTerm (U0 m c main_arg4) (U0 m c main_arg1) (U0 m c main_arg5))
        (Cert.ReferenceIdeal.RefValue.gcnCTerm (U0 m c main_arg3) (U0 m c main_arg0) (U0 m c main_arg6) (U0 m c main_arg8))
        (U0 m c main_arg1) (U0 m c main_arg9) (U0 m c main_arg10) := by
  show StableHlo.after hostOps6_4 (Cert.KernelIdeal.HostTail.after4 (Gen.V9 m (outs m) c)) main_v50 = _
  rw [V9_eq, Cert.KernelIdeal.HostTail.tail_v50, (head_operands m c).1, (head_operands m c).2.1, (head_operands m c).2.2.1, (head_operands m c).2.2.2, table3]
  exact Cert.Proof.TailBridge.yc_eq _ _ _ _ _

theorem kres3 : Gen.V14 m (outs m) c main_v53
    = Cert.ReferenceIdeal.RefValue.tailYu (Cert.ReferenceIdeal.RefValue.gcnSTerm (U0 m c main_arg4) (U0 m c main_arg1) (U0 m c main_arg5))
        (Cert.ReferenceIdeal.RefValue.gcnCTerm (U0 m c main_arg3) (U0 m c main_arg0) (U0 m c main_arg6) (U0 m c main_arg8))
        (U0 m c main_arg1) (U0 m c main_arg9) (U0 m c main_arg10) := by
  show StableHlo.after hostOps6_4 (Cert.KernelIdeal.HostTail.after4 (Gen.V9 m (outs m) c)) main_v53 = _
  rw [V9_eq, Cert.KernelIdeal.HostTail.tail_v53, (head_operands m c).1, (head_operands m c).2.1, (head_operands m c).2.2.1, (head_operands m c).2.2.2, table3]
  exact Cert.Proof.TailBridge.yu_eq _ _ _ _ _

/-! ## The claim -/

/-- From memories agreeing on the arguments both programs run to the end, and their four results are equal arrays:
    the witnesses are the reference's named terms at the kernel's argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.RefValue.gcnSTerm (U0 m c main_arg2) (U0 m c main_arg0) (U0 m c main_arg5),
    fun c => Cert.ReferenceIdeal.RefValue.tailOut (Cert.ReferenceIdeal.RefValue.gcnSTerm (U0 m c main_arg4) (U0 m c main_arg1) (U0 m c main_arg5))
        (Cert.ReferenceIdeal.RefValue.gcnCTerm (U0 m c main_arg3) (U0 m c main_arg0) (U0 m c main_arg6) (U0 m c main_arg8))
        (U0 m c main_arg1) (U0 m c main_arg9) (U0 m c main_arg10),
    fun c => Cert.ReferenceIdeal.RefValue.tailYc (Cert.ReferenceIdeal.RefValue.gcnSTerm (U0 m c main_arg4) (U0 m c main_arg1) (U0 m c main_arg5))
        (Cert.ReferenceIdeal.RefValue.gcnCTerm (U0 m c main_arg3) (U0 m c main_arg0) (U0 m c main_arg6) (U0 m c main_arg8))
        (U0 m c main_arg1) (U0 m c main_arg9) (U0 m c main_arg10),
    fun c => Cert.ReferenceIdeal.RefValue.tailYu (Cert.ReferenceIdeal.RefValue.gcnSTerm (U0 m c main_arg4) (U0 m c main_arg1) (U0 m c main_arg5))
        (Cert.ReferenceIdeal.RefValue.gcnCTerm (U0 m c main_arg3) (U0 m c main_arg0) (U0 m c main_arg6) (U0 m c main_arg8))
        (U0 m c main_arg1) (U0 m c main_arg9) (U0 m c main_arg10), ?_, ?_⟩
  · refine (θ_run Cert.KernelIdeal.defs _ _).mono (fun r h c => ?_) (run_main m ρ)
    exact ⟨(h c _ (mem_uc main_v7 (by decide))).trans (kres0 m c),
      (h c _ (mem_uc main_v54 (by decide))).trans (kres1 m c),
      (h c _ (mem_uc main_v50 (by decide))).trans (kres2 m c),
      (h c _ (mem_uc main_v53 (by decide))).trans (kres3 m c),
      (h c _ (mem_uc main_arg0 (by decide))).trans (Gen.V14_main_arg0 m (outs m) c),
      (h c _ (mem_uc main_arg1 (by decide))).trans (Gen.V14_main_arg1 m (outs m) c),
      (h c _ (mem_uc main_arg2 (by decide))).trans (Gen.V14_main_arg2 m (outs m) c),
      (h c _ (mem_uc main_arg3 (by decide))).trans (Gen.V14_main_arg3 m (outs m) c),
      (h c _ (mem_uc main_arg4 (by decide))).trans (Gen.V14_main_arg4 m (outs m) c),
      (h c _ (mem_uc main_arg5 (by decide))).trans (Gen.V14_main_arg5 m (outs m) c),
      (h c _ (mem_uc main_arg6 (by decide))).trans (Gen.V14_main_arg6 m (outs m) c),
      (h c _ (mem_uc main_arg7 (by decide))).trans (Gen.V14_main_arg7 m (outs m) c),
      (h c _ (mem_uc main_arg8 (by decide))).trans (Gen.V14_main_arg8 m (outs m) c),
      (h c _ (mem_uc main_arg9 (by decide))).trans (Gen.V14_main_arg9 m (outs m) c),
      (h c _ (mem_uc main_arg10 (by decide))).trans (Gen.V14_main_arg10 m (outs m) c)⟩
  · refine (θ_run Cert.ReferenceIdeal.defs _ _).mono (fun r h c => ?_) (Cert.ReferenceIdeal.RefValue.run_named m' ρ')
    obtain ⟨h0, h1, h2, h3, rest⟩ := h c
    obtain ⟨a0, a1, a2, a3, a4, a5, a6, a7, a8, a9, a10⟩ := hagree c
    rw [a2, a0, a5] at h0
    rw [a4, a1, a5, a3, a0, a6, a8, a9, a10] at h1 h2 h3
    exact ⟨h0, h1, h2, h3, rest⟩

end Cert.Proof.Alg

end
-- ==== Proof.lean ====
/-
  The certificate of the heterogeneous graph-attention kernel against its jnp reference.
  The kernel's program runs six kernel regions among host operations: two row-sum reductions and a combined
  row-and-band-column-sum reduction over 8192x8192 adjacency matrices, and three matrix products accumulated
  tile by tile in a scratch buffer and scaled row by row. Each region's proof data names what every output block
  holds after every grid point; the regions are chained with the host stretches into one run of @main, which
  gives the frame of the word-level program and of its idealization and, at the ideal instance, every result
  as a function of the arguments. Over the extended reals a sum taken tile by tile is the whole sum and a
  product commutes, so the three graph-convolution tables are the reference's; the attention head after them
  is the same composition of host operations in both programs.
-/
import proofs.«108817_j44229573214371_2_alg».proof.Defs
import proofs.«108817_j44229573214371_2_alg».proof.Proof.Gen.Kernel
import proofs.«108817_j44229573214371_2_alg».proof.Proof.Gen.KernelIdeal
import proofs.«108817_j44229573214371_2_alg».proof.Proof.Gen.ReferenceIdeal
import proofs.«108817_j44229573214371_2_alg».proof.Proof.Gen.Pre_finite_inputs
import proofs.«108817_j44229573214371_2_alg».proof.Proof.Gen.ReferenceIdeal.Run
import proofs.«108817_j44229573214371_2_alg».proof.Proof.K.Segs
import proofs.«108817_j44229573214371_2_alg».proof.Proof.KI.Segs
import proofs.«108817_j44229573214371_2_alg».proof.Proof.Algebraic
import Idealize.ShloMosaic.Adequacy
import Idealize.ShloMosaic.Init

noncomputable section

namespace Cert.Proof

open Idealize.ShloMosaic Idealize.SL.Sem

/-- The word-level program runs to the end, faults nowhere and leaves its arguments unchanged. -/
theorem frame_k : Cert.frame_Kernel (hKernel := Cert.Kernel.Gen.facts) (hPre_finite_inputs := Cert.Pre_finite_inputs.Gen.facts) :=
  fun m ρ _ => Cert.Kernel.Hand.frame (F := Bits) m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference is host operations only: its run with the results forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2.2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, trivial, Cert.Proof.Alg.algebraic⟩

end Cert.Proof

end
